-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩
abbrev S64x64 : Shape := ⟨2, ![64, 64]⟩
abbrev S64 : Shape := ⟨1, ![64]⟩
abbrev S64x16 : Shape := ⟨2, ![64, 16]⟩
abbrev S16 : Shape := ⟨1, ![16]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  reducesTo_S_S_d : S_.ReducesTo [] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg23 : FVec F S64x16 .f32) (main_arg24 : FVec F S16 .f32) (main_v100 : IVec S_ 1) (main_v101 : FVec F S64 .f32) : IVec S_ 1 :=
  let main_cst_40 : FVec F S_ .f32 := constant S_ .f32 0x7F800000#32
  let main_v102 : FVec F S64 .f32 := broadcastInDim S64 ![] bcast_S_S64 main_cst_40
  let main_v103 : IVec S64 1 := cmpf .olt main_v101 main_v102
  let main_c_41 : IVec S_ 1 := constantI S_ 1 1#1
  let main_v104 : IVec S_ 1 := (fun x v => Host.reduce IntOp.andi x v reducesTo_S64_S_d0 h_S_) main_v103 main_c_41
  let main_v105 : IVec S_ 1 := andi main_v100 main_v104
  let main_v106 : FVec F S64x16 .f32 := Host.absf main_arg23
  let main_cst_42 : FVec F S_ .f32 := constant S_ .f32 0x7F800000#32
  let main_v107 : FVec F S64x16 .f32 := broadcastInDim S64x16 ![] bcast_S_S64x16 main_cst_42
  let main_v108 : IVec S64x16 1 := cmpf .olt main_v106 main_v107
  let main_c_43 : IVec S_ 1 := constantI S_ 1 1#1
  let main_v109 : IVec S_ 1 := (fun x v => Host.reduce IntOp.andi x v reducesTo_S64x16_S_d0_1 h_S_) main_v108 main_c_43
  let main_v110 : IVec S_ 1 := andi main_v105 main_v109
  let main_v111 : FVec F S16 .f32 := Host.absf main_arg24
  let main_cst_44 : FVec F S_ .f32 := constant S_ .f32 0x7F800000#32
  let main_v112 : FVec F S16 .f32 := broadcastInDim S16 ![] bcast_S_S16 main_cst_44
  let main_v113 : IVec S16 1 := cmpf .olt main_v111 main_v112
  let main_c_45 : IVec S_ 1 := constantI S_ 1 1#1
  let main_v114 : IVec S_ 1 := (fun x v => Host.reduce IntOp.andi x v reducesTo_S16_S_d0 h_S_) main_v113 main_c_45
  let main_v115 : IVec S_ 1 := andi main_v110 main_v114
  main_v115

def fn_part5 {F : FTy → Type} [FloatOps F] (main_arg19 : FVec F S64x64 .f32) (main_arg20 : FVec F S64 .f32) (main_arg21 : FVec F S64 .f32) (main_arg22 : FVec F S64 .f32) (main_arg23 : FVec F S64x16 .f32) (main_arg24 : FVec F S16 .f32) (main_v80 : IVec S_ 1) (main_v83 : IVec S64 1) (main_c_33 : IVec S_ 1) : IVec S_ 1 :=
  let main_v84 : IVec S_ 1 := (fun x v => Host.reduce IntOp.andi x v reducesTo_S64_S_d0 h_S_) main_v83 main_c_33
  let main_v85 : IVec S_ 1 := andi main_v80 main_v84
  let main_v86 : FVec F S64x64 .f32 := Host.absf main_arg19
  let main_cst_34 : FVec F S_ .f32 := constant S_ .f32 0x7F800000#32
  let main_v87 : FVec F S64x64 .f32 := broadcastInDim S64x64 ![] bcast_S_S64x64 main_cst_34
  let main_v88 : IVec S64x64 1 := cmpf .olt main_v86 main_v87
  let main_c_35 : IVec S_ 1 := constantI S_ 1 1#1
  let main_v89 : IVec S_ 1 := (fun x v => Host.reduce IntOp.andi x v reducesTo_S64x64_S_d0_1 h_S_) main_v88 main_c_35
  let main_v90 : IVec S_ 1 := andi main_v85 main_v89
  let main_v91 : FVec F S64 .f32 := Host.absf main_arg20
  let main_cst_36 : FVec F S_ .f32 := constant S_ .f32 0x7F800000#32
  let main_v92 : FVec F S64 .f32 := broadcastInDim S64 ![] bcast_S_S64 main_cst_36
  let main_v93 : IVec S64 1 := cmpf .olt main_v91 main_v92
  let main_c_37 : IVec S_ 1 := constantI S_ 1 1#1
  let main_v94 : IVec S_ 1 := (fun x v => Host.reduce IntOp.andi x v reducesTo_S64_S_d0 h_S_) main_v93 main_c_37
  let main_v95 : IVec S_ 1 := andi main_v90 main_v94
  let main_v96 : FVec F S64 .f32 := Host.absf main_arg21
  let main_cst_38 : FVec F S_ .f32 := constant S_ .f32 0x7F800000#32
  let main_v97 : FVec F S64 .f32 := broadcastInDim S64 ![] bcast_S_S64 main_cst_38
  let main_v98 : IVec S64 1 := cmpf .olt main_v96 main_v97
  let main_c_39 : IVec S_ 1 := constantI S_ 1 1#1
  let main_v99 : IVec S_ 1 := (fun x v => Host.reduce IntOp.andi x v reducesTo_S64_S_d0 h_S_) main_v98 main_c_39
  let main_v100 : IVec S_ 1 := andi main_v95 main_v99
  let main_v101 : FVec F S64 .f32 := Host.absf main_arg22
  fn_part6 (F := F) main_arg23 main_arg24 main_v100 main_v101

def fn_part4 {F : FTy → Type} [FloatOps F] (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x16 .f32) (main_arg24 : FVec F S16 .f32) (main_v66 : IVec S_ 1) (main_v67 : FVec F S64 .f32) : IVec S_ 1 :=
  let main_cst_26 : FVec F S_ .f32 := constant S_ .f32 0x7F800000#32
  let main_v68 : FVec F S64 .f32 := broadcastInDim S64 ![] bcast_S_S64 main_cst_26
  let main_v69 : IVec S64 1 := cmpf .olt main_v67 main_v68
  let main_c_27 : IVec S_ 1 := constantI S_ 1 1#1
  let main_v70 : IVec S_ 1 := (fun x v => Host.reduce IntOp.andi x v reducesTo_S64_S_d0 h_S_) main_v69 main_c_27
  let main_v71 : IVec S_ 1 := andi main_v66 main_v70
  let main_v72 : FVec F S_ .f32 := Host.absf main_arg16
  let main_cst_28 : FVec F S_ .f32 := constant S_ .f32 0x7F800000#32
  let main_v73 : IVec S_ 1 := cmpf .olt main_v72 main_cst_28
  let main_c_29 : IVec S_ 1 := constantI S_ 1 1#1
  let main_v74 : IVec S_ 1 := (fun x v => Host.reduce IntOp.andi x v reducesTo_S_S_d h_S_) main_v73 main_c_29
  let main_v75 : IVec S_ 1 := andi main_v71 main_v74
  let main_v76 : FVec F S64x64 .f32 := Host.absf main_arg17
  let main_cst_30 : FVec F S_ .f32 := constant S_ .f32 0x7F800000#32
  let main_v77 : FVec F S64x64 .f32 := broadcastInDim S64x64 ![] bcast_S_S64x64 main_cst_30
  let main_v78 : IVec S64x64 1 := cmpf .olt main_v76 main_v77
  let main_c_31 : IVec S_ 1 := constantI S_ 1 1#1
  let main_v79 : IVec S_ 1 := (fun x v => Host.reduce IntOp.andi x v reducesTo_S64x64_S_d0_1 h_S_) main_v78 main_c_31
  let main_v80 : IVec S_ 1 := andi main_v75 main_v79
  let main_v81 : FVec F S64 .f32 := Host.absf main_arg18
  let main_cst_32 : FVec F S_ .f32 := constant S_ .f32 0x7F800000#32
  let main_v82 : FVec F S64 .f32 := broadcastInDim S64 ![] bcast_S_S64 main_cst_32
  let main_v83 : IVec S64 1 := cmpf .olt main_v81 main_v82
  let main_c_33 : IVec S_ 1 := constantI S_ 1 1#1
  fn_part5 (F := F) main_arg19 main_arg20 main_arg21 main_arg22 main_arg23 main_arg24 main_v80 main_v83 main_c_33

def fn_part3 {F : FTy → Type} [FloatOps F] (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x16 .f32) (main_arg24 : FVec F S16 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S64x64 .f32 := Host.absf main_arg12
  let main_cst_20 : FVec F S_ .f32 := constant S_ .f32 0x7F800000#32
  let main_v53 : FVec F S64x64 .f32 := broadcastInDim S64x64 ![] bcast_S_S64x64 main_cst_20
  let main_v54 : IVec S64x64 1 := cmpf .olt main_v52 main_v53
  let main_c_21 : IVec S_ 1 := constantI S_ 1 1#1
  let main_v55 : IVec S_ 1 := (fun x v => Host.reduce IntOp.andi x v reducesTo_S64x64_S_d0_1 h_S_) main_v54 main_c_21
  let main_v56 : IVec S_ 1 := andi main_v51 main_v55
  let main_v57 : FVec F S64 .f32 := Host.absf main_arg13
  let main_cst_22 : FVec F S_ .f32 := constant S_ .f32 0x7F800000#32
  let main_v58 : FVec F S64 .f32 := broadcastInDim S64 ![] bcast_S_S64 main_cst_22
  let main_v59 : IVec S64 1 := cmpf .olt main_v57 main_v58
  let main_c_23 : IVec S_ 1 := constantI S_ 1 1#1
  let main_v60 : IVec S_ 1 := (fun x v => Host.reduce IntOp.andi x v reducesTo_S64_S_d0 h_S_) main_v59 main_c_23
  let main_v61 : IVec S_ 1 := andi main_v56 main_v60
  let main_v62 : FVec F S64 .f32 := Host.absf main_arg14
  let main_cst_24 : FVec F S_ .f32 := constant S_ .f32 0x7F800000#32
  let main_v63 : FVec F S64 .f32 := broadcastInDim S64 ![] bcast_S_S64 main_cst_24
  let main_v64 : IVec S64 1 := cmpf .olt main_v62 main_v63
  let main_c_25 : IVec S_ 1 := constantI S_ 1 1#1
  let main_v65 : IVec S_ 1 := (fun x v => Host.reduce IntOp.andi x v reducesTo_S64_S_d0 h_S_) main_v64 main_c_25
  let main_v66 : IVec S_ 1 := andi main_v61 main_v65
  let main_v67 : FVec F S64 .f32 := Host.absf main_arg15
  fn_part4 (F := F) main_arg16 main_arg17 main_arg18 main_arg19 main_arg20 main_arg21 main_arg22 main_arg23 main_arg24 main_v66 main_v67

def fn_part2 {F : FTy → Type} [FloatOps F] (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x16 .f32) (main_arg24 : FVec F S16 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S_ .f32 := Host.absf main_arg9
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S64x64 .f32 := Host.absf main_arg10
  let main_cst_16 : FVec F S_ .f32 := constant S_ .f32 0x7F800000#32
  let main_v43 : FVec F S64x64 .f32 := broadcastInDim S64x64 ![] bcast_S_S64x64 main_cst_16
  let main_v44 : IVec S64x64 1 := cmpf .olt main_v42 main_v43
  let main_c_17 : IVec S_ 1 := constantI S_ 1 1#1
  let main_v45 : IVec S_ 1 := (fun x v => Host.reduce IntOp.andi x v reducesTo_S64x64_S_d0_1 h_S_) main_v44 main_c_17
  let main_v46 : IVec S_ 1 := andi main_v41 main_v45
  let main_v47 : FVec F S64 .f32 := Host.absf main_arg11
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg12 main_arg13 main_arg14 main_arg15 main_arg16 main_arg17 main_arg18 main_arg19 main_arg20 main_arg21 main_arg22 main_arg23 main_arg24 main_v46 main_v49 main_c_19

def fn_part1 {F : FTy → Type} [FloatOps F] (main_arg5 : FVec F S64x64 .f32) (main_arg6 : FVec F S64 .f32) (main_arg7 : FVec F S64 .f32) (main_arg8 : FVec F S64 .f32) (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x16 .f32) (main_arg24 : FVec F S16 .f32) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64x64 .f32 := Host.absf main_arg5
  let main_cst_6 : FVec F S_ .f32 := constant S_ .f32 0x7F800000#32
  let main_v19 : FVec F S64x64 .f32 := broadcastInDim S64x64 ![] bcast_S_S64x64 main_cst_6
  let main_v20 : IVec S64x64 1 := cmpf .olt main_v18 main_v19
  let main_c_7 : IVec S_ 1 := constantI S_ 1 1#1
  let main_v21 : IVec S_ 1 := (fun x v => Host.reduce IntOp.andi x v reducesTo_S64x64_S_d0_1 h_S_) main_v20 main_c_7
  let main_v22 : IVec S_ 1 := andi main_v17 main_v21
  let main_v23 : FVec F S64 .f32 := Host.absf main_arg6
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S64 .f32 := Host.absf main_arg7
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg8
  fn_part2 (F := F) main_arg9 main_arg10 main_arg11 main_arg12 main_arg13 main_arg14 main_arg15 main_arg16 main_arg17 main_arg18 main_arg19 main_arg20 main_arg21 main_arg22 main_arg23 main_arg24 main_v32 main_v33

def fn {F : FTy → Type} [FloatOps F] (main_arg0 : FVec F S100000x64 .f32) (main_arg1 : IVec S2x1600000 32) (main_arg2 : FVec F S_ .f32) (main_arg3 : FVec F S64x64 .f32) (main_arg4 : FVec F S64 .f32) (main_arg5 : FVec F S64x64 .f32) (main_arg6 : FVec F S64 .f32) (main_arg7 : FVec F S64 .f32) (main_arg8 : FVec F S64 .f32) (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x16 .f32) (main_arg24 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S64x64 .f32 := Host.absf main_arg3
  let main_cst_2 : FVec F S_ .f32 := constant S_ .f32 0x7F800000#32
  let main_v9 : FVec F S64x64 .f32 := broadcastInDim S64x64 ![] bcast_S_S64x64 main_cst_2
  let main_v10 : IVec S64x64 1 := cmpf .olt main_v8 main_v9
  let main_c_3 : IVec S_ 1 := constantI S_ 1 1#1
  let main_v11 : IVec S_ 1 := (fun x v => Host.reduce IntOp.andi x v reducesTo_S64x64_S_d0_1 h_S_) main_v10 main_c_3
  let main_v12 : IVec S_ 1 := andi main_v7 main_v11
  let main_v13 : FVec F S64 .f32 := Host.absf main_arg4
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v12 main_v15 main_c_5
-- ==== Kernel.lean ====
abbrev S100000x64 : Shape := ⟨2, ![100000, 64]⟩
abbrev S2x1600000 : Shape := ⟨2, ![2, 1600000]⟩
abbrev S_ : Shape := ⟨0, ![]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 157
  | .vmem => 60
  | .smem => 0
  | _ => 0

abbrev hbmTy0_0 (i : Nat) : BufTy := match i % 128 with
  | 0 => ⟨S100000x64, .f32⟩
  | 1 => ⟨S2x1600000, .i32⟩
  | 2 => ⟨S_, .f32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S_, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64x16, .f32⟩
  | 24 => ⟨S16, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S_, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S1x64, .f32⟩
  | 49 => ⟨S100000x64, .f32⟩
  | 50 => ⟨S1x64, .f32⟩
  | 51 => ⟨S1x64, .f32⟩
  | 52 => ⟨S64, .f32⟩
  | 53 => ⟨S_, .f32⟩
  | 54 => ⟨S64, .f32⟩
  | 55 => ⟨S64, .f32⟩
  | 56 => ⟨S64, .f32⟩
  | 57 => ⟨S_, .f32⟩
  | 58 => ⟨S64, .f32⟩
  | 59 => ⟨S64, .f32⟩
  | 60 => ⟨S64, .f32⟩
  | 61 => ⟨S64, .f32⟩
  | 62 => ⟨S_, .f32⟩
  | 63 => ⟨S64, .f32⟩
  | 64 => ⟨S64, .f32⟩
  | 65 => ⟨S64, .f32⟩
  | 66 => ⟨S1x64, .f32⟩
  | 67 => ⟨S1x64, .f32⟩
  | 68 => ⟨S1x64, .f32⟩
  | 69 => ⟨S1x64, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S_, .f32⟩
  | 85 => ⟨S_, .f32⟩
  | 86 => ⟨S100000x64, .f32⟩
  | 87 => ⟨S100000x64, .f32⟩
  | 88 => ⟨S100000x64, .f32⟩
  | 89 => ⟨S1x64, .f32⟩
  | 90 => ⟨S1x64, .f32⟩
  | 91 => ⟨S100000x64, .f32⟩
  | 92 => ⟨S1x64, .f32⟩
  | 93 => ⟨S1x64, .f32⟩
  | 94 => ⟨S64, .f32⟩
  | 95 => ⟨S_, .f32⟩
  | 96 => ⟨S64, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S64, .f32⟩
  | 104 => ⟨S_, .f32⟩
  | 105 => ⟨S64, .f32⟩
  | 106 => ⟨S64, .f32⟩
  | 107 => ⟨S64, .f32⟩
  | 108 => ⟨S1x64, .f32⟩
  | 109 => ⟨S1x64, .f32⟩
  | 110 => ⟨S1x64, .f32⟩
  | 111 => ⟨S1x64, .f32⟩
  | 112 => ⟨S100000x64, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S_, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S1x64, .f32⟩
  | 5 => ⟨S100000x64, .f32⟩
  | 6 => ⟨S1x64, .f32⟩
  | 7 => ⟨S1x64, .f32⟩
  | 8 => ⟨S64, .f32⟩
  | 9 => ⟨S_, .f32⟩
  | 10 => ⟨S64, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S64, .f32⟩
  | 22 => ⟨S1x64, .f32⟩
  | 23 => ⟨S1x64, .f32⟩
  | 24 => ⟨S1x64, .f32⟩
  | 25 => ⟨S1x64, .f32⟩
  | 26 => ⟨S100000x64, .f32⟩
  | 27 => ⟨S1x16, .f32⟩
  | 28 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x16, .f32⟩
  | .local _ .vmem, ⟨57, _⟩ => ⟨S1x16, .f32⟩
  | .local _ .vmem, ⟨58, _⟩ => ⟨S10000x16, .f32⟩
  | .local _ .vmem, ⟨59, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20_0 : Ref sig .tc := ⟨.hbm, 49, rfl⟩
abbrev main_v20_1 : Ref sig .tc := ⟨.hbm, 50, rfl⟩
abbrev main_v20_2 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_5 : Ref sig .tc := ⟨.hbm, 71, rfl⟩
abbrev main_v37 : Ref sig .tc := ⟨.hbm, 72, rfl⟩
abbrev main_v38 : Ref sig .tc := ⟨.hbm, 73, rfl⟩
abbrev main_c_6 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53_0 : Ref sig .tc := ⟨.hbm, 91, rfl⟩
abbrev main_v53_1 : Ref sig .tc := ⟨.hbm, 92, rfl⟩
abbrev main_v53_2 : Ref sig .tc := ⟨.hbm, 93, rfl⟩
abbrev main_v54 : Ref sig .tc := ⟨.hbm, 94, rfl⟩
abbrev main_cst_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_10 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_11 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_12 : Ref sig .tc := ⟨.hbm, 113, rfl⟩
abbrev main_v70 : Ref sig .tc := ⟨.hbm, 114, rfl⟩
abbrev main_v71 : Ref sig .tc := ⟨.hbm, 115, rfl⟩
abbrev main_c_13 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_15 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86_0 : Ref sig .tc := ⟨.hbm, 133, rfl⟩
abbrev main_v86_1 : Ref sig .tc := ⟨.hbm, 134, rfl⟩
abbrev main_v86_2 : Ref sig .tc := ⟨.hbm, 135, rfl⟩
abbrev main_v87 : Ref sig .tc := ⟨.hbm, 136, rfl⟩
abbrev main_cst_16 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_18 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1x64_S1x64 : S1x64.ShapeCasts S1x64
  bitsLt_bf16_f32 : FTy.bits .bf16 < FTy.bits .f32
  broadcasts_S1x64_S10000x64 : S1x64.Broadcasts S10000x64
  reduces_S10000x64_S64 : S10000x64.Reduces [0] S64
  shapeCasts_S1x64_S64 : S1x64.ShapeCasts S64
  bcast_S_S64 : S_.BroadcastsInDim S64 (![] : Fin 0 → Fin S64.rank)
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x16.size a ≤ S100000x16.size a
  hwx6_3 : ∀ i : grid6.Coords, EltTy.bits .f32 = 32 ∨ (Rect.block (s := S100000x16) S10000x16.size (cc6_transform_3 i) (hinb6_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v53_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v53_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86_0) S10000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v86_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v86_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v102) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg23) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v104) S10000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S_ : Shape := ⟨0, ![]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 270
  | .vmem => 0
  | .smem => 0
  | _ => 0

abbrev hbmTy0_0 (i : Nat) : BufTy := match i % 128 with
  | 0 => ⟨S100000x64, .f32⟩
  | 1 => ⟨S2x1600000, .i32⟩
  | 2 => ⟨S_, .f32⟩
  | 3 => ⟨S64x64, .f32⟩
  | 4 => ⟨S64, .f32⟩
  | 5 => ⟨S64x64, .f32⟩
  | 6 => ⟨S64, .f32⟩
  | 7 => ⟨S64, .f32⟩
  | 8 => ⟨S64, .f32⟩
  | 9 => ⟨S_, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64x16, .f32⟩
  | 24 => ⟨S16, .f32⟩
  | 25 => ⟨S1x1600000, .i32⟩
  | 26 => ⟨S1600000, .i32⟩
  | 27 => ⟨S1x1600000, .i32⟩
  | 28 => ⟨S1600000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S_, .f32⟩
  | 43 => ⟨S_, .f32⟩
  | 44 => ⟨S100000x64, .f32⟩
  | 45 => ⟨S100000x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S_, .f32⟩
  | 93 => ⟨S64, .f32⟩
  | 94 => ⟨S64, .f32⟩
  | 95 => ⟨S64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S_, .f32⟩
  | 122 => ⟨S_, .f32⟩
  | 123 => ⟨S100000x64, .f32⟩
  | 124 => ⟨S100000x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S64, .f32⟩
  | 14 => ⟨S_, .f32⟩
  | 15 => ⟨S64, .f32⟩
  | 16 => ⟨S64, .f32⟩
  | 17 => ⟨S_, .i32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S100000x64, .f32⟩
  | 25 => ⟨S100000x64, .f32⟩
  | 26 => ⟨S100000x64, .f32⟩
  | 27 => ⟨S_, .f32⟩
  | 28 => ⟨S_, .f32⟩
  | 29 => ⟨S_, .f32⟩
  | 30 => ⟨S_, .f32⟩
  | 31 => ⟨S64, .f32⟩
  | 32 => ⟨S64, .f32⟩
  | 33 => ⟨S64, .f32⟩
  | 34 => ⟨S_, .f32⟩
  | 35 => ⟨S_, .i1⟩
  | 36 => ⟨S_, .f32⟩
  | 37 => ⟨S_, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S64, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S_, .f32⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x16, .f32⟩
  | 11 => ⟨S1x16, .f32⟩
  | 12 => ⟨S100000x16, .f32⟩
  | 13 => ⟨S100000x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call0_cst : Ref sig .tc := ⟨.hbm, 51, rfl⟩
abbrev main_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_cst : Ref sig .tc := ⟨.hbm, 58, rfl⟩
abbrev main_call1_v0 : Ref sig .tc := ⟨.hbm, 59, rfl⟩
abbrev main_v27 : Ref sig .tc := ⟨.hbm, 60, rfl⟩
abbrev main_cst_2 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_cst_3 : Ref sig .tc := ⟨.hbm, 83, rfl⟩
abbrev main_call2_v12 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_call3_cst : Ref sig .tc := ⟨.hbm, 105, rfl⟩
abbrev main_call3_v0 : Ref sig .tc := ⟨.hbm, 106, rfl⟩
abbrev main_v47 : Ref sig .tc := ⟨.hbm, 107, rfl⟩
abbrev main_c_6 : Ref sig .tc := ⟨.hbm, 108, rfl⟩
abbrev main_v48 : Ref sig .tc := ⟨.hbm, 109, rfl⟩
abbrev main_v49 : Ref sig .tc := ⟨.hbm, 110, rfl⟩
abbrev main_c_7 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_8 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_9 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_call4_cst : Ref sig .tc := ⟨.hbm, 130, rfl⟩
abbrev main_call4_v0 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_call5_cst : Ref sig .tc := ⟨.hbm, 137, rfl⟩
abbrev main_call5_v0 : Ref sig .tc := ⟨.hbm, 138, rfl⟩
abbrev main_v71 : Ref sig .tc := ⟨.hbm, 139, rfl⟩
abbrev main_cst_10 : Ref sig .tc := ⟨.hbm, 140, rfl⟩
abbrev main_v72 : Ref sig .tc := ⟨.hbm, 141, rfl⟩
abbrev main_cst_11 : Ref sig .tc := ⟨.hbm, 142, rfl⟩
abbrev main_v73 : Ref sig .tc := ⟨.hbm, 143, rfl⟩
abbrev main_v74 : Ref sig .tc := ⟨.hbm, 144, rfl⟩
abbrev main_c_12 : Ref sig .tc := ⟨.hbm, 145, rfl⟩
abbrev main_call6_cst : Ref sig .tc := ⟨.hbm, 146, rfl⟩
abbrev main_call6_v0 : Ref sig .tc := ⟨.hbm, 147, rfl⟩
abbrev main_call6_v1 : Ref sig .tc := ⟨.hbm, 148, rfl⟩
abbrev main_call6_cst_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_cst_1 : Ref sig .tc := ⟨.hbm, 156, rfl⟩
abbrev main_call6_v8 : Ref sig .tc := ⟨.hbm, 157, rfl⟩
abbrev main_call6_cst_2 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_cst_3 : Ref sig .tc := ⟨.hbm, 162, rfl⟩
abbrev main_call6_v12 : Ref sig .tc := ⟨.hbm, 163, rfl⟩
abbrev main_call6_cst_4 : Ref sig .tc := ⟨.hbm, 164, rfl⟩
abbrev main_call6_call0_v0 : Ref sig .tc := ⟨.hbm, 165, rfl⟩
abbrev main_call6_call0_v1 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_cst_13 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_call7_cst : Ref sig .tc := ⟨.hbm, 184, rfl⟩
abbrev main_call7_v0 : Ref sig .tc := ⟨.hbm, 185, rfl⟩
abbrev main_v91 : Ref sig .tc := ⟨.hbm, 186, rfl⟩
abbrev main_c_14 : Ref sig .tc := ⟨.hbm, 187, rfl⟩
abbrev main_v92 : Ref sig .tc := ⟨.hbm, 188, rfl⟩
abbrev main_v93 : Ref sig .tc := ⟨.hbm, 189, rfl⟩
abbrev main_c_15 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_cst_16 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_cst_17 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_call8_cst : Ref sig .tc := ⟨.hbm, 209, rfl⟩
abbrev main_call8_v0 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_call9_cst : Ref sig .tc := ⟨.hbm, 216, rfl⟩
abbrev main_call9_v0 : Ref sig .tc := ⟨.hbm, 217, rfl⟩
abbrev main_v115 : Ref sig .tc := ⟨.hbm, 218, rfl⟩
abbrev main_cst_18 : Ref sig .tc := ⟨.hbm, 219, rfl⟩
abbrev main_v116 : Ref sig .tc := ⟨.hbm, 220, rfl⟩
abbrev main_cst_19 : Ref sig .tc := ⟨.hbm, 221, rfl⟩
abbrev main_v117 : Ref sig .tc := ⟨.hbm, 222, rfl⟩
abbrev main_v118 : Ref sig .tc := ⟨.hbm, 223, rfl⟩
abbrev main_c_20 : Ref sig .tc := ⟨.hbm, 224, rfl⟩
abbrev main_call10_cst : Ref sig .tc := ⟨.hbm, 225, rfl⟩
abbrev main_call10_v0 : Ref sig .tc := ⟨.hbm, 226, rfl⟩
abbrev main_call10_v1 : Ref sig .tc := ⟨.hbm, 227, rfl⟩
abbrev main_call10_cst_0 : Ref sig .tc := ⟨.hbm, 228, rfl⟩
abbrev main_call10_v2 : Ref sig .tc := ⟨.hbm, 229, rfl⟩
abbrev main_call10_v3 : Ref sig .tc := ⟨.hbm, 230, rfl⟩
abbrev main_call10_v4 : Ref sig .tc := ⟨.hbm, 231, rfl⟩
abbrev main_call10_v5 : Ref sig .tc := ⟨.hbm, 232, rfl⟩
abbrev main_call10_v6 : Ref sig .tc := ⟨.hbm, 233, rfl⟩
abbrev main_call10_v7 : Ref sig .tc := ⟨.hbm, 234, rfl⟩
abbrev main_call10_cst_1 : Ref sig .tc := ⟨.hbm, 235, rfl⟩
abbrev main_call10_v8 : Ref sig .tc := ⟨.hbm, 236, rfl⟩
abbrev main_call10_cst_2 : Ref sig .tc := ⟨.hbm, 237, rfl⟩
abbrev main_call10_v9 : Ref sig .tc := ⟨.hbm, 238, rfl⟩
abbrev main_call10_v10 : Ref sig .tc := ⟨.hbm, 239, rfl⟩
abbrev main_call10_v11 : Ref sig .tc := ⟨.hbm, 240, rfl⟩
abbrev main_call10_cst_3 : Ref sig .tc := ⟨.hbm, 241, rfl⟩
abbrev main_call10_v12 : Ref sig .tc := ⟨.hbm, 242, rfl⟩
abbrev main_call10_cst_4 : Ref sig .tc := ⟨.hbm, 243, rfl⟩
abbrev main_call10_call0_v0 : Ref sig .tc := ⟨.hbm, 244, rfl⟩
abbrev main_call10_call0_v1 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_21 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_call11_cst : Ref sig .tc := ⟨.hbm, 263, rfl⟩
abbrev main_call11_v0 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KChainKeep.lean ====
/-
  Which buffers each segment of the kernel program's run leaves alone.

  A stretch of host operations rewrites only the buffers its operations name as results; a region rewrites only the
  arrays of its output windows (an input window's array, and every buffer that is no window's array, ends as it was
  entered).  So a buffer read at a later boundary of the run can be traced back to the boundary where it was
  last written.  In particular the 25 argument arrays are never written: at every boundary they are as launched.
-/
import proofs.«178507_j28741921144979_1_alg».proof.Proof.Gen.KernelIdeal.Frame
import Idealize.ShloMosaic.PureOps.Ideal

set_option maxRecDepth 16384

noncomputable section

namespace Cert.Gin.KChain

open Idealize.ShloMosaic Idealize.ShloMosaic.TcCoe
open Cert.KernelIdeal Cert.KernelIdeal.Gen

/-- The one buffer a listed reference names lies among the buffers the list names. -/
theorem wr_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-! ## The host stretches: the references each one writes -/

/-- The references the operations of host stretch 0 write. -/
abbrev Wr0 : List (Ref sig .tc) := [main_v0, main_v1, main_v2, main_v3, main_c, main_v4, main_v5, main_c_0, main_v6, main_v7, main_v8, main_v9, main_v10, main_cst, main_v11, main_v12, main_v13, main_cst_1, main_v14, main_v15, main_v16, main_v17, main_v18, main_v19]
theorem hostOps0_wr : (hostOps0 : List (HloOp τ sig (Elt Ideal))).Forall fun op =>
    op.writes ⊆ ((Wr0).map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact wr_sub (by decide)
/-- A reference host stretch 0 does not write keeps its contents through it. -/
theorem keepH0 (Vv : Valuation τ sig (Elt Ideal)) (b : Ref sig .tc) (hb : b ∉ Wr0) :
    StableHlo.after hostOps0 Vv (Proc.devRef .tc b) = Vv (Proc.devRef .tc b) :=
  StableHlo.after_of_writes_sub hostOps0 Vv hostOps0_wr hb

/-- The references the operations of host stretch 1 write. -/
abbrev Wr1 : List (Ref sig .tc) := [main_v21, main_cst_2, main_v22, main_v23, main_v24, main_cst_3, main_v25, main_v26, main_v27, main_v28, main_cst_4, main_v29, main_v30, main_v31, main_v32, main_v33, main_v34, main_v35]
theorem hostOps1_wr : (hostOps1 : List (HloOp τ sig (Elt Ideal))).Forall fun op =>
    op.writes ⊆ ((Wr1).map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals exact wr_sub (by decide)
/-- A reference host stretch 1 does not write keeps its contents through it. -/
theorem keepH1 (Vv : Valuation τ sig (Elt Ideal)) (b : Ref sig .tc) (hb : b ∉ Wr1) :
    StableHlo.after hostOps1 Vv (Proc.devRef .tc b) = Vv (Proc.devRef .tc b) :=
  StableHlo.after_of_writes_sub hostOps1 Vv hostOps1_wr hb

/-- The references the operations of host stretch 2 write. -/
abbrev Wr2 : List (Ref sig .tc) := [main_c_5, main_v37, main_v38, main_c_6, main_v39, main_v40, main_v41, main_v42, main_v43, main_cst_7, main_v44, main_v45, main_v46, main_cst_8, main_v47, main_v48, main_v49, main_v50, main_v51, main_v52]
theorem hostOps2_wr : (hostOps2 : List (HloOp τ sig (Elt Ideal))).Forall fun op =>
    op.writes ⊆ ((Wr2).map (Proc.devRef (τ := τ) .tc)).toFinset := by
  simp only [hostOps2, List.Forall, StableHlo.nullary_writes, StableHlo.unary_writes, StableHlo.binary_writes,
    StableHlo.ternary_writes, StableHlo.reshape_writes]
  repeat' apply And.intro
  all_goals exact wr_sub (by decide)
/-- A reference host stretch 2 does not write keeps its contents through it. -/
theorem keepH2 (Vv : Valuation τ sig (Elt Ideal)) (b : Ref sig .tc) (hb : b ∉ Wr2) :
    StableHlo.after hostOps2 Vv (Proc.devRef .tc b) = Vv (Proc.devRef .tc b) :=
  StableHlo.after_of_writes_sub hostOps2 Vv hostOps2_wr hb

/-- The references the operations of host stretch 3 write. -/
abbrev Wr3 : List (Ref sig .tc) := [main_v54, main_cst_9, main_v55, main_v56, main_v57, main_cst_10, main_v58, main_v59, main_v60, main_v61, main_cst_11, main_v62, main_v63, main_v64, main_v65, main_v66, main_v67, main_v68]
theorem hostOps3_wr : (hostOps3 : List (HloOp τ sig (Elt Ideal))).Forall fun op =>
    op.writes ⊆ ((Wr3).map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals exact wr_sub (by decide)
/-- A reference host stretch 3 does not write keeps its contents through it. -/
theorem keepH3 (Vv : Valuation τ sig (Elt Ideal)) (b : Ref sig .tc) (hb : b ∉ Wr3) :
    StableHlo.after hostOps3 Vv (Proc.devRef .tc b) = Vv (Proc.devRef .tc b) :=
  StableHlo.after_of_writes_sub hostOps3 Vv hostOps3_wr hb

/-- The references the operations of host stretch 4 write. -/
abbrev Wr4 : List (Ref sig .tc) := [main_c_12, main_v70, main_v71, main_c_13, main_v72, main_v73, main_v74, main_v75, main_v76, main_cst_14, main_v77, main_v78, main_v79, main_cst_15, main_v80, main_v81, main_v82, main_v83, main_v84, main_v85]
theorem hostOps4_wr : (hostOps4 : List (HloOp τ sig (Elt Ideal))).Forall fun op =>
    op.writes ⊆ ((Wr4).map (Proc.devRef (τ := τ) .tc)).toFinset := by
  simp only [hostOps4, List.Forall, StableHlo.nullary_writes, StableHlo.unary_writes, StableHlo.binary_writes,
    StableHlo.ternary_writes, StableHlo.reshape_writes]
  repeat' apply And.intro
  all_goals exact wr_sub (by decide)
/-- A reference host stretch 4 does not write keeps its contents through it. -/
theorem keepH4 (Vv : Valuation τ sig (Elt Ideal)) (b : Ref sig .tc) (hb : b ∉ Wr4) :
    StableHlo.after hostOps4 Vv (Proc.devRef .tc b) = Vv (Proc.devRef .tc b) :=
  StableHlo.after_of_writes_sub hostOps4 Vv hostOps4_wr hb

/-- The references the operations of host stretch 5 write. -/
abbrev Wr5 : List (Ref sig .tc) := [main_v87, main_cst_16, main_v88, main_v89, main_v90, main_cst_17, main_v91, main_v92, main_v93, main_v94, main_cst_18, main_v95, main_v96, main_v97, main_v98, main_v99, main_v100, main_v101]
theorem hostOps5_wr : (hostOps5 : List (HloOp τ sig (Elt Ideal))).Forall fun op =>
    op.writes ⊆ ((Wr5).map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals exact wr_sub (by decide)
/-- A reference host stretch 5 does not write keeps its contents through it. -/
theorem keepH5 (Vv : Valuation τ sig (Elt Ideal)) (b : Ref sig .tc) (hb : b ∉ Wr5) :
    StableHlo.after hostOps5 Vv (Proc.devRef .tc b) = Vv (Proc.devRef .tc b) :=
  StableHlo.after_of_writes_sub hostOps5 Vv hostOps5_wr hb

/-- The references the operations of host stretch 6 write. -/
abbrev Wr6 : List (Ref sig .tc) := [main_v103]
theorem hostOps6_wr : (hostOps6 : List (HloOp τ sig (Elt Ideal))).Forall fun op =>
    op.writes ⊆ ((Wr6).map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals exact wr_sub (by decide)
/-- A reference host stretch 6 does not write keeps its contents through it. -/
theorem keepH6 (Vv : Valuation τ sig (Elt Ideal)) (b : Ref sig .tc) (hb : b ∉ Wr6) :
    StableHlo.after hostOps6 Vv (Proc.devRef .tc b) = Vv (Proc.devRef .tc b) :=
  StableHlo.after_of_writes_sub hostOps6 Vv hostOps6_wr hb

/-! ## The regions: a reference that is no output window's array keeps its contents -/

variable (m : (ℓ : Loc nD τ sig) → Buf (Elt Ideal) ℓ) (ρ : Dev nD → PrngReg)

theorem keepR0 (c : Dev nD) (b : Ref sig .tc)
    (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (W2_arr m ρ c w).trans (((dat0 (V1 m ρ) c).arrAt_in w hin _).trans (A_eq0 (V1 m ρ) c w))
  · exact W2_of_ne m ρ c b (fun w e => h ⟨w, e⟩)

theorem keepR1 (c : Dev nD) (b : Ref sig .tc)
    (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (W4_arr m ρ c w).trans (((dat1 (V3 m ρ) c).arrAt_in w hin _).trans (A_eq1 (V3 m ρ) c w))
  · exact W4_of_ne m ρ c b (fun w e => h ⟨w, e⟩)

theorem keepR2 (c : Dev nD) (b : Ref sig .tc)
    (hb : ∀ w, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (W6_arr m ρ c w).trans (((dat2 (V5 m ρ) c).arrAt_in w hin _).trans (A_eq2 (V5 m ρ) c w))
  · exact W6_of_ne m ρ c b (fun w e => h ⟨w, e⟩)

theorem keepR3 (c : Dev nD) (b : Ref sig .tc)
    (hb : ∀ w, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (W8_arr m ρ c w).trans (((dat3 (V7 m ρ) c).arrAt_in w hin _).trans (A_eq3 (V7 m ρ) c w))
  · exact W8_of_ne m ρ c b (fun w e => h ⟨w, e⟩)

theorem keepR4 (c : Dev nD) (b : Ref sig .tc)
    (hb : ∀ w, (cfg4.win w).isOut = true → Pipeline.arrRef spec4 w ≠ b) :
    W10 m ρ c (Proc.devRef .tc b) = W9 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (W10_arr m ρ c w).trans (((dat4 (V9 m ρ) c).arrAt_in w hin _).trans (A_eq4 (V9 m ρ) c w))
  · exact W10_of_ne m ρ c b (fun w e => h ⟨w, e⟩)

theorem keepR5 (c : Dev nD) (b : Ref sig .tc)
    (hb : ∀ w, (cfg5.win w).isOut = true → Pipeline.arrRef spec5 w ≠ b) :
    W12 m ρ c (Proc.devRef .tc b) = W11 m ρ c (Proc.devRef .tc b) := by
  by_cases h : ∃ w, Pipeline.arrRef spec5 w = b
  · obtain ⟨w, rfl⟩ := h
    have hin : (cfg5.win w).isOut = false := by
      cases hw : (cfg5.win w).isOut
      · rfl
      · exact absurd rfl (hb w hw)
    exact (W12_arr m ρ c w).trans (((dat5 (V11 m ρ) c).arrAt_in w hin _).trans (A_eq5 (V11 m ρ) c w))
  · exact W12_of_ne m ρ c b (fun w e => h ⟨w, e⟩)

theorem keepR6 (c : Dev nD) (b : Ref sig .tc)
    (hb : ∀ w, (cfg6.win w).isOut = true → Pipeline.arrRef spec6 w ≠ b) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      cases hw : (cfg6.win w).isOut
      · rfl
      · exact absurd rfl (hb w hw)
    exact (W14_arr m ρ c w).trans (((dat6 (V13 m ρ) c).arrAt_in w hin _).trans (A_eq6 (V13 m ρ) c w))
  · exact W14_of_ne m ρ c b (fun w e => h ⟨w, e⟩)

end Cert.Gin.KChain

end
-- ==== Proof.KChainArgs.lean ====
/-
  The argument arrays at every boundary of the kernel program's run: no host operation and no region's output
  window writes one, so each is as launched throughout.  Likewise the two flattened rows of the edge list, which the
  first host stretch writes once and which nothing writes afterwards.
-/
import proofs.«178507_j28741921144979_1_alg».proof.Proof.KChainKeep

set_option maxRecDepth 16384

noncomputable section

namespace Cert.Gin.KChain

open Idealize.ShloMosaic Idealize.ShloMosaic.TcCoe
open Cert.KernelIdeal Cert.KernelIdeal.Gen

variable (m : (ℓ : Loc nD τ sig) → Buf (Elt Ideal) ℓ) (ρ : Dev nD → PrngReg)

/-- The 25 argument arrays. -/
abbrev Args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

theorem args_notWr0 : ∀ b ∈ Args, b ∉ Wr0 := by decide
theorem args_notOut0 : ∀ b ∈ Args, ∀ w, (cfg0.win w).isOut = true → Pipeline.arrRef spec0 w ≠ b := by decide
theorem args_notWr1 : ∀ b ∈ Args, b ∉ Wr1 := by decide
theorem args_notOut1 : ∀ b ∈ Args, ∀ w, (cfg1.win w).isOut = true → Pipeline.arrRef spec1 w ≠ b := by decide
theorem args_notWr2 : ∀ b ∈ Args, b ∉ Wr2 := by decide
theorem args_notOut2 : ∀ b ∈ Args, ∀ w, (cfg2.win w).isOut = true → Pipeline.arrRef spec2 w ≠ b := by decide
theorem args_notWr3 : ∀ b ∈ Args, b ∉ Wr3 := by decide
theorem args_notOut3 : ∀ b ∈ Args, ∀ w, (cfg3.win w).isOut = true → Pipeline.arrRef spec3 w ≠ b := by decide
theorem args_notWr4 : ∀ b ∈ Args, b ∉ Wr4 := by decide
theorem args_notOut4 : ∀ b ∈ Args, ∀ w, (cfg4.win w).isOut = true → Pipeline.arrRef spec4 w ≠ b := by decide
theorem args_notWr5 : ∀ b ∈ Args, b ∉ Wr5 := by decide
theorem args_notOut5 : ∀ b ∈ Args, ∀ w, (cfg5.win w).isOut = true → Pipeline.arrRef spec5 w ≠ b := by decide
theorem args_notWr6 : ∀ b ∈ Args, b ∉ Wr6 := by decide
theorem args_notOut6 : ∀ b ∈ Args, ∀ w, (cfg6.win w).isOut = true → Pipeline.arrRef spec6 w ≠ b := by decide

theorem W0_args (c : Dev nD) (b : Ref sig .tc) (hb : b ∈ Args) :
    W0 m ρ c (Proc.devRef .tc b) = m ((c : Thread nD τ).loc b) := rfl
theorem W1_args (c : Dev nD) (b : Ref sig .tc) (hb : b ∈ Args) :
    W1 m ρ c (Proc.devRef .tc b) = m ((c : Thread nD τ).loc b) :=
  (keepH0 (W0 m ρ c) b (args_notWr0 b hb)).trans (W0_args m ρ c b hb)
theorem W2_args (c : Dev nD) (b : Ref sig .tc) (hb : b ∈ Args) :
    W2 m ρ c (Proc.devRef .tc b) = m ((c : Thread nD τ).loc b) :=
  (keepR0 m ρ c b (args_notOut0 b hb)).trans (W1_args m ρ c b hb)
theorem W3_args (c : Dev nD) (b : Ref sig .tc) (hb : b ∈ Args) :
    W3 m ρ c (Proc.devRef .tc b) = m ((c : Thread nD τ).loc b) :=
  (keepH1 (W2 m ρ c) b (args_notWr1 b hb)).trans (W2_args m ρ c b hb)
theorem W4_args (c : Dev nD) (b : Ref sig .tc) (hb : b ∈ Args) :
    W4 m ρ c (Proc.devRef .tc b) = m ((c : Thread nD τ).loc b) :=
  (keepR1 m ρ c b (args_notOut1 b hb)).trans (W3_args m ρ c b hb)
theorem W5_args (c : Dev nD) (b : Ref sig .tc) (hb : b ∈ Args) :
    W5 m ρ c (Proc.devRef .tc b) = m ((c : Thread nD τ).loc b) :=
  (keepH2 (W4 m ρ c) b (args_notWr2 b hb)).trans (W4_args m ρ c b hb)
theorem W6_args (c : Dev nD) (b : Ref sig .tc) (hb : b ∈ Args) :
    W6 m ρ c (Proc.devRef .tc b) = m ((c : Thread nD τ).loc b) :=
  (keepR2 m ρ c b (args_notOut2 b hb)).trans (W5_args m ρ c b hb)
theorem W7_args (c : Dev nD) (b : Ref sig .tc) (hb : b ∈ Args) :
    W7 m ρ c (Proc.devRef .tc b) = m ((c : Thread nD τ).loc b) :=
  (keepH3 (W6 m ρ c) b (args_notWr3 b hb)).trans (W6_args m ρ c b hb)
theorem W8_args (c : Dev nD) (b : Ref sig .tc) (hb : b ∈ Args) :
    W8 m ρ c (Proc.devRef .tc b) = m ((c : Thread nD τ).loc b) :=
  (keepR3 m ρ c b (args_notOut3 b hb)).trans (W7_args m ρ c b hb)
theorem W9_args (c : Dev nD) (b : Ref sig .tc) (hb : b ∈ Args) :
    W9 m ρ c (Proc.devRef .tc b) = m ((c : Thread nD τ).loc b) :=
  (keepH4 (W8 m ρ c) b (args_notWr4 b hb)).trans (W8_args m ρ c b hb)
theorem W10_args (c : Dev nD) (b : Ref sig .tc) (hb : b ∈ Args) :
    W10 m ρ c (Proc.devRef .tc b) = m ((c : Thread nD τ).loc b) :=
  (keepR4 m ρ c b (args_notOut4 b hb)).trans (W9_args m ρ c b hb)
theorem W11_args (c : Dev nD) (b : Ref sig .tc) (hb : b ∈ Args) :
    W11 m ρ c (Proc.devRef .tc b) = m ((c : Thread nD τ).loc b) :=
  (keepH5 (W10 m ρ c) b (args_notWr5 b hb)).trans (W10_args m ρ c b hb)
theorem W12_args (c : Dev nD) (b : Ref sig .tc) (hb : b ∈ Args) :
    W12 m ρ c (Proc.devRef .tc b) = m ((c : Thread nD τ).loc b) :=
  (keepR5 m ρ c b (args_notOut5 b hb)).trans (W11_args m ρ c b hb)
theorem W13_args (c : Dev nD) (b : Ref sig .tc) (hb : b ∈ Args) :
    W13 m ρ c (Proc.devRef .tc b) = m ((c : Thread nD τ).loc b) :=
  (keepH6 (W12 m ρ c) b (args_notWr6 b hb)).trans (W12_args m ρ c b hb)

end Cert.Gin.KChain

end
-- ==== Proof.Spec.lean ====
/-
  The network as index-level functions on the extended reals, and the same functions packaged on arrays.

  One layer: from the pre-activation P (the node features scaled by 1 + eps plus the neighbour sums), two dense steps
  with a rectifier give H; the batch statistics of H over the 100000 rows give a mean and a variance per column; H is
  centred, scaled by the inverse root of variance plus offset, scaled by g, shifted by bt, and rectified.  The two
  programs differ in ONE place, the variance: one takes the mean of squares minus the squared mean, the other the mean
  of squared deviations.  Both forms are stated here; that they agree on real data is proved elsewhere.
-/
import Idealize.ShloMosaic.PureOps.Ideal
import Idealize.ShloMosaic.Lib.ValueIdx

noncomputable section

namespace Cert.Gin

open Idealize.ShloMosaic Idealize.ShloMosaic.ValueIdx

/-- A matrix of extended reals by coordinates. -/
abbrev M (a b : ℕ) := Fin a → Fin b → EReal
/-- A vector of extended reals by coordinate. -/
abbrev Vc (b : ℕ) := Fin b → EReal

/-- A rank-2 float array at the ideal values. -/
abbrev A2 (a b : ℕ) := FVec Ideal (⟨2, ![a, b]⟩ : Shape) .f32
/-- A rank-1 float array at the ideal values. -/
abbrev A1 (b : ℕ) := FVec Ideal (⟨1, ![b]⟩ : Shape) .f32
/-- A scalar float array at the ideal values. -/
abbrev A0 := FVec Ideal (⟨0, ![]⟩ : Shape) .f32

/-- A rank-2 array read by coordinates. -/
def rd2 {a b : ℕ} (x : A2 a b) : M a b := fun p q => x (ix2 p q)
/-- A rank-1 array read by coordinate. -/
def rd1 {b : ℕ} (x : A1 b) : Vc b := fun q => x (ix1 q)
/-- A scalar array's one value. -/
def rd0 (x : A0) : EReal := x ix0
/-- The rank-2 array with given entries. -/
def of2 {a b : ℕ} (f : M a b) : A2 a b := fun i => f (i 0) (i 1)
/-- The rank-1 array with given entries. -/
def of1 {b : ℕ} (f : Vc b) : A1 b := fun i => f (i 0)

theorem of2_apply {a b : ℕ} (f : M a b) (p : Fin a) (q : Fin b) : of2 f (ix2 p q) = f p q := rfl
theorem of1_apply {b : ℕ} (f : Vc b) (q : Fin b) : of1 f (ix1 q) = f q := rfl
theorem rd2_of2 {a b : ℕ} (f : M a b) : rd2 (of2 f) = f := rfl
theorem rd1_of1 {b : ℕ} (f : Vc b) : rd1 (of1 f) = f := rfl
theorem of2_rd2 {a b : ℕ} (x : A2 a b) : of2 (rd2 x) = x := by
  funext i; rw [eq_ix2 i]; rfl
theorem of1_rd1 {b : ℕ} (x : A1 b) : of1 (rd1 x) = x := by
  funext i; rw [eq_ix1 i]; rfl

namespace Spec

/-- The row count's word. -/
def cN : EReal := Ideal.ofBits .f32 0x47C35000#32
/-- The variance offset's word. -/
def cEps : EReal := Ideal.ofBits .f32 0x3727C5AC#32
/-- The unit word. -/
def cOne : EReal := Ideal.ofBits .f32 0x3F800000#32

/-- A dense step with a rectifier: max (x · w + bias, 0). -/
def dense {n a b : ℕ} (x : M n a) (w : M a b) (bias : Vc b) : M n b :=
  fun p q => max ((∑ k : Fin a, x p k * w k q) + bias q) 0

/-- Two dense steps. -/
def hidden {n : ℕ} (P : M n 64) (w1 : M 64 64) (b1 : Vc 64) (w2 : M 64 64) (b2 : Vc 64) : M n 64 :=
  dense (dense P w1 b1) w2 b2

/-- Column sums. -/
def colsum {n b : ℕ} (H : M n b) : Vc b := fun q => ∑ p : Fin n, H p q
/-- Column sums of squares. -/
def colsumsq {n b : ℕ} (H : M n b) : Vc b := fun q => ∑ p : Fin n, H p q * H p q

/-- The column means: column sums over the row count's word. -/
def mean {n b : ℕ} (H : M n b) : Vc b := fun q => Ideal.div (colsum H q) cN
/-- Variance as mean of squares minus squared mean. -/
def varMoment {n b : ℕ} (H : M n b) : Vc b :=
  fun q => Ideal.div (colsumsq H q) cN - mean H q * mean H q
/-- Variance as mean of squared deviations. -/
def varCentred {n b : ℕ} (H : M n b) : Vc b :=
  fun q => Ideal.div (∑ p : Fin n, (H p q - mean H q) * (H p q - mean H q)) cN

/-- The normalisation with a given variance: max (((H - mean) · rsqrt (var + offset)) · g + bt, 0). -/
def norm {n b : ℕ} (H : M n b) (mu var g bt : Vc b) : M n b :=
  fun p q => max ((H p q - mu q) * Ideal.rsqrt (var q + cEps) * g q + bt q) 0

/-- The pre-activation: (1 + eps) · h + neighbour sums. -/
def pre {n b : ℕ} (h agg : M n b) (eps : EReal) : M n b :=
  fun p q => (cOne + eps) * h p q + agg p q

/-- One layer with the variance taken as a moment difference. -/
def layerMoment {n : ℕ} (P : M n 64) (w1 : M 64 64) (b1 : Vc 64) (w2 : M 64 64) (b2 g bt : Vc 64) : M n 64 :=
  norm (hidden P w1 b1 w2 b2) (mean (hidden P w1 b1 w2 b2)) (varMoment (hidden P w1 b1 w2 b2)) g bt
/-- One layer with the variance taken over centred data. -/
def layerCentred {n : ℕ} (P : M n 64) (w1 : M 64 64) (b1 : Vc 64) (w2 : M 64 64) (b2 g bt : Vc 64) : M n 64 :=
  norm (hidden P w1 b1 w2 b2) (mean (hidden P w1 b1 w2 b2)) (varCentred (hidden P w1 b1 w2 b2)) g bt

/-- The readout: x · w + bias. -/
def readout {n a b : ℕ} (x : M n a) (w : M a b) (bias : Vc b) : M n b :=
  fun p q => (∑ k : Fin a, x p k * w k q) + bias q

/-- The whole network with the variance taken as a moment difference: three layers, each fed the features scaled by
    1 + eps plus their neighbour sums `Ag`, then the readout. -/
def netMoment {n : ℕ} (Ag : M n 64 → M n 64) (x : M n 64)
    (e1 : EReal) (w11 : M 64 64) (b11 : Vc 64) (w12 : M 64 64) (b12 g1 bt1 : Vc 64)
    (e2 : EReal) (w21 : M 64 64) (b21 : Vc 64) (w22 : M 64 64) (b22 g2 bt2 : Vc 64)
    (e3 : EReal) (w31 : M 64 64) (b31 : Vc 64) (w32 : M 64 64) (b32 g3 bt3 : Vc 64)
    (wl : M 64 16) (bl : Vc 16) : M n 16 :=
  readout
    (layerMoment (pre
      (layerMoment (pre
        (layerMoment (pre x (Ag x) e1) w11 b11 w12 b12 g1 bt1)
        (Ag (layerMoment (pre x (Ag x) e1) w11 b11 w12 b12 g1 bt1)) e2) w21 b21 w22 b22 g2 bt2)
      (Ag (layerMoment (pre
        (layerMoment (pre x (Ag x) e1) w11 b11 w12 b12 g1 bt1)
        (Ag (layerMoment (pre x (Ag x) e1) w11 b11 w12 b12 g1 bt1)) e2) w21 b21 w22 b22 g2 bt2)) e3)
      w31 b31 w32 b32 g3 bt3)
    wl bl

/-- The whole network with the variance taken over centred data. -/
def netCentred {n : ℕ} (Ag : M n 64 → M n 64) (x : M n 64)
    (e1 : EReal) (w11 : M 64 64) (b11 : Vc 64) (w12 : M 64 64) (b12 g1 bt1 : Vc 64)
    (e2 : EReal) (w21 : M 64 64) (b21 : Vc 64) (w22 : M 64 64) (b22 g2 bt2 : Vc 64)
    (e3 : EReal) (w31 : M 64 64) (b31 : Vc 64) (w32 : M 64 64) (b32 g3 bt3 : Vc 64)
    (wl : M 64 16) (bl : Vc 16) : M n 16 :=
  readout
    (layerCentred (pre
      (layerCentred (pre
        (layerCentred (pre x (Ag x) e1) w11 b11 w12 b12 g1 bt1)
        (Ag (layerCentred (pre x (Ag x) e1) w11 b11 w12 b12 g1 bt1)) e2) w21 b21 w22 b22 g2 bt2)
      (Ag (layerCentred (pre
        (layerCentred (pre x (Ag x) e1) w11 b11 w12 b12 g1 bt1)
        (Ag (layerCentred (pre x (Ag x) e1) w11 b11 w12 b12 g1 bt1)) e2) w21 b21 w22 b22 g2 bt2)) e3)
      w31 b31 w32 b32 g3 bt3)
    wl bl

/-- An extended real that is a real number. -/
def IsR (x : EReal) : Prop := ∃ r : ℝ, x = (r : EReal)
/-- A matrix all of whose entries are real numbers. -/
def AllR2 {a b : ℕ} (f : M a b) : Prop := ∀ p q, IsR (f p q)
/-- A vector all of whose entries are real numbers. -/
def AllR1 {b : ℕ} (f : Vc b) : Prop := ∀ q, IsR (f q)

end Spec

/-! ## The same on arrays: what each kernel region leaves, as a function of the arrays it reads -/

/-- The hidden features a dense-dense region writes (biases as one-row matrices). -/
def hiddenA (P : A2 100000 64) (w1 : A2 64 64) (b1 : A2 1 64) (w2 : A2 64 64) (b2 : A2 1 64) : A2 100000 64 :=
  of2 (Spec.hidden (rd2 P) (rd2 w1) (rd2 b1 0) (rd2 w2) (rd2 b2 0))
/-- The column sums a dense-dense region accumulates, as a one-row matrix. -/
def sumA (P : A2 100000 64) (w1 : A2 64 64) (b1 : A2 1 64) (w2 : A2 64 64) (b2 : A2 1 64) : A2 1 64 :=
  of2 (fun _ q => Spec.colsum (Spec.hidden (rd2 P) (rd2 w1) (rd2 b1 0) (rd2 w2) (rd2 b2 0)) q)
/-- The column sums of squares a dense-dense region accumulates, as a one-row matrix. -/
def sumsqA (P : A2 100000 64) (w1 : A2 64 64) (b1 : A2 1 64) (w2 : A2 64 64) (b2 : A2 1 64) : A2 1 64 :=
  of2 (fun _ q => Spec.colsumsq (Spec.hidden (rd2 P) (rd2 w1) (rd2 b1 0) (rd2 w2) (rd2 b2 0)) q)
/-- What a normalisation region writes from the hidden features and four one-row matrices
    (mean, inverse deviation, scale, shift). -/
def normA (H : A2 100000 64) (mu istd g bt : A2 1 64) : A2 100000 64 :=
  of2 (fun p q => max ((rd2 H p q - rd2 mu 0 q) * rd2 istd 0 q * rd2 g 0 q + rd2 bt 0 q) 0)
/-- What the readout region writes. -/
def readoutA (x : A2 100000 64) (w : A2 64 16) (bias : A2 1 16) : A2 100000 16 :=
  of2 (Spec.readout (rd2 x) (rd2 w) (rd2 bias 0))

end Cert.Gin

end
-- ==== Proof.KAgg.lean ====
/-
  The neighbour sum of one layer, as the kernel program computes it on the host: the edge list's two rows are
  cut out and flattened, the source row's negative entries are shifted up by the row count (the wrap-around of a
  negative index), every edge takes the feature row of its source (a gather of whole rows), and the taken rows are
  added, edge by edge, onto a matrix of zeros at the row the edge's destination names (a scatter-add of whole rows).
-/
import proofs.«178507_j28741921144979_1_alg».proof.KernelIdeal
import proofs.«178507_j28741921144979_1_alg».proof.Proof.Gen.KernelIdeal
import proofs.«178507_j28741921144979_1_alg».proof.Proof.Spec

noncomputable section

namespace Cert.Gin.K

open Idealize.ShloMosaic
open Cert.KernelIdeal Cert.KernelIdeal.Facts₀

/-- The edge list's contents: two rows of integer words. -/
abbrev Edges := (⟨S2x1600000, .i32⟩ : BufTy).Contents (Elt Ideal)

/-- The source row of the edge list, flattened. -/
def src (ei : Edges) : (⟨S1600000, .i32⟩ : BufTy).Contents (Elt Ideal) :=
  shapeCast S1600000
    (extractStridedSlice S1x1600000 ![0, 0] ei slices_S2x1600000_S1x1600000_0_0 : (⟨S1x1600000, .i32⟩ : BufTy).Contents (Elt Ideal))
    shapeCasts_S1x1600000_S1600000

/-- The destination row of the edge list, flattened. -/
def dst (ei : Edges) : (⟨S1600000, .i32⟩ : BufTy).Contents (Elt Ideal) :=
  shapeCast S1600000
    (extractStridedSlice S1x1600000 ![1, 0] ei slices_S2x1600000_S1x1600000_1_0 : (⟨S1x1600000, .i32⟩ : BufTy).Contents (Elt Ideal))
    shapeCasts_S1x1600000_S1600000

/-- The source row with its negative entries shifted up by the row count, as a column of start indices. -/
def srcCol (ei : Edges) : (⟨S1600000x1, .i32⟩ : BufTy).Contents (Elt Ideal) :=
  broadcastInDim S1600000x1 ![0] bcast_S1600000_S1600000x1_0
    (select
      (cmpi .slt (src ei) (broadcastInDim S1600000 ![] bcast_S_S1600000 (constantI S_ 32 0#32)))
      (addi (src ei) (broadcastInDim S1600000 ![] bcast_S_S1600000 (constantI S_ 32 100000#32)))
      (src ei))

/-- The feature rows the edges take: one row of `h` per edge, at its source. -/
def gathered (ei : Edges) (h : A2 100000 64) : (⟨S1600000x64, .f32⟩ : BufTy).Contents (Elt Ideal) :=
  Host.gather gather_S100000x64_S1600000x1_S1600000x64_1_0_n_n_0_1_164 h (srcCol ei)

/-- The neighbour sum: the taken rows added onto zeros at the rows the destinations name. -/
def agg (ei : Edges) (h : A2 100000 64) : A2 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dst ei))
    (gathered ei h)

end Cert.Gin.K

end
-- ==== Proof.KDefs.lean ====
/-
  The kernel program's dataflow as functions on arrays.

  One layer: the pre-activation (1 + eps) · h + neighbour sums, formed on the host by a scalar addition, a scalar
  broadcast, a product and a sum; the two biases recast as one-row matrices; the dense-dense region's three results
  (hidden features, column sums, column sums of squares); then on the host the column mean (sums over the row count's
  word), the mean of squares, their moment difference as the variance, the inverse root of variance plus offset; mean,
  inverse deviation, scale and shift recast as one-row matrices; and the normalisation region's result.
  The network: three such layers, then the readout region on the last layer's result with its bias recast as a one-row
  matrix.  Every host operation is spelled as the program prints it, at the ideal values.
-/
import proofs.«178507_j28741921144979_1_alg».proof.KernelIdeal
import proofs.«178507_j28741921144979_1_alg».proof.Proof.Gen.KernelIdeal
import proofs.«178507_j28741921144979_1_alg».proof.Proof.Spec

noncomputable section

namespace Cert.Gin.K

open Idealize.ShloMosaic Cert.KernelIdeal Cert.KernelIdeal.Facts₀

/-- A vector of 64 recast as a one-row matrix (the program's reshape [64] → [1, 64]). -/
def row64 (b : A1 64) : A2 1 64 := shapeCast S1x64 b shapeCasts_S64_S1x64

/-- A one-row matrix recast as a vector of 64 (the program's reshape [1, 64] → [64]). -/
def col64 (s : A2 1 64) : A1 64 := shapeCast S64 s shapeCasts_S1x64_S64

/-- A vector of 16 recast as a one-row matrix (the program's reshape [16] → [1, 16]). -/
def row16 (b : A1 16) : A2 1 16 := shapeCast S1x16 b shapeCasts_S16_S1x16

/-- The pre-activation as the host forms it: the scalar 1 + eps broadcast over the matrix, times h, plus the
    neighbour sums. -/
def preA (agg h : A2 100000 64) (eps : A0) : A2 100000 64 :=
  addf (mulf (broadcastInDim S100000x64 ![] bcast_S_S100000x64
    (addf (constant (F := Ideal) S_ .f32 0x3F800000#32) eps)) h) agg

/-- A one-row matrix of column totals divided, column by column, by the row count's word broadcast to 64 columns. -/
def overN (s : A2 1 64) : A1 64 :=
  Host.divf (F := Ideal) (col64 s) (broadcastInDim S64 ![] bcast_S_S64 (constant (F := Ideal) S_ .f32 0x47C35000#32))

/-- The inverse deviation as the host forms it from the column sums and the column sums of squares: the inverse root
    of (mean of squares − mean · mean) + offset. -/
def istdA (s ss : A2 1 64) : A1 64 :=
  Host.rsqrt (F := Ideal)
    (addf (subf (overN ss) (mulf (overN s) (overN s)))
      (broadcastInDim S64 ![] bcast_S_S64 (constant (F := Ideal) S_ .f32 0x3727C5AC#32)))

/-- One layer of the kernel program: host operations as printed, `Ag h` for the neighbour sums, and the two regions'
    results as functions of the arrays they read. -/
def layerA (Ag : A2 100000 64 → A2 100000 64) (h : A2 100000 64) (eps : A0)
    (w1 : A2 64 64) (b1 : A1 64) (w2 : A2 64 64) (b2 g bt : A1 64) : A2 100000 64 :=
  normA (hiddenA (preA (Ag h) h eps) w1 (row64 b1) w2 (row64 b2))
    (row64 (overN (sumA (preA (Ag h) h eps) w1 (row64 b1) w2 (row64 b2))))
    (row64 (istdA (sumA (preA (Ag h) h eps) w1 (row64 b1) w2 (row64 b2))
                  (sumsqA (preA (Ag h) h eps) w1 (row64 b1) w2 (row64 b2))))
    (row64 g) (row64 bt)

/-- The kernel program's network: three layers, then the readout region. -/
def netA (Ag : A2 100000 64 → A2 100000 64) (x : A2 100000 64)
    (e1 : A0) (w11 : A2 64 64) (b11 : A1 64) (w12 : A2 64 64) (b12 g1 bt1 : A1 64)
    (e2 : A0) (w21 : A2 64 64) (b21 : A1 64) (w22 : A2 64 64) (b22 g2 bt2 : A1 64)
    (e3 : A0) (w31 : A2 64 64) (b31 : A1 64) (w32 : A2 64 64) (b32 g3 bt3 : A1 64)
    (wl : A2 64 16) (bl : A1 16) : A2 100000 16 :=
  readoutA
    (layerA Ag (layerA Ag (layerA Ag x e1 w11 b11 w12 b12 g1 bt1) e2 w21 b21 w22 b22 g2 bt2)
      e3 w31 b31 w32 b32 g3 bt3)
    wl (row16 bl)

end Cert.Gin.K

end
-- ==== Proof.KChainHost.lean ====
/-
  The host stretches of the kernel program read as functions of the buffers they find.

  Before each dense-dense region the host forms the pre-activation (1 + eps) · h + neighbour sums and recasts the two
  biases as one-row matrices; before each normalisation region it forms the column mean and the inverse deviation from
  the region's column sums and column sums of squares and recasts mean, inverse deviation, scale and shift as one-row
  matrices; before the readout region it recasts the readout bias.  The first stretch also cuts the edge list's two
  rows out and flattens them; the later stretches reuse those two buffers.
-/
import proofs.«178507_j28741921144979_1_alg».proof.Proof.Gen.KernelIdeal.Frame
import Idealize.ShloMosaic.PureOps.Ideal
import proofs.«178507_j28741921144979_1_alg».proof.Proof.KAgg
import proofs.«178507_j28741921144979_1_alg».proof.Proof.KDefs

set_option maxRecDepth 16384

noncomputable section

namespace Cert.Gin.KChain

open Idealize.ShloMosaic Idealize.ShloMosaic.TcCoe Idealize.ShloMosaic.StableHlo
open Cert.KernelIdeal Cert.KernelIdeal.Gen

variable (Vv : Valuation τ sig (Elt Ideal))

/-! ## The first stretch -/

theorem h0_src : after hostOps0 Vv (Proc.devRef .tc main_v1) = K.src (Vv (Proc.devRef .tc main_arg1)) := by
  dsimp only [hostOps0]; after_results; rfl
theorem h0_dst : after hostOps0 Vv (Proc.devRef .tc main_v3) = K.dst (Vv (Proc.devRef .tc main_arg1)) := by
  dsimp only [hostOps0]; after_results; rfl
theorem h0_P : after hostOps0 Vv (Proc.devRef .tc main_v17)
    = K.preA (K.agg (Vv (Proc.devRef .tc main_arg1)) (Vv (Proc.devRef .tc main_arg0))) (Vv (Proc.devRef .tc main_arg0)) (Vv (Proc.devRef .tc main_arg2)) := by
  dsimp only [hostOps0]; after_results_simp; rfl
theorem h0_b1 : after hostOps0 Vv (Proc.devRef .tc main_v18) = K.row64 (Vv (Proc.devRef .tc main_arg4)) := by
  dsimp only [hostOps0]; after_results; rfl
theorem h0_b2 : after hostOps0 Vv (Proc.devRef .tc main_v19) = K.row64 (Vv (Proc.devRef .tc main_arg6)) := by
  dsimp only [hostOps0]; after_results; rfl

/-! ## The stretch before layer 2's dense-dense region -/

theorem h2_P (ei : K.Edges) (hs : Vv (Proc.devRef .tc main_v1) = K.src ei) (hd : Vv (Proc.devRef .tc main_v3) = K.dst ei) :
    after hostOps2 Vv (Proc.devRef .tc main_v50)
      = K.preA (K.agg ei (Vv (Proc.devRef .tc main_v36))) (Vv (Proc.devRef .tc main_v36)) (Vv (Proc.devRef .tc main_arg9)) := by
  dsimp only [hostOps2]; after_results_simp; rw [hs, hd]; rfl
theorem h2_b1 : after hostOps2 Vv (Proc.devRef .tc main_v51) = K.row64 (Vv (Proc.devRef .tc main_arg11)) := by
  dsimp only [hostOps2]; after_results; rfl
theorem h2_b2 : after hostOps2 Vv (Proc.devRef .tc main_v52) = K.row64 (Vv (Proc.devRef .tc main_arg13)) := by
  dsimp only [hostOps2]; after_results; rfl

/-! ## The stretch before layer 3's dense-dense region -/

theorem h4_P (ei : K.Edges) (hs : Vv (Proc.devRef .tc main_v1) = K.src ei) (hd : Vv (Proc.devRef .tc main_v3) = K.dst ei) :
    after hostOps4 Vv (Proc.devRef .tc main_v83)
      = K.preA (K.agg ei (Vv (Proc.devRef .tc main_v69))) (Vv (Proc.devRef .tc main_v69)) (Vv (Proc.devRef .tc main_arg16)) := by
  dsimp only [hostOps4]; after_results_simp; rw [hs, hd]; rfl
theorem h4_b1 : after hostOps4 Vv (Proc.devRef .tc main_v84) = K.row64 (Vv (Proc.devRef .tc main_arg18)) := by
  dsimp only [hostOps4]; after_results; rfl
theorem h4_b2 : after hostOps4 Vv (Proc.devRef .tc main_v85) = K.row64 (Vv (Proc.devRef .tc main_arg20)) := by
  dsimp only [hostOps4]; after_results; rfl

/-! ## The stretch before layer 1's normalisation region -/

theorem h1_mu : after hostOps1 Vv (Proc.devRef .tc main_v32) = K.row64 (K.overN (Vv (Proc.devRef .tc main_v20_1))) := by
  dsimp only [hostOps1]; after_results; rfl
theorem h1_istd : after hostOps1 Vv (Proc.devRef .tc main_v33)
    = K.row64 (K.istdA (Vv (Proc.devRef .tc main_v20_1)) (Vv (Proc.devRef .tc main_v20_2))) := by
  dsimp only [hostOps1]; after_results; rfl
theorem h1_g : after hostOps1 Vv (Proc.devRef .tc main_v34) = K.row64 (Vv (Proc.devRef .tc main_arg7)) := by
  dsimp only [hostOps1]; after_results; rfl
theorem h1_bt : after hostOps1 Vv (Proc.devRef .tc main_v35) = K.row64 (Vv (Proc.devRef .tc main_arg8)) := by
  dsimp only [hostOps1]; after_results; rfl

/-! ## The stretch before layer 2's normalisation region -/

theorem h3_mu : after hostOps3 Vv (Proc.devRef .tc main_v65) = K.row64 (K.overN (Vv (Proc.devRef .tc main_v53_1))) := by
  dsimp only [hostOps3]; after_results; rfl
theorem h3_istd : after hostOps3 Vv (Proc.devRef .tc main_v66)
    = K.row64 (K.istdA (Vv (Proc.devRef .tc main_v53_1)) (Vv (Proc.devRef .tc main_v53_2))) := by
  dsimp only [hostOps3]; after_results; rfl
theorem h3_g : after hostOps3 Vv (Proc.devRef .tc main_v67) = K.row64 (Vv (Proc.devRef .tc main_arg14)) := by
  dsimp only [hostOps3]; after_results; rfl
theorem h3_bt : after hostOps3 Vv (Proc.devRef .tc main_v68) = K.row64 (Vv (Proc.devRef .tc main_arg15)) := by
  dsimp only [hostOps3]; after_results; rfl

/-! ## The stretch before layer 3's normalisation region -/

theorem h5_mu : after hostOps5 Vv (Proc.devRef .tc main_v98) = K.row64 (K.overN (Vv (Proc.devRef .tc main_v86_1))) := by
  dsimp only [hostOps5]; after_results; rfl
theorem h5_istd : after hostOps5 Vv (Proc.devRef .tc main_v99)
    = K.row64 (K.istdA (Vv (Proc.devRef .tc main_v86_1)) (Vv (Proc.devRef .tc main_v86_2))) := by
  dsimp only [hostOps5]; after_results; rfl
theorem h5_g : after hostOps5 Vv (Proc.devRef .tc main_v100) = K.row64 (Vv (Proc.devRef .tc main_arg21)) := by
  dsimp only [hostOps5]; after_results; rfl
theorem h5_bt : after hostOps5 Vv (Proc.devRef .tc main_v101) = K.row64 (Vv (Proc.devRef .tc main_arg22)) := by
  dsimp only [hostOps5]; after_results; rfl

/-! ## The stretch before the readout region -/

theorem h6_bl : after hostOps6 Vv (Proc.devRef .tc main_v103) = K.row16 (Vv (Proc.devRef .tc main_arg24)) := by
  dsimp only [hostOps6]; after_results; rfl

end Cert.Gin.KChain

end
-- ==== Proof.KChainHyp.lean ====
/-
  What each region of the kernel program leaves in its output windows, as statements about any entry contents, and
  the congruences of the five array functions.  A dense-dense region leaves the hidden features, their column sums and
  their column sums of squares; a normalisation region leaves the normalised features; the readout region leaves
  the readout.  Each is a function of the arrays the region's input windows read.
-/
import proofs.«178507_j28741921144979_1_alg».proof.Proof.Gen.KernelIdeal.Frame
import Idealize.ShloMosaic.PureOps.Ideal
import proofs.«178507_j28741921144979_1_alg».proof.Proof.Spec

set_option maxRecDepth 16384

noncomputable section

namespace Cert.Gin.KChain

open Idealize.ShloMosaic Idealize.ShloMosaic.TcCoe
open Cert.KernelIdeal Cert.KernelIdeal.Gen

/-- Region 0 leaves the hidden features in window 5. -/
abbrev HypH0 : Prop := ∀ (V : (c : Dev nD) → (b : Ref sig .tc) → Buf (Elt Ideal) ((c : Thread nD τ).loc b)) (c : Dev nD),
  (dat0 (F := Ideal) V c).arrAt 5 cfg0.N = hiddenA (V c (Pipeline.arrRef spec0 0)) (V c (Pipeline.arrRef spec0 1)) (V c (Pipeline.arrRef spec0 2)) (V c (Pipeline.arrRef spec0 3)) (V c (Pipeline.arrRef spec0 4))
/-- Region 0 leaves the column sums in window 6. -/
abbrev HypS0 : Prop := ∀ (V : (c : Dev nD) → (b : Ref sig .tc) → Buf (Elt Ideal) ((c : Thread nD τ).loc b)) (c : Dev nD),
  (dat0 (F := Ideal) V c).arrAt 6 cfg0.N = sumA (V c (Pipeline.arrRef spec0 0)) (V c (Pipeline.arrRef spec0 1)) (V c (Pipeline.arrRef spec0 2)) (V c (Pipeline.arrRef spec0 3)) (V c (Pipeline.arrRef spec0 4))
/-- Region 0 leaves the column sums of squares in window 7. -/
abbrev HypQ0 : Prop := ∀ (V : (c : Dev nD) → (b : Ref sig .tc) → Buf (Elt Ideal) ((c : Thread nD τ).loc b)) (c : Dev nD),
  (dat0 (F := Ideal) V c).arrAt 7 cfg0.N = sumsqA (V c (Pipeline.arrRef spec0 0)) (V c (Pipeline.arrRef spec0 1)) (V c (Pipeline.arrRef spec0 2)) (V c (Pipeline.arrRef spec0 3)) (V c (Pipeline.arrRef spec0 4))
/-- Region 2 leaves the hidden features in window 5. -/
abbrev HypH2 : Prop := ∀ (V : (c : Dev nD) → (b : Ref sig .tc) → Buf (Elt Ideal) ((c : Thread nD τ).loc b)) (c : Dev nD),
  (dat2 (F := Ideal) V c).arrAt 5 cfg2.N = hiddenA (V c (Pipeline.arrRef spec2 0)) (V c (Pipeline.arrRef spec2 1)) (V c (Pipeline.arrRef spec2 2)) (V c (Pipeline.arrRef spec2 3)) (V c (Pipeline.arrRef spec2 4))
/-- Region 2 leaves the column sums in window 6. -/
abbrev HypS2 : Prop := ∀ (V : (c : Dev nD) → (b : Ref sig .tc) → Buf (Elt Ideal) ((c : Thread nD τ).loc b)) (c : Dev nD),
  (dat2 (F := Ideal) V c).arrAt 6 cfg2.N = sumA (V c (Pipeline.arrRef spec2 0)) (V c (Pipeline.arrRef spec2 1)) (V c (Pipeline.arrRef spec2 2)) (V c (Pipeline.arrRef spec2 3)) (V c (Pipeline.arrRef spec2 4))
/-- Region 2 leaves the column sums of squares in window 7. -/
abbrev HypQ2 : Prop := ∀ (V : (c : Dev nD) → (b : Ref sig .tc) → Buf (Elt Ideal) ((c : Thread nD τ).loc b)) (c : Dev nD),
  (dat2 (F := Ideal) V c).arrAt 7 cfg2.N = sumsqA (V c (Pipeline.arrRef spec2 0)) (V c (Pipeline.arrRef spec2 1)) (V c (Pipeline.arrRef spec2 2)) (V c (Pipeline.arrRef spec2 3)) (V c (Pipeline.arrRef spec2 4))
/-- Region 4 leaves the hidden features in window 5. -/
abbrev HypH4 : Prop := ∀ (V : (c : Dev nD) → (b : Ref sig .tc) → Buf (Elt Ideal) ((c : Thread nD τ).loc b)) (c : Dev nD),
  (dat4 (F := Ideal) V c).arrAt 5 cfg4.N = hiddenA (V c (Pipeline.arrRef spec4 0)) (V c (Pipeline.arrRef spec4 1)) (V c (Pipeline.arrRef spec4 2)) (V c (Pipeline.arrRef spec4 3)) (V c (Pipeline.arrRef spec4 4))
/-- Region 4 leaves the column sums in window 6. -/
abbrev HypS4 : Prop := ∀ (V : (c : Dev nD) → (b : Ref sig .tc) → Buf (Elt Ideal) ((c : Thread nD τ).loc b)) (c : Dev nD),
  (dat4 (F := Ideal) V c).arrAt 6 cfg4.N = sumA (V c (Pipeline.arrRef spec4 0)) (V c (Pipeline.arrRef spec4 1)) (V c (Pipeline.arrRef spec4 2)) (V c (Pipeline.arrRef spec4 3)) (V c (Pipeline.arrRef spec4 4))
/-- Region 4 leaves the column sums of squares in window 7. -/
abbrev HypQ4 : Prop := ∀ (V : (c : Dev nD) → (b : Ref sig .tc) → Buf (Elt Ideal) ((c : Thread nD τ).loc b)) (c : Dev nD),
  (dat4 (F := Ideal) V c).arrAt 7 cfg4.N = sumsqA (V c (Pipeline.arrRef spec4 0)) (V c (Pipeline.arrRef spec4 1)) (V c (Pipeline.arrRef spec4 2)) (V c (Pipeline.arrRef spec4 3)) (V c (Pipeline.arrRef spec4 4))
/-- Region 1 leaves the normalised features in window 5. -/
abbrev HypN1 : Prop := ∀ (V : (c : Dev nD) → (b : Ref sig .tc) → Buf (Elt Ideal) ((c : Thread nD τ).loc b)) (c : Dev nD),
  (dat1 (F := Ideal) V c).arrAt 5 cfg1.N = normA (V c (Pipeline.arrRef spec1 0)) (V c (Pipeline.arrRef spec1 1)) (V c (Pipeline.arrRef spec1 2)) (V c (Pipeline.arrRef spec1 3)) (V c (Pipeline.arrRef spec1 4))
/-- Region 3 leaves the normalised features in window 5. -/
abbrev HypN3 : Prop := ∀ (V : (c : Dev nD) → (b : Ref sig .tc) → Buf (Elt Ideal) ((c : Thread nD τ).loc b)) (c : Dev nD),
  (dat3 (F := Ideal) V c).arrAt 5 cfg3.N = normA (V c (Pipeline.arrRef spec3 0)) (V c (Pipeline.arrRef spec3 1)) (V c (Pipeline.arrRef spec3 2)) (V c (Pipeline.arrRef spec3 3)) (V c (Pipeline.arrRef spec3 4))
/-- Region 5 leaves the normalised features in window 5. -/
abbrev HypN5 : Prop := ∀ (V : (c : Dev nD) → (b : Ref sig .tc) → Buf (Elt Ideal) ((c : Thread nD τ).loc b)) (c : Dev nD),
  (dat5 (F := Ideal) V c).arrAt 5 cfg5.N = normA (V c (Pipeline.arrRef spec5 0)) (V c (Pipeline.arrRef spec5 1)) (V c (Pipeline.arrRef spec5 2)) (V c (Pipeline.arrRef spec5 3)) (V c (Pipeline.arrRef spec5 4))
/-- Region 6 leaves the readout in window 3. -/
abbrev HypR6 : Prop := ∀ (V : (c : Dev nD) → (b : Ref sig .tc) → Buf (Elt Ideal) ((c : Thread nD τ).loc b)) (c : Dev nD),
  (dat6 (F := Ideal) V c).arrAt 3 cfg6.N = readoutA (V c (Pipeline.arrRef spec6 0)) (V c (Pipeline.arrRef spec6 1)) (V c (Pipeline.arrRef spec6 2))

/-! ## Congruences -/

theorem hiddenA_congr {P P' : A2 100000 64} {w1 w1' : A2 64 64} {b1 b1' : A2 1 64} {w2 w2' : A2 64 64} {b2 b2' : A2 1 64}
    (hP : P = P') (hw1 : w1 = w1') (hb1 : b1 = b1') (hw2 : w2 = w2') (hb2 : b2 = b2') :
    hiddenA P w1 b1 w2 b2 = hiddenA P' w1' b1' w2' b2' := by
  subst hP hw1 hb1 hw2 hb2; rfl
theorem sumA_congr {P P' : A2 100000 64} {w1 w1' : A2 64 64} {b1 b1' : A2 1 64} {w2 w2' : A2 64 64} {b2 b2' : A2 1 64}
    (hP : P = P') (hw1 : w1 = w1') (hb1 : b1 = b1') (hw2 : w2 = w2') (hb2 : b2 = b2') :
    sumA P w1 b1 w2 b2 = sumA P' w1' b1' w2' b2' := by
  subst hP hw1 hb1 hw2 hb2; rfl
theorem sumsqA_congr {P P' : A2 100000 64} {w1 w1' : A2 64 64} {b1 b1' : A2 1 64} {w2 w2' : A2 64 64} {b2 b2' : A2 1 64}
    (hP : P = P') (hw1 : w1 = w1') (hb1 : b1 = b1') (hw2 : w2 = w2') (hb2 : b2 = b2') :
    sumsqA P w1 b1 w2 b2 = sumsqA P' w1' b1' w2' b2' := by
  subst hP hw1 hb1 hw2 hb2; rfl
theorem normA_congr {H H' : A2 100000 64} {mu mu' istd istd' g g' bt bt' : A2 1 64}
    (hH : H = H') (hmu : mu = mu') (hi : istd = istd') (hg : g = g') (hbt : bt = bt') :
    normA H mu istd g bt = normA H' mu' istd' g' bt' := by
  subst hH hmu hi hg hbt; rfl
theorem readoutA_congr {x x' : A2 100000 64} {w w' : A2 64 16} {b b' : A2 1 16}
    (hx : x = x') (hw : w = w') (hb : b = b') : readoutA x w b = readoutA x' w' b' := by
  subst hx hw hb; rfl

end Cert.Gin.KChain

end
-- ==== Proof.KChainL1.lean ====
/-
  Layer 1 of the kernel program's run, read back through its four segments: the host stretch forming the
  pre-activation, the dense-dense region, the host stretch forming mean and inverse deviation, the normalisation
  region.  The layer's result buffer holds the layer function of the layer's input and its eight parameter arrays.
-/
import proofs.«178507_j28741921144979_1_alg».proof.Proof.KChainArgs
import proofs.«178507_j28741921144979_1_alg».proof.Proof.KChainHost
import proofs.«178507_j28741921144979_1_alg».proof.Proof.KChainHyp

set_option maxRecDepth 16384

noncomputable section

namespace Cert.Gin.KChain

open Idealize.ShloMosaic Idealize.ShloMosaic.TcCoe
open Cert.KernelIdeal Cert.KernelIdeal.Gen

variable (m : (ℓ : Loc nD τ sig) → Buf (Elt Ideal) ℓ) (ρ : Dev nD → PrngReg)

section
variable (ei : K.Edges) (c : Dev nD)

/-! ## After the first host stretch: the dense-dense region's five inputs -/

theorem L1_P (he : ei = (m ((c : Thread nD τ).loc main_arg1))) :
    W1 m ρ c (Proc.devRef .tc main_v17) = (K.preA (K.agg ei (m ((c : Thread nD τ).loc main_arg0))) (m ((c : Thread nD τ).loc main_arg0)) (m ((c : Thread nD τ).loc main_arg2))) := by
  subst he
  exact h0_P (W0 m ρ c)
theorem L1_b1 : W1 m ρ c (Proc.devRef .tc main_v18) = K.row64 (m ((c : Thread nD τ).loc main_arg4)) :=
  (h0_b1 (W0 m ρ c)).trans (congrArg K.row64 (W0_args m ρ c main_arg4 (by decide)))
theorem L1_b2 : W1 m ρ c (Proc.devRef .tc main_v19) = K.row64 (m ((c : Thread nD τ).loc main_arg6)) :=
  (h0_b2 (W0 m ρ c)).trans (congrArg K.row64 (W0_args m ρ c main_arg6 (by decide)))

/-! ## After the dense-dense region: hidden features, column sums, column sums of squares -/

theorem L1_H (he : ei = (m ((c : Thread nD τ).loc main_arg1))) (hH : HypH0) :
    W2 m ρ c (Proc.devRef .tc main_v20_0) = (hiddenA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6)))) :=
  calc W2 m ρ c (Proc.devRef .tc main_v20_0)
    _ = hiddenA (W1 m ρ c (Proc.devRef .tc main_v17)) (W1 m ρ c (Proc.devRef .tc main_arg3)) (W1 m ρ c (Proc.devRef .tc main_v18)) (W1 m ρ c (Proc.devRef .tc main_arg5)) (W1 m ρ c (Proc.devRef .tc main_v19)) :=
        (W2_arr m ρ c 5).trans (hH (V1 m ρ) c)
    _ = _ := hiddenA_congr (L1_P m ρ ei c he) (W1_args m ρ c main_arg3 (by decide)) (L1_b1 m ρ c)
        (W1_args m ρ c main_arg5 (by decide)) (L1_b2 m ρ c)
theorem L1_S (he : ei = (m ((c : Thread nD τ).loc main_arg1))) (hS : HypS0) :
    W2 m ρ c (Proc.devRef .tc main_v20_1) = (sumA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6)))) :=
  calc W2 m ρ c (Proc.devRef .tc main_v20_1)
    _ = sumA (W1 m ρ c (Proc.devRef .tc main_v17)) (W1 m ρ c (Proc.devRef .tc main_arg3)) (W1 m ρ c (Proc.devRef .tc main_v18)) (W1 m ρ c (Proc.devRef .tc main_arg5)) (W1 m ρ c (Proc.devRef .tc main_v19)) :=
        (W2_arr m ρ c 6).trans (hS (V1 m ρ) c)
    _ = _ := sumA_congr (L1_P m ρ ei c he) (W1_args m ρ c main_arg3 (by decide)) (L1_b1 m ρ c)
        (W1_args m ρ c main_arg5 (by decide)) (L1_b2 m ρ c)
theorem L1_Q (he : ei = (m ((c : Thread nD τ).loc main_arg1))) (hQ : HypQ0) :
    W2 m ρ c (Proc.devRef .tc main_v20_2) = (sumsqA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6)))) :=
  calc W2 m ρ c (Proc.devRef .tc main_v20_2)
    _ = sumsqA (W1 m ρ c (Proc.devRef .tc main_v17)) (W1 m ρ c (Proc.devRef .tc main_arg3)) (W1 m ρ c (Proc.devRef .tc main_v18)) (W1 m ρ c (Proc.devRef .tc main_arg5)) (W1 m ρ c (Proc.devRef .tc main_v19)) :=
        (W2_arr m ρ c 7).trans (hQ (V1 m ρ) c)
    _ = _ := sumsqA_congr (L1_P m ρ ei c he) (W1_args m ρ c main_arg3 (by decide)) (L1_b1 m ρ c)
        (W1_args m ρ c main_arg5 (by decide)) (L1_b2 m ρ c)

/-! ## After the second host stretch and the normalisation region: the layer's result -/

theorem L1_out (he : ei = (m ((c : Thread nD τ).loc main_arg1))) (hH : HypH0) (hS : HypS0) (hQ : HypQ0) (hN : HypN1) :
    W4 m ρ c (Proc.devRef .tc main_v36)
      = K.layerA (K.agg ei) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc W4 m ρ c (Proc.devRef .tc main_v36)
    _ = normA (W3 m ρ c (Proc.devRef .tc main_v20_0)) (W3 m ρ c (Proc.devRef .tc main_v32)) (W3 m ρ c (Proc.devRef .tc main_v33)) (W3 m ρ c (Proc.devRef .tc main_v34)) (W3 m ρ c (Proc.devRef .tc main_v35)) :=
        (W4_arr m ρ c 5).trans (hN (V3 m ρ) c)
    _ = normA (hiddenA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6))))
          (K.row64 (K.overN (sumA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6))))))
          (K.row64 (K.istdA (sumA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6)))) (sumsqA (K.preA (K.agg ei (m ((c : Thread nD τ).loc main_arg0))) (m ((c : Thread nD τ).loc main_arg0)) (m ((c : Thread nD τ).loc main_arg2))) (m ((c : Thread nD τ).loc main_arg3)) (K.row64 (m ((c : Thread nD τ).loc main_arg4))) (m ((c : Thread nD τ).loc main_arg5)) (K.row64 (m ((c : Thread nD τ).loc main_arg6))))))
          (K.row64 (m ((c : Thread nD τ).loc main_arg7))) (K.row64 (m ((c : Thread nD τ).loc main_arg8))) :=
        normA_congr
          ((keepH1 (W2 m ρ c) main_v20_0 (by decide)).trans (L1_H m ρ ei c he hH))
          ((h1_mu (W2 m ρ c)).trans (congrArg (fun s => K.row64 (K.overN s)) (L1_S m ρ ei c he hS)))
          ((h1_istd (W2 m ρ c)).trans (congrArg₂ (fun s q => K.row64 (K.istdA s q))
            (L1_S m ρ ei c he hS) (L1_Q m ρ ei c he hQ)))
          ((h1_g (W2 m ρ c)).trans (congrArg K.row64 (W2_args m ρ c main_arg7 (by decide))))
          ((h1_bt (W2 m ρ c)).trans (congrArg K.row64 (W2_args m ρ c main_arg8 (by decide))))
    _ = _ := rfl

end

end Cert.Gin.KChain

end
-- ==== Proof.KChainL2.lean ====
/-
  Layer 2 of the kernel program's run, read back through its four segments: the host stretch forming the
  pre-activation, the dense-dense region, the host stretch forming mean and inverse deviation, the normalisation
  region.  The layer's result buffer holds the layer function of the layer's input and its eight parameter arrays.
-/
import proofs.«178507_j28741921144979_1_alg».proof.Proof.KChainArgs
import proofs.«178507_j28741921144979_1_alg».proof.Proof.KChainHost
import proofs.«178507_j28741921144979_1_alg».proof.Proof.KChainHyp

set_option maxRecDepth 16384

noncomputable section

namespace Cert.Gin.KChain

open Idealize.ShloMosaic Idealize.ShloMosaic.TcCoe
open Cert.KernelIdeal Cert.KernelIdeal.Gen

variable (m : (ℓ : Loc nD τ sig) → Buf (Elt Ideal) ℓ) (ρ : Dev nD → PrngReg)

section
variable (ei : K.Edges) (c : Dev nD)

/-! ## After the first host stretch: the dense-dense region's five inputs -/

theorem L2_P (hs : W4 m ρ c (Proc.devRef .tc main_v1) = K.src ei) (hd : W4 m ρ c (Proc.devRef .tc main_v3) = K.dst ei) :
    W5 m ρ c (Proc.devRef .tc main_v50) = (K.preA (K.agg ei (W4 m ρ c (Proc.devRef .tc main_v36))) (W4 m ρ c (Proc.devRef .tc main_v36)) (m ((c : Thread nD τ).loc main_arg9))) := by
  exact (h2_P (W4 m ρ c) ei hs hd).trans (congrArg (K.preA _ _) (W4_args m ρ c main_arg9 (by decide)))
theorem L2_b1 : W5 m ρ c (Proc.devRef .tc main_v51) = K.row64 (m ((c : Thread nD τ).loc main_arg11)) :=
  (h2_b1 (W4 m ρ c)).trans (congrArg K.row64 (W4_args m ρ c main_arg11 (by decide)))
theorem L2_b2 : W5 m ρ c (Proc.devRef .tc main_v52) = K.row64 (m ((c : Thread nD τ).loc main_arg13)) :=
  (h2_b2 (W4 m ρ c)).trans (congrArg K.row64 (W4_args m ρ c main_arg13 (by decide)))

/-! ## After the dense-dense region: hidden features, column sums, column sums of squares -/

theorem L2_H (hs : W4 m ρ c (Proc.devRef .tc main_v1) = K.src ei) (hd : W4 m ρ c (Proc.devRef .tc main_v3) = K.dst ei) (hH : HypH2) :
    W6 m ρ c (Proc.devRef .tc main_v53_0) = (hiddenA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13)))) :=
  calc W6 m ρ c (Proc.devRef .tc main_v53_0)
    _ = hiddenA (W5 m ρ c (Proc.devRef .tc main_v50)) (W5 m ρ c (Proc.devRef .tc main_arg10)) (W5 m ρ c (Proc.devRef .tc main_v51)) (W5 m ρ c (Proc.devRef .tc main_arg12)) (W5 m ρ c (Proc.devRef .tc main_v52)) :=
        (W6_arr m ρ c 5).trans (hH (V5 m ρ) c)
    _ = _ := hiddenA_congr (L2_P m ρ ei c hs hd) (W5_args m ρ c main_arg10 (by decide)) (L2_b1 m ρ c)
        (W5_args m ρ c main_arg12 (by decide)) (L2_b2 m ρ c)
theorem L2_S (hs : W4 m ρ c (Proc.devRef .tc main_v1) = K.src ei) (hd : W4 m ρ c (Proc.devRef .tc main_v3) = K.dst ei) (hS : HypS2) :
    W6 m ρ c (Proc.devRef .tc main_v53_1) = (sumA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13)))) :=
  calc W6 m ρ c (Proc.devRef .tc main_v53_1)
    _ = sumA (W5 m ρ c (Proc.devRef .tc main_v50)) (W5 m ρ c (Proc.devRef .tc main_arg10)) (W5 m ρ c (Proc.devRef .tc main_v51)) (W5 m ρ c (Proc.devRef .tc main_arg12)) (W5 m ρ c (Proc.devRef .tc main_v52)) :=
        (W6_arr m ρ c 6).trans (hS (V5 m ρ) c)
    _ = _ := sumA_congr (L2_P m ρ ei c hs hd) (W5_args m ρ c main_arg10 (by decide)) (L2_b1 m ρ c)
        (W5_args m ρ c main_arg12 (by decide)) (L2_b2 m ρ c)
theorem L2_Q (hs : W4 m ρ c (Proc.devRef .tc main_v1) = K.src ei) (hd : W4 m ρ c (Proc.devRef .tc main_v3) = K.dst ei) (hQ : HypQ2) :
    W6 m ρ c (Proc.devRef .tc main_v53_2) = (sumsqA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13)))) :=
  calc W6 m ρ c (Proc.devRef .tc main_v53_2)
    _ = sumsqA (W5 m ρ c (Proc.devRef .tc main_v50)) (W5 m ρ c (Proc.devRef .tc main_arg10)) (W5 m ρ c (Proc.devRef .tc main_v51)) (W5 m ρ c (Proc.devRef .tc main_arg12)) (W5 m ρ c (Proc.devRef .tc main_v52)) :=
        (W6_arr m ρ c 7).trans (hQ (V5 m ρ) c)
    _ = _ := sumsqA_congr (L2_P m ρ ei c hs hd) (W5_args m ρ c main_arg10 (by decide)) (L2_b1 m ρ c)
        (W5_args m ρ c main_arg12 (by decide)) (L2_b2 m ρ c)

/-! ## After the second host stretch and the normalisation region: the layer's result -/

theorem L2_out (hs : W4 m ρ c (Proc.devRef .tc main_v1) = K.src ei) (hd : W4 m ρ c (Proc.devRef .tc main_v3) = K.dst ei) (hH : HypH2) (hS : HypS2) (hQ : HypQ2) (hN : HypN3) :
    W8 m ρ c (Proc.devRef .tc main_v69)
      = K.layerA (K.agg ei) (W4 m ρ c (Proc.devRef .tc main_v36)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  calc W8 m ρ c (Proc.devRef .tc main_v69)
    _ = normA (W7 m ρ c (Proc.devRef .tc main_v53_0)) (W7 m ρ c (Proc.devRef .tc main_v65)) (W7 m ρ c (Proc.devRef .tc main_v66)) (W7 m ρ c (Proc.devRef .tc main_v67)) (W7 m ρ c (Proc.devRef .tc main_v68)) :=
        (W8_arr m ρ c 5).trans (hN (V7 m ρ) c)
    _ = normA (hiddenA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13))))
          (K.row64 (K.overN (sumA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13))))))
          (K.row64 (K.istdA (sumA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13)))) (sumsqA (K.preA (K.agg ei (W4 m ρ c (Proc.devRef .tc main_v36))) (W4 m ρ c (Proc.devRef .tc main_v36)) (m ((c : Thread nD τ).loc main_arg9))) (m ((c : Thread nD τ).loc main_arg10)) (K.row64 (m ((c : Thread nD τ).loc main_arg11))) (m ((c : Thread nD τ).loc main_arg12)) (K.row64 (m ((c : Thread nD τ).loc main_arg13))))))
          (K.row64 (m ((c : Thread nD τ).loc main_arg14))) (K.row64 (m ((c : Thread nD τ).loc main_arg15))) :=
        normA_congr
          ((keepH3 (W6 m ρ c) main_v53_0 (by decide)).trans (L2_H m ρ ei c hs hd hH))
          ((h3_mu (W6 m ρ c)).trans (congrArg (fun s => K.row64 (K.overN s)) (L2_S m ρ ei c hs hd hS)))
          ((h3_istd (W6 m ρ c)).trans (congrArg₂ (fun s q => K.row64 (K.istdA s q))
            (L2_S m ρ ei c hs hd hS) (L2_Q m ρ ei c hs hd hQ)))
          ((h3_g (W6 m ρ c)).trans (congrArg K.row64 (W6_args m ρ c main_arg14 (by decide))))
          ((h3_bt (W6 m ρ c)).trans (congrArg K.row64 (W6_args m ρ c main_arg15 (by decide))))
    _ = _ := rfl

end

end Cert.Gin.KChain

end
-- ==== Proof.KChainL3.lean ====
/-
  Layer 3 of the kernel program's run, read back through its four segments: the host stretch forming the
  pre-activation, the dense-dense region, the host stretch forming mean and inverse deviation, the normalisation
  region.  The layer's result buffer holds the layer function of the layer's input and its eight parameter arrays.
-/
import proofs.«178507_j28741921144979_1_alg».proof.Proof.KChainArgs
import proofs.«178507_j28741921144979_1_alg».proof.Proof.KChainHost
import proofs.«178507_j28741921144979_1_alg».proof.Proof.KChainHyp

set_option maxRecDepth 16384

noncomputable section

namespace Cert.Gin.KChain

open Idealize.ShloMosaic Idealize.ShloMosaic.TcCoe
open Cert.KernelIdeal Cert.KernelIdeal.Gen

variable (m : (ℓ : Loc nD τ sig) → Buf (Elt Ideal) ℓ) (ρ : Dev nD → PrngReg)

section
variable (ei : K.Edges) (c : Dev nD)

/-! ## After the first host stretch: the dense-dense region's five inputs -/

theorem L3_P (hs : W8 m ρ c (Proc.devRef .tc main_v1) = K.src ei) (hd : W8 m ρ c (Proc.devRef .tc main_v3) = K.dst ei) :
    W9 m ρ c (Proc.devRef .tc main_v83) = (K.preA (K.agg ei (W8 m ρ c (Proc.devRef .tc main_v69))) (W8 m ρ c (Proc.devRef .tc main_v69)) (m ((c : Thread nD τ).loc main_arg16))) := by
  exact (h4_P (W8 m ρ c) ei hs hd).trans (congrArg (K.preA _ _) (W8_args m ρ c main_arg16 (by decide)))
theorem L3_b1 : W9 m ρ c (Proc.devRef .tc main_v84) = K.row64 (m ((c : Thread nD τ).loc main_arg18)) :=
  (h4_b1 (W8 m ρ c)).trans (congrArg K.row64 (W8_args m ρ c main_arg18 (by decide)))
theorem L3_b2 : W9 m ρ c (Proc.devRef .tc main_v85) = K.row64 (m ((c : Thread nD τ).loc main_arg20)) :=
  (h4_b2 (W8 m ρ c)).trans (congrArg K.row64 (W8_args m ρ c main_arg20 (by decide)))

/-! ## After the dense-dense region: hidden features, column sums, column sums of squares -/

theorem L3_H (hs : W8 m ρ c (Proc.devRef .tc main_v1) = K.src ei) (hd : W8 m ρ c (Proc.devRef .tc main_v3) = K.dst ei) (hH : HypH4) :
    W10 m ρ c (Proc.devRef .tc main_v86_0) = (hiddenA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20)))) :=
  calc W10 m ρ c (Proc.devRef .tc main_v86_0)
    _ = hiddenA (W9 m ρ c (Proc.devRef .tc main_v83)) (W9 m ρ c (Proc.devRef .tc main_arg17)) (W9 m ρ c (Proc.devRef .tc main_v84)) (W9 m ρ c (Proc.devRef .tc main_arg19)) (W9 m ρ c (Proc.devRef .tc main_v85)) :=
        (W10_arr m ρ c 5).trans (hH (V9 m ρ) c)
    _ = _ := hiddenA_congr (L3_P m ρ ei c hs hd) (W9_args m ρ c main_arg17 (by decide)) (L3_b1 m ρ c)
        (W9_args m ρ c main_arg19 (by decide)) (L3_b2 m ρ c)
theorem L3_S (hs : W8 m ρ c (Proc.devRef .tc main_v1) = K.src ei) (hd : W8 m ρ c (Proc.devRef .tc main_v3) = K.dst ei) (hS : HypS4) :
    W10 m ρ c (Proc.devRef .tc main_v86_1) = (sumA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20)))) :=
  calc W10 m ρ c (Proc.devRef .tc main_v86_1)
    _ = sumA (W9 m ρ c (Proc.devRef .tc main_v83)) (W9 m ρ c (Proc.devRef .tc main_arg17)) (W9 m ρ c (Proc.devRef .tc main_v84)) (W9 m ρ c (Proc.devRef .tc main_arg19)) (W9 m ρ c (Proc.devRef .tc main_v85)) :=
        (W10_arr m ρ c 6).trans (hS (V9 m ρ) c)
    _ = _ := sumA_congr (L3_P m ρ ei c hs hd) (W9_args m ρ c main_arg17 (by decide)) (L3_b1 m ρ c)
        (W9_args m ρ c main_arg19 (by decide)) (L3_b2 m ρ c)
theorem L3_Q (hs : W8 m ρ c (Proc.devRef .tc main_v1) = K.src ei) (hd : W8 m ρ c (Proc.devRef .tc main_v3) = K.dst ei) (hQ : HypQ4) :
    W10 m ρ c (Proc.devRef .tc main_v86_2) = (sumsqA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20)))) :=
  calc W10 m ρ c (Proc.devRef .tc main_v86_2)
    _ = sumsqA (W9 m ρ c (Proc.devRef .tc main_v83)) (W9 m ρ c (Proc.devRef .tc main_arg17)) (W9 m ρ c (Proc.devRef .tc main_v84)) (W9 m ρ c (Proc.devRef .tc main_arg19)) (W9 m ρ c (Proc.devRef .tc main_v85)) :=
        (W10_arr m ρ c 7).trans (hQ (V9 m ρ) c)
    _ = _ := sumsqA_congr (L3_P m ρ ei c hs hd) (W9_args m ρ c main_arg17 (by decide)) (L3_b1 m ρ c)
        (W9_args m ρ c main_arg19 (by decide)) (L3_b2 m ρ c)

/-! ## After the second host stretch and the normalisation region: the layer's result -/

theorem L3_out (hs : W8 m ρ c (Proc.devRef .tc main_v1) = K.src ei) (hd : W8 m ρ c (Proc.devRef .tc main_v3) = K.dst ei) (hH : HypH4) (hS : HypS4) (hQ : HypQ4) (hN : HypN5) :
    W12 m ρ c (Proc.devRef .tc main_v102)
      = K.layerA (K.agg ei) (W8 m ρ c (Proc.devRef .tc main_v69)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  calc W12 m ρ c (Proc.devRef .tc main_v102)
    _ = normA (W11 m ρ c (Proc.devRef .tc main_v86_0)) (W11 m ρ c (Proc.devRef .tc main_v98)) (W11 m ρ c (Proc.devRef .tc main_v99)) (W11 m ρ c (Proc.devRef .tc main_v100)) (W11 m ρ c (Proc.devRef .tc main_v101)) :=
        (W12_arr m ρ c 5).trans (hN (V11 m ρ) c)
    _ = normA (hiddenA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20))))
          (K.row64 (K.overN (sumA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20))))))
          (K.row64 (K.istdA (sumA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20)))) (sumsqA (K.preA (K.agg ei (W8 m ρ c (Proc.devRef .tc main_v69))) (W8 m ρ c (Proc.devRef .tc main_v69)) (m ((c : Thread nD τ).loc main_arg16))) (m ((c : Thread nD τ).loc main_arg17)) (K.row64 (m ((c : Thread nD τ).loc main_arg18))) (m ((c : Thread nD τ).loc main_arg19)) (K.row64 (m ((c : Thread nD τ).loc main_arg20))))))
          (K.row64 (m ((c : Thread nD τ).loc main_arg21))) (K.row64 (m ((c : Thread nD τ).loc main_arg22))) :=
        normA_congr
          ((keepH5 (W10 m ρ c) main_v86_0 (by decide)).trans (L3_H m ρ ei c hs hd hH))
          ((h5_mu (W10 m ρ c)).trans (congrArg (fun s => K.row64 (K.overN s)) (L3_S m ρ ei c hs hd hS)))
          ((h5_istd (W10 m ρ c)).trans (congrArg₂ (fun s q => K.row64 (K.istdA s q))
            (L3_S m ρ ei c hs hd hS) (L3_Q m ρ ei c hs hd hQ)))
          ((h5_g (W10 m ρ c)).trans (congrArg K.row64 (W10_args m ρ c main_arg21 (by decide))))
          ((h5_bt (W10 m ρ c)).trans (congrArg K.row64 (W10_args m ρ c main_arg22 (by decide))))
    _ = _ := rfl

end

end Cert.Gin.KChain

end
-- ==== Proof.KChainEdges.lean ====
/-
  The two flattened rows of the edge list at the boundaries where a later layer reads them.  The first host stretch
  writes them from the edge list; no later host operation and no region writes them, so the stretches before the
  second and the third layer find them unchanged.
-/
import proofs.«178507_j28741921144979_1_alg».proof.Proof.KChainArgs
import proofs.«178507_j28741921144979_1_alg».proof.Proof.KChainHost

set_option maxRecDepth 16384

noncomputable section

namespace Cert.Gin.KChain

open Idealize.ShloMosaic Idealize.ShloMosaic.TcCoe
open Cert.KernelIdeal Cert.KernelIdeal.Gen

variable (m : (ℓ : Loc nD τ sig) → Buf (Elt Ideal) ℓ) (ρ : Dev nD → PrngReg)

variable (c : Dev nD)

theorem W1_src : W1 m ρ c (Proc.devRef .tc main_v1) = K.src (m ((c : Thread nD τ).loc main_arg1)) := h0_src (W0 m ρ c)
theorem W1_dst : W1 m ρ c (Proc.devRef .tc main_v3) = K.dst (m ((c : Thread nD τ).loc main_arg1)) := h0_dst (W0 m ρ c)
theorem W4_src : W4 m ρ c (Proc.devRef .tc main_v1) = K.src (m ((c : Thread nD τ).loc main_arg1)) :=
  ((keepR1 m ρ c main_v1 (by decide)).trans ((keepH1 (W2 m ρ c) main_v1 (by decide)).trans ((keepR0 m ρ c main_v1 (by decide)).trans (W1_src m ρ c))))
theorem W4_dst : W4 m ρ c (Proc.devRef .tc main_v3) = K.dst (m ((c : Thread nD τ).loc main_arg1)) :=
  ((keepR1 m ρ c main_v3 (by decide)).trans ((keepH1 (W2 m ρ c) main_v3 (by decide)).trans ((keepR0 m ρ c main_v3 (by decide)).trans (W1_dst m ρ c))))
theorem W8_src : W8 m ρ c (Proc.devRef .tc main_v1) = K.src (m ((c : Thread nD τ).loc main_arg1)) :=
  ((keepR3 m ρ c main_v1 (by decide)).trans ((keepH3 (W6 m ρ c) main_v1 (by decide)).trans ((keepR2 m ρ c main_v1 (by decide)).trans ((keepH2 (W4 m ρ c) main_v1 (by decide)).trans (W4_src m ρ c)))))
theorem W8_dst : W8 m ρ c (Proc.devRef .tc main_v3) = K.dst (m ((c : Thread nD τ).loc main_arg1)) :=
  ((keepR3 m ρ c main_v3 (by decide)).trans ((keepH3 (W6 m ρ c) main_v3 (by decide)).trans ((keepR2 m ρ c main_v3 (by decide)).trans ((keepH2 (W4 m ρ c) main_v3 (by decide)).trans (W4_dst m ρ c)))))

end Cert.Gin.KChain

end
-- ==== Proof.KChain.lean ====
/-
  The kernel program's result buffer at the end of the run, read back through all 14 segments: it holds the network
  function of the launch contents of the 25 argument arrays — three layers, each the host's pre-activation, the
  dense-dense region, the host's statistics and the normalisation region, then the readout region.  What each region
  leaves in its output windows enters as a hypothesis about any entry contents.
-/
import proofs.«178507_j28741921144979_1_alg».proof.Proof.KChainL1
import proofs.«178507_j28741921144979_1_alg».proof.Proof.KChainL2
import proofs.«178507_j28741921144979_1_alg».proof.Proof.KChainL3
import proofs.«178507_j28741921144979_1_alg».proof.Proof.KChainEdges

set_option maxRecDepth 16384

noncomputable section

namespace Cert.Gin.K

open Idealize.ShloMosaic Idealize.ShloMosaic.TcCoe
open Cert.KernelIdeal Cert.KernelIdeal.Gen Cert.Gin.KChain

variable (m : (ℓ : Loc nD τ sig) → Buf (Elt Ideal) ℓ) (ρ : Dev nD → PrngReg)

section
variable (hH0 : HypH0) (hS0 : HypS0) (hQ0 : HypQ0) (hN1 : HypN1)
  (hH2 : HypH2) (hS2 : HypS2) (hQ2 : HypQ2) (hN3 : HypN3)
  (hH4 : HypH4) (hS4 : HypS4) (hQ4 : HypQ4) (hN5 : HypN5) (hR6 : HypR6)
include hH0 hS0 hQ0 hN1

/-- The first layer's result, at the boundary after its normalisation region. -/
theorem W4_layer1 (c : Dev nD) : W4 m ρ c (Proc.devRef .tc main_v36) = (K.layerA (K.agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  L1_out m ρ (m ((c : Thread nD τ).loc main_arg1)) c rfl hH0 hS0 hQ0 hN1

include hH2 hS2 hQ2 hN3

/-- The second layer's result. -/
theorem W8_layer2 (c : Dev nD) : W8 m ρ c (Proc.devRef .tc main_v69) = (K.layerA (K.agg (m ((c : Thread nD τ).loc main_arg1))) (K.layerA (K.agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (L2_out m ρ (m ((c : Thread nD τ).loc main_arg1)) c (W4_src m ρ c) (W4_dst m ρ c) hH2 hS2 hQ2 hN3).trans
    (congrArg (fun X => K.layerA (K.agg (m ((c : Thread nD τ).loc main_arg1))) X (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
      (W4_layer1 m ρ hH0 hS0 hQ0 hN1 c))

include hH4 hS4 hQ4 hN5

/-- The third layer's result. -/
theorem W12_layer3 (c : Dev nD) : W12 m ρ c (Proc.devRef .tc main_v102) = (K.layerA (K.agg (m ((c : Thread nD τ).loc main_arg1))) (K.layerA (K.agg (m ((c : Thread nD τ).loc main_arg1))) (K.layerA (K.agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (L3_out m ρ (m ((c : Thread nD τ).loc main_arg1)) c (W8_src m ρ c) (W8_dst m ρ c) hH4 hS4 hQ4 hN5).trans
    (congrArg (fun X => K.layerA (K.agg (m ((c : Thread nD τ).loc main_arg1))) X (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)))
      (W8_layer2 m ρ hH0 hS0 hQ0 hN1 hH2 hS2 hQ2 hN3 c))

include hR6

/-- The result buffer at the end of the run holds the network function of the launch contents. -/
theorem W14_result_of (c : Dev nD) :
    W14 m ρ c (Proc.devRef .tc main_v104)
      = K.netA (K.agg (m ((c : Thread nD τ).loc main_arg1)))
        (m ((c : Thread nD τ).loc main_arg0))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24)) :=
  calc W14 m ρ c (Proc.devRef .tc main_v104)
    _ = readoutA (W13 m ρ c (Proc.devRef .tc main_v102)) (W13 m ρ c (Proc.devRef .tc main_arg23)) (W13 m ρ c (Proc.devRef .tc main_v103)) :=
        (W14_arr m ρ c 3).trans (hR6 (V13 m ρ) c)
    _ = readoutA (K.layerA (K.agg (m ((c : Thread nD τ).loc main_arg1))) (K.layerA (K.agg (m ((c : Thread nD τ).loc main_arg1))) (K.layerA (K.agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (m ((c : Thread nD τ).loc main_arg23)) (K.row16 (m ((c : Thread nD τ).loc main_arg24))) :=
        readoutA_congr
          ((keepH6 (W12 m ρ c) main_v102 (by decide)).trans
            (W12_layer3 m ρ hH0 hS0 hQ0 hN1 hH2 hS2 hQ2 hN3 hH4 hS4 hQ4 hN5 c))
          (W13_args m ρ c main_arg23 (by decide))
          ((h6_bl (W12 m ρ c)).trans (congrArg K.row16 (W12_args m ρ c main_arg24 (by decide))))
    _ = _ := rfl

end

end Cert.Gin.K

end
-- ==== Proof.KRun.lean ====
/-
  The kernel program's run with its result named: at the compiled mesh, from any memory with zero counters, every
  weakly fair execution of the entry function on the TensorCores terminates, nothing faulting, and in every final
  state the result buffer holds what the last segment boundary's contents assign to it, while the 25 argument
  arrays are as launched.  The contents at the last boundary are the fold of the 14 segments from the launch memory.
-/
import proofs.«178507_j28741921144979_1_alg».proof.Proof.Gen.KernelIdeal.Frame
import Idealize.ShloMosaic.PureOps.Ideal

set_option maxRecDepth 16384

noncomputable section

namespace Cert.Gin.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of the kernel program: termination without fault, the result buffer at the last boundary's contents,
    every argument array as launched. -/
theorem run_named : θ_run (defs (F := Ideal)) (onTc (τ := τ) (main (F := Ideal))) ⟨m, fun _ => 0, ρ⟩ (fun r => ∀ c : Dev nD,
      r.2.mem ((c.tc : Thread nD τ).loc main_v104) = W14 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v104 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c)⟩)

end Cert.Gin.K

end
-- ==== Proof.Consts.lean ====
/-
  The float words the two programs spell, as the extended reals they denote: the zero word is 0, the unit word 1,
  the row count's word is exactly 100000 (so a sum of 100000 equal terms divided by it gives the term back), and the
  variance offset's word is a positive real (so the square root's argument stays positive).
-/
import Idealize.ShloMosaic.PureOps.Ideal

noncomputable section

namespace Cert.Gin.Consts

open Idealize.ShloMosaic

/-- The zero word denotes 0. -/
theorem ofBits_zero : Ideal.ofBits .f32 0x00000000#32 = 0 := by
  simp [Ideal.ofBits, Ideal.ieee]

/-- The unit word denotes 1. -/
theorem ofBits_one : Ideal.ofBits .f32 0x3F800000#32 = ((1 : ℝ) : EReal) := by
  simp [Ideal.ofBits, Ideal.ieee, -EReal.coe_mul]; norm_num

/-- The row count's word denotes the real 100000. -/
theorem ofBits_1e5 : Ideal.ofBits .f32 0x47C35000#32 = ((100000 : ℝ) : EReal) := by
  simp [Ideal.ofBits, Ideal.ieee, -EReal.coe_mul]; norm_num

/-- The variance offset's word denotes a positive real. -/
theorem ofBits_eps : ∃ e : ℝ, 0 < e ∧ Ideal.ofBits .f32 0x3727C5AC#32 = ((e : ℝ) : EReal) := by
  refine ⟨_, ?_, by simp [Ideal.ofBits, Ideal.ieee, -EReal.coe_mul]; rfl⟩
  norm_num

end Cert.Gin.Consts

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.KMlp0Pay.lean ====
/-
  The arithmetic of one grid point of the dense-dense region, at the ideal values, index by index.

  The hidden block: two matrix products into zero accumulators (the narrowing casts in front of them change
  nothing at the ideal values), each followed by a bias row repeated down the rows and a rectifier, is the
  two-step dense value of the row block.  The two running rows: the row carried in plus the sum, over the
  block's rows, of the hidden block's entries, or of their squares.
-/
import proofs.«178507_j28741921144979_1_alg».proof.Proof.Gen.KernelIdeal.Skeleton
import proofs.«178507_j28741921144979_1_alg».proof.Proof.Spec
import proofs.«178507_j28741921144979_1_alg».proof.Proof.Consts
import proofs.«178507_j28741921144979_1_alg».proof.Proof.LibMatmul
import proofs.«178507_j28741921144979_1_alg».proof.Proof.LibAxisReduce
import Idealize.ShloMosaic.Lib.ValueLayout
import Idealize.ShloMosaic.Lib.Pipeline.Value

noncomputable section

open scoped BigOperators
open Idealize.ShloMosaic Idealize.ShloMosaic.ValueIdx

namespace Cert.Gin.KMlp0Pay
open Cert.KernelIdeal Cert.KernelIdeal.Gen

/-- One dense step on arrays, as the region's body spells it without its identity reshapes. -/
def denseV (x : FVec Ideal S10000x64 .f32) (w : FVec Ideal S64x64 .f32) (b : FVec Ideal S1x64 .f32) :
    FVec Ideal S10000x64 .f32 :=
  maximumf
    (addf
      (matmul dot_S10000x64_S64x64_S10000x64_1_0_0_1_n_n none (truncf .bf16 x bitsLt_bf16_f32)
        (truncf .bf16 w bitsLt_bf16_f32) (constant S10000x64 .f32 0x00000000#32))
      (broadcastTo S10000x64 b broadcasts_S1x64_S10000x64))
    (broadcast S10000x64 (Scalar.ofBits .f32 0x00000000#32))

/-- One dense step at an index: max (x · w + bias, 0). -/
theorem denseV_apply (x : FVec Ideal S10000x64 .f32) (w : FVec Ideal S64x64 .f32) (b : FVec Ideal S1x64 .f32)
    (p : Fin 10000) (q : Fin 64) :
    denseV x w b (ix2 p q) = Spec.dense (rd2 x) (rd2 w) (rd2 b 0) p q := by
  unfold denseV Spec.dense
  rw [maximumf_apply, addf_apply, broadcast_apply]
  have hm : matmul dot_S10000x64_S64x64_S10000x64_1_0_0_1_n_n none (truncf .bf16 x bitsLt_bf16_f32)
        (truncf .bf16 w bitsLt_bf16_f32) (constant S10000x64 .f32 0x00000000#32) (ix2 p q)
      = ∑ k : Fin 64, x (ix2 p k) * w (ix2 k q) :=
    (congrFun (Cert.LibMatmul.matmul_zero_eq dot_S10000x64_S64x64_S10000x64_1_0_0_1_n_n rfl rfl rfl rfl rfl rfl none
      (truncf .bf16 x bitsLt_bf16_f32) (truncf .bf16 w bitsLt_bf16_f32)) (ix2 p q)).trans
      (Cert.LibMatmul.MM_apply _ _ p q)
  have hb : broadcastTo S10000x64 b broadcasts_S1x64_S10000x64 (ix2 p q) = b (ix2 0 q) :=
    broadcastTo_1b_ab_apply b broadcasts_S1x64_S10000x64 p q
  rw [hm, hb]
  show max _ (Ideal.ofBits .f32 0x00000000#32) = _
  rw [Consts.ofBits_zero]
  rfl

/-- The hidden block is two dense steps. -/
theorem pay4_eq (x0 : FVec Ideal S10000x64 .f32) (w1 : FVec Ideal S64x64 .f32) (b1 : FVec Ideal S1x64 .f32)
    (w2 : FVec Ideal S64x64 .f32) (b2 : FVec Ideal S1x64 .f32) :
    k0_pay4 (F := Ideal) x0 w1 b1 w2 b2 = denseV (denseV x0 w1 b1) w2 b2 := by
  unfold k0_pay4 denseV
  simp only [shapeCast_self]

/-- The hidden block at an index: the two-step dense value of the row block. -/
theorem pay4_apply (x0 : FVec Ideal S10000x64 .f32) (w1 : FVec Ideal S64x64 .f32) (b1 : FVec Ideal S1x64 .f32)
    (w2 : FVec Ideal S64x64 .f32) (b2 : FVec Ideal S1x64 .f32) (p : Fin 10000) (q : Fin 64) :
    k0_pay4 (F := Ideal) x0 w1 b1 w2 b2 (ix2 p q)
      = Spec.hidden (rd2 x0) (rd2 w1) (rd2 b1 0) (rd2 w2) (rd2 b2 0) p q := by
  rw [pay4_eq, denseV_apply]
  unfold Spec.hidden Spec.dense
  have e : ∀ k : Fin 64, rd2 (denseV x0 w1 b1) p k = max ((∑ k' : Fin 64, rd2 x0 p k' * rd2 w1 k' k) + rd2 b1 0 k) 0 :=
    fun k => denseV_apply x0 w1 b1 p k
  simp only [e]

/-- The column-sum row: the row carried in plus the column sums of the hidden block. -/
theorem pay5_apply (x0 : FVec Ideal S10000x64 .f32) (w1 : FVec Ideal S64x64 .f32) (b1 : FVec Ideal S1x64 .f32)
    (w2 : FVec Ideal S64x64 .f32) (b2 : FVec Ideal S1x64 .f32) (acc : FVec Ideal S1x64 .f32) (u : Fin 1) (q : Fin 64) :
    k0_pay5 (F := Ideal) x0 w1 b1 w2 b2 acc (ix2 u q)
      = acc (ix2 u q) + ∑ p : Fin 10000, k0_pay4 (F := Ideal) x0 w1 b1 w2 b2 (ix2 p q) := by
  unfold k0_pay5
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (k0_pay4 (F := Ideal) x0 w1 b1 w2 b2) 0x00000000#32 reduces_S10000x64_S64 (.inl rfl) rfl q

/-- The sum-of-squares row: the row carried in plus the column sums of the squared entries of a block. -/
theorem pay1_apply (H : FVec Ideal S10000x64 .f32) (acc : FVec Ideal S1x64 .f32) (u : Fin 1) (q : Fin 64) :
    k0_pay1 (F := Ideal) H acc (ix2 u q) = acc (ix2 u q) + ∑ p : Fin 10000, H (ix2 p q) * H (ix2 p q) := by
  unfold k0_pay1
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (mulf H H) 0x00000000#32 reduces_S10000x64_S64 (.inl rfl) rfl q

/-- The row the first point resets the column sums to is zero. -/
theorem pay2_apply (j : S1x64.Idx) : k0_pay2 (F := Ideal) j = 0 := by
  show Ideal.ofBits .f32 0x00000000#32 = 0
  exact Consts.ofBits_zero

/-- The row the first point resets the sums of squares to is zero. -/
theorem pay3_apply (j : S1x64.Idx) : k0_pay3 (F := Ideal) j = 0 := by
  show Ideal.ofBits .f32 0x00000000#32 = 0
  exact Consts.ofBits_zero

end Cert.Gin.KMlp0Pay
end
-- ==== Proof.KMlp0Blk.lean ====
/-
  The blocks the dense-dense region reads at a grid point, as entries of the arrays it finds on entry: the
  feature window's block at point t is rows 10000·t … 10000·t + 9999 of the feature array; the two weight
  matrices and the two bias rows are read whole at every point.  Hence the hidden block a point writes is, row by
  row, the two-step dense value of the feature array's rows.
-/
import proofs.«178507_j28741921144979_1_alg».proof.Proof.Gen.KernelIdeal.Frame
import proofs.«178507_j28741921144979_1_alg».proof.Proof.Spec
import proofs.«178507_j28741921144979_1_alg».proof.Proof.KMlp0Pay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp0Blk
open Cert.KernelIdeal Cert.KernelIdeal.Gen

variable (V : (c : Dev nD) → (b : Ref sig .tc) → Buf (Elt Ideal) ((c : Thread nD τ).loc b))

/-- The block index maps over the grid: the feature window and the hidden-feature window walk the rows with the
    point, every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A row of a block of 10000 rows is a row of the array. -/
theorem row_lt (t : Fin cfg0.N) (r : Fin 10000) : t.val * 10000 + r.val < 100000 := by
  have h1 : t.val < 10 := Nat.lt_of_lt_of_eq t.isLt N_0
  have h2 := r.isLt
  omega

/-- The feature window's block at point t: rows 10000·t + r of the feature array. -/
theorem iblk_rows (c : Dev nD) (t : Fin cfg0.N) (r : Fin 10000) (k : Fin 64) :
    (iblk0 V c 0 t : Vec Ideal S10000x64 .f32) (ix2 r k)
      = (V c (Pipeline.arrRef spec0 0) : S100000x64.Idx → Elt Ideal .f32) (ix2 ⟨t.val * 10000 + r.val, row_lt t r⟩ k) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t 0 * 10000 + 1 * r.val = t.val * 10000 + r.val; rw [e0]; omega
  | ⟨1, _⟩ => show win0_0.index t 1 * 64 + 1 * k.val = k.val; rw [e1]; omega

/-- The first weight matrix is read whole at every point. -/
theorem iblk_w1 (c : Dev nD) (t : Fin cfg0.N) :
    (iblk0 V c 1 t : Vec Ideal S64x64 .f32) = (V c (Pipeline.arrRef spec0 1) : S64x64.Idx → Elt Ideal .f32) := by
  obtain ⟨-, -, e0, e1, -⟩ := idx_facts t
  funext x
  unfold iblk0
  rw [View.read_apply]
  refine congrArg (V c (Pipeline.arrRef spec0 1)) (funext fun a => Fin.ext ?_)
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- The first bias row is read whole at every point. -/
theorem iblk_b1 (c : Dev nD) (t : Fin cfg0.N) :
    (iblk0 V c 2 t : Vec Ideal S1x64 .f32) = (V c (Pipeline.arrRef spec0 2) : S1x64.Idx → Elt Ideal .f32) := by
  obtain ⟨-, -, -, -, e0, e1, -⟩ := idx_facts t
  funext x
  unfold iblk0
  rw [View.read_apply]
  refine congrArg (V c (Pipeline.arrRef spec0 2)) (funext fun a => Fin.ext ?_)
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- The second weight matrix is read whole at every point. -/
theorem iblk_w2 (c : Dev nD) (t : Fin cfg0.N) :
    (iblk0 V c 3 t : Vec Ideal S64x64 .f32) = (V c (Pipeline.arrRef spec0 3) : S64x64.Idx → Elt Ideal .f32) := by
  obtain ⟨-, -, -, -, -, -, e0, e1, -⟩ := idx_facts t
  funext x
  unfold iblk0
  rw [View.read_apply]
  refine congrArg (V c (Pipeline.arrRef spec0 3)) (funext fun a => Fin.ext ?_)
  match a with
  | ⟨0, _⟩ => show win0_3.index t 0 * 64 + 1 * (x 0).val = (x 0).val; rw [e0]; omega
  | ⟨1, _⟩ => show win0_3.index t 1 * 64 + 1 * (x 1).val = (x 1).val; rw [e1]; omega

/-- The second bias row is read whole at every point. -/
theorem iblk_b2 (c : Dev nD) (t : Fin cfg0.N) :
    (iblk0 V c 4 t : Vec Ideal S1x64 .f32) = (V c (Pipeline.arrRef spec0 4) : S1x64.Idx → Elt Ideal .f32) := by
  obtain ⟨-, -, -, -, -, -, -, -, e0, e1, -⟩ := idx_facts t
  funext x
  unfold iblk0
  rw [View.read_apply]
  refine congrArg (V c (Pipeline.arrRef spec0 4)) (funext fun a => Fin.ext ?_)
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- The hidden block a point computes from the five blocks it reads. -/
def Hb (c : Dev nD) (t : Fin cfg0.N) : FVec Ideal S10000x64 .f32 :=
  k0_pay4 (F := Ideal) (iblk0 V c 0 t) (iblk0 V c 1 t) (iblk0 V c 2 t) (iblk0 V c 3 t) (iblk0 V c 4 t)

/-- The two-step dense value at a row reads that row of its input only. -/
theorem hidden_row {n n' : ℕ} (P : M n 64) (P' : M n' 64) (w1 : M 64 64) (b1 : Vc 64) (w2 : M 64 64) (b2 : Vc 64)
    (p : Fin n) (p' : Fin n') (h : ∀ k, P p k = P' p' k) (q : Fin 64) :
    Spec.hidden P w1 b1 w2 b2 p q = Spec.hidden P' w1 b1 w2 b2 p' q := by
  unfold Spec.hidden Spec.dense
  simp only [h]

/-- The hidden block of point t, row r: the two-step dense value of the feature array at row 10000·t + r. -/
theorem Hb_apply (c : Dev nD) (t : Fin cfg0.N) (r : Fin 10000) (q : Fin 64) :
    Hb V c t (ix2 r q)
      = Spec.hidden (rd2 (V c (Pipeline.arrRef spec0 0))) (rd2 (V c (Pipeline.arrRef spec0 1)))
          (rd2 (V c (Pipeline.arrRef spec0 2)) 0) (rd2 (V c (Pipeline.arrRef spec0 3)))
          (rd2 (V c (Pipeline.arrRef spec0 4)) 0) ⟨t.val * 10000 + r.val, row_lt t r⟩ q := by
  unfold Hb
  refine (KMlp0Pay.pay4_apply (iblk0 V c 0 t) (iblk0 V c 1 t) (iblk0 V c 2 t) (iblk0 V c 3 t) (iblk0 V c 4 t) r q).trans ?_
  rw [iblk_w1 V c t, iblk_b1 V c t, iblk_w2 V c t, iblk_b2 V c t]
  exact hidden_row _ _ _ _ _ _ r ⟨t.val * 10000 + r.val, row_lt t r⟩ (fun k => iblk_rows V c t r k) q

end Cert.Gin.KMlp0Blk
end
-- ==== Proof.KMlp0Case.lean ====
/-
  What one grid point of the dense-dense region leaves in its three output blocks, read off the pieces its run
  writes: the hidden block is the dense-dense value of the five blocks read; the column-sum row and the
  sum-of-squares row are the rows they held before (the zero row at the first point, where the body resets them)
  plus the block's column sums and column sums of squares.
-/
import proofs.«178507_j28741921144979_1_alg».proof.Defs
import proofs.«178507_j28741921144979_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat Cfg Window)

namespace Cert.Gin.KMlp0Case
open Cert.KernelIdeal Cert.KernelIdeal.Gen

variable {F : FTy → Type} [FloatOps F]

theorem hz : (![0, 0] : Fin 2 → Nat) = fun _ => 0 := funext fun a => by fin_cases a <;> rfl

/-- At a later point the hidden block written is the dense-dense value of the five blocks read. -/
theorem out_B_5 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond0_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the column-sum row written is the row carried in plus the block's column sums. -/
theorem out_B_6 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond0_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the sum-of-squares row written is the row carried in plus the block's column sums of squares. -/
theorem out_B_7 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond0_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out0_B_7 c i a1 h1 a2 h2 a3 h3 a4 h4 a5 h5 a6 h6 a7 h7 a8 h8 hc x0 x1 x2 x3 x4 xo6 xo7 = k0_pay1 (k0_pay4 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At the first point the hidden block written is the dense-dense value of the five blocks read. -/
theorem out_A_5 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond0_0 i) (x0 : Vec F S10000x64 .f32) (x1 : Vec F S64x64 .f32) (x2 : Vec F S1x64 .f32)
    (x3 : Vec F S64x64 .f32) (x4 : Vec F S1x64 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the column-sum row written is the zero row plus the block's column sums. -/
theorem out_A_6 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond0_0 i) (x0 : Vec F S10000x64 .f32) (x1 : Vec F S64x64 .f32) (x2 : Vec F S1x64 .f32)
    (x3 : Vec F S64x64 .f32) (x4 : Vec F S1x64 .f32) :
    out0_A_6 c i a1 h1 a2 h2 a3 h3 a4 h4 a5 h5 a6 h6 a7 h7 a8 h8 hc x0 x1 x2 x3 x4 = k0_pay5 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the sum-of-squares row written is the zero row plus the block's column sums of squares. -/
theorem out_A_7 (c : Dev nD) (i : grid0.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond0_0 i) (x0 : Vec F S10000x64 .f32) (x1 : Vec F S64x64 .f32) (x2 : Vec F S1x64 .f32)
    (x3 : Vec F S64x64 .f32) (x4 : Vec F S1x64 .f32) :
    out0_A_7 c i a1 h1 a2 h2 a3 h3 a4 h4 a5 h5 a6 h6 a7 h7 a8 h8 hc x0 x1 x2 x3 x4 = k0_pay1 (k0_pay4 x0 x1 x2 x3 x4) (k0_pay3 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

end Cert.Gin.KMlp0Case
end
-- ==== Proof.LibTileSums.lean ====
/-
  GENERAL LEMMAS: running totals and sums over row tiles, in any commutative monoid (the extended reals are one), with
  nothing of any program in them; imports Mathlib only.
    chain_eq_sum / chain_last : a running total ch over the points n < N of a grid — ch 0 = g 0, ch (n+1) = ch n + g (n+1),
      the points carrying their bound proofs as a grid accumulator's recursion does — is the sum of the terms so far, and
      after the last point the sum over Fin N.
    tile_lt, sum_tiles, sum_tiles' : a sum over Fin (a·b) — or over Fin N with N = a·b — is the sum over the a tiles of the
      sum over a tile's b rows, row r of tile t being row t·b + r.
  Two facts about sums in a commutative monoid (the extended reals are one), with nothing of the programs in them.

  A running total — the first term, then one more term at every step — is the sum of the terms so far.
  A sum over a·b rows is the sum over a tiles of the sum over each tile's b rows, row r of tile t being row t·b + r.
  Together: a loop over row tiles that keeps a running total of the tiles' sums ends with the sum over all rows.
-/
import Mathlib.Algebra.BigOperators.Fin
import Mathlib.Logic.Equiv.Fin.Basic

open scoped BigOperators

namespace Cert.LibTileSums

variable {M : Type*} [AddCommMonoid M]

/-- A running total is the sum of the terms so far. -/
theorem chain_eq_sum (N : ℕ) (g ch : (n : ℕ) → n < N → M)
    (h0 : ∀ h, ch 0 h = g 0 h)
    (hs : ∀ n (h : n + 1 < N), ch (n + 1) h = ch n (Nat.lt_of_succ_lt h) + g (n + 1) h) :
    ∀ (n : ℕ) (h : n < N), ch n h = ∑ t : Fin (n + 1), g t.val (lt_of_le_of_lt (Nat.le_of_lt_succ t.isLt) h)
  | 0, h => by
    rw [h0 h, Fin.sum_univ_one]
    rfl
  | n + 1, h => by
    rw [hs n h, chain_eq_sum N g ch h0 hs n (Nat.lt_of_succ_lt h)]
    conv_rhs => rw [Fin.sum_univ_castSucc]
    rfl

/-- The running total after the last of N steps is the sum of all N terms. -/
theorem chain_last (N : ℕ) (g ch : (n : ℕ) → n < N → M)
    (h0 : ∀ h, ch 0 h = g 0 h)
    (hs : ∀ n (h : n + 1 < N), ch (n + 1) h = ch n (Nat.lt_of_succ_lt h) + g (n + 1) h)
    (n : ℕ) (hn : n < N) (hN : n + 1 = N) :
    ch n hn = ∑ t : Fin N, g t.val t.isLt := by
  subst hN
  exact chain_eq_sum (n + 1) g ch h0 hs n hn

/-- Row r of tile t is a row. -/
theorem tile_lt {a b : ℕ} (t : Fin a) (r : Fin b) : t.val * b + r.val < a * b := by
  have h1 : t.val + 1 ≤ a := t.isLt
  have h2 := r.isLt
  calc t.val * b + r.val < t.val * b + b := by omega
    _ = (t.val + 1) * b := (Nat.succ_mul _ _).symm
    _ ≤ a * b := Nat.mul_le_mul_right b h1

/-- A sum over a·b rows, tile by tile. -/
theorem sum_tiles (a b : ℕ) (f : Fin (a * b) → M) :
    ∑ i : Fin (a * b), f i = ∑ t : Fin a, ∑ r : Fin b, f ⟨t.val * b + r.val, tile_lt t r⟩ := by
  rw [← Fintype.sum_prod_type']
  refine (Fintype.sum_equiv finProdFinEquiv _ _ (fun p => ?_)).symm
  congr 1
  apply Fin.ext
  simp [finProdFinEquiv, Nat.mul_comm, Nat.add_comm]

/-- The same for a number of rows N known to be a·b. -/
theorem sum_tiles' (N a b : ℕ) (hN : N = a * b) (f : Fin N → M) :
    ∑ i : Fin N, f i = ∑ t : Fin a, ∑ r : Fin b, f ⟨t.val * b + r.val, hN ▸ tile_lt t r⟩ := by
  subst hN
  exact sum_tiles a b f

end Cert.LibTileSums
-- ==== Proof.KMlp0Inv.lean ====
/-
  What the three output blocks of the dense-dense region hold after each grid point, by induction on the point.

  The hidden block after point t is the hidden block computed from the blocks read at t.  The column-sum row is
  reset to zero at the first point and every point adds its block's column sums, so after point n it holds the
  sum, over the points up to n, of their blocks' column sums; likewise the sums of squares.  After the last of the
  ten points of 10000 rows each these are the column sums over all 100000 rows.
-/
import proofs.«178507_j28741921144979_1_alg».proof.Proof.Gen.KernelIdeal.Frame
import proofs.«178507_j28741921144979_1_alg».proof.Proof.Spec
import proofs.«178507_j28741921144979_1_alg».proof.Proof.KMlp0Case
import proofs.«178507_j28741921144979_1_alg».proof.Proof.KMlp0Pay
import proofs.«178507_j28741921144979_1_alg».proof.Proof.KMlp0Blk
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp0Inv
open Cert.KernelIdeal Cert.KernelIdeal.Gen Cert.Gin.KMlp0Blk

variable (V : (c : Dev nD) → (b : Ref sig .tc) → Buf (Elt Ideal) ((c : Thread nD τ).loc b))

/-- A point other than the first is not a multiple of ten: there are ten points. -/
theorem succ_mod (n : ℕ) (h : n + 1 < cfg0.N) : ¬(n + 1) % 10 = 0 := by
  have hN : cfg0.N = 10 := N_0
  omega

/-- After the first point the hidden block is the one computed there. -/
theorem outs5_zero (c : Dev nD) (h : 0 < cfg0.N) :
    (outsAt0 V c 0 h).1 = Hb V c ⟨0, h⟩ := by
  have h0 : (⟨0, h⟩ : Fin cfg0.N).val % 10 = 0 := rfl
  have e := outsAt0_A V c ⟨0, h⟩ h0
  refine (congrArg (fun z => z.1) e).trans ?_
  dsimp only
  exact KMlp0Case.out_A_5 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))

/-- After the first point the column-sum row is the zero row plus the block's column sums. -/
theorem outs6_zero (c : Dev nD) (h : 0 < cfg0.N) :
    (outsAt0 V c 0 h).2.1 = k0_pay5 (F := Ideal) (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) := by
  have h0 : (⟨0, h⟩ : Fin cfg0.N).val % 10 = 0 := rfl
  have e := outsAt0_A V c ⟨0, h⟩ h0
  refine (congrArg (fun z => z.2.1) e).trans ?_
  dsimp only
  exact KMlp0Case.out_A_6 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))

/-- After the first point the sum-of-squares row is the zero row plus the block's column sums of squares. -/
theorem outs7_zero (c : Dev nD) (h : 0 < cfg0.N) :
    (outsAt0 V c 0 h).2.2 = k0_pay1 (F := Ideal) (Hb V c ⟨0, h⟩) (k0_pay3 (F := Ideal)) := by
  have h0 : (⟨0, h⟩ : Fin cfg0.N).val % 10 = 0 := rfl
  have e := outsAt0_A V c ⟨0, h⟩ h0
  refine (congrArg (fun z => z.2.2) e).trans ?_
  dsimp only
  exact KMlp0Case.out_A_7 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))

/-- After a later point the hidden block is the one computed there. -/
theorem outs5_succ (c : Dev nD) (n : ℕ) (h : n + 1 < cfg0.N) :
    (outsAt0 V c (n + 1) h).1 = Hb V c ⟨n + 1, h⟩ := by
  have h0 : ¬(⟨n + 1, h⟩ : Fin cfg0.N).val % 10 = 0 := succ_mod n h
  have e := outsAt0_B V c ⟨n + 1, h⟩ h0
  refine (congrArg (fun z => z.1) e).trans ?_
  dsimp only
  exact KMlp0Case.out_B_5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2

/-- After a later point the column-sum row is the row the point before left plus the block's column sums. -/
theorem outs6_succ (c : Dev nD) (n : ℕ) (h : n + 1 < cfg0.N) :
    (outsAt0 V c (n + 1) h).2.1 = k0_pay5 (F := Ideal) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.1 := by
  have h0 : ¬(⟨n + 1, h⟩ : Fin cfg0.N).val % 10 = 0 := succ_mod n h
  have e := outsAt0_B V c ⟨n + 1, h⟩ h0
  refine (congrArg (fun z => z.2.1) e).trans ?_
  dsimp only
  exact KMlp0Case.out_B_6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2

/-- After a later point the sum-of-squares row is the row the point before left plus the block's column sums of squares. -/
theorem outs7_succ (c : Dev nD) (n : ℕ) (h : n + 1 < cfg0.N) :
    (outsAt0 V c (n + 1) h).2.2 = k0_pay1 (F := Ideal) (Hb V c ⟨n + 1, h⟩) (outsAt0 V c n (Nat.lt_of_succ_lt h)).2.2 := by
  have h0 : ¬(⟨n + 1, h⟩ : Fin cfg0.N).val % 10 = 0 := succ_mod n h
  have e := outsAt0_B V c ⟨n + 1, h⟩ h0
  refine (congrArg (fun z => z.2.2) e).trans ?_
  dsimp only
  exact KMlp0Case.out_B_7 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2

/-- The hidden block after any point is the block computed there. -/
theorem outs5 (c : Dev nD) : ∀ (n : ℕ) (h : n < cfg0.N), (outsAt0 V c n h).1 = Hb V c ⟨n, h⟩
  | 0, h => outs5_zero V c h
  | n + 1, h => outs5_succ V c n h

/-- The column sums of the hidden block of point n, at column q. -/
def g6 (c : Dev nD) (q : Fin 64) (n : ℕ) (h : n < cfg0.N) : EReal := ∑ r : Fin 10000, Hb V c ⟨n, h⟩ (ix2 r q)
/-- The column sums of squares of the hidden block of point n, at column q. -/
def g7 (c : Dev nD) (q : Fin 64) (n : ℕ) (h : n < cfg0.N) : EReal :=
  ∑ r : Fin 10000, Hb V c ⟨n, h⟩ (ix2 r q) * Hb V c ⟨n, h⟩ (ix2 r q)

/-- The column-sum row after point n: the column sums of the blocks of the points up to n, added. -/
theorem outs6 (c : Dev nD) (u : Fin 1) (q : Fin 64) (n : ℕ) (h : n < cfg0.N) :
    (outsAt0 V c n h).2.1 (ix2 u q)
      = ∑ t : Fin (n + 1), g6 V c q t.val (lt_of_le_of_lt (Nat.le_of_lt_succ t.isLt) h) := by
  refine Cert.LibTileSums.chain_eq_sum cfg0.N (g6 V c q) (fun n h => (outsAt0 V c n h).2.1 (ix2 u q)) ?_ ?_ n h
  · intro h
    show (outsAt0 V c 0 h).2.1 (ix2 u q) = g6 V c q 0 h
    rw [outs6_zero V c h]
    refine (KMlp0Pay.pay5_apply _ _ _ _ _ _ u q).trans ?_
    rw [KMlp0Pay.pay2_apply, zero_add]
    rfl
  · intro n h
    show (outsAt0 V c (n + 1) h).2.1 (ix2 u q) = (outsAt0 V c n _).2.1 (ix2 u q) + g6 V c q (n + 1) h
    rw [outs6_succ V c n h]
    exact KMlp0Pay.pay5_apply _ _ _ _ _ _ u q

/-- The sum-of-squares row after point n: the column sums of squares of the blocks of the points up to n, added. -/
theorem outs7 (c : Dev nD) (u : Fin 1) (q : Fin 64) (n : ℕ) (h : n < cfg0.N) :
    (outsAt0 V c n h).2.2 (ix2 u q)
      = ∑ t : Fin (n + 1), g7 V c q t.val (lt_of_le_of_lt (Nat.le_of_lt_succ t.isLt) h) := by
  refine Cert.LibTileSums.chain_eq_sum cfg0.N (g7 V c q) (fun n h => (outsAt0 V c n h).2.2 (ix2 u q)) ?_ ?_ n h
  · intro h
    show (outsAt0 V c 0 h).2.2 (ix2 u q) = g7 V c q 0 h
    rw [outs7_zero V c h]
    refine (KMlp0Pay.pay1_apply _ _ u q).trans ?_
    rw [KMlp0Pay.pay3_apply, zero_add]
    rfl
  · intro n h
    show (outsAt0 V c (n + 1) h).2.2 (ix2 u q) = (outsAt0 V c n _).2.2 (ix2 u q) + g7 V c q (n + 1) h
    rw [outs7_succ V c n h]
    exact KMlp0Pay.pay1_apply _ _ u q

end Cert.Gin.KMlp0Inv
end
-- ==== Proof.KMlp0.lean ====
/-
  The dense-dense region's three output arrays after its ten grid points, for any contents on entry: the hidden
  features are the two-step dense value of the feature array, row by row (each point writes its own 10000 rows, and
  the ten blocks tile the 100000 rows); the column sums and the column sums of squares, accumulated over the ten
  points from the zero row and written back after the last, are the sums over all 100000 rows.
-/
import proofs.«178507_j28741921144979_1_alg».proof.Proof.Gen.KernelIdeal.Frame
import proofs.«178507_j28741921144979_1_alg».proof.Proof.Spec
import proofs.«178507_j28741921144979_1_alg».proof.Proof.KMlp0Blk
import proofs.«178507_j28741921144979_1_alg».proof.Proof.KMlp0Inv
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp0
open Cert.KernelIdeal Cert.KernelIdeal.Gen Cert.Gin.KMlp0Blk Cert.Gin.KMlp0Inv

variable (V : (c : Dev nD) → (b : Ref sig .tc) → Buf (Elt Ideal) ((c : Thread nD τ).loc b))

/-- The hidden-feature array at an index with known coordinates. -/
theorem hiddenA_apply (P : A2 100000 64) (w1 : A2 64 64) (b1 : A2 1 64) (w2 : A2 64 64) (b2 : A2 1 64)
    (i : (⟨2, ![100000, 64]⟩ : Shape).Idx) (p : Fin 100000) (q : Fin 64) (h0 : (i 0).val = p.val) (h1 : (i 1).val = q.val) :
    hiddenA P w1 b1 w2 b2 i = Spec.hidden (rd2 P) (rd2 w1) (rd2 b1 0) (rd2 w2) (rd2 b2 0) p q := by
  have e : i = ix2 p q := by
    funext a; apply Fin.ext
    match a with
    | ⟨0, _⟩ => exact h0
    | ⟨1, _⟩ => exact h1
  subst e
  rfl

/-- The column-sum array at an index with known column. -/
theorem sumA_apply (P : A2 100000 64) (w1 : A2 64 64) (b1 : A2 1 64) (w2 : A2 64 64) (b2 : A2 1 64)
    (i : (⟨2, ![1, 64]⟩ : Shape).Idx) (q : Fin 64) (h1 : (i 1).val = q.val) :
    sumA P w1 b1 w2 b2 i = ∑ p : Fin 100000, Spec.hidden (rd2 P) (rd2 w1) (rd2 b1 0) (rd2 w2) (rd2 b2 0) p q := by
  have e : i 1 = q := Fin.ext h1
  show Spec.colsum _ (i 1) = _
  rw [e]
  rfl

/-- The sum-of-squares array at an index with known column. -/
theorem sumsqA_apply (P : A2 100000 64) (w1 : A2 64 64) (b1 : A2 1 64) (w2 : A2 64 64) (b2 : A2 1 64)
    (i : (⟨2, ![1, 64]⟩ : Shape).Idx) (q : Fin 64) (h1 : (i 1).val = q.val) :
    sumsqA P w1 b1 w2 b2 i = ∑ p : Fin 100000, Spec.hidden (rd2 P) (rd2 w1) (rd2 b1 0) (rd2 w2) (rd2 b2 0) p q
        * Spec.hidden (rd2 P) (rd2 w1) (rd2 b1 0) (rd2 w2) (rd2 b2 0) p q := by
  have e : i 1 = q := Fin.ext h1
  show Spec.colsumsq _ (i 1) = _
  rw [e]
  rfl

/-! ## The hidden features -/

/-- What point t writes back is its block of the hidden-feature array. -/
theorem flushed5 (c : Dev nD) (t : Fin cfg0.N) :
    (dat0 (F := Ideal) V c).flushed 5 t = ((cfg0.win 5).blk t).view.read (Elt Ideal)
      (hiddenA (V c (Pipeline.arrRef spec0 0)) (V c (Pipeline.arrRef spec0 1)) (V c (Pipeline.arrRef spec0 2))
          (V c (Pipeline.arrRef spec0 3)) (V c (Pipeline.arrRef spec0 4))) := by
  show (cfg0.win 5).cut (grid0.coords t) ((dat0 V c).after 5 t) = _
  rw [after0_5, outs5 V c t.val t.isLt]
  obtain ⟨-, -, -, -, -, -, -, -, -, -, e0, e1, -⟩ := idx_facts t
  funext j
  obtain ⟨r, q, rfl⟩ : ∃ (r : Fin 10000) (q : Fin 64), j = ix2 r q := ⟨j 0, j 1, eq_ix2 j⟩
  show Hb V c t (ix2 r q) = hiddenA (V c (Pipeline.arrRef spec0 0)) (V c (Pipeline.arrRef spec0 1)) (V c (Pipeline.arrRef spec0 2))
          (V c (Pipeline.arrRef spec0 3)) (V c (Pipeline.arrRef spec0 4)) (((cfg0.win 5).blk t).view.emb (ix2 r q))
  refine (Hb_apply V c t r q).trans (hiddenA_apply _ _ _ _ _ _ ⟨t.val * 10000 + r.val, row_lt t r⟩ q ?_ ?_).symm
  · show win0_5.index t 0 * 10000 + 1 * r.val = t.val * 10000 + r.val
    rw [e0]; omega
  · show win0_5.index t 1 * 64 + 1 * q.val = q.val
    rw [e1]; omega

/-- An index of the hidden-feature array is in point t's block iff its coordinates are in the block's ranges. -/
theorem mem_blk5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v20_0).slice (win0_5.rect t)).set ↔ _
  rw [View.set_slice_whole, Rect.mem_set_unit]
  exact Iff.rfl

theorem hidden_eq (c : Dev nD) :
    (dat0 (F := Ideal) V c).arrAt 5 cfg0.N
      = hiddenA (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed5 V c t) fun i => by
    have hi0 : (i 0).val < 100000 := (i 0).isLt
    have hi1 : (i 1).val < 64 := (i 1).isLt
    have hN : cfg0.N = 10 := N_0
    have ht : (i 0).val / 10000 < cfg0.N := by rw [hN]; omega
    refine ⟨⟨(i 0).val / 10000, ht⟩, flush0_5 _, ?_⟩
    obtain ⟨-, -, -, -, -, -, -, -, -, -, e0, e1, -⟩ := idx_facts ⟨(i 0).val / 10000, ht⟩
    rw [mem_blk5]
    intro a
    match a with
    | ⟨0, _⟩ =>
      show win0_5.index ⟨(i 0).val / 10000, ht⟩ 0 * 10000 ≤ (i 0).val ∧ (i 0).val < win0_5.index ⟨(i 0).val / 10000, ht⟩ 0 * 10000 + 10000
      rw [e0]; dsimp only; omega
    | ⟨1, _⟩ =>
      show win0_5.index ⟨(i 0).val / 10000, ht⟩ 1 * 64 ≤ (i 1).val ∧ (i 1).val < win0_5.index ⟨(i 0).val / 10000, ht⟩ 1 * 64 + 64
      rw [e1]; omega

/-! ## The two accumulated rows -/

/-- The last point. -/
theorem last_lt : 9 < cfg0.N := by rw [show cfg0.N = 10 from N_0]; decide

/-- The contents after a point depend on the point's number only. -/
theorem outs_congr (c : Dev nD) (n k : ℕ) (hn : n < cfg0.N) (hk : k < cfg0.N) (e : n = k) :
    outsAt0 V c n hn = outsAt0 V c k hk := by
  subst e; rfl

/-- After the last point the column-sum row holds the column sums over all rows. -/
theorem total6 (c : Dev nD) (u : Fin 1) (q : Fin 64) :
    (outsAt0 V c 9 last_lt).2.1 (ix2 u q)
      = ∑ p : Fin 100000, Spec.hidden (rd2 (V c (Pipeline.arrRef spec0 0))) (rd2 (V c (Pipeline.arrRef spec0 1)))
          (rd2 (V c (Pipeline.arrRef spec0 2)) 0) (rd2 (V c (Pipeline.arrRef spec0 3)))
          (rd2 (V c (Pipeline.arrRef spec0 4)) 0) p q := by
  rw [outs6 V c u q 9 last_lt, Cert.LibTileSums.sum_tiles' 100000 10 10000 rfl]
  refine Finset.sum_congr rfl fun t _ => ?_
  unfold g6
  exact Finset.sum_congr rfl fun r _ => Hb_apply V c ⟨t.val, _⟩ r q

/-- After the last point the sum-of-squares row holds the column sums of squares over all rows. -/
theorem total7 (c : Dev nD) (u : Fin 1) (q : Fin 64) :
    (outsAt0 V c 9 last_lt).2.2 (ix2 u q)
      = ∑ p : Fin 100000, Spec.hidden (rd2 (V c (Pipeline.arrRef spec0 0))) (rd2 (V c (Pipeline.arrRef spec0 1)))
          (rd2 (V c (Pipeline.arrRef spec0 2)) 0) (rd2 (V c (Pipeline.arrRef spec0 3)))
          (rd2 (V c (Pipeline.arrRef spec0 4)) 0) p q
        * Spec.hidden (rd2 (V c (Pipeline.arrRef spec0 0))) (rd2 (V c (Pipeline.arrRef spec0 1)))
          (rd2 (V c (Pipeline.arrRef spec0 2)) 0) (rd2 (V c (Pipeline.arrRef spec0 3)))
          (rd2 (V c (Pipeline.arrRef spec0 4)) 0) p q := by
  rw [outs7 V c u q 9 last_lt, Cert.LibTileSums.sum_tiles' 100000 10 10000 rfl]
  refine Finset.sum_congr rfl fun t _ => ?_
  unfold g7
  refine Finset.sum_congr rfl fun r _ => ?_
  rw [Hb_apply V c ⟨t.val, _⟩ r q]

/-- The one write-back of the column-sum row, after the last point, writes the column-sum array: the row's one block is the whole array. -/
theorem flushed6 (c : Dev nD) (t : Fin cfg0.N) (hf : (cfg0.win 6).flush t = true) :
    (dat0 (F := Ideal) V c).flushed 6 t = ((cfg0.win 6).blk t).view.read (Elt Ideal)
      (sumA (V c (Pipeline.arrRef spec0 0)) (V c (Pipeline.arrRef spec0 1)) (V c (Pipeline.arrRef spec0 2))
          (V c (Pipeline.arrRef spec0 3)) (V c (Pipeline.arrRef spec0 4))) := by
  have hN : cfg0.N = 10 := N_0
  have h9 : t.val = 9 := by have := (flush0_6 t).mp hf; have := t.isLt; omega
  show (cfg0.win 6).cut (grid0.coords t) ((dat0 V c).after 6 t) = _
  rw [after0_6, outs_congr V c t.val 9 t.isLt last_lt h9]
  have hXG : (outsAt0 V c 9 last_lt).2.1 = sumA (V c (Pipeline.arrRef spec0 0)) (V c (Pipeline.arrRef spec0 1)) (V c (Pipeline.arrRef spec0 2))
          (V c (Pipeline.arrRef spec0 3)) (V c (Pipeline.arrRef spec0 4)) := by
    funext j
    obtain ⟨u, q, rfl⟩ : ∃ (u : Fin 1) (q : Fin 64), j = ix2 u q := ⟨j 0, j 1, eq_ix2 j⟩
    exact (total6 V c u q).trans (sumA_apply _ _ _ _ _ (ix2 u q) q rfl).symm
  rw [hXG]
  obtain ⟨-, -, -, -, -, -, -, -, -, -, -, -, e0, e1, -⟩ := idx_facts t
  have hz' : (fun a => win0_6.index t a * main_v20_1.ty.shape.size a) = fun _ => 0 := funext fun a => by
    match a with
    | ⟨0, _⟩ => show win0_6.index t 0 * 1 = 0; rw [e0]
    | ⟨1, _⟩ => show win0_6.index t 1 * 64 = 0; rw [e1]
  exact (Memref.read_access_unit_zero (Elt Ideal) main_v20_1 hz' (fun a => by rw [congrFun hz' a]; simp)
    (sumA (V c (Pipeline.arrRef spec0 0)) (V c (Pipeline.arrRef spec0 1)) (V c (Pipeline.arrRef spec0 2))
          (V c (Pipeline.arrRef spec0 3)) (V c (Pipeline.arrRef spec0 4)))).symm

/-- The one write-back of the sum-of-squares row, after the last point, writes the sum-of-squares array: the row's one block is the whole array. -/
theorem flushed7 (c : Dev nD) (t : Fin cfg0.N) (hf : (cfg0.win 7).flush t = true) :
    (dat0 (F := Ideal) V c).flushed 7 t = ((cfg0.win 7).blk t).view.read (Elt Ideal)
      (sumsqA (V c (Pipeline.arrRef spec0 0)) (V c (Pipeline.arrRef spec0 1)) (V c (Pipeline.arrRef spec0 2))
          (V c (Pipeline.arrRef spec0 3)) (V c (Pipeline.arrRef spec0 4))) := by
  have hN : cfg0.N = 10 := N_0
  have h9 : t.val = 9 := by have := (flush0_7 t).mp hf; have := t.isLt; omega
  show (cfg0.win 7).cut (grid0.coords t) ((dat0 V c).after 7 t) = _
  rw [after0_7, outs_congr V c t.val 9 t.isLt last_lt h9]
  have hXG : (outsAt0 V c 9 last_lt).2.2 = sumsqA (V c (Pipeline.arrRef spec0 0)) (V c (Pipeline.arrRef spec0 1)) (V c (Pipeline.arrRef spec0 2))
          (V c (Pipeline.arrRef spec0 3)) (V c (Pipeline.arrRef spec0 4)) := by
    funext j
    obtain ⟨u, q, rfl⟩ : ∃ (u : Fin 1) (q : Fin 64), j = ix2 u q := ⟨j 0, j 1, eq_ix2 j⟩
    exact (total7 V c u q).trans (sumsqA_apply _ _ _ _ _ (ix2 u q) q rfl).symm
  rw [hXG]
  obtain ⟨-, -, -, -, -, -, -, -, -, -, -, -, -, -, e0, e1⟩ := idx_facts t
  have hz' : (fun a => win0_7.index t a * main_v20_2.ty.shape.size a) = fun _ => 0 := funext fun a => by
    match a with
    | ⟨0, _⟩ => show win0_7.index t 0 * 1 = 0; rw [e0]
    | ⟨1, _⟩ => show win0_7.index t 1 * 64 = 0; rw [e1]
  exact (Memref.read_access_unit_zero (Elt Ideal) main_v20_2 hz' (fun a => by rw [congrFun hz' a]; simp)
    (sumsqA (V c (Pipeline.arrRef spec0 0)) (V c (Pipeline.arrRef spec0 1)) (V c (Pipeline.arrRef spec0 2))
          (V c (Pipeline.arrRef spec0 3)) (V c (Pipeline.arrRef spec0 4)))).symm

/-- An index of a one-row array is in the last point's block of the column-sum window. -/
theorem cover6 (i : S1x64.Idx) : i ∈ ((cfg0.win 6).blk ⟨9, last_lt⟩).view.set := by
  obtain ⟨-, -, -, -, -, -, -, -, -, -, -, -, e0, e1, -⟩ := idx_facts ⟨9, last_lt⟩
  have hi0 : (i 0).val < 1 := (i 0).isLt
  have hi1 : (i 1).val < 64 := (i 1).isLt
  show i ∈ ((View.whole main_v20_1).slice (win0_6.rect ⟨9, last_lt⟩)).set
  rw [View.set_slice_whole, Rect.mem_set_unit]
  intro a
  match a with
  | ⟨0, _⟩ =>
    show win0_6.index ⟨9, last_lt⟩ 0 * 1 ≤ (i 0).val ∧ (i 0).val < win0_6.index ⟨9, last_lt⟩ 0 * 1 + 1
    rw [e0]; omega
  | ⟨1, _⟩ =>
    show win0_6.index ⟨9, last_lt⟩ 1 * 64 ≤ (i 1).val ∧ (i 1).val < win0_6.index ⟨9, last_lt⟩ 1 * 64 + 64
    rw [e1]; omega

/-- An index of a one-row array is in the last point's block of the sum-of-squares window. -/
theorem cover7 (i : S1x64.Idx) : i ∈ ((cfg0.win 7).blk ⟨9, last_lt⟩).view.set := by
  obtain ⟨-, -, -, -, -, -, -, -, -, -, -, -, -, -, e0, e1⟩ := idx_facts ⟨9, last_lt⟩
  have hi0 : (i 0).val < 1 := (i 0).isLt
  have hi1 : (i 1).val < 64 := (i 1).isLt
  show i ∈ ((View.whole main_v20_2).slice (win0_7.rect ⟨9, last_lt⟩)).set
  rw [View.set_slice_whole, Rect.mem_set_unit]
  intro a
  match a with
  | ⟨0, _⟩ =>
    show win0_7.index ⟨9, last_lt⟩ 0 * 1 ≤ (i 0).val ∧ (i 0).val < win0_7.index ⟨9, last_lt⟩ 0 * 1 + 1
    rw [e0]; omega
  | ⟨1, _⟩ =>
    show win0_7.index ⟨9, last_lt⟩ 1 * 64 ≤ (i 1).val ∧ (i 1).val < win0_7.index ⟨9, last_lt⟩ 1 * 64 + 64
    rw [e1]; omega

theorem sum_eq (c : Dev nD) :
    (dat0 (F := Ideal) V c).arrAt 6 cfg0.N
      = sumA (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 6 _ (flushed6 V c) fun i =>
    ⟨⟨9, last_lt⟩, (flush0_6 _).mpr rfl, cover6 i⟩

theorem sumsq_eq (c : Dev nD) :
    (dat0 (F := Ideal) V c).arrAt 7 cfg0.N
      = sumsqA (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 7 _ (flushed7 V c) fun i =>
    ⟨⟨9, last_lt⟩, (flush0_7 _).mpr rfl, cover7 i⟩

end Cert.Gin.KMlp0
end
-- ==== Proof.KMlp2Pay.lean ====
/-
  The arithmetic of one grid point of the dense-dense region, at the ideal values, index by index.

  The hidden block: two matrix products into zero accumulators (the narrowing casts in front of them change
  nothing at the ideal values), each followed by a bias row repeated down the rows and a rectifier, is the
  two-step dense value of the row block.  The two running rows: the row carried in plus the sum, over the
  block's rows, of the hidden block's entries, or of their squares.
-/
import proofs.«178507_j28741921144979_1_alg».proof.Proof.Gen.KernelIdeal.Skeleton
import proofs.«178507_j28741921144979_1_alg».proof.Proof.Spec
import proofs.«178507_j28741921144979_1_alg».proof.Proof.Consts
import proofs.«178507_j28741921144979_1_alg».proof.Proof.LibMatmul
import proofs.«178507_j28741921144979_1_alg».proof.Proof.LibAxisReduce
import Idealize.ShloMosaic.Lib.ValueLayout
import Idealize.ShloMosaic.Lib.Pipeline.Value

noncomputable section

open scoped BigOperators
open Idealize.ShloMosaic Idealize.ShloMosaic.ValueIdx

namespace Cert.Gin.KMlp2Pay
open Cert.KernelIdeal Cert.KernelIdeal.Gen

/-- One dense step on arrays, as the region's body spells it without its identity reshapes. -/
def denseV (x : FVec Ideal S10000x64 .f32) (w : FVec Ideal S64x64 .f32) (b : FVec Ideal S1x64 .f32) :
    FVec Ideal S10000x64 .f32 :=
  maximumf
    (addf
      (matmul dot_S10000x64_S64x64_S10000x64_1_0_0_1_n_n none (truncf .bf16 x bitsLt_bf16_f32)
        (truncf .bf16 w bitsLt_bf16_f32) (constant S10000x64 .f32 0x00000000#32))
      (broadcastTo S10000x64 b broadcasts_S1x64_S10000x64))
    (broadcast S10000x64 (Scalar.ofBits .f32 0x00000000#32))

/-- One dense step at an index: max (x · w + bias, 0). -/
theorem denseV_apply (x : FVec Ideal S10000x64 .f32) (w : FVec Ideal S64x64 .f32) (b : FVec Ideal S1x64 .f32)
    (p : Fin 10000) (q : Fin 64) :
    denseV x w b (ix2 p q) = Spec.dense (rd2 x) (rd2 w) (rd2 b 0) p q := by
  unfold denseV Spec.dense
  rw [maximumf_apply, addf_apply, broadcast_apply]
  have hm : matmul dot_S10000x64_S64x64_S10000x64_1_0_0_1_n_n none (truncf .bf16 x bitsLt_bf16_f32)
        (truncf .bf16 w bitsLt_bf16_f32) (constant S10000x64 .f32 0x00000000#32) (ix2 p q)
      = ∑ k : Fin 64, x (ix2 p k) * w (ix2 k q) :=
    (congrFun (Cert.LibMatmul.matmul_zero_eq dot_S10000x64_S64x64_S10000x64_1_0_0_1_n_n rfl rfl rfl rfl rfl rfl none
      (truncf .bf16 x bitsLt_bf16_f32) (truncf .bf16 w bitsLt_bf16_f32)) (ix2 p q)).trans
      (Cert.LibMatmul.MM_apply _ _ p q)
  have hb : broadcastTo S10000x64 b broadcasts_S1x64_S10000x64 (ix2 p q) = b (ix2 0 q) :=
    broadcastTo_1b_ab_apply b broadcasts_S1x64_S10000x64 p q
  rw [hm, hb]
  show max _ (Ideal.ofBits .f32 0x00000000#32) = _
  rw [Consts.ofBits_zero]
  rfl

/-- The hidden block is two dense steps. -/
theorem pay4_eq (x0 : FVec Ideal S10000x64 .f32) (w1 : FVec Ideal S64x64 .f32) (b1 : FVec Ideal S1x64 .f32)
    (w2 : FVec Ideal S64x64 .f32) (b2 : FVec Ideal S1x64 .f32) :
    k2_pay4 (F := Ideal) x0 w1 b1 w2 b2 = denseV (denseV x0 w1 b1) w2 b2 := by
  unfold k2_pay4 denseV
  simp only [shapeCast_self]

/-- The hidden block at an index: the two-step dense value of the row block. -/
theorem pay4_apply (x0 : FVec Ideal S10000x64 .f32) (w1 : FVec Ideal S64x64 .f32) (b1 : FVec Ideal S1x64 .f32)
    (w2 : FVec Ideal S64x64 .f32) (b2 : FVec Ideal S1x64 .f32) (p : Fin 10000) (q : Fin 64) :
    k2_pay4 (F := Ideal) x0 w1 b1 w2 b2 (ix2 p q)
      = Spec.hidden (rd2 x0) (rd2 w1) (rd2 b1 0) (rd2 w2) (rd2 b2 0) p q := by
  rw [pay4_eq, denseV_apply]
  unfold Spec.hidden Spec.dense
  have e : ∀ k : Fin 64, rd2 (denseV x0 w1 b1) p k = max ((∑ k' : Fin 64, rd2 x0 p k' * rd2 w1 k' k) + rd2 b1 0 k) 0 :=
    fun k => denseV_apply x0 w1 b1 p k
  simp only [e]

/-- The column-sum row: the row carried in plus the column sums of the hidden block. -/
theorem pay5_apply (x0 : FVec Ideal S10000x64 .f32) (w1 : FVec Ideal S64x64 .f32) (b1 : FVec Ideal S1x64 .f32)
    (w2 : FVec Ideal S64x64 .f32) (b2 : FVec Ideal S1x64 .f32) (acc : FVec Ideal S1x64 .f32) (u : Fin 1) (q : Fin 64) :
    k2_pay5 (F := Ideal) x0 w1 b1 w2 b2 acc (ix2 u q)
      = acc (ix2 u q) + ∑ p : Fin 10000, k2_pay4 (F := Ideal) x0 w1 b1 w2 b2 (ix2 p q) := by
  unfold k2_pay5
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (k2_pay4 (F := Ideal) x0 w1 b1 w2 b2) 0x00000000#32 reduces_S10000x64_S64 (.inl rfl) rfl q

/-- The sum-of-squares row: the row carried in plus the column sums of the squared entries of a block. -/
theorem pay1_apply (H : FVec Ideal S10000x64 .f32) (acc : FVec Ideal S1x64 .f32) (u : Fin 1) (q : Fin 64) :
    k2_pay1 (F := Ideal) H acc (ix2 u q) = acc (ix2 u q) + ∑ p : Fin 10000, H (ix2 p q) * H (ix2 p q) := by
  unfold k2_pay1
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (mulf H H) 0x00000000#32 reduces_S10000x64_S64 (.inl rfl) rfl q

/-- The row the first point resets the column sums to is zero. -/
theorem pay2_apply (j : S1x64.Idx) : k2_pay2 (F := Ideal) j = 0 := by
  show Ideal.ofBits .f32 0x00000000#32 = 0
  exact Consts.ofBits_zero

/-- The row the first point resets the sums of squares to is zero. -/
theorem pay3_apply (j : S1x64.Idx) : k2_pay3 (F := Ideal) j = 0 := by
  show Ideal.ofBits .f32 0x00000000#32 = 0
  exact Consts.ofBits_zero

end Cert.Gin.KMlp2Pay
end
-- ==== Proof.KMlp2Blk.lean ====
/-
  The blocks the dense-dense region reads at a grid point, as entries of the arrays it finds on entry: the
  feature window's block at point t is rows 10000·t … 10000·t + 9999 of the feature array; the two weight
  matrices and the two bias rows are read whole at every point.  Hence the hidden block a point writes is, row by
  row, the two-step dense value of the feature array's rows.
-/
import proofs.«178507_j28741921144979_1_alg».proof.Proof.Gen.KernelIdeal.Frame
import proofs.«178507_j28741921144979_1_alg».proof.Proof.Spec
import proofs.«178507_j28741921144979_1_alg».proof.Proof.KMlp2Pay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp2Blk
open Cert.KernelIdeal Cert.KernelIdeal.Gen

variable (V : (c : Dev nD) → (b : Ref sig .tc) → Buf (Elt Ideal) ((c : Thread nD τ).loc b))

/-- The block index maps over the grid: the feature window and the hidden-feature window walk the rows with the
    point, every other window stays at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- A row of a block of 10000 rows is a row of the array. -/
theorem row_lt (t : Fin cfg2.N) (r : Fin 10000) : t.val * 10000 + r.val < 100000 := by
  have h1 : t.val < 10 := Nat.lt_of_lt_of_eq t.isLt N_2
  have h2 := r.isLt
  omega

/-- The feature window's block at point t: rows 10000·t + r of the feature array. -/
theorem iblk_rows (c : Dev nD) (t : Fin cfg2.N) (r : Fin 10000) (k : Fin 64) :
    (iblk2 V c 0 t : Vec Ideal S10000x64 .f32) (ix2 r k)
      = (V c (Pipeline.arrRef spec2 0) : S100000x64.Idx → Elt Ideal .f32) (ix2 ⟨t.val * 10000 + r.val, row_lt t r⟩ k) := by
  obtain ⟨e0, e1, -⟩ := idx_facts t
  unfold iblk2
  rw [View.read_apply]
  refine congrArg (V c (Pipeline.arrRef spec2 0)) (funext fun a => Fin.ext ?_)
  match a with
  | ⟨0, _⟩ => show win2_0.index t 0 * 10000 + 1 * r.val = t.val * 10000 + r.val; rw [e0]; omega
  | ⟨1, _⟩ => show win2_0.index t 1 * 64 + 1 * k.val = k.val; rw [e1]; omega

/-- The first weight matrix is read whole at every point. -/
theorem iblk_w1 (c : Dev nD) (t : Fin cfg2.N) :
    (iblk2 V c 1 t : Vec Ideal S64x64 .f32) = (V c (Pipeline.arrRef spec2 1) : S64x64.Idx → Elt Ideal .f32) := by
  obtain ⟨-, -, e0, e1, -⟩ := idx_facts t
  funext x
  unfold iblk2
  rw [View.read_apply]
  refine congrArg (V c (Pipeline.arrRef spec2 1)) (funext fun a => Fin.ext ?_)
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- The first bias row is read whole at every point. -/
theorem iblk_b1 (c : Dev nD) (t : Fin cfg2.N) :
    (iblk2 V c 2 t : Vec Ideal S1x64 .f32) = (V c (Pipeline.arrRef spec2 2) : S1x64.Idx → Elt Ideal .f32) := by
  obtain ⟨-, -, -, -, e0, e1, -⟩ := idx_facts t
  funext x
  unfold iblk2
  rw [View.read_apply]
  refine congrArg (V c (Pipeline.arrRef spec2 2)) (funext fun a => Fin.ext ?_)
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- The second weight matrix is read whole at every point. -/
theorem iblk_w2 (c : Dev nD) (t : Fin cfg2.N) :
    (iblk2 V c 3 t : Vec Ideal S64x64 .f32) = (V c (Pipeline.arrRef spec2 3) : S64x64.Idx → Elt Ideal .f32) := by
  obtain ⟨-, -, -, -, -, -, e0, e1, -⟩ := idx_facts t
  funext x
  unfold iblk2
  rw [View.read_apply]
  refine congrArg (V c (Pipeline.arrRef spec2 3)) (funext fun a => Fin.ext ?_)
  match a with
  | ⟨0, _⟩ => show win2_3.index t 0 * 64 + 1 * (x 0).val = (x 0).val; rw [e0]; omega
  | ⟨1, _⟩ => show win2_3.index t 1 * 64 + 1 * (x 1).val = (x 1).val; rw [e1]; omega

/-- The second bias row is read whole at every point. -/
theorem iblk_b2 (c : Dev nD) (t : Fin cfg2.N) :
    (iblk2 V c 4 t : Vec Ideal S1x64 .f32) = (V c (Pipeline.arrRef spec2 4) : S1x64.Idx → Elt Ideal .f32) := by
  obtain ⟨-, -, -, -, -, -, -, -, e0, e1, -⟩ := idx_facts t
  funext x
  unfold iblk2
  rw [View.read_apply]
  refine congrArg (V c (Pipeline.arrRef spec2 4)) (funext fun a => Fin.ext ?_)
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- The hidden block a point computes from the five blocks it reads. -/
def Hb (c : Dev nD) (t : Fin cfg2.N) : FVec Ideal S10000x64 .f32 :=
  k2_pay4 (F := Ideal) (iblk2 V c 0 t) (iblk2 V c 1 t) (iblk2 V c 2 t) (iblk2 V c 3 t) (iblk2 V c 4 t)

/-- The two-step dense value at a row reads that row of its input only. -/
theorem hidden_row {n n' : ℕ} (P : M n 64) (P' : M n' 64) (w1 : M 64 64) (b1 : Vc 64) (w2 : M 64 64) (b2 : Vc 64)
    (p : Fin n) (p' : Fin n') (h : ∀ k, P p k = P' p' k) (q : Fin 64) :
    Spec.hidden P w1 b1 w2 b2 p q = Spec.hidden P' w1 b1 w2 b2 p' q := by
  unfold Spec.hidden Spec.dense
  simp only [h]

/-- The hidden block of point t, row r: the two-step dense value of the feature array at row 10000·t + r. -/
theorem Hb_apply (c : Dev nD) (t : Fin cfg2.N) (r : Fin 10000) (q : Fin 64) :
    Hb V c t (ix2 r q)
      = Spec.hidden (rd2 (V c (Pipeline.arrRef spec2 0))) (rd2 (V c (Pipeline.arrRef spec2 1)))
          (rd2 (V c (Pipeline.arrRef spec2 2)) 0) (rd2 (V c (Pipeline.arrRef spec2 3)))
          (rd2 (V c (Pipeline.arrRef spec2 4)) 0) ⟨t.val * 10000 + r.val, row_lt t r⟩ q := by
  unfold Hb
  refine (KMlp2Pay.pay4_apply (iblk2 V c 0 t) (iblk2 V c 1 t) (iblk2 V c 2 t) (iblk2 V c 3 t) (iblk2 V c 4 t) r q).trans ?_
  rw [iblk_w1 V c t, iblk_b1 V c t, iblk_w2 V c t, iblk_b2 V c t]
  exact hidden_row _ _ _ _ _ _ r ⟨t.val * 10000 + r.val, row_lt t r⟩ (fun k => iblk_rows V c t r k) q

end Cert.Gin.KMlp2Blk
end
-- ==== Proof.KMlp2Case.lean ====
/-
  What one grid point of the dense-dense region leaves in its three output blocks, read off the pieces its run
  writes: the hidden block is the dense-dense value of the five blocks read; the column-sum row and the
  sum-of-squares row are the rows they held before (the zero row at the first point, where the body resets them)
  plus the block's column sums and column sums of squares.
-/
import proofs.«178507_j28741921144979_1_alg».proof.Defs
import proofs.«178507_j28741921144979_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat Cfg Window)

namespace Cert.Gin.KMlp2Case
open Cert.KernelIdeal Cert.KernelIdeal.Gen

variable {F : FTy → Type} [FloatOps F]

theorem hz : (![0, 0] : Fin 2 → Nat) = fun _ => 0 := funext fun a => by fin_cases a <;> rfl

/-- At a later point the hidden block written is the dense-dense value of the five blocks read. -/
theorem out_B_5 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond2_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the column-sum row written is the row carried in plus the block's column sums. -/
theorem out_B_6 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond2_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the sum-of-squares row written is the row carried in plus the block's column sums of squares. -/
theorem out_B_7 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond2_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out2_B_7 c i a1 h1 a2 h2 a3 h3 a4 h4 a5 h5 a6 h6 a7 h7 a8 h8 hc x0 x1 x2 x3 x4 xo6 xo7 = k2_pay1 (k2_pay4 x0 x1 x2 x3 x4) xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At the first point the hidden block written is the dense-dense value of the five blocks read. -/
theorem out_A_5 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond2_0 i) (x0 : Vec F S10000x64 .f32) (x1 : Vec F S64x64 .f32) (x2 : Vec F S1x64 .f32)
    (x3 : Vec F S64x64 .f32) (x4 : Vec F S1x64 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the column-sum row written is the zero row plus the block's column sums. -/
theorem out_A_6 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond2_0 i) (x0 : Vec F S10000x64 .f32) (x1 : Vec F S64x64 .f32) (x2 : Vec F S1x64 .f32)
    (x3 : Vec F S64x64 .f32) (x4 : Vec F S1x64 .f32) :
    out2_A_6 c i a1 h1 a2 h2 a3 h3 a4 h4 a5 h5 a6 h6 a7 h7 a8 h8 hc x0 x1 x2 x3 x4 = k2_pay5 x0 x1 x2 x3 x4 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the sum-of-squares row written is the zero row plus the block's column sums of squares. -/
theorem out_A_7 (c : Dev nD) (i : grid2.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond2_0 i) (x0 : Vec F S10000x64 .f32) (x1 : Vec F S64x64 .f32) (x2 : Vec F S1x64 .f32)
    (x3 : Vec F S64x64 .f32) (x4 : Vec F S1x64 .f32) :
    out2_A_7 c i a1 h1 a2 h2 a3 h3 a4 h4 a5 h5 a6 h6 a7 h7 a8 h8 hc x0 x1 x2 x3 x4 = k2_pay1 (k2_pay4 x0 x1 x2 x3 x4) (k2_pay3 (F := F)) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

end Cert.Gin.KMlp2Case
end
-- ==== Proof.KMlp2Inv.lean ====
/-
  What the three output blocks of the dense-dense region hold after each grid point, by induction on the point.

  The hidden block after point t is the hidden block computed from the blocks read at t.  The column-sum row is
  reset to zero at the first point and every point adds its block's column sums, so after point n it holds the
  sum, over the points up to n, of their blocks' column sums; likewise the sums of squares.  After the last of the
  ten points of 10000 rows each these are the column sums over all 100000 rows.
-/
import proofs.«178507_j28741921144979_1_alg».proof.Proof.Gen.KernelIdeal.Frame
import proofs.«178507_j28741921144979_1_alg».proof.Proof.Spec
import proofs.«178507_j28741921144979_1_alg».proof.Proof.KMlp2Case
import proofs.«178507_j28741921144979_1_alg».proof.Proof.KMlp2Pay
import proofs.«178507_j28741921144979_1_alg».proof.Proof.KMlp2Blk
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp2Inv
open Cert.KernelIdeal Cert.KernelIdeal.Gen Cert.Gin.KMlp2Blk

variable (V : (c : Dev nD) → (b : Ref sig .tc) → Buf (Elt Ideal) ((c : Thread nD τ).loc b))

/-- A point other than the first is not a multiple of ten: there are ten points. -/
theorem succ_mod (n : ℕ) (h : n + 1 < cfg2.N) : ¬(n + 1) % 10 = 0 := by
  have hN : cfg2.N = 10 := N_2
  omega

/-- After the first point the hidden block is the one computed there. -/
theorem outs5_zero (c : Dev nD) (h : 0 < cfg2.N) :
    (outsAt2 V c 0 h).1 = Hb V c ⟨0, h⟩ := by
  have h0 : (⟨0, h⟩ : Fin cfg2.N).val % 10 = 0 := rfl
  have e := outsAt2_A V c ⟨0, h⟩ h0
  refine (congrArg (fun z => z.1) e).trans ?_
  dsimp only
  exact KMlp2Case.out_A_5 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))

/-- After the first point the column-sum row is the zero row plus the block's column sums. -/
theorem outs6_zero (c : Dev nD) (h : 0 < cfg2.N) :
    (outsAt2 V c 0 h).2.1 = k2_pay5 (F := Ideal) (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) := by
  have h0 : (⟨0, h⟩ : Fin cfg2.N).val % 10 = 0 := rfl
  have e := outsAt2_A V c ⟨0, h⟩ h0
  refine (congrArg (fun z => z.2.1) e).trans ?_
  dsimp only
  exact KMlp2Case.out_A_6 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))

/-- After the first point the sum-of-squares row is the zero row plus the block's column sums of squares. -/
theorem outs7_zero (c : Dev nD) (h : 0 < cfg2.N) :
    (outsAt2 V c 0 h).2.2 = k2_pay1 (F := Ideal) (Hb V c ⟨0, h⟩) (k2_pay3 (F := Ideal)) := by
  have h0 : (⟨0, h⟩ : Fin cfg2.N).val % 10 = 0 := rfl
  have e := outsAt2_A V c ⟨0, h⟩ h0
  refine (congrArg (fun z => z.2.2) e).trans ?_
  dsimp only
  exact KMlp2Case.out_A_7 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))

/-- After a later point the hidden block is the one computed there. -/
theorem outs5_succ (c : Dev nD) (n : ℕ) (h : n + 1 < cfg2.N) :
    (outsAt2 V c (n + 1) h).1 = Hb V c ⟨n + 1, h⟩ := by
  have h0 : ¬(⟨n + 1, h⟩ : Fin cfg2.N).val % 10 = 0 := succ_mod n h
  have e := outsAt2_B V c ⟨n + 1, h⟩ h0
  refine (congrArg (fun z => z.1) e).trans ?_
  dsimp only
  exact KMlp2Case.out_B_5 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2

/-- After a later point the column-sum row is the row the point before left plus the block's column sums. -/
theorem outs6_succ (c : Dev nD) (n : ℕ) (h : n + 1 < cfg2.N) :
    (outsAt2 V c (n + 1) h).2.1 = k2_pay5 (F := Ideal) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 := by
  have h0 : ¬(⟨n + 1, h⟩ : Fin cfg2.N).val % 10 = 0 := succ_mod n h
  have e := outsAt2_B V c ⟨n + 1, h⟩ h0
  refine (congrArg (fun z => z.2.1) e).trans ?_
  dsimp only
  exact KMlp2Case.out_B_6 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2

/-- After a later point the sum-of-squares row is the row the point before left plus the block's column sums of squares. -/
theorem outs7_succ (c : Dev nD) (n : ℕ) (h : n + 1 < cfg2.N) :
    (outsAt2 V c (n + 1) h).2.2 = k2_pay1 (F := Ideal) (Hb V c ⟨n + 1, h⟩) (outsAt2 V c n (Nat.lt_of_succ_lt h)).2.2 := by
  have h0 : ¬(⟨n + 1, h⟩ : Fin cfg2.N).val % 10 = 0 := succ_mod n h
  have e := outsAt2_B V c ⟨n + 1, h⟩ h0
  refine (congrArg (fun z => z.2.2) e).trans ?_
  dsimp only
  exact KMlp2Case.out_B_7 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) (outsAt2 V c ((⟨n + 1, h⟩ : Fin cfg2.N).val - 1) (Nat.lt_of_le_of_lt (Nat.sub_le _ _) (⟨n + 1, h⟩ : Fin cfg2.N).isLt)).2.1 (outsAt2 V c ((⟨n + 1, h⟩ : Fin cfg2.N).val - 1) (Nat.lt_of_le_of_lt (Nat.sub_le _ _) (⟨n + 1, h⟩ : Fin cfg2.N).isLt)).2.2

/-- The hidden block after any point is the block computed there. -/
theorem outs5 (c : Dev nD) : ∀ (n : ℕ) (h : n < cfg2.N), (outsAt2 V c n h).1 = Hb V c ⟨n, h⟩
  | 0, h => outs5_zero V c h
  | n + 1, h => outs5_succ V c n h

/-- The column sums of the hidden block of point n, at column q. -/
def g6 (c : Dev nD) (q : Fin 64) (n : ℕ) (h : n < cfg2.N) : EReal := ∑ r : Fin 10000, Hb V c ⟨n, h⟩ (ix2 r q)
/-- The column sums of squares of the hidden block of point n, at column q. -/
def g7 (c : Dev nD) (q : Fin 64) (n : ℕ) (h : n < cfg2.N) : EReal :=
  ∑ r : Fin 10000, Hb V c ⟨n, h⟩ (ix2 r q) * Hb V c ⟨n, h⟩ (ix2 r q)

/-- The column-sum row after point n: the column sums of the blocks of the points up to n, added. -/
theorem outs6 (c : Dev nD) (u : Fin 1) (q : Fin 64) (n : ℕ) (h : n < cfg2.N) :
    (outsAt2 V c n h).2.1 (ix2 u q)
      = ∑ t : Fin (n + 1), g6 V c q t.val (lt_of_le_of_lt (Nat.le_of_lt_succ t.isLt) h) := by
  refine Cert.LibTileSums.chain_eq_sum cfg2.N (g6 V c q) (fun n h => (outsAt2 V c n h).2.1 (ix2 u q)) ?_ ?_ n h
  · intro h
    show (outsAt2 V c 0 h).2.1 (ix2 u q) = g6 V c q 0 h
    rw [outs6_zero V c h]
    refine (KMlp2Pay.pay5_apply _ _ _ _ _ _ u q).trans ?_
    rw [KMlp2Pay.pay2_apply, zero_add]
    rfl
  · intro n h
    show (outsAt2 V c (n + 1) h).2.1 (ix2 u q) = (outsAt2 V c n _).2.1 (ix2 u q) + g6 V c q (n + 1) h
    rw [outs6_succ V c n h]
    exact KMlp2Pay.pay5_apply _ _ _ _ _ _ u q

/-- The sum-of-squares row after point n: the column sums of squares of the blocks of the points up to n, added. -/
theorem outs7 (c : Dev nD) (u : Fin 1) (q : Fin 64) (n : ℕ) (h : n < cfg2.N) :
    (outsAt2 V c n h).2.2 (ix2 u q)
      = ∑ t : Fin (n + 1), g7 V c q t.val (lt_of_le_of_lt (Nat.le_of_lt_succ t.isLt) h) := by
  refine Cert.LibTileSums.chain_eq_sum cfg2.N (g7 V c q) (fun n h => (outsAt2 V c n h).2.2 (ix2 u q)) ?_ ?_ n h
  · intro h
    show (outsAt2 V c 0 h).2.2 (ix2 u q) = g7 V c q 0 h
    rw [outs7_zero V c h]
    refine (KMlp2Pay.pay1_apply _ _ u q).trans ?_
    rw [KMlp2Pay.pay3_apply, zero_add]
    rfl
  · intro n h
    show (outsAt2 V c (n + 1) h).2.2 (ix2 u q) = (outsAt2 V c n _).2.2 (ix2 u q) + g7 V c q (n + 1) h
    rw [outs7_succ V c n h]
    exact KMlp2Pay.pay1_apply _ _ u q

end Cert.Gin.KMlp2Inv
end
-- ==== Proof.KMlp2.lean ====
/-
  The dense-dense region's three output arrays after its ten grid points, for any contents on entry: the hidden
  features are the two-step dense value of the feature array, row by row (each point writes its own 10000 rows, and
  the ten blocks tile the 100000 rows); the column sums and the column sums of squares, accumulated over the ten
  points from the zero row and written back after the last, are the sums over all 100000 rows.
-/
import proofs.«178507_j28741921144979_1_alg».proof.Proof.Gen.KernelIdeal.Frame
import proofs.«178507_j28741921144979_1_alg».proof.Proof.Spec
import proofs.«178507_j28741921144979_1_alg».proof.Proof.KMlp2Blk
import proofs.«178507_j28741921144979_1_alg».proof.Proof.KMlp2Inv
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp2
open Cert.KernelIdeal Cert.KernelIdeal.Gen Cert.Gin.KMlp2Blk Cert.Gin.KMlp2Inv

variable (V : (c : Dev nD) → (b : Ref sig .tc) → Buf (Elt Ideal) ((c : Thread nD τ).loc b))

/-- The hidden-feature array at an index with known coordinates. -/
theorem hiddenA_apply (P : A2 100000 64) (w1 : A2 64 64) (b1 : A2 1 64) (w2 : A2 64 64) (b2 : A2 1 64)
    (i : (⟨2, ![100000, 64]⟩ : Shape).Idx) (p : Fin 100000) (q : Fin 64) (h0 : (i 0).val = p.val) (h1 : (i 1).val = q.val) :
    hiddenA P w1 b1 w2 b2 i = Spec.hidden (rd2 P) (rd2 w1) (rd2 b1 0) (rd2 w2) (rd2 b2 0) p q := by
  have e : i = ix2 p q := by
    funext a; apply Fin.ext
    match a with
    | ⟨0, _⟩ => exact h0
    | ⟨1, _⟩ => exact h1
  subst e
  rfl

/-- The column-sum array at an index with known column. -/
theorem sumA_apply (P : A2 100000 64) (w1 : A2 64 64) (b1 : A2 1 64) (w2 : A2 64 64) (b2 : A2 1 64)
    (i : (⟨2, ![1, 64]⟩ : Shape).Idx) (q : Fin 64) (h1 : (i 1).val = q.val) :
    sumA P w1 b1 w2 b2 i = ∑ p : Fin 100000, Spec.hidden (rd2 P) (rd2 w1) (rd2 b1 0) (rd2 w2) (rd2 b2 0) p q := by
  have e : i 1 = q := Fin.ext h1
  show Spec.colsum _ (i 1) = _
  rw [e]
  rfl

/-- The sum-of-squares array at an index with known column. -/
theorem sumsqA_apply (P : A2 100000 64) (w1 : A2 64 64) (b1 : A2 1 64) (w2 : A2 64 64) (b2 : A2 1 64)
    (i : (⟨2, ![1, 64]⟩ : Shape).Idx) (q : Fin 64) (h1 : (i 1).val = q.val) :
    sumsqA P w1 b1 w2 b2 i = ∑ p : Fin 100000, Spec.hidden (rd2 P) (rd2 w1) (rd2 b1 0) (rd2 w2) (rd2 b2 0) p q
        * Spec.hidden (rd2 P) (rd2 w1) (rd2 b1 0) (rd2 w2) (rd2 b2 0) p q := by
  have e : i 1 = q := Fin.ext h1
  show Spec.colsumsq _ (i 1) = _
  rw [e]
  rfl

/-! ## The hidden features -/

/-- What point t writes back is its block of the hidden-feature array. -/
theorem flushed5 (c : Dev nD) (t : Fin cfg2.N) :
    (dat2 (F := Ideal) V c).flushed 5 t = ((cfg2.win 5).blk t).view.read (Elt Ideal)
      (hiddenA (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5, outs5 V c t.val t.isLt]
  obtain ⟨-, -, -, -, -, -, -, -, -, -, e0, e1, -⟩ := idx_facts t
  funext j
  obtain ⟨r, q, rfl⟩ : ∃ (r : Fin 10000) (q : Fin 64), j = ix2 r q := ⟨j 0, j 1, eq_ix2 j⟩
  show Hb V c t (ix2 r q) = hiddenA (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb (ix2 r q))
  refine (Hb_apply V c t r q).trans (hiddenA_apply _ _ _ _ _ _ ⟨t.val * 10000 + r.val, row_lt t r⟩ q ?_ ?_).symm
  · show win2_5.index t 0 * 10000 + 1 * r.val = t.val * 10000 + r.val
    rw [e0]; omega
  · show win2_5.index t 1 * 64 + 1 * q.val = q.val
    rw [e1]; omega

/-- An index of the hidden-feature array is in point t's block iff its coordinates are in the block's ranges. -/
theorem mem_blk5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v53_0).slice (win2_5.rect t)).set ↔ _
  rw [View.set_slice_whole, Rect.mem_set_unit]
  exact Iff.rfl

theorem hidden_eq (c : Dev nD) :
    (dat2 (F := Ideal) V c).arrAt 5 cfg2.N
      = hiddenA (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed5 V c t) fun i => by
    have hi0 : (i 0).val < 100000 := (i 0).isLt
    have hi1 : (i 1).val < 64 := (i 1).isLt
    have hN : cfg2.N = 10 := N_2
    have ht : (i 0).val / 10000 < cfg2.N := by rw [hN]; omega
    refine ⟨⟨(i 0).val / 10000, ht⟩, flush2_5 _, ?_⟩
    obtain ⟨-, -, -, -, -, -, -, -, -, -, e0, e1, -⟩ := idx_facts ⟨(i 0).val / 10000, ht⟩
    rw [mem_blk5]
    intro a
    match a with
    | ⟨0, _⟩ =>
      show win2_5.index ⟨(i 0).val / 10000, ht⟩ 0 * 10000 ≤ (i 0).val ∧ (i 0).val < win2_5.index ⟨(i 0).val / 10000, ht⟩ 0 * 10000 + 10000
      rw [e0]; dsimp only; omega
    | ⟨1, _⟩ =>
      show win2_5.index ⟨(i 0).val / 10000, ht⟩ 1 * 64 ≤ (i 1).val ∧ (i 1).val < win2_5.index ⟨(i 0).val / 10000, ht⟩ 1 * 64 + 64
      rw [e1]; omega

/-! ## The two accumulated rows -/

/-- The last point. -/
theorem last_lt : 9 < cfg2.N := by rw [show cfg2.N = 10 from N_2]; decide

/-- The contents after a point depend on the point's number only. -/
theorem outs_congr (c : Dev nD) (n k : ℕ) (hn : n < cfg2.N) (hk : k < cfg2.N) (e : n = k) :
    outsAt2 V c n hn = outsAt2 V c k hk := by
  subst e; rfl

/-- After the last point the column-sum row holds the column sums over all rows. -/
theorem total6 (c : Dev nD) (u : Fin 1) (q : Fin 64) :
    (outsAt2 V c 9 last_lt).2.1 (ix2 u q)
      = ∑ p : Fin 100000, Spec.hidden (rd2 (V c (Pipeline.arrRef spec2 0))) (rd2 (V c (Pipeline.arrRef spec2 1)))
          (rd2 (V c (Pipeline.arrRef spec2 2)) 0) (rd2 (V c (Pipeline.arrRef spec2 3)))
          (rd2 (V c (Pipeline.arrRef spec2 4)) 0) p q := by
  rw [outs6 V c u q 9 last_lt, Cert.LibTileSums.sum_tiles' 100000 10 10000 rfl]
  refine Finset.sum_congr rfl fun t _ => ?_
  unfold g6
  exact Finset.sum_congr rfl fun r _ => Hb_apply V c ⟨t.val, _⟩ r q

/-- After the last point the sum-of-squares row holds the column sums of squares over all rows. -/
theorem total7 (c : Dev nD) (u : Fin 1) (q : Fin 64) :
    (outsAt2 V c 9 last_lt).2.2 (ix2 u q)
      = ∑ p : Fin 100000, Spec.hidden (rd2 (V c (Pipeline.arrRef spec2 0))) (rd2 (V c (Pipeline.arrRef spec2 1)))
          (rd2 (V c (Pipeline.arrRef spec2 2)) 0) (rd2 (V c (Pipeline.arrRef spec2 3)))
          (rd2 (V c (Pipeline.arrRef spec2 4)) 0) p q
        * Spec.hidden (rd2 (V c (Pipeline.arrRef spec2 0))) (rd2 (V c (Pipeline.arrRef spec2 1)))
          (rd2 (V c (Pipeline.arrRef spec2 2)) 0) (rd2 (V c (Pipeline.arrRef spec2 3)))
          (rd2 (V c (Pipeline.arrRef spec2 4)) 0) p q := by
  rw [outs7 V c u q 9 last_lt, Cert.LibTileSums.sum_tiles' 100000 10 10000 rfl]
  refine Finset.sum_congr rfl fun t _ => ?_
  unfold g7
  refine Finset.sum_congr rfl fun r _ => ?_
  rw [Hb_apply V c ⟨t.val, _⟩ r q]

/-- The one write-back of the column-sum row, after the last point, writes the column-sum array: the row's one block is the whole array. -/
theorem flushed6 (c : Dev nD) (t : Fin cfg2.N) (hf : (cfg2.win 6).flush t = true) :
    (dat2 (F := Ideal) V c).flushed 6 t = ((cfg2.win 6).blk t).view.read (Elt Ideal)
      (sumA (V c (Pipeline.arrRef spec2 0)) (V c (Pipeline.arrRef spec2 1)) (V c (Pipeline.arrRef spec2 2))
          (V c (Pipeline.arrRef spec2 3)) (V c (Pipeline.arrRef spec2 4))) := by
  have hN : cfg2.N = 10 := N_2
  have h9 : t.val = 9 := by have := (flush2_6 t).mp hf; have := t.isLt; omega
  show (cfg2.win 6).cut (grid2.coords t) ((dat2 V c).after 6 t) = _
  rw [after2_6, outs_congr V c t.val 9 t.isLt last_lt h9]
  have hXG : (outsAt2 V c 9 last_lt).2.1 = sumA (V c (Pipeline.arrRef spec2 0)) (V c (Pipeline.arrRef spec2 1)) (V c (Pipeline.arrRef spec2 2))
          (V c (Pipeline.arrRef spec2 3)) (V c (Pipeline.arrRef spec2 4)) := by
    funext j
    obtain ⟨u, q, rfl⟩ : ∃ (u : Fin 1) (q : Fin 64), j = ix2 u q := ⟨j 0, j 1, eq_ix2 j⟩
    exact (total6 V c u q).trans (sumA_apply _ _ _ _ _ (ix2 u q) q rfl).symm
  rw [hXG]
  obtain ⟨-, -, -, -, -, -, -, -, -, -, -, -, e0, e1, -⟩ := idx_facts t
  have hz' : (fun a => win2_6.index t a * main_v53_1.ty.shape.size a) = fun _ => 0 := funext fun a => by
    match a with
    | ⟨0, _⟩ => show win2_6.index t 0 * 1 = 0; rw [e0]
    | ⟨1, _⟩ => show win2_6.index t 1 * 64 = 0; rw [e1]
  exact (Memref.read_access_unit_zero (Elt Ideal) main_v53_1 hz' (fun a => by rw [congrFun hz' a]; simp)
    (sumA (V c (Pipeline.arrRef spec2 0)) (V c (Pipeline.arrRef spec2 1)) (V c (Pipeline.arrRef spec2 2))
          (V c (Pipeline.arrRef spec2 3)) (V c (Pipeline.arrRef spec2 4)))).symm

/-- The one write-back of the sum-of-squares row, after the last point, writes the sum-of-squares array: the row's one block is the whole array. -/
theorem flushed7 (c : Dev nD) (t : Fin cfg2.N) (hf : (cfg2.win 7).flush t = true) :
    (dat2 (F := Ideal) V c).flushed 7 t = ((cfg2.win 7).blk t).view.read (Elt Ideal)
      (sumsqA (V c (Pipeline.arrRef spec2 0)) (V c (Pipeline.arrRef spec2 1)) (V c (Pipeline.arrRef spec2 2))
          (V c (Pipeline.arrRef spec2 3)) (V c (Pipeline.arrRef spec2 4))) := by
  have hN : cfg2.N = 10 := N_2
  have h9 : t.val = 9 := by have := (flush2_7 t).mp hf; have := t.isLt; omega
  show (cfg2.win 7).cut (grid2.coords t) ((dat2 V c).after 7 t) = _
  rw [after2_7, outs_congr V c t.val 9 t.isLt last_lt h9]
  have hXG : (outsAt2 V c 9 last_lt).2.2 = sumsqA (V c (Pipeline.arrRef spec2 0)) (V c (Pipeline.arrRef spec2 1)) (V c (Pipeline.arrRef spec2 2))
          (V c (Pipeline.arrRef spec2 3)) (V c (Pipeline.arrRef spec2 4)) := by
    funext j
    obtain ⟨u, q, rfl⟩ : ∃ (u : Fin 1) (q : Fin 64), j = ix2 u q := ⟨j 0, j 1, eq_ix2 j⟩
    exact (total7 V c u q).trans (sumsqA_apply _ _ _ _ _ (ix2 u q) q rfl).symm
  rw [hXG]
  obtain ⟨-, -, -, -, -, -, -, -, -, -, -, -, -, -, e0, e1⟩ := idx_facts t
  have hz' : (fun a => win2_7.index t a * main_v53_2.ty.shape.size a) = fun _ => 0 := funext fun a => by
    match a with
    | ⟨0, _⟩ => show win2_7.index t 0 * 1 = 0; rw [e0]
    | ⟨1, _⟩ => show win2_7.index t 1 * 64 = 0; rw [e1]
  exact (Memref.read_access_unit_zero (Elt Ideal) main_v53_2 hz' (fun a => by rw [congrFun hz' a]; simp)
    (sumsqA (V c (Pipeline.arrRef spec2 0)) (V c (Pipeline.arrRef spec2 1)) (V c (Pipeline.arrRef spec2 2))
          (V c (Pipeline.arrRef spec2 3)) (V c (Pipeline.arrRef spec2 4)))).symm

/-- An index of a one-row array is in the last point's block of the column-sum window. -/
theorem cover6 (i : S1x64.Idx) : i ∈ ((cfg2.win 6).blk ⟨9, last_lt⟩).view.set := by
  obtain ⟨-, -, -, -, -, -, -, -, -, -, -, -, e0, e1, -⟩ := idx_facts ⟨9, last_lt⟩
  have hi0 : (i 0).val < 1 := (i 0).isLt
  have hi1 : (i 1).val < 64 := (i 1).isLt
  show i ∈ ((View.whole main_v53_1).slice (win2_6.rect ⟨9, last_lt⟩)).set
  rw [View.set_slice_whole, Rect.mem_set_unit]
  intro a
  match a with
  | ⟨0, _⟩ =>
    show win2_6.index ⟨9, last_lt⟩ 0 * 1 ≤ (i 0).val ∧ (i 0).val < win2_6.index ⟨9, last_lt⟩ 0 * 1 + 1
    rw [e0]; omega
  | ⟨1, _⟩ =>
    show win2_6.index ⟨9, last_lt⟩ 1 * 64 ≤ (i 1).val ∧ (i 1).val < win2_6.index ⟨9, last_lt⟩ 1 * 64 + 64
    rw [e1]; omega

/-- An index of a one-row array is in the last point's block of the sum-of-squares window. -/
theorem cover7 (i : S1x64.Idx) : i ∈ ((cfg2.win 7).blk ⟨9, last_lt⟩).view.set := by
  obtain ⟨-, -, -, -, -, -, -, -, -, -, -, -, -, -, e0, e1⟩ := idx_facts ⟨9, last_lt⟩
  have hi0 : (i 0).val < 1 := (i 0).isLt
  have hi1 : (i 1).val < 64 := (i 1).isLt
  show i ∈ ((View.whole main_v53_2).slice (win2_7.rect ⟨9, last_lt⟩)).set
  rw [View.set_slice_whole, Rect.mem_set_unit]
  intro a
  match a with
  | ⟨0, _⟩ =>
    show win2_7.index ⟨9, last_lt⟩ 0 * 1 ≤ (i 0).val ∧ (i 0).val < win2_7.index ⟨9, last_lt⟩ 0 * 1 + 1
    rw [e0]; omega
  | ⟨1, _⟩ =>
    show win2_7.index ⟨9, last_lt⟩ 1 * 64 ≤ (i 1).val ∧ (i 1).val < win2_7.index ⟨9, last_lt⟩ 1 * 64 + 64
    rw [e1]; omega

theorem sum_eq (c : Dev nD) :
    (dat2 (F := Ideal) V c).arrAt 6 cfg2.N
      = sumA (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 6 _ (flushed6 V c) fun i =>
    ⟨⟨9, last_lt⟩, (flush2_6 _).mpr rfl, cover6 i⟩

theorem sumsq_eq (c : Dev nD) :
    (dat2 (F := Ideal) V c).arrAt 7 cfg2.N
      = sumsqA (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 7 _ (flushed7 V c) fun i =>
    ⟨⟨9, last_lt⟩, (flush2_7 _).mpr rfl, cover7 i⟩

end Cert.Gin.KMlp2
end
-- ==== Proof.KMlp4Pay.lean ====
/-
  The arithmetic of one grid point of the dense-dense region, at the ideal values, index by index.

  The hidden block: two matrix products into zero accumulators (the narrowing casts in front of them change
  nothing at the ideal values), each followed by a bias row repeated down the rows and a rectifier, is the
  two-step dense value of the row block.  The two running rows: the row carried in plus the sum, over the
  block's rows, of the hidden block's entries, or of their squares.
-/
import proofs.«178507_j28741921144979_1_alg».proof.Proof.Gen.KernelIdeal.Skeleton
import proofs.«178507_j28741921144979_1_alg».proof.Proof.Spec
import proofs.«178507_j28741921144979_1_alg».proof.Proof.Consts
import proofs.«178507_j28741921144979_1_alg».proof.Proof.LibMatmul
import proofs.«178507_j28741921144979_1_alg».proof.Proof.LibAxisReduce
import Idealize.ShloMosaic.Lib.ValueLayout
import Idealize.ShloMosaic.Lib.Pipeline.Value

noncomputable section

open scoped BigOperators
open Idealize.ShloMosaic Idealize.ShloMosaic.ValueIdx

namespace Cert.Gin.KMlp4Pay
open Cert.KernelIdeal Cert.KernelIdeal.Gen

/-- One dense step on arrays, as the region's body spells it without its identity reshapes. -/
def denseV (x : FVec Ideal S10000x64 .f32) (w : FVec Ideal S64x64 .f32) (b : FVec Ideal S1x64 .f32) :
    FVec Ideal S10000x64 .f32 :=
  maximumf
    (addf
      (matmul dot_S10000x64_S64x64_S10000x64_1_0_0_1_n_n none (truncf .bf16 x bitsLt_bf16_f32)
        (truncf .bf16 w bitsLt_bf16_f32) (constant S10000x64 .f32 0x00000000#32))
      (broadcastTo S10000x64 b broadcasts_S1x64_S10000x64))
    (broadcast S10000x64 (Scalar.ofBits .f32 0x00000000#32))

/-- One dense step at an index: max (x · w + bias, 0). -/
theorem denseV_apply (x : FVec Ideal S10000x64 .f32) (w : FVec Ideal S64x64 .f32) (b : FVec Ideal S1x64 .f32)
    (p : Fin 10000) (q : Fin 64) :
    denseV x w b (ix2 p q) = Spec.dense (rd2 x) (rd2 w) (rd2 b 0) p q := by
  unfold denseV Spec.dense
  rw [maximumf_apply, addf_apply, broadcast_apply]
  have hm : matmul dot_S10000x64_S64x64_S10000x64_1_0_0_1_n_n none (truncf .bf16 x bitsLt_bf16_f32)
        (truncf .bf16 w bitsLt_bf16_f32) (constant S10000x64 .f32 0x00000000#32) (ix2 p q)
      = ∑ k : Fin 64, x (ix2 p k) * w (ix2 k q) :=
    (congrFun (Cert.LibMatmul.matmul_zero_eq dot_S10000x64_S64x64_S10000x64_1_0_0_1_n_n rfl rfl rfl rfl rfl rfl none
      (truncf .bf16 x bitsLt_bf16_f32) (truncf .bf16 w bitsLt_bf16_f32)) (ix2 p q)).trans
      (Cert.LibMatmul.MM_apply _ _ p q)
  have hb : broadcastTo S10000x64 b broadcasts_S1x64_S10000x64 (ix2 p q) = b (ix2 0 q) :=
    broadcastTo_1b_ab_apply b broadcasts_S1x64_S10000x64 p q
  rw [hm, hb]
  show max _ (Ideal.ofBits .f32 0x00000000#32) = _
  rw [Consts.ofBits_zero]
  rfl

/-- The hidden block is two dense steps. -/
theorem pay4_eq (x0 : FVec Ideal S10000x64 .f32) (w1 : FVec Ideal S64x64 .f32) (b1 : FVec Ideal S1x64 .f32)
    (w2 : FVec Ideal S64x64 .f32) (b2 : FVec Ideal S1x64 .f32) :
    k4_pay4 (F := Ideal) x0 w1 b1 w2 b2 = denseV (denseV x0 w1 b1) w2 b2 := by
  unfold k4_pay4 denseV
  simp only [shapeCast_self]

/-- The hidden block at an index: the two-step dense value of the row block. -/
theorem pay4_apply (x0 : FVec Ideal S10000x64 .f32) (w1 : FVec Ideal S64x64 .f32) (b1 : FVec Ideal S1x64 .f32)
    (w2 : FVec Ideal S64x64 .f32) (b2 : FVec Ideal S1x64 .f32) (p : Fin 10000) (q : Fin 64) :
    k4_pay4 (F := Ideal) x0 w1 b1 w2 b2 (ix2 p q)
      = Spec.hidden (rd2 x0) (rd2 w1) (rd2 b1 0) (rd2 w2) (rd2 b2 0) p q := by
  rw [pay4_eq, denseV_apply]
  unfold Spec.hidden Spec.dense
  have e : ∀ k : Fin 64, rd2 (denseV x0 w1 b1) p k = max ((∑ k' : Fin 64, rd2 x0 p k' * rd2 w1 k' k) + rd2 b1 0 k) 0 :=
    fun k => denseV_apply x0 w1 b1 p k
  simp only [e]

/-- The column-sum row: the row carried in plus the column sums of the hidden block. -/
theorem pay5_apply (x0 : FVec Ideal S10000x64 .f32) (w1 : FVec Ideal S64x64 .f32) (b1 : FVec Ideal S1x64 .f32)
    (w2 : FVec Ideal S64x64 .f32) (b2 : FVec Ideal S1x64 .f32) (acc : FVec Ideal S1x64 .f32) (u : Fin 1) (q : Fin 64) :
    k4_pay5 (F := Ideal) x0 w1 b1 w2 b2 acc (ix2 u q)
      = acc (ix2 u q) + ∑ p : Fin 10000, k4_pay4 (F := Ideal) x0 w1 b1 w2 b2 (ix2 p q) := by
  unfold k4_pay5
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (k4_pay4 (F := Ideal) x0 w1 b1 w2 b2) 0x00000000#32 reduces_S10000x64_S64 (.inl rfl) rfl q

/-- The sum-of-squares row: the row carried in plus the column sums of the squared entries of a block. -/
theorem pay1_apply (H : FVec Ideal S10000x64 .f32) (acc : FVec Ideal S1x64 .f32) (u : Fin 1) (q : Fin 64) :
    k4_pay1 (F := Ideal) H acc (ix2 u q) = acc (ix2 u q) + ∑ p : Fin 10000, H (ix2 p q) * H (ix2 p q) := by
  unfold k4_pay1
  rw [addf_apply]
  have h1 : shapeCast S1x64 acc shapeCasts_S1x64_S1x64 = acc := shapeCast_self acc _
  rw [h1]
  refine congrArg (fun z => acc (ix2 u q) + z) ?_
  refine (shapeCast_a_1a_apply _ shapeCasts_S64_S1x64 u q).trans ?_
  exact Cert.LibAxisReduce.colSum_apply (mulf H H) 0x00000000#32 reduces_S10000x64_S64 (.inl rfl) rfl q

/-- The row the first point resets the column sums to is zero. -/
theorem pay2_apply (j : S1x64.Idx) : k4_pay2 (F := Ideal) j = 0 := by
  show Ideal.ofBits .f32 0x00000000#32 = 0
  exact Consts.ofBits_zero

/-- The row the first point resets the sums of squares to is zero. -/
theorem pay3_apply (j : S1x64.Idx) : k4_pay3 (F := Ideal) j = 0 := by
  show Ideal.ofBits .f32 0x00000000#32 = 0
  exact Consts.ofBits_zero

end Cert.Gin.KMlp4Pay
end
-- ==== Proof.KMlp4Blk.lean ====
/-
  The blocks the dense-dense region reads at a grid point, as entries of the arrays it finds on entry: the
  feature window's block at point t is rows 10000·t … 10000·t + 9999 of the feature array; the two weight
  matrices and the two bias rows are read whole at every point.  Hence the hidden block a point writes is, row by
  row, the two-step dense value of the feature array's rows.
-/
import proofs.«178507_j28741921144979_1_alg».proof.Proof.Gen.KernelIdeal.Frame
import proofs.«178507_j28741921144979_1_alg».proof.Proof.Spec
import proofs.«178507_j28741921144979_1_alg».proof.Proof.KMlp4Pay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp4Blk
open Cert.KernelIdeal Cert.KernelIdeal.Gen

variable (V : (c : Dev nD) → (b : Ref sig .tc) → Buf (Elt Ideal) ((c : Thread nD τ).loc b))

/-- The block index maps over the grid: the feature window and the hidden-feature window walk the rows with the
    point, every other window stays at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- A row of a block of 10000 rows is a row of the array. -/
theorem row_lt (t : Fin cfg4.N) (r : Fin 10000) : t.val * 10000 + r.val < 100000 := by
  have h1 : t.val < 10 := Nat.lt_of_lt_of_eq t.isLt N_4
  have h2 := r.isLt
  omega

/-- The feature window's block at point t: rows 10000·t + r of the feature array. -/
theorem iblk_rows (c : Dev nD) (t : Fin cfg4.N) (r : Fin 10000) (k : Fin 64) :
    (iblk4 V c 0 t : Vec Ideal S10000x64 .f32) (ix2 r k)
      = (V c (Pipeline.arrRef spec4 0) : S100000x64.Idx → Elt Ideal .f32) (ix2 ⟨t.val * 10000 + r.val, row_lt t r⟩ k) := by
  obtain ⟨e0, e1, -⟩ := idx_facts t
  unfold iblk4
  rw [View.read_apply]
  refine congrArg (V c (Pipeline.arrRef spec4 0)) (funext fun a => Fin.ext ?_)
  match a with
  | ⟨0, _⟩ => show win4_0.index t 0 * 10000 + 1 * r.val = t.val * 10000 + r.val; rw [e0]; omega
  | ⟨1, _⟩ => show win4_0.index t 1 * 64 + 1 * k.val = k.val; rw [e1]; omega

/-- The first weight matrix is read whole at every point. -/
theorem iblk_w1 (c : Dev nD) (t : Fin cfg4.N) :
    (iblk4 V c 1 t : Vec Ideal S64x64 .f32) = (V c (Pipeline.arrRef spec4 1) : S64x64.Idx → Elt Ideal .f32) := by
  obtain ⟨-, -, e0, e1, -⟩ := idx_facts t
  funext x
  unfold iblk4
  rw [View.read_apply]
  refine congrArg (V c (Pipeline.arrRef spec4 1)) (funext fun a => Fin.ext ?_)
  match a with
  | ⟨0, _⟩ => show win4_1.index t 0 * 64 + 1 * (x 0).val = (x 0).val; rw [e0]; omega
  | ⟨1, _⟩ => show win4_1.index t 1 * 64 + 1 * (x 1).val = (x 1).val; rw [e1]; omega

/-- The first bias row is read whole at every point. -/
theorem iblk_b1 (c : Dev nD) (t : Fin cfg4.N) :
    (iblk4 V c 2 t : Vec Ideal S1x64 .f32) = (V c (Pipeline.arrRef spec4 2) : S1x64.Idx → Elt Ideal .f32) := by
  obtain ⟨-, -, -, -, e0, e1, -⟩ := idx_facts t
  funext x
  unfold iblk4
  rw [View.read_apply]
  refine congrArg (V c (Pipeline.arrRef spec4 2)) (funext fun a => Fin.ext ?_)
  match a with
  | ⟨0, _⟩ => show win4_2.index t 0 * 1 + 1 * (x 0).val = (x 0).val; rw [e0]; omega
  | ⟨1, _⟩ => show win4_2.index t 1 * 64 + 1 * (x 1).val = (x 1).val; rw [e1]; omega

/-- The second weight matrix is read whole at every point. -/
theorem iblk_w2 (c : Dev nD) (t : Fin cfg4.N) :
    (iblk4 V c 3 t : Vec Ideal S64x64 .f32) = (V c (Pipeline.arrRef spec4 3) : S64x64.Idx → Elt Ideal .f32) := by
  obtain ⟨-, -, -, -, -, -, e0, e1, -⟩ := idx_facts t
  funext x
  unfold iblk4
  rw [View.read_apply]
  refine congrArg (V c (Pipeline.arrRef spec4 3)) (funext fun a => Fin.ext ?_)
  match a with
  | ⟨0, _⟩ => show win4_3.index t 0 * 64 + 1 * (x 0).val = (x 0).val; rw [e0]; omega
  | ⟨1, _⟩ => show win4_3.index t 1 * 64 + 1 * (x 1).val = (x 1).val; rw [e1]; omega

/-- The second bias row is read whole at every point. -/
theorem iblk_b2 (c : Dev nD) (t : Fin cfg4.N) :
    (iblk4 V c 4 t : Vec Ideal S1x64 .f32) = (V c (Pipeline.arrRef spec4 4) : S1x64.Idx → Elt Ideal .f32) := by
  obtain ⟨-, -, -, -, -, -, -, -, e0, e1, -⟩ := idx_facts t
  funext x
  unfold iblk4
  rw [View.read_apply]
  refine congrArg (V c (Pipeline.arrRef spec4 4)) (funext fun a => Fin.ext ?_)
  match a with
  | ⟨0, _⟩ => show win4_4.index t 0 * 1 + 1 * (x 0).val = (x 0).val; rw [e0]; omega
  | ⟨1, _⟩ => show win4_4.index t 1 * 64 + 1 * (x 1).val = (x 1).val; rw [e1]; omega

/-- The hidden block a point computes from the five blocks it reads. -/
def Hb (c : Dev nD) (t : Fin cfg4.N) : FVec Ideal S10000x64 .f32 :=
  k4_pay4 (F := Ideal) (iblk4 V c 0 t) (iblk4 V c 1 t) (iblk4 V c 2 t) (iblk4 V c 3 t) (iblk4 V c 4 t)

/-- The two-step dense value at a row reads that row of its input only. -/
theorem hidden_row {n n' : ℕ} (P : M n 64) (P' : M n' 64) (w1 : M 64 64) (b1 : Vc 64) (w2 : M 64 64) (b2 : Vc 64)
    (p : Fin n) (p' : Fin n') (h : ∀ k, P p k = P' p' k) (q : Fin 64) :
    Spec.hidden P w1 b1 w2 b2 p q = Spec.hidden P' w1 b1 w2 b2 p' q := by
  unfold Spec.hidden Spec.dense
  simp only [h]

/-- The hidden block of point t, row r: the two-step dense value of the feature array at row 10000·t + r. -/
theorem Hb_apply (c : Dev nD) (t : Fin cfg4.N) (r : Fin 10000) (q : Fin 64) :
    Hb V c t (ix2 r q)
      = Spec.hidden (rd2 (V c (Pipeline.arrRef spec4 0))) (rd2 (V c (Pipeline.arrRef spec4 1)))
          (rd2 (V c (Pipeline.arrRef spec4 2)) 0) (rd2 (V c (Pipeline.arrRef spec4 3)))
          (rd2 (V c (Pipeline.arrRef spec4 4)) 0) ⟨t.val * 10000 + r.val, row_lt t r⟩ q := by
  unfold Hb
  refine (KMlp4Pay.pay4_apply (iblk4 V c 0 t) (iblk4 V c 1 t) (iblk4 V c 2 t) (iblk4 V c 3 t) (iblk4 V c 4 t) r q).trans ?_
  rw [iblk_w1 V c t, iblk_b1 V c t, iblk_w2 V c t, iblk_b2 V c t]
  exact hidden_row _ _ _ _ _ _ r ⟨t.val * 10000 + r.val, row_lt t r⟩ (fun k => iblk_rows V c t r k) q

end Cert.Gin.KMlp4Blk
end
-- ==== Proof.KMlp4Case.lean ====
/-
  What one grid point of the dense-dense region leaves in its three output blocks, read off the pieces its run
  writes: the hidden block is the dense-dense value of the five blocks read; the column-sum row and the
  sum-of-squares row are the rows they held before (the zero row at the first point, where the body resets them)
  plus the block's column sums and column sums of squares.
-/
import proofs.«178507_j28741921144979_1_alg».proof.Defs
import proofs.«178507_j28741921144979_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat Cfg Window)

namespace Cert.Gin.KMlp4Case
open Cert.KernelIdeal Cert.KernelIdeal.Gen

variable {F : FTy → Type} [FloatOps F]

theorem hz : (![0, 0] : Fin 2 → Nat) = fun _ => 0 := funext fun a => by fin_cases a <;> rfl

/-- At a later point the hidden block written is the dense-dense value of the five blocks read. -/
theorem out_B_5 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond4_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out4_B_5 c i a1 h1 a2 h2 a3 h3 a4 h4 a5 h5 a6 h6 a7 h7 a8 h8 hc x0 x1 x2 x3 x4 xo6 xo7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the column-sum row written is the row carried in plus the block's column sums. -/
theorem out_B_6 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond4_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out4_B_6 c i a1 h1 a2 h2 a3 h3 a4 h4 a5 h5 a6 h6 a7 h7 a8 h8 hc x0 x1 x2 x3 x4 xo6 xo7 = k4_pay5 x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At a later point the sum-of-squares row written is the row carried in plus the block's column sums of squares. -/
theorem out_B_7 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : ¬cond4_0 i) (x0 : Vec F S10000x64 .f32) (x1 : Vec F S64x64 .f32) (x2 : Vec F S1x64 .f32)
    (x3 : Vec F S64x64 .f32) (x4 : Vec F S1x64 .f32) (xo6 xo7 : Vec F S1x64 .f32) :
    out4_B_7 c i a1 h1 a2 h2 a3 h3 a4 h4 a5 h5 a6 h6 a7 h7 a8 h8 hc x0 x1 x2 x3 x4 xo6 xo7 = k4_pay1 (k4_pay4 x0 x1 x2 x3 x4) xo7 := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S10000x64) hz, View.ld_unit_zero (S := S64x64) hz, View.ld_unit_zero (S := S1x64) hz]

/-- At the first point the hidden block written is the dense-dense value of the five blocks read. -/
theorem out_A_5 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond4_0 i) (x0 : Vec F S10000x64 .f32) (x1 : Vec F S64x64 .f32) (x2 : Vec F S1x64 .f32)
    (x3 : Vec F S64x64 .f32) (x4 : Vec F S1x64 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  rw [View.canon_unit_zero hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the column-sum row written is the zero row plus the block's column sums. -/
theorem out_A_6 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond4_0 i) (x0 : Vec F S10000x64 .f32) (x1 : Vec F S64x64 .f32) (x2 : Vec F S1x64 .f32)
    (x3 : Vec F S64x64 .f32) (x4 : Vec F S1x64 .f32) :
    out4_A_6 c i a1 h1 a2 h2 a3 h3 a4 h4 a5 h5 a6 h6 a7 h7 a8 h8 hc x0 x1 x2 x3 x4 = k4_pay5 x0 x1 x2 x3 x4 (k4_pay2 (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

/-- At the first point the sum-of-squares row written is the zero row plus the block's column sums of squares. -/
theorem out_A_7 (c : Dev nD) (i : grid4.Coords)
    (a1 : Memref sig .tc .vmem S10000x64 .f32) (h1 : a1.IsWhole) (a2 : Memref sig .tc .vmem S64x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S10000x64 .f32) (h6 : a6.IsWhole)
    (a7 : Memref sig .tc .vmem S1x64 .f32) (h7 : a7.IsWhole) (a8 : Memref sig .tc .vmem S1x64 .f32) (h8 : a8.IsWhole)
    (hc : cond4_0 i) (x0 : Vec F S10000x64 .f32) (x1 : Vec F S64x64 .f32) (x2 : Vec F S1x64 .f32)
    (x3 : Vec F S64x64 .f32) (x4 : Vec F S1x64 .f32) :
    out4_A_7 c i a1 h1 a2 h2 a3 h3 a4 h4 a5 h5 a6 h6 a7 h7 a8 h8 hc x0 x1 x2 x3 x4 = k4_pay1 (k4_pay4 x0 x1 x2 x3 x4) (k4_pay3 (F := F)) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S10000x64) hz, View.ld_unit_zero (S := S64x64) hz, View.ld_unit_zero (S := S1x64) hz]

end Cert.Gin.KMlp4Case
end
-- ==== Proof.KMlp4Inv.lean ====
/-
  What the three output blocks of the dense-dense region hold after each grid point, by induction on the point.

  The hidden block after point t is the hidden block computed from the blocks read at t.  The column-sum row is
  reset to zero at the first point and every point adds its block's column sums, so after point n it holds the
  sum, over the points up to n, of their blocks' column sums; likewise the sums of squares.  After the last of the
  ten points of 10000 rows each these are the column sums over all 100000 rows.
-/
import proofs.«178507_j28741921144979_1_alg».proof.Proof.Gen.KernelIdeal.Frame
import proofs.«178507_j28741921144979_1_alg».proof.Proof.Spec
import proofs.«178507_j28741921144979_1_alg».proof.Proof.KMlp4Case
import proofs.«178507_j28741921144979_1_alg».proof.Proof.KMlp4Pay
import proofs.«178507_j28741921144979_1_alg».proof.Proof.KMlp4Blk
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp4Inv
open Cert.KernelIdeal Cert.KernelIdeal.Gen Cert.Gin.KMlp4Blk

variable (V : (c : Dev nD) → (b : Ref sig .tc) → Buf (Elt Ideal) ((c : Thread nD τ).loc b))

/-- A point other than the first is not a multiple of ten: there are ten points. -/
theorem succ_mod (n : ℕ) (h : n + 1 < cfg4.N) : ¬(n + 1) % 10 = 0 := by
  have hN : cfg4.N = 10 := N_4
  omega

/-- After the first point the hidden block is the one computed there. -/
theorem outs5_zero (c : Dev nD) (h : 0 < cfg4.N) :
    (outsAt4 V c 0 h).1 = Hb V c ⟨0, h⟩ := by
  have h0 : (⟨0, h⟩ : Fin cfg4.N).val % 10 = 0 := rfl
  have e := outsAt4_A V c ⟨0, h⟩ h0
  refine (congrArg (fun z => z.1) e).trans ?_
  dsimp only
  exact KMlp4Case.out_A_5 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) ((hcond4_0 (⟨0, h⟩ : Fin cfg4.N)).mpr h0) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N))

/-- After the first point the column-sum row is the zero row plus the block's column sums. -/
theorem outs6_zero (c : Dev nD) (h : 0 < cfg4.N) :
    (outsAt4 V c 0 h).2.1 = k4_pay5 (F := Ideal) (iblk4 V c 0 ⟨0, h⟩) (iblk4 V c 1 ⟨0, h⟩) (iblk4 V c 2 ⟨0, h⟩) (iblk4 V c 3 ⟨0, h⟩) (iblk4 V c 4 ⟨0, h⟩) (k4_pay2 (F := Ideal)) := by
  have h0 : (⟨0, h⟩ : Fin cfg4.N).val % 10 = 0 := rfl
  have e := outsAt4_A V c ⟨0, h⟩ h0
  refine (congrArg (fun z => z.2.1) e).trans ?_
  dsimp only
  exact KMlp4Case.out_A_6 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) ((hcond4_0 (⟨0, h⟩ : Fin cfg4.N)).mpr h0) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N))

/-- After the first point the sum-of-squares row is the zero row plus the block's column sums of squares. -/
theorem outs7_zero (c : Dev nD) (h : 0 < cfg4.N) :
    (outsAt4 V c 0 h).2.2 = k4_pay1 (F := Ideal) (Hb V c ⟨0, h⟩) (k4_pay3 (F := Ideal)) := by
  have h0 : (⟨0, h⟩ : Fin cfg4.N).val % 10 = 0 := rfl
  have e := outsAt4_A V c ⟨0, h⟩ h0
  refine (congrArg (fun z => z.2.2) e).trans ?_
  dsimp only
  exact KMlp4Case.out_A_7 (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) ((hcond4_0 (⟨0, h⟩ : Fin cfg4.N)).mpr h0) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N))

/-- After a later point the hidden block is the one computed there. -/
theorem outs5_succ (c : Dev nD) (n : ℕ) (h : n + 1 < cfg4.N) :
    (outsAt4 V c (n + 1) h).1 = Hb V c ⟨n + 1, h⟩ := by
  have h0 : ¬(⟨n + 1, h⟩ : Fin cfg4.N).val % 10 = 0 := succ_mod n h
  have e := outsAt4_B V c ⟨n + 1, h⟩ h0
  refine (congrArg (fun z => z.1) e).trans ?_
  dsimp only
  exact KMlp4Case.out_B_5 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (fun hh => h0 ((hcond4_0 (⟨n + 1, h⟩ : Fin cfg4.N)).mp hh)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2

/-- After a later point the column-sum row is the row the point before left plus the block's column sums. -/
theorem outs6_succ (c : Dev nD) (n : ℕ) (h : n + 1 < cfg4.N) :
    (outsAt4 V c (n + 1) h).2.1 = k4_pay5 (F := Ideal) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (outsAt4 V c n (Nat.lt_of_succ_lt h)).2.1 := by
  have h0 : ¬(⟨n + 1, h⟩ : Fin cfg4.N).val % 10 = 0 := succ_mod n h
  have e := outsAt4_B V c ⟨n + 1, h⟩ h0
  refine (congrArg (fun z => z.2.1) e).trans ?_
  dsimp only
  exact KMlp4Case.out_B_6 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (fun hh => h0 ((hcond4_0 (⟨n + 1, h⟩ : Fin cfg4.N)).mp hh)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2

/-- After a later point the sum-of-squares row is the row the point before left plus the block's column sums of squares. -/
theorem outs7_succ (c : Dev nD) (n : ℕ) (h : n + 1 < cfg4.N) :
    (outsAt4 V c (n + 1) h).2.2 = k4_pay1 (F := Ideal) (Hb V c ⟨n + 1, h⟩) (outsAt4 V c n (Nat.lt_of_succ_lt h)).2.2 := by
  have h0 : ¬(⟨n + 1, h⟩ : Fin cfg4.N).val % 10 = 0 := succ_mod n h
  have e := outsAt4_B V c ⟨n + 1, h⟩ h0
  refine (congrArg (fun z => z.2.2) e).trans ?_
  dsimp only
  exact KMlp4Case.out_B_7 (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N)) (ms4_7 (⟨n + 1, h⟩ : Fin cfg4.N)) (hs4_7 (⟨n + 1, h⟩ : Fin cfg4.N)) (fun hh => h0 ((hcond4_0 (⟨n + 1, h⟩ : Fin cfg4.N)).mp hh)) (iblk4 V c 0 (⟨n + 1, h⟩ : Fin cfg4.N)) (iblk4 V c 1 (⟨n + 1, h⟩ : Fin cfg4.N)) (iblk4 V c 2 (⟨n + 1, h⟩ : Fin cfg4.N)) (iblk4 V c 3 (⟨n + 1, h⟩ : Fin cfg4.N)) (iblk4 V c 4 (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2

/-- The hidden block after any point is the block computed there. -/
theorem outs5 (c : Dev nD) : ∀ (n : ℕ) (h : n < cfg4.N), (outsAt4 V c n h).1 = Hb V c ⟨n, h⟩
  | 0, h => outs5_zero V c h
  | n + 1, h => outs5_succ V c n h

/-- The column sums of the hidden block of point n, at column q. -/
def g6 (c : Dev nD) (q : Fin 64) (n : ℕ) (h : n < cfg4.N) : EReal := ∑ r : Fin 10000, Hb V c ⟨n, h⟩ (ix2 r q)
/-- The column sums of squares of the hidden block of point n, at column q. -/
def g7 (c : Dev nD) (q : Fin 64) (n : ℕ) (h : n < cfg4.N) : EReal :=
  ∑ r : Fin 10000, Hb V c ⟨n, h⟩ (ix2 r q) * Hb V c ⟨n, h⟩ (ix2 r q)

/-- The column-sum row after point n: the column sums of the blocks of the points up to n, added. -/
theorem outs6 (c : Dev nD) (u : Fin 1) (q : Fin 64) (n : ℕ) (h : n < cfg4.N) :
    (outsAt4 V c n h).2.1 (ix2 u q)
      = ∑ t : Fin (n + 1), g6 V c q t.val (lt_of_le_of_lt (Nat.le_of_lt_succ t.isLt) h) := by
  refine Cert.LibTileSums.chain_eq_sum cfg4.N (g6 V c q) (fun n h => (outsAt4 V c n h).2.1 (ix2 u q)) ?_ ?_ n h
  · intro h
    show (outsAt4 V c 0 h).2.1 (ix2 u q) = g6 V c q 0 h
    rw [outs6_zero V c h]
    refine (KMlp4Pay.pay5_apply _ _ _ _ _ _ u q).trans ?_
    rw [KMlp4Pay.pay2_apply, zero_add]
    rfl
  · intro n h
    show (outsAt4 V c (n + 1) h).2.1 (ix2 u q) = (outsAt4 V c n _).2.1 (ix2 u q) + g6 V c q (n + 1) h
    rw [outs6_succ V c n h]
    exact KMlp4Pay.pay5_apply _ _ _ _ _ _ u q

/-- The sum-of-squares row after point n: the column sums of squares of the blocks of the points up to n, added. -/
theorem outs7 (c : Dev nD) (u : Fin 1) (q : Fin 64) (n : ℕ) (h : n < cfg4.N) :
    (outsAt4 V c n h).2.2 (ix2 u q)
      = ∑ t : Fin (n + 1), g7 V c q t.val (lt_of_le_of_lt (Nat.le_of_lt_succ t.isLt) h) := by
  refine Cert.LibTileSums.chain_eq_sum cfg4.N (g7 V c q) (fun n h => (outsAt4 V c n h).2.2 (ix2 u q)) ?_ ?_ n h
  · intro h
    show (outsAt4 V c 0 h).2.2 (ix2 u q) = g7 V c q 0 h
    rw [outs7_zero V c h]
    refine (KMlp4Pay.pay1_apply _ _ u q).trans ?_
    rw [KMlp4Pay.pay3_apply, zero_add]
    rfl
  · intro n h
    show (outsAt4 V c (n + 1) h).2.2 (ix2 u q) = (outsAt4 V c n _).2.2 (ix2 u q) + g7 V c q (n + 1) h
    rw [outs7_succ V c n h]
    exact KMlp4Pay.pay1_apply _ _ u q

end Cert.Gin.KMlp4Inv
end
-- ==== Proof.KMlp4.lean ====
/-
  The dense-dense region's three output arrays after its ten grid points, for any contents on entry: the hidden
  features are the two-step dense value of the feature array, row by row (each point writes its own 10000 rows, and
  the ten blocks tile the 100000 rows); the column sums and the column sums of squares, accumulated over the ten
  points from the zero row and written back after the last, are the sums over all 100000 rows.
-/
import proofs.«178507_j28741921144979_1_alg».proof.Proof.Gen.KernelIdeal.Frame
import proofs.«178507_j28741921144979_1_alg».proof.Proof.Spec
import proofs.«178507_j28741921144979_1_alg».proof.Proof.KMlp4Blk
import proofs.«178507_j28741921144979_1_alg».proof.Proof.KMlp4Inv
import proofs.«178507_j28741921144979_1_alg».proof.Proof.LibTileSums
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat Cfg Window)

namespace Cert.Gin.KMlp4
open Cert.KernelIdeal Cert.KernelIdeal.Gen Cert.Gin.KMlp4Blk Cert.Gin.KMlp4Inv

variable (V : (c : Dev nD) → (b : Ref sig .tc) → Buf (Elt Ideal) ((c : Thread nD τ).loc b))

/-- The hidden-feature array at an index with known coordinates. -/
theorem hiddenA_apply (P : A2 100000 64) (w1 : A2 64 64) (b1 : A2 1 64) (w2 : A2 64 64) (b2 : A2 1 64)
    (i : (⟨2, ![100000, 64]⟩ : Shape).Idx) (p : Fin 100000) (q : Fin 64) (h0 : (i 0).val = p.val) (h1 : (i 1).val = q.val) :
    hiddenA P w1 b1 w2 b2 i = Spec.hidden (rd2 P) (rd2 w1) (rd2 b1 0) (rd2 w2) (rd2 b2 0) p q := by
  have e : i = ix2 p q := by
    funext a; apply Fin.ext
    match a with
    | ⟨0, _⟩ => exact h0
    | ⟨1, _⟩ => exact h1
  subst e
  rfl

/-- The column-sum array at an index with known column. -/
theorem sumA_apply (P : A2 100000 64) (w1 : A2 64 64) (b1 : A2 1 64) (w2 : A2 64 64) (b2 : A2 1 64)
    (i : (⟨2, ![1, 64]⟩ : Shape).Idx) (q : Fin 64) (h1 : (i 1).val = q.val) :
    sumA P w1 b1 w2 b2 i = ∑ p : Fin 100000, Spec.hidden (rd2 P) (rd2 w1) (rd2 b1 0) (rd2 w2) (rd2 b2 0) p q := by
  have e : i 1 = q := Fin.ext h1
  show Spec.colsum _ (i 1) = _
  rw [e]
  rfl

/-- The sum-of-squares array at an index with known column. -/
theorem sumsqA_apply (P : A2 100000 64) (w1 : A2 64 64) (b1 : A2 1 64) (w2 : A2 64 64) (b2 : A2 1 64)
    (i : (⟨2, ![1, 64]⟩ : Shape).Idx) (q : Fin 64) (h1 : (i 1).val = q.val) :
    sumsqA P w1 b1 w2 b2 i = ∑ p : Fin 100000, Spec.hidden (rd2 P) (rd2 w1) (rd2 b1 0) (rd2 w2) (rd2 b2 0) p q
        * Spec.hidden (rd2 P) (rd2 w1) (rd2 b1 0) (rd2 w2) (rd2 b2 0) p q := by
  have e : i 1 = q := Fin.ext h1
  show Spec.colsumsq _ (i 1) = _
  rw [e]
  rfl

/-! ## The hidden features -/

/-- What point t writes back is its block of the hidden-feature array. -/
theorem flushed5 (c : Dev nD) (t : Fin cfg4.N) :
    (dat4 (F := Ideal) V c).flushed 5 t = ((cfg4.win 5).blk t).view.read (Elt Ideal)
      (hiddenA (V c (Pipeline.arrRef spec4 0)) (V c (Pipeline.arrRef spec4 1)) (V c (Pipeline.arrRef spec4 2))
          (V c (Pipeline.arrRef spec4 3)) (V c (Pipeline.arrRef spec4 4))) := by
  show (cfg4.win 5).cut (grid4.coords t) ((dat4 V c).after 5 t) = _
  rw [after4_5, outs5 V c t.val t.isLt]
  obtain ⟨-, -, -, -, -, -, -, -, -, -, e0, e1, -⟩ := idx_facts t
  funext j
  obtain ⟨r, q, rfl⟩ : ∃ (r : Fin 10000) (q : Fin 64), j = ix2 r q := ⟨j 0, j 1, eq_ix2 j⟩
  show Hb V c t (ix2 r q) = hiddenA (V c (Pipeline.arrRef spec4 0)) (V c (Pipeline.arrRef spec4 1)) (V c (Pipeline.arrRef spec4 2))
          (V c (Pipeline.arrRef spec4 3)) (V c (Pipeline.arrRef spec4 4)) (((cfg4.win 5).blk t).view.emb (ix2 r q))
  refine (Hb_apply V c t r q).trans (hiddenA_apply _ _ _ _ _ _ ⟨t.val * 10000 + r.val, row_lt t r⟩ q ?_ ?_).symm
  · show win4_5.index t 0 * 10000 + 1 * r.val = t.val * 10000 + r.val
    rw [e0]; omega
  · show win4_5.index t 1 * 64 + 1 * q.val = q.val
    rw [e1]; omega

/-- An index of the hidden-feature array is in point t's block iff its coordinates are in the block's ranges. -/
theorem mem_blk5 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v86_0).slice (win4_5.rect t)).set ↔ _
  rw [View.set_slice_whole, Rect.mem_set_unit]
  exact Iff.rfl

theorem hidden_eq (c : Dev nD) :
    (dat4 (F := Ideal) V c).arrAt 5 cfg4.N
      = hiddenA (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5 _ (fun t _ => flushed5 V c t) fun i => by
    have hi0 : (i 0).val < 100000 := (i 0).isLt
    have hi1 : (i 1).val < 64 := (i 1).isLt
    have hN : cfg4.N = 10 := N_4
    have ht : (i 0).val / 10000 < cfg4.N := by rw [hN]; omega
    refine ⟨⟨(i 0).val / 10000, ht⟩, flush4_5 _, ?_⟩
    obtain ⟨-, -, -, -, -, -, -, -, -, -, e0, e1, -⟩ := idx_facts ⟨(i 0).val / 10000, ht⟩
    rw [mem_blk5]
    intro a
    match a with
    | ⟨0, _⟩ =>
      show win4_5.index ⟨(i 0).val / 10000, ht⟩ 0 * 10000 ≤ (i 0).val ∧ (i 0).val < win4_5.index ⟨(i 0).val / 10000, ht⟩ 0 * 10000 + 10000
      rw [e0]; dsimp only; omega
    | ⟨1, _⟩ =>
      show win4_5.index ⟨(i 0).val / 10000, ht⟩ 1 * 64 ≤ (i 1).val ∧ (i 1).val < win4_5.index ⟨(i 0).val / 10000, ht⟩ 1 * 64 + 64
      rw [e1]; omega

/-! ## The two accumulated rows -/

/-- The last point. -/
theorem last_lt : 9 < cfg4.N := by rw [show cfg4.N = 10 from N_4]; decide

/-- The contents after a point depend on the point's number only. -/
theorem outs_congr (c : Dev nD) (n k : ℕ) (hn : n < cfg4.N) (hk : k < cfg4.N) (e : n = k) :
    outsAt4 V c n hn = outsAt4 V c k hk := by
  subst e; rfl

/-- After the last point the column-sum row holds the column sums over all rows. -/
theorem total6 (c : Dev nD) (u : Fin 1) (q : Fin 64) :
    (outsAt4 V c 9 last_lt).2.1 (ix2 u q)
      = ∑ p : Fin 100000, Spec.hidden (rd2 (V c (Pipeline.arrRef spec4 0))) (rd2 (V c (Pipeline.arrRef spec4 1)))
          (rd2 (V c (Pipeline.arrRef spec4 2)) 0) (rd2 (V c (Pipeline.arrRef spec4 3)))
          (rd2 (V c (Pipeline.arrRef spec4 4)) 0) p q := by
  rw [outs6 V c u q 9 last_lt, Cert.LibTileSums.sum_tiles' 100000 10 10000 rfl]
  refine Finset.sum_congr rfl fun t _ => ?_
  unfold g6
  exact Finset.sum_congr rfl fun r _ => Hb_apply V c ⟨t.val, _⟩ r q

/-- After the last point the sum-of-squares row holds the column sums of squares over all rows. -/
theorem total7 (c : Dev nD) (u : Fin 1) (q : Fin 64) :
    (outsAt4 V c 9 last_lt).2.2 (ix2 u q)
      = ∑ p : Fin 100000, Spec.hidden (rd2 (V c (Pipeline.arrRef spec4 0))) (rd2 (V c (Pipeline.arrRef spec4 1)))
          (rd2 (V c (Pipeline.arrRef spec4 2)) 0) (rd2 (V c (Pipeline.arrRef spec4 3)))
          (rd2 (V c (Pipeline.arrRef spec4 4)) 0) p q
        * Spec.hidden (rd2 (V c (Pipeline.arrRef spec4 0))) (rd2 (V c (Pipeline.arrRef spec4 1)))
          (rd2 (V c (Pipeline.arrRef spec4 2)) 0) (rd2 (V c (Pipeline.arrRef spec4 3)))
          (rd2 (V c (Pipeline.arrRef spec4 4)) 0) p q := by
  rw [outs7 V c u q 9 last_lt, Cert.LibTileSums.sum_tiles' 100000 10 10000 rfl]
  refine Finset.sum_congr rfl fun t _ => ?_
  unfold g7
  refine Finset.sum_congr rfl fun r _ => ?_
  rw [Hb_apply V c ⟨t.val, _⟩ r q]

/-- The one write-back of the column-sum row, after the last point, writes the column-sum array: the row's one block is the whole array. -/
theorem flushed6 (c : Dev nD) (t : Fin cfg4.N) (hf : (cfg4.win 6).flush t = true) :
    (dat4 (F := Ideal) V c).flushed 6 t = ((cfg4.win 6).blk t).view.read (Elt Ideal)
      (sumA (V c (Pipeline.arrRef spec4 0)) (V c (Pipeline.arrRef spec4 1)) (V c (Pipeline.arrRef spec4 2))
          (V c (Pipeline.arrRef spec4 3)) (V c (Pipeline.arrRef spec4 4))) := by
  have hN : cfg4.N = 10 := N_4
  have h9 : t.val = 9 := by have := (flush4_6 t).mp hf; have := t.isLt; omega
  show (cfg4.win 6).cut (grid4.coords t) ((dat4 V c).after 6 t) = _
  rw [after4_6, outs_congr V c t.val 9 t.isLt last_lt h9]
  have hXG : (outsAt4 V c 9 last_lt).2.1 = sumA (V c (Pipeline.arrRef spec4 0)) (V c (Pipeline.arrRef spec4 1)) (V c (Pipeline.arrRef spec4 2))
          (V c (Pipeline.arrRef spec4 3)) (V c (Pipeline.arrRef spec4 4)) := by
    funext j
    obtain ⟨u, q, rfl⟩ : ∃ (u : Fin 1) (q : Fin 64), j = ix2 u q := ⟨j 0, j 1, eq_ix2 j⟩
    exact (total6 V c u q).trans (sumA_apply _ _ _ _ _ (ix2 u q) q rfl).symm
  rw [hXG]
  obtain ⟨-, -, -, -, -, -, -, -, -, -, -, -, e0, e1, -⟩ := idx_facts t
  have hz' : (fun a => win4_6.index t a * main_v86_1.ty.shape.size a) = fun _ => 0 := funext fun a => by
    match a with
    | ⟨0, _⟩ => show win4_6.index t 0 * 1 = 0; rw [e0]
    | ⟨1, _⟩ => show win4_6.index t 1 * 64 = 0; rw [e1]
  exact (Memref.read_access_unit_zero (Elt Ideal) main_v86_1 hz' (fun a => by rw [congrFun hz' a]; simp)
    (sumA (V c (Pipeline.arrRef spec4 0)) (V c (Pipeline.arrRef spec4 1)) (V c (Pipeline.arrRef spec4 2))
          (V c (Pipeline.arrRef spec4 3)) (V c (Pipeline.arrRef spec4 4)))).symm

/-- The one write-back of the sum-of-squares row, after the last point, writes the sum-of-squares array: the row's one block is the whole array. -/
theorem flushed7 (c : Dev nD) (t : Fin cfg4.N) (hf : (cfg4.win 7).flush t = true) :
    (dat4 (F := Ideal) V c).flushed 7 t = ((cfg4.win 7).blk t).view.read (Elt Ideal)
      (sumsqA (V c (Pipeline.arrRef spec4 0)) (V c (Pipeline.arrRef spec4 1)) (V c (Pipeline.arrRef spec4 2))
          (V c (Pipeline.arrRef spec4 3)) (V c (Pipeline.arrRef spec4 4))) := by
  have hN : cfg4.N = 10 := N_4
  have h9 : t.val = 9 := by have := (flush4_7 t).mp hf; have := t.isLt; omega
  show (cfg4.win 7).cut (grid4.coords t) ((dat4 V c).after 7 t) = _
  rw [after4_7, outs_congr V c t.val 9 t.isLt last_lt h9]
  have hXG : (outsAt4 V c 9 last_lt).2.2 = sumsqA (V c (Pipeline.arrRef spec4 0)) (V c (Pipeline.arrRef spec4 1)) (V c (Pipeline.arrRef spec4 2))
          (V c (Pipeline.arrRef spec4 3)) (V c (Pipeline.arrRef spec4 4)) := by
    funext j
    obtain ⟨u, q, rfl⟩ : ∃ (u : Fin 1) (q : Fin 64), j = ix2 u q := ⟨j 0, j 1, eq_ix2 j⟩
    exact (total7 V c u q).trans (sumsqA_apply _ _ _ _ _ (ix2 u q) q rfl).symm
  rw [hXG]
  obtain ⟨-, -, -, -, -, -, -, -, -, -, -, -, -, -, e0, e1⟩ := idx_facts t
  have hz' : (fun a => win4_7.index t a * main_v86_2.ty.shape.size a) = fun _ => 0 := funext fun a => by
    match a with
    | ⟨0, _⟩ => show win4_7.index t 0 * 1 = 0; rw [e0]
    | ⟨1, _⟩ => show win4_7.index t 1 * 64 = 0; rw [e1]
  exact (Memref.read_access_unit_zero (Elt Ideal) main_v86_2 hz' (fun a => by rw [congrFun hz' a]; simp)
    (sumsqA (V c (Pipeline.arrRef spec4 0)) (V c (Pipeline.arrRef spec4 1)) (V c (Pipeline.arrRef spec4 2))
          (V c (Pipeline.arrRef spec4 3)) (V c (Pipeline.arrRef spec4 4)))).symm

/-- An index of a one-row array is in the last point's block of the column-sum window. -/
theorem cover6 (i : S1x64.Idx) : i ∈ ((cfg4.win 6).blk ⟨9, last_lt⟩).view.set := by
  obtain ⟨-, -, -, -, -, -, -, -, -, -, -, -, e0, e1, -⟩ := idx_facts ⟨9, last_lt⟩
  have hi0 : (i 0).val < 1 := (i 0).isLt
  have hi1 : (i 1).val < 64 := (i 1).isLt
  show i ∈ ((View.whole main_v86_1).slice (win4_6.rect ⟨9, last_lt⟩)).set
  rw [View.set_slice_whole, Rect.mem_set_unit]
  intro a
  match a with
  | ⟨0, _⟩ =>
    show win4_6.index ⟨9, last_lt⟩ 0 * 1 ≤ (i 0).val ∧ (i 0).val < win4_6.index ⟨9, last_lt⟩ 0 * 1 + 1
    rw [e0]; omega
  | ⟨1, _⟩ =>
    show win4_6.index ⟨9, last_lt⟩ 1 * 64 ≤ (i 1).val ∧ (i 1).val < win4_6.index ⟨9, last_lt⟩ 1 * 64 + 64
    rw [e1]; omega

/-- An index of a one-row array is in the last point's block of the sum-of-squares window. -/
theorem cover7 (i : S1x64.Idx) : i ∈ ((cfg4.win 7).blk ⟨9, last_lt⟩).view.set := by
  obtain ⟨-, -, -, -, -, -, -, -, -, -, -, -, -, -, e0, e1⟩ := idx_facts ⟨9, last_lt⟩
  have hi0 : (i 0).val < 1 := (i 0).isLt
  have hi1 : (i 1).val < 64 := (i 1).isLt
  show i ∈ ((View.whole main_v86_2).slice (win4_7.rect ⟨9, last_lt⟩)).set
  rw [View.set_slice_whole, Rect.mem_set_unit]
  intro a
  match a with
  | ⟨0, _⟩ =>
    show win4_7.index ⟨9, last_lt⟩ 0 * 1 ≤ (i 0).val ∧ (i 0).val < win4_7.index ⟨9, last_lt⟩ 0 * 1 + 1
    rw [e0]; omega
  | ⟨1, _⟩ =>
    show win4_7.index ⟨9, last_lt⟩ 1 * 64 ≤ (i 1).val ∧ (i 1).val < win4_7.index ⟨9, last_lt⟩ 1 * 64 + 64
    rw [e1]; omega

theorem sum_eq (c : Dev nD) :
    (dat4 (F := Ideal) V c).arrAt 6 cfg4.N
      = sumA (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 6 _ (flushed6 V c) fun i =>
    ⟨⟨9, last_lt⟩, (flush4_6 _).mpr rfl, cover6 i⟩

theorem sumsq_eq (c : Dev nD) :
    (dat4 (F := Ideal) V c).arrAt 7 cfg4.N
      = sumsqA (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 7 _ (flushed7 V c) fun i =>
    ⟨⟨9, last_lt⟩, (flush4_7 _).mpr rfl, cover7 i⟩

end Cert.Gin.KMlp4
end
-- ==== Proof.KNorm1Pay.lean ====
/-
  The normalisation body's value at one entry: from a block of hidden features and four one-row blocks (mean, inverse
  deviation, scale, shift), entry (p, q) of what the body stores is
  max (((H p q - mu q) * istd q) * g q + bt q, 0), each one-row block read at its only row.
-/
import proofs.«178507_j28741921144979_1_alg».proof.Proof.Gen.KernelIdeal.Skeleton
import proofs.«178507_j28741921144979_1_alg».proof.Proof.Consts
import Idealize.ShloMosaic.Lib.Pipeline.Value
import Idealize.ShloMosaic.Lib.ValueLayout

noncomputable section

namespace Cert.Gin.KNorm1

open Idealize.ShloMosaic Idealize.ShloMosaic.ValueIdx
open Cert.KernelIdeal Cert.KernelIdeal.Gen

/-- The stored value at entry (p, q). -/
theorem pay_apply (x0 : Vec Ideal S10000x64 .f32) (x1 x2 x3 x4 : Vec Ideal S1x64 .f32) (p : Fin 10000) (q : Fin 64) :
    k1_pay1 (F := Ideal) x0 x1 x2 x3 x4 (ix2 p q)
      = max ((x0 (ix2 p q) - x1 (ix2 (0 : Fin 1) q)) * x2 (ix2 (0 : Fin 1) q) * x3 (ix2 (0 : Fin 1) q)
          + x4 (ix2 (0 : Fin 1) q)) 0 := by
  unfold k1_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [show (Scalar.ofBits (F := Ideal) .f32 0x00000000#32) = (0 : EReal) from Consts.ofBits_zero]

end Cert.Gin.KNorm1

end
-- ==== Proof.KNorm1.lean ====
/-
  The normalisation region's output array.  The region runs over 10 grid points; point t reads rows
  10000·t … 10000·t + 9999 of the hidden features and the four one-row arrays whole, and writes the same rows of the
  output.  Each point's body stores max (((H - mu) · istd) · g + bt, 0) entrywise, so the ten blocks written are the
  ten row blocks of ONE function of the five arrays, and every row lies in the block of point (row / 10000).
-/
import proofs.«178507_j28741921144979_1_alg».proof.Proof.Gen.KernelIdeal.Frame
import proofs.«178507_j28741921144979_1_alg».proof.Proof.Spec
import proofs.«178507_j28741921144979_1_alg».proof.Proof.KNorm1Pay
import Idealize.ShloMosaic.Lib.Pipeline.Value

noncomputable section

namespace Cert.Gin.KNorm1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The stored value at any index of the block. -/
theorem pay_at (x0 : Vec Ideal S10000x64 .f32) (x1 x2 x3 x4 : Vec Ideal S1x64 .f32) (y : S10000x64.Idx) :
    k1_pay1 (F := Ideal) x0 x1 x2 x3 x4 y
      = max ((x0 y - x1 (ix2 (0 : Fin 1) (y 1))) * x2 (ix2 (0 : Fin 1) (y 1)) * x3 (ix2 (0 : Fin 1) (y 1))
          + x4 (ix2 (0 : Fin 1) (y 1))) 0 := by
  obtain ⟨p, q, rfl⟩ : ∃ (p : Fin 10000) (q : Fin 64), y = ix2 p q := ⟨y 0, y 1, eq_ix2 y⟩
  exact pay_apply x0 x1 x2 x3 x4 p q

/-- The function the region computes, at any index of the array. -/
theorem normA_at (H : A2 100000 64) (mu istd g bt : A2 1 64) (i : S100000x64.Idx) :
    normA H mu istd g bt i
      = max ((H i - mu (ix2 (0 : Fin 1) (i 1))) * istd (ix2 (0 : Fin 1) (i 1)) * g (ix2 (0 : Fin 1) (i 1))
          + bt (ix2 (0 : Fin 1) (i 1))) 0 := by
  obtain ⟨p, q, rfl⟩ : ∃ (p : Fin 100000) (q : Fin 64), i = ix2 p q := ⟨i 0, i 1, eq_ix2 i⟩
  rfl

/-- The printed index maps over the grid: the features' window moves with the output's, down the rows, one block per
    point; the four one-row windows stay at block 0. -/
theorem idx_facts : ∀ t : Fin cfg1.N,
    win1_0.index t (0 : Fin 2) = win1_5.index t (0 : Fin 2) ∧ win1_0.index t (1 : Fin 2) = win1_5.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The body's one whole-block store leaves its payload over the blocks loaded whole. -/
theorem out_eq_pay (x0 : Vec Ideal S10000x64 .f32) (x1 x2 x3 x4 : Vec Ideal S1x64 .f32) :
    out1_5 (F := Ideal) x0 x1 x2 x3 x4 = k1_pay1 (F := Ideal) x0 x1 x2 x3 x4 := by
  unfold out1_5
  rw [View.canon_unit_zero hz]
  simp only [View.ld_unit_zero (S := S10000x64) hz, View.ld_unit_zero (S := S1x64) hz]

/-- One entry: when the five blocks read the five arrays where the output index says, the stored value is the
    region's function there. -/
theorem point_eq (H : A2 100000 64) (mu istd g bt : A2 1 64)
    (x0 : Vec Ideal S10000x64 .f32) (x1 x2 x3 x4 : Vec Ideal S1x64 .f32) (y : S10000x64.Idx) (i : S100000x64.Idx)
    (h0 : x0 y = H i) (h1 : x1 (ix2 (0 : Fin 1) (y 1)) = mu (ix2 (0 : Fin 1) (i 1)))
    (h2 : x2 (ix2 (0 : Fin 1) (y 1)) = istd (ix2 (0 : Fin 1) (i 1)))
    (h3 : x3 (ix2 (0 : Fin 1) (y 1)) = g (ix2 (0 : Fin 1) (i 1)))
    (h4 : x4 (ix2 (0 : Fin 1) (y 1)) = bt (ix2 (0 : Fin 1) (i 1))) :
    k1_pay1 (F := Ideal) x0 x1 x2 x3 x4 y = normA H mu istd g bt i := by
  rw [pay_at, normA_at, h0, h1, h2, h3, h4]

/-- The features' block at point t, read at an index of the output block, is the array at the output index. -/
theorem read0 (c : Dev nD) (t : Fin cfg1.N) (j : ((cfg1.win 5).xblock (grid1.coords t)).Idx) :
    iblk1 V c 0 t ((cfg1.win 5).xinj (grid1.coords t) j)
      = V c (Pipeline.arrRef spec1 0) (((cfg1.win 5).blk t).view.emb j) := by
  obtain ⟨e0, e1, e2, e3, e4, e5, e6, e7, e8, e9, e10, e11⟩ := idx_facts t
  show V c (Pipeline.arrRef spec1 0) (((cfg1.win 0).blk t).view.emb ((cfg1.win 5).xinj (grid1.coords t) j)) = _
  refine congrArg (V c (Pipeline.arrRef spec1 0)) ?_
  funext a; apply Fin.ext
  match a with
  | ⟨0, _⟩ => show win1_0.index t (0 : Fin 2) * 10000 + 1 * (j 0).val = win1_5.index t (0 : Fin 2) * 10000 + 1 * (j 0).val; omega
  | ⟨1, _⟩ => show win1_0.index t (1 : Fin 2) * 64 + 1 * (j 1).val = win1_5.index t (1 : Fin 2) * 64 + 1 * (j 1).val; omega

/-- One-row window 1's block, read at column q of its only row, is the array's row at the output index's column. -/
theorem read1 (c : Dev nD) (t : Fin cfg1.N) (j : ((cfg1.win 5).xblock (grid1.coords t)).Idx) :
    iblk1 V c 1 t (ix2 0 ((cfg1.win 5).xinj (grid1.coords t) j 1))
      = V c (Pipeline.arrRef spec1 1) (ix2 0 (((cfg1.win 5).blk t).view.emb j 1)) := by
  obtain ⟨e0, e1, e2, e3, e4, e5, e6, e7, e8, e9, e10, e11⟩ := idx_facts t
  show V c (Pipeline.arrRef spec1 1) (((cfg1.win 1).blk t).view.emb (ix2 0 ((cfg1.win 5).xinj (grid1.coords t) j 1))) = _
  refine congrArg (V c (Pipeline.arrRef spec1 1)) ?_
  funext a; apply Fin.ext
  match a with
  | ⟨0, _⟩ => show win1_1.index t (0 : Fin 2) * 1 + 1 * 0 = 0; omega
  | ⟨1, _⟩ => show win1_1.index t (1 : Fin 2) * 64 + 1 * (j 1).val = win1_5.index t (1 : Fin 2) * 64 + 1 * (j 1).val; omega

/-- One-row window 2's block, read at column q of its only row, is the array's row at the output index's column. -/
theorem read2 (c : Dev nD) (t : Fin cfg1.N) (j : ((cfg1.win 5).xblock (grid1.coords t)).Idx) :
    iblk1 V c 2 t (ix2 0 ((cfg1.win 5).xinj (grid1.coords t) j 1))
      = V c (Pipeline.arrRef spec1 2) (ix2 0 (((cfg1.win 5).blk t).view.emb j 1)) := by
  obtain ⟨e0, e1, e2, e3, e4, e5, e6, e7, e8, e9, e10, e11⟩ := idx_facts t
  show V c (Pipeline.arrRef spec1 2) (((cfg1.win 2).blk t).view.emb (ix2 0 ((cfg1.win 5).xinj (grid1.coords t) j 1))) = _
  refine congrArg (V c (Pipeline.arrRef spec1 2)) ?_
  funext a; apply Fin.ext
  match a with
  | ⟨0, _⟩ => show win1_2.index t (0 : Fin 2) * 1 + 1 * 0 = 0; omega
  | ⟨1, _⟩ => show win1_2.index t (1 : Fin 2) * 64 + 1 * (j 1).val = win1_5.index t (1 : Fin 2) * 64 + 1 * (j 1).val; omega

/-- One-row window 3's block, read at column q of its only row, is the array's row at the output index's column. -/
theorem read3 (c : Dev nD) (t : Fin cfg1.N) (j : ((cfg1.win 5).xblock (grid1.coords t)).Idx) :
    iblk1 V c 3 t (ix2 0 ((cfg1.win 5).xinj (grid1.coords t) j 1))
      = V c (Pipeline.arrRef spec1 3) (ix2 0 (((cfg1.win 5).blk t).view.emb j 1)) := by
  obtain ⟨e0, e1, e2, e3, e4, e5, e6, e7, e8, e9, e10, e11⟩ := idx_facts t
  show V c (Pipeline.arrRef spec1 3) (((cfg1.win 3).blk t).view.emb (ix2 0 ((cfg1.win 5).xinj (grid1.coords t) j 1))) = _
  refine congrArg (V c (Pipeline.arrRef spec1 3)) ?_
  funext a; apply Fin.ext
  match a with
  | ⟨0, _⟩ => show win1_3.index t (0 : Fin 2) * 1 + 1 * 0 = 0; omega
  | ⟨1, _⟩ => show win1_3.index t (1 : Fin 2) * 64 + 1 * (j 1).val = win1_5.index t (1 : Fin 2) * 64 + 1 * (j 1).val; omega

/-- One-row window 4's block, read at column q of its only row, is the array's row at the output index's column. -/
theorem read4 (c : Dev nD) (t : Fin cfg1.N) (j : ((cfg1.win 5).xblock (grid1.coords t)).Idx) :
    iblk1 V c 4 t (ix2 0 ((cfg1.win 5).xinj (grid1.coords t) j 1))
      = V c (Pipeline.arrRef spec1 4) (ix2 0 (((cfg1.win 5).blk t).view.emb j 1)) := by
  obtain ⟨e0, e1, e2, e3, e4, e5, e6, e7, e8, e9, e10, e11⟩ := idx_facts t
  show V c (Pipeline.arrRef spec1 4) (((cfg1.win 4).blk t).view.emb (ix2 0 ((cfg1.win 5).xinj (grid1.coords t) j 1))) = _
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 64 + 1 * (j 1).val = win1_5.index t (1 : Fin 2) * 64 + 1 * (j 1).val; omega

/-- What point t writes back is block t of the region's function of the five arrays it reads. -/
theorem flushed_eq (c : Dev nD) (t : Fin cfg1.N) :
    (dat1 (F := Ideal) V c).flushed 5 t
      = ((cfg1.win 5).blk t).view.read (Elt Ideal)
          (normA (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  refine (congrArg ((cfg1.win 5).cut (grid1.coords t)) (out_eq_pay (iblk1 V c 0 t) (iblk1 V c 1 t) (iblk1 V c 2 t) (iblk1 V c 3 t) (iblk1 V c 4 t))).trans ?_
  funext j
  exact point_eq (V c (Pipeline.arrRef spec1 0)) (V c (Pipeline.arrRef spec1 1)) (V c (Pipeline.arrRef spec1 2))
            (V c (Pipeline.arrRef spec1 3)) (V c (Pipeline.arrRef spec1 4))
    (iblk1 V c 0 t) (iblk1 V c 1 t) (iblk1 V c 2 t) (iblk1 V c 3 t) (iblk1 V c 4 t)
    ((cfg1.win 5).xinj (grid1.coords t) j) (((cfg1.win 5).blk t).view.emb j)
    (read0 V c t j) (read1 V c t j) (read2 V c t j) (read3 V c t j) (read4 V c t j)

/-- An index of the array is in point t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v36).slice (win1_5.rect t)).set ↔ _
  rw [View.set_slice_whole, Rect.mem_set_unit]
  exact Iff.rfl

/-- Every index of the array is in some point's block: row r is in the block of point r / 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 64 ≤ (i 1).val ∧ (i 1).val < win1_5.index t (1 : Fin 2) * 64 + 64
    omega

/-- The region's output array after its ten points: the normalisation of the five arrays it reads. -/
theorem out_eq (c : Dev nD) :
    (dat1 (F := Ideal) V c).arrAt 5 cfg1.N
      = normA (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5
    (normA (V c (Pipeline.arrRef spec1 0)) (V c (Pipeline.arrRef spec1 1)) (V c (Pipeline.arrRef spec1 2))
        (V c (Pipeline.arrRef spec1 3)) (V c (Pipeline.arrRef spec1 4)))
    (fun t _ => flushed_eq V c t) cover

end Cert.Gin.KNorm1

end
-- ==== Proof.KNorm3Pay.lean ====
/-
  The normalisation body's value at one entry: from a block of hidden features and four one-row blocks (mean, inverse
  deviation, scale, shift), entry (p, q) of what the body stores is
  max (((H p q - mu q) * istd q) * g q + bt q, 0), each one-row block read at its only row.
-/
import proofs.«178507_j28741921144979_1_alg».proof.Proof.Gen.KernelIdeal.Skeleton
import proofs.«178507_j28741921144979_1_alg».proof.Proof.Consts
import Idealize.ShloMosaic.Lib.Pipeline.Value
import Idealize.ShloMosaic.Lib.ValueLayout

noncomputable section

namespace Cert.Gin.KNorm3

open Idealize.ShloMosaic Idealize.ShloMosaic.ValueIdx
open Cert.KernelIdeal Cert.KernelIdeal.Gen

/-- The stored value at entry (p, q). -/
theorem pay_apply (x0 : Vec Ideal S10000x64 .f32) (x1 x2 x3 x4 : Vec Ideal S1x64 .f32) (p : Fin 10000) (q : Fin 64) :
    k3_pay1 (F := Ideal) x0 x1 x2 x3 x4 (ix2 p q)
      = max ((x0 (ix2 p q) - x1 (ix2 (0 : Fin 1) q)) * x2 (ix2 (0 : Fin 1) q) * x3 (ix2 (0 : Fin 1) q)
          + x4 (ix2 (0 : Fin 1) q)) 0 := by
  unfold k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [show (Scalar.ofBits (F := Ideal) .f32 0x00000000#32) = (0 : EReal) from Consts.ofBits_zero]

end Cert.Gin.KNorm3

end
-- ==== Proof.KNorm3.lean ====
/-
  The normalisation region's output array.  The region runs over 10 grid points; point t reads rows
  10000·t … 10000·t + 9999 of the hidden features and the four one-row arrays whole, and writes the same rows of the
  output.  Each point's body stores max (((H - mu) · istd) · g + bt, 0) entrywise, so the ten blocks written are the
  ten row blocks of ONE function of the five arrays, and every row lies in the block of point (row / 10000).
-/
import proofs.«178507_j28741921144979_1_alg».proof.Proof.Gen.KernelIdeal.Frame
import proofs.«178507_j28741921144979_1_alg».proof.Proof.Spec
import proofs.«178507_j28741921144979_1_alg».proof.Proof.KNorm3Pay
import Idealize.ShloMosaic.Lib.Pipeline.Value

noncomputable section

namespace Cert.Gin.KNorm3

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The stored value at any index of the block. -/
theorem pay_at (x0 : Vec Ideal S10000x64 .f32) (x1 x2 x3 x4 : Vec Ideal S1x64 .f32) (y : S10000x64.Idx) :
    k3_pay1 (F := Ideal) x0 x1 x2 x3 x4 y
      = max ((x0 y - x1 (ix2 (0 : Fin 1) (y 1))) * x2 (ix2 (0 : Fin 1) (y 1)) * x3 (ix2 (0 : Fin 1) (y 1))
          + x4 (ix2 (0 : Fin 1) (y 1))) 0 := by
  obtain ⟨p, q, rfl⟩ : ∃ (p : Fin 10000) (q : Fin 64), y = ix2 p q := ⟨y 0, y 1, eq_ix2 y⟩
  exact pay_apply x0 x1 x2 x3 x4 p q

/-- The function the region computes, at any index of the array. -/
theorem normA_at (H : A2 100000 64) (mu istd g bt : A2 1 64) (i : S100000x64.Idx) :
    normA H mu istd g bt i
      = max ((H i - mu (ix2 (0 : Fin 1) (i 1))) * istd (ix2 (0 : Fin 1) (i 1)) * g (ix2 (0 : Fin 1) (i 1))
          + bt (ix2 (0 : Fin 1) (i 1))) 0 := by
  obtain ⟨p, q, rfl⟩ : ∃ (p : Fin 100000) (q : Fin 64), i = ix2 p q := ⟨i 0, i 1, eq_ix2 i⟩
  rfl

/-- The printed index maps over the grid: the features' window moves with the output's, down the rows, one block per
    point; the four one-row windows stay at block 0. -/
theorem idx_facts : ∀ t : Fin cfg3.N,
    win3_0.index t (0 : Fin 2) = win3_5.index t (0 : Fin 2) ∧ win3_0.index t (1 : Fin 2) = win3_5.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 9 ∧ win3_5.index t (1 : Fin 2) = 0 :=
  (by decide +kernel : ∀ t : Fin grid3.N, _)

/-- Every row block is some point's. -/
theorem idx_onto : ∀ q0 : Fin 10, ∃ t : Fin cfg3.N, win3_5.index t = ![q0.val, 0] :=
  (by decide +kernel : ∀ q0 : Fin 10, ∃ t : Fin grid3.N, win3_5.index t = ![q0.val, 0])

/-- The body's one whole-block store leaves its payload over the blocks loaded whole. -/
theorem out_eq_pay (x0 : Vec Ideal S10000x64 .f32) (x1 x2 x3 x4 : Vec Ideal S1x64 .f32) :
    out3_5 (F := Ideal) x0 x1 x2 x3 x4 = k3_pay1 (F := Ideal) x0 x1 x2 x3 x4 := by
  unfold out3_5
  rw [View.canon_unit_zero hz]
  simp only [View.ld_unit_zero (S := S10000x64) hz, View.ld_unit_zero (S := S1x64) hz]

/-- One entry: when the five blocks read the five arrays where the output index says, the stored value is the
    region's function there. -/
theorem point_eq (H : A2 100000 64) (mu istd g bt : A2 1 64)
    (x0 : Vec Ideal S10000x64 .f32) (x1 x2 x3 x4 : Vec Ideal S1x64 .f32) (y : S10000x64.Idx) (i : S100000x64.Idx)
    (h0 : x0 y = H i) (h1 : x1 (ix2 (0 : Fin 1) (y 1)) = mu (ix2 (0 : Fin 1) (i 1)))
    (h2 : x2 (ix2 (0 : Fin 1) (y 1)) = istd (ix2 (0 : Fin 1) (i 1)))
    (h3 : x3 (ix2 (0 : Fin 1) (y 1)) = g (ix2 (0 : Fin 1) (i 1)))
    (h4 : x4 (ix2 (0 : Fin 1) (y 1)) = bt (ix2 (0 : Fin 1) (i 1))) :
    k3_pay1 (F := Ideal) x0 x1 x2 x3 x4 y = normA H mu istd g bt i := by
  rw [pay_at, normA_at, h0, h1, h2, h3, h4]

/-- The features' block at point t, read at an index of the output block, is the array at the output index. -/
theorem read0 (c : Dev nD) (t : Fin cfg3.N) (j : ((cfg3.win 5).xblock (grid3.coords t)).Idx) :
    iblk3 V c 0 t ((cfg3.win 5).xinj (grid3.coords t) j)
      = V c (Pipeline.arrRef spec3 0) (((cfg3.win 5).blk t).view.emb j) := by
  obtain ⟨e0, e1, e2, e3, e4, e5, e6, e7, e8, e9, e10, e11⟩ := idx_facts t
  show V c (Pipeline.arrRef spec3 0) (((cfg3.win 0).blk t).view.emb ((cfg3.win 5).xinj (grid3.coords t) j)) = _
  refine congrArg (V c (Pipeline.arrRef spec3 0)) ?_
  funext a; apply Fin.ext
  match a with
  | ⟨0, _⟩ => show win3_0.index t (0 : Fin 2) * 10000 + 1 * (j 0).val = win3_5.index t (0 : Fin 2) * 10000 + 1 * (j 0).val; omega
  | ⟨1, _⟩ => show win3_0.index t (1 : Fin 2) * 64 + 1 * (j 1).val = win3_5.index t (1 : Fin 2) * 64 + 1 * (j 1).val; omega

/-- One-row window 1's block, read at column q of its only row, is the array's row at the output index's column. -/
theorem read1 (c : Dev nD) (t : Fin cfg3.N) (j : ((cfg3.win 5).xblock (grid3.coords t)).Idx) :
    iblk3 V c 1 t (ix2 0 ((cfg3.win 5).xinj (grid3.coords t) j 1))
      = V c (Pipeline.arrRef spec3 1) (ix2 0 (((cfg3.win 5).blk t).view.emb j 1)) := by
  obtain ⟨e0, e1, e2, e3, e4, e5, e6, e7, e8, e9, e10, e11⟩ := idx_facts t
  show V c (Pipeline.arrRef spec3 1) (((cfg3.win 1).blk t).view.emb (ix2 0 ((cfg3.win 5).xinj (grid3.coords t) j 1))) = _
  refine congrArg (V c (Pipeline.arrRef spec3 1)) ?_
  funext a; apply Fin.ext
  match a with
  | ⟨0, _⟩ => show win3_1.index t (0 : Fin 2) * 1 + 1 * 0 = 0; omega
  | ⟨1, _⟩ => show win3_1.index t (1 : Fin 2) * 64 + 1 * (j 1).val = win3_5.index t (1 : Fin 2) * 64 + 1 * (j 1).val; omega

/-- One-row window 2's block, read at column q of its only row, is the array's row at the output index's column. -/
theorem read2 (c : Dev nD) (t : Fin cfg3.N) (j : ((cfg3.win 5).xblock (grid3.coords t)).Idx) :
    iblk3 V c 2 t (ix2 0 ((cfg3.win 5).xinj (grid3.coords t) j 1))
      = V c (Pipeline.arrRef spec3 2) (ix2 0 (((cfg3.win 5).blk t).view.emb j 1)) := by
  obtain ⟨e0, e1, e2, e3, e4, e5, e6, e7, e8, e9, e10, e11⟩ := idx_facts t
  show V c (Pipeline.arrRef spec3 2) (((cfg3.win 2).blk t).view.emb (ix2 0 ((cfg3.win 5).xinj (grid3.coords t) j 1))) = _
  refine congrArg (V c (Pipeline.arrRef spec3 2)) ?_
  funext a; apply Fin.ext
  match a with
  | ⟨0, _⟩ => show win3_2.index t (0 : Fin 2) * 1 + 1 * 0 = 0; omega
  | ⟨1, _⟩ => show win3_2.index t (1 : Fin 2) * 64 + 1 * (j 1).val = win3_5.index t (1 : Fin 2) * 64 + 1 * (j 1).val; omega

/-- One-row window 3's block, read at column q of its only row, is the array's row at the output index's column. -/
theorem read3 (c : Dev nD) (t : Fin cfg3.N) (j : ((cfg3.win 5).xblock (grid3.coords t)).Idx) :
    iblk3 V c 3 t (ix2 0 ((cfg3.win 5).xinj (grid3.coords t) j 1))
      = V c (Pipeline.arrRef spec3 3) (ix2 0 (((cfg3.win 5).blk t).view.emb j 1)) := by
  obtain ⟨e0, e1, e2, e3, e4, e5, e6, e7, e8, e9, e10, e11⟩ := idx_facts t
  show V c (Pipeline.arrRef spec3 3) (((cfg3.win 3).blk t).view.emb (ix2 0 ((cfg3.win 5).xinj (grid3.coords t) j 1))) = _
  refine congrArg (V c (Pipeline.arrRef spec3 3)) ?_
  funext a; apply Fin.ext
  match a with
  | ⟨0, _⟩ => show win3_3.index t (0 : Fin 2) * 1 + 1 * 0 = 0; omega
  | ⟨1, _⟩ => show win3_3.index t (1 : Fin 2) * 64 + 1 * (j 1).val = win3_5.index t (1 : Fin 2) * 64 + 1 * (j 1).val; omega

/-- One-row window 4's block, read at column q of its only row, is the array's row at the output index's column. -/
theorem read4 (c : Dev nD) (t : Fin cfg3.N) (j : ((cfg3.win 5).xblock (grid3.coords t)).Idx) :
    iblk3 V c 4 t (ix2 0 ((cfg3.win 5).xinj (grid3.coords t) j 1))
      = V c (Pipeline.arrRef spec3 4) (ix2 0 (((cfg3.win 5).blk t).view.emb j 1)) := by
  obtain ⟨e0, e1, e2, e3, e4, e5, e6, e7, e8, e9, e10, e11⟩ := idx_facts t
  show V c (Pipeline.arrRef spec3 4) (((cfg3.win 4).blk t).view.emb (ix2 0 ((cfg3.win 5).xinj (grid3.coords t) j 1))) = _
  refine congrArg (V c (Pipeline.arrRef spec3 4)) ?_
  funext a; apply Fin.ext
  match a with
  | ⟨0, _⟩ => show win3_4.index t (0 : Fin 2) * 1 + 1 * 0 = 0; omega
  | ⟨1, _⟩ => show win3_4.index t (1 : Fin 2) * 64 + 1 * (j 1).val = win3_5.index t (1 : Fin 2) * 64 + 1 * (j 1).val; omega

/-- What point t writes back is block t of the region's function of the five arrays it reads. -/
theorem flushed_eq (c : Dev nD) (t : Fin cfg3.N) :
    (dat3 (F := Ideal) V c).flushed 5 t
      = ((cfg3.win 5).blk t).view.read (Elt Ideal)
          (normA (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 V c).after 5 t) = _
  rw [after3_5]
  refine (congrArg ((cfg3.win 5).cut (grid3.coords t)) (out_eq_pay (iblk3 V c 0 t) (iblk3 V c 1 t) (iblk3 V c 2 t) (iblk3 V c 3 t) (iblk3 V c 4 t))).trans ?_
  funext j
  exact point_eq (V c (Pipeline.arrRef spec3 0)) (V c (Pipeline.arrRef spec3 1)) (V c (Pipeline.arrRef spec3 2))
            (V c (Pipeline.arrRef spec3 3)) (V c (Pipeline.arrRef spec3 4))
    (iblk3 V c 0 t) (iblk3 V c 1 t) (iblk3 V c 2 t) (iblk3 V c 3 t) (iblk3 V c 4 t)
    ((cfg3.win 5).xinj (grid3.coords t) j) (((cfg3.win 5).blk t).view.emb j)
    (read0 V c t j) (read1 V c t j) (read2 V c t j) (read3 V c t j) (read4 V c t j)

/-- An index of the array is in point t's block iff each coordinate is in the block's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v69).slice (win3_5.rect t)).set ↔ _
  rw [View.set_slice_whole, Rect.mem_set_unit]
  exact Iff.rfl

/-- Every index of the array is in some point's block: row r is in the block of point r / 10000. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 64 ≤ (i 1).val ∧ (i 1).val < win3_5.index t (1 : Fin 2) * 64 + 64
    omega

/-- The region's output array after its ten points: the normalisation of the five arrays it reads. -/
theorem out_eq (c : Dev nD) :
    (dat3 (F := Ideal) V c).arrAt 5 cfg3.N
      = normA (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5
    (normA (V c (Pipeline.arrRef spec3 0)) (V c (Pipeline.arrRef spec3 1)) (V c (Pipeline.arrRef spec3 2))
        (V c (Pipeline.arrRef spec3 3)) (V c (Pipeline.arrRef spec3 4)))
    (fun t _ => flushed_eq V c t) cover

end Cert.Gin.KNorm3

end
-- ==== Proof.KNorm5Pay.lean ====
/-
  The normalisation body's value at one entry: from a block of hidden features and four one-row blocks (mean, inverse
  deviation, scale, shift), entry (p, q) of what the body stores is
  max (((H p q - mu q) * istd q) * g q + bt q, 0), each one-row block read at its only row.
-/
import proofs.«178507_j28741921144979_1_alg».proof.Proof.Gen.KernelIdeal.Skeleton
import proofs.«178507_j28741921144979_1_alg».proof.Proof.Consts
import Idealize.ShloMosaic.Lib.Pipeline.Value
import Idealize.ShloMosaic.Lib.ValueLayout

noncomputable section

namespace Cert.Gin.KNorm5

open Idealize.ShloMosaic Idealize.ShloMosaic.ValueIdx
open Cert.KernelIdeal Cert.KernelIdeal.Gen

/-- The stored value at entry (p, q). -/
theorem pay_apply (x0 : Vec Ideal S10000x64 .f32) (x1 x2 x3 x4 : Vec Ideal S1x64 .f32) (p : Fin 10000) (q : Fin 64) :
    k5_pay1 (F := Ideal) x0 x1 x2 x3 x4 (ix2 p q)
      = max ((x0 (ix2 p q) - x1 (ix2 (0 : Fin 1) q)) * x2 (ix2 (0 : Fin 1) q) * x3 (ix2 (0 : Fin 1) q)
          + x4 (ix2 (0 : Fin 1) q)) 0 := by
  unfold k5_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [show (Scalar.ofBits (F := Ideal) .f32 0x00000000#32) = (0 : EReal) from Consts.ofBits_zero]

end Cert.Gin.KNorm5

end
-- ==== Proof.KNorm5.lean ====
/-
  The normalisation region's output array.  The region runs over 10 grid points; point t reads rows
  10000·t … 10000·t + 9999 of the hidden features and the four one-row arrays whole, and writes the same rows of the
  output.  Each point's body stores max (((H - mu) · istd) · g + bt, 0) entrywise, so the ten blocks written are the
  ten row blocks of ONE function of the five arrays, and every row lies in the block of point (row / 10000).
-/
import proofs.«178507_j28741921144979_1_alg».proof.Proof.Gen.KernelIdeal.Frame
import proofs.«178507_j28741921144979_1_alg».proof.Proof.Spec
import proofs.«178507_j28741921144979_1_alg».proof.Proof.KNorm5Pay
import Idealize.ShloMosaic.Lib.Pipeline.Value

noncomputable section

namespace Cert.Gin.KNorm5

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The stored value at any index of the block. -/
theorem pay_at (x0 : Vec Ideal S10000x64 .f32) (x1 x2 x3 x4 : Vec Ideal S1x64 .f32) (y : S10000x64.Idx) :
    k5_pay1 (F := Ideal) x0 x1 x2 x3 x4 y
      = max ((x0 y - x1 (ix2 (0 : Fin 1) (y 1))) * x2 (ix2 (0 : Fin 1) (y 1)) * x3 (ix2 (0 : Fin 1) (y 1))
          + x4 (ix2 (0 : Fin 1) (y 1))) 0 := by
  obtain ⟨p, q, rfl⟩ : ∃ (p : Fin 10000) (q : Fin 64), y = ix2 p q := ⟨y 0, y 1, eq_ix2 y⟩
  exact pay_apply x0 x1 x2 x3 x4 p q

/-- The function the region computes, at any index of the array. -/
theorem normA_at (H : A2 100000 64) (mu istd g bt : A2 1 64) (i : S100000x64.Idx) :
    normA H mu istd g bt i
      = max ((H i - mu (ix2 (0 : Fin 1) (i 1))) * istd (ix2 (0 : Fin 1) (i 1)) * g (ix2 (0 : Fin 1) (i 1))
          + bt (ix2 (0 : Fin 1) (i 1))) 0 := by
  obtain ⟨p, q, rfl⟩ : ∃ (p : Fin 100000) (q : Fin 64), i = ix2 p q := ⟨i 0, i 1, eq_ix2 i⟩
  rfl

/-- The printed index maps over the grid: the features' window moves with the output's, down the rows, one block per
    point; the four one-row windows stay at block 0. -/
theorem idx_facts : ∀ t : Fin cfg5.N,
    win5_0.index t (0 : Fin 2) = win5_5.index t (0 : Fin 2) ∧ win5_0.index t (1 : Fin 2) = win5_5.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 9 ∧ win5_5.index t (1 : Fin 2) = 0 :=
  (by decide +kernel : ∀ t : Fin grid5.N, _)

/-- Every row block is some point's. -/
theorem idx_onto : ∀ q0 : Fin 10, ∃ t : Fin cfg5.N, win5_5.index t = ![q0.val, 0] :=
  (by decide +kernel : ∀ q0 : Fin 10, ∃ t : Fin grid5.N, win5_5.index t = ![q0.val, 0])

/-- The body's one whole-block store leaves its payload over the blocks loaded whole. -/
theorem out_eq_pay (x0 : Vec Ideal S10000x64 .f32) (x1 x2 x3 x4 : Vec Ideal S1x64 .f32) :
    out5_5 (F := Ideal) x0 x1 x2 x3 x4 = k5_pay1 (F := Ideal) x0 x1 x2 x3 x4 := by
  unfold out5_5
  rw [View.canon_unit_zero hz]
  simp only [View.ld_unit_zero (S := S10000x64) hz, View.ld_unit_zero (S := S1x64) hz]

/-- One entry: when the five blocks read the five arrays where the output index says, the stored value is the
    region's function there. -/
theorem point_eq (H : A2 100000 64) (mu istd g bt : A2 1 64)
    (x0 : Vec Ideal S10000x64 .f32) (x1 x2 x3 x4 : Vec Ideal S1x64 .f32) (y : S10000x64.Idx) (i : S100000x64.Idx)
    (h0 : x0 y = H i) (h1 : x1 (ix2 (0 : Fin 1) (y 1)) = mu (ix2 (0 : Fin 1) (i 1)))
    (h2 : x2 (ix2 (0 : Fin 1) (y 1)) = istd (ix2 (0 : Fin 1) (i 1)))
    (h3 : x3 (ix2 (0 : Fin 1) (y 1)) = g (ix2 (0 : Fin 1) (i 1)))
    (h4 : x4 (ix2 (0 : Fin 1) (y 1)) = bt (ix2 (0 : Fin 1) (i 1))) :
    k5_pay1 (F := Ideal) x0 x1 x2 x3 x4 y = normA H mu istd g bt i := by
  rw [pay_at, normA_at, h0, h1, h2, h3, h4]

/-- The features' block at point t, read at an index of the output block, is the array at the output index. -/
theorem read0 (c : Dev nD) (t : Fin cfg5.N) (j : ((cfg5.win 5).xblock (grid5.coords t)).Idx) :
    iblk5 V c 0 t ((cfg5.win 5).xinj (grid5.coords t) j)
      = V c (Pipeline.arrRef spec5 0) (((cfg5.win 5).blk t).view.emb j) := by
  obtain ⟨e0, e1, e2, e3, e4, e5, e6, e7, e8, e9, e10, e11⟩ := idx_facts t
  show V c (Pipeline.arrRef spec5 0) (((cfg5.win 0).blk t).view.emb ((cfg5.win 5).xinj (grid5.coords t) j)) = _
  refine congrArg (V c (Pipeline.arrRef spec5 0)) ?_
  funext a; apply Fin.ext
  match a with
  | ⟨0, _⟩ => show win5_0.index t (0 : Fin 2) * 10000 + 1 * (j 0).val = win5_5.index t (0 : Fin 2) * 10000 + 1 * (j 0).val; omega
  | ⟨1, _⟩ => show win5_0.index t (1 : Fin 2) * 64 + 1 * (j 1).val = win5_5.index t (1 : Fin 2) * 64 + 1 * (j 1).val; omega

/-- One-row window 1's block, read at column q of its only row, is the array's row at the output index's column. -/
theorem read1 (c : Dev nD) (t : Fin cfg5.N) (j : ((cfg5.win 5).xblock (grid5.coords t)).Idx) :
    iblk5 V c 1 t (ix2 0 ((cfg5.win 5).xinj (grid5.coords t) j 1))
      = V c (Pipeline.arrRef spec5 1) (ix2 0 (((cfg5.win 5).blk t).view.emb j 1)) := by
  obtain ⟨e0, e1, e2, e3, e4, e5, e6, e7, e8, e9, e10, e11⟩ := idx_facts t
  show V c (Pipeline.arrRef spec5 1) (((cfg5.win 1).blk t).view.emb (ix2 0 ((cfg5.win 5).xinj (grid5.coords t) j 1))) = _
  refine congrArg (V c (Pipeline.arrRef spec5 1)) ?_
  funext a; apply Fin.ext
  match a with
  | ⟨0, _⟩ => show win5_1.index t (0 : Fin 2) * 1 + 1 * 0 = 0; omega
  | ⟨1, _⟩ => show win5_1.index t (1 : Fin 2) * 64 + 1 * (j 1).val = win5_5.index t (1 : Fin 2) * 64 + 1 * (j 1).val; omega

/-- One-row window 2's block, read at column q of its only row, is the array's row at the output index's column. -/
theorem read2 (c : Dev nD) (t : Fin cfg5.N) (j : ((cfg5.win 5).xblock (grid5.coords t)).Idx) :
    iblk5 V c 2 t (ix2 0 ((cfg5.win 5).xinj (grid5.coords t) j 1))
      = V c (Pipeline.arrRef spec5 2) (ix2 0 (((cfg5.win 5).blk t).view.emb j 1)) := by
  obtain ⟨e0, e1, e2, e3, e4, e5, e6, e7, e8, e9, e10, e11⟩ := idx_facts t
  show V c (Pipeline.arrRef spec5 2) (((cfg5.win 2).blk t).view.emb (ix2 0 ((cfg5.win 5).xinj (grid5.coords t) j 1))) = _
  refine congrArg (V c (Pipeline.arrRef spec5 2)) ?_
  funext a; apply Fin.ext
  match a with
  | ⟨0, _⟩ => show win5_2.index t (0 : Fin 2) * 1 + 1 * 0 = 0; omega
  | ⟨1, _⟩ => show win5_2.index t (1 : Fin 2) * 64 + 1 * (j 1).val = win5_5.index t (1 : Fin 2) * 64 + 1 * (j 1).val; omega

/-- One-row window 3's block, read at column q of its only row, is the array's row at the output index's column. -/
theorem read3 (c : Dev nD) (t : Fin cfg5.N) (j : ((cfg5.win 5).xblock (grid5.coords t)).Idx) :
    iblk5 V c 3 t (ix2 0 ((cfg5.win 5).xinj (grid5.coords t) j 1))
      = V c (Pipeline.arrRef spec5 3) (ix2 0 (((cfg5.win 5).blk t).view.emb j 1)) := by
  obtain ⟨e0, e1, e2, e3, e4, e5, e6, e7, e8, e9, e10, e11⟩ := idx_facts t
  show V c (Pipeline.arrRef spec5 3) (((cfg5.win 3).blk t).view.emb (ix2 0 ((cfg5.win 5).xinj (grid5.coords t) j 1))) = _
  refine congrArg (V c (Pipeline.arrRef spec5 3)) ?_
  funext a; apply Fin.ext
  match a with
  | ⟨0, _⟩ => show win5_3.index t (0 : Fin 2) * 1 + 1 * 0 = 0; omega
  | ⟨1, _⟩ => show win5_3.index t (1 : Fin 2) * 64 + 1 * (j 1).val = win5_5.index t (1 : Fin 2) * 64 + 1 * (j 1).val; omega

/-- One-row window 4's block, read at column q of its only row, is the array's row at the output index's column. -/
theorem read4 (c : Dev nD) (t : Fin cfg5.N) (j : ((cfg5.win 5).xblock (grid5.coords t)).Idx) :
    iblk5 V c 4 t (ix2 0 ((cfg5.win 5).xinj (grid5.coords t) j 1))
      = V c (Pipeline.arrRef spec5 4) (ix2 0 (((cfg5.win 5).blk t).view.emb j 1)) := by
  obtain ⟨e0, e1, e2, e3, e4, e5, e6, e7, e8, e9, e10, e11⟩ := idx_facts t
  show V c (Pipeline.arrRef spec5 4) (((cfg5.win 4).blk t).view.emb (ix2 0 ((cfg5.win 5).xinj (grid5.coords t) j 1))) = _
  refine congrArg (V c (Pipeline.arrRef spec5 4)) ?_
  funext a; apply Fin.ext
  match a with
  | ⟨0, _⟩ => show win5_4.index t (0 : Fin 2) * 1 + 1 * 0 = 0; omega
  | ⟨1, _⟩ => show win5_4.index t (1 : Fin 2) * 64 + 1 * (j 1).val = win5_5.index t (1 : Fin 2) * 64 + 1 * (j 1).val; omega

/-- What point t writes back is block t of the region's function of the five arrays it reads. -/
theorem flushed_eq (c : Dev nD) (t : Fin cfg5.N) :
    (dat5 (F := Ideal) V c).flushed 5 t
      = ((cfg5.win 5).blk t).view.read (Elt Ideal)
          (normA (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 V c).after 5 t) = _
  rw [after5_5]
  refine (congrArg ((cfg5.win 5).cut (grid5.coords t)) (out_eq_pay (iblk5 V c 0 t) (iblk5 V c 1 t) (iblk5 V c 2 t) (iblk5 V c 3 t) (iblk5 V c 4 t))).trans ?_
  funext j
  exact point_eq (V c (Pipeline.arrRef spec5 0)) (V c (Pipeline.arrRef spec5 1)) (V c (Pipeline.arrRef spec5 2))
            (V c (Pipeline.arrRef spec5 3)) (V c (Pipeline.arrRef spec5 4))
    (iblk5 V c 0 t) (iblk5 V c 1 t) (iblk5 V c 2 t) (iblk5 V c 3 t) (iblk5 V c 4 t)
    ((cfg5.win 5).xinj (grid5.coords t) j) (((cfg5.win 5).blk t).view.emb j)
    (read0 V c t j) (read1 V c t j) (read2 V c t j) (read3 V c t j) (read4 V c t j)

/-- An index of the array is in point t's block iff each coordinate is in the block's range on its axis. -/
theorem mem_blk (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v102).slice (win5_5.rect t)).set ↔ _
  rw [View.set_slice_whole, Rect.mem_set_unit]
  exact Iff.rfl

/-- Every index of the array is in some point's block: row r is in the block of point r / 10000. -/
theorem cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ := idx_onto ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk]
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 64 ≤ (i 1).val ∧ (i 1).val < win5_5.index t (1 : Fin 2) * 64 + 64
    omega

/-- The region's output array after its ten points: the normalisation of the five arrays it reads. -/
theorem out_eq (c : Dev nD) :
    (dat5 (F := Ideal) V c).arrAt 5 cfg5.N
      = normA (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5
    (normA (V c (Pipeline.arrRef spec5 0)) (V c (Pipeline.arrRef spec5 1)) (V c (Pipeline.arrRef spec5 2))
        (V c (Pipeline.arrRef spec5 3)) (V c (Pipeline.arrRef spec5 4)))
    (fun t _ => flushed_eq V c t) cover

end Cert.Gin.KNorm5

end
-- ==== Proof.KReadoutPay.lean ====
/-
  The readout body's value at one entry: from a block of features, the weight matrix and the one-row bias, entry
  (p, q) of what the body stores is (Σ_k x p k · w k q) + bias q.  The body narrows both operands before the
  product, which changes nothing at the ideal values, and accumulates into zeros.
-/
import proofs.«178507_j28741921144979_1_alg».proof.Proof.Gen.KernelIdeal.Skeleton
import proofs.«178507_j28741921144979_1_alg».proof.Proof.LibMatmul
import Idealize.ShloMosaic.Lib.Pipeline.Value
import Idealize.ShloMosaic.Lib.ValueLayout

noncomputable section

open scoped BigOperators

namespace Cert.Gin.KReadout

open Idealize.ShloMosaic Idealize.ShloMosaic.ValueIdx
open Cert.KernelIdeal Cert.KernelIdeal.Gen

/-- The stored value at entry (p, q). -/
theorem pay_apply (x0 : Vec Ideal S10000x64 .f32) (x2 : Vec Ideal S64x16 .f32) (x3 : Vec Ideal S1x16 .f32)
    (p : Fin 10000) (q : Fin 16) :
    k6_pay1 (F := Ideal) x0 x2 x3 (ix2 p q)
      = (∑ k : Fin 64, x0 (ix2 p k) * x2 (ix2 k q)) + x3 (ix2 (0 : Fin 1) q) := by
  unfold k6_pay1
  simp only [shapeCast_self]
  rw [addf_apply, broadcastTo_1b_ab_apply]
  refine congrArg (· + x3 (ix2 (0 : Fin 1) q)) ?_
  refine (congrFun (Cert.LibMatmul.matmul_zero_eq dot_S10000x64_S64x16_S10000x16_1_0_0_1_n_n rfl rfl rfl rfl rfl rfl none
    (truncf .bf16 x0 bitsLt_bf16_f32) (truncf .bf16 x2 bitsLt_bf16_f32)) (ix2 p q)).trans ?_
  rfl

end Cert.Gin.KReadout

end
-- ==== Proof.KReadout.lean ====
/-
  The readout region's output array.  The region runs over 10 grid points; point t reads rows
  10000·t … 10000·t + 9999 of the features, the weight matrix and the one-row bias whole, and writes the same rows
  of the output.  Each point's body stores x · w + bias entrywise, so the ten blocks written are the ten row blocks
  of ONE function of the three arrays, and every row lies in the block of point (row / 10000).
-/
import proofs.«178507_j28741921144979_1_alg».proof.Proof.Gen.KernelIdeal.Frame
import proofs.«178507_j28741921144979_1_alg».proof.Proof.Spec
import proofs.«178507_j28741921144979_1_alg».proof.Proof.KReadoutPay
import Idealize.ShloMosaic.Lib.Pipeline.Value

noncomputable section

open scoped BigOperators

namespace Cert.Gin.KReadout

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The stored value at any index of the block. -/
theorem pay_at (x0 : Vec Ideal S10000x64 .f32) (x2 : Vec Ideal S64x16 .f32) (x3 : Vec Ideal S1x16 .f32) (y : S10000x16.Idx) :
    k6_pay1 (F := Ideal) x0 x2 x3 y
      = (∑ k : Fin 64, x0 (ix2 (y 0) k) * x2 (ix2 k (y 1))) + x3 (ix2 (0 : Fin 1) (y 1)) := by
  obtain ⟨p, q, rfl⟩ : ∃ (p : Fin 10000) (q : Fin 16), y = ix2 p q := ⟨y 0, y 1, eq_ix2 y⟩
  exact pay_apply x0 x2 x3 p q

/-- The function the region computes, at any index of the array. -/
theorem readoutA_at (x : A2 100000 64) (w : A2 64 16) (bias : A2 1 16) (i : S100000x16.Idx) :
    readoutA x w bias i
      = (∑ k : Fin 64, x (ix2 (i 0) k) * w (ix2 k (i 1))) + bias (ix2 (0 : Fin 1) (i 1)) := by
  obtain ⟨p, q, rfl⟩ : ∃ (p : Fin 100000) (q : Fin 16), i = ix2 p q := ⟨i 0, i 1, eq_ix2 i⟩
  rfl

/-- The body's one whole-block store leaves its payload over the blocks loaded whole. -/
theorem out_eq_pay (x0 : Vec Ideal S10000x64 .f32) (x1 : Vec Ideal S64x16 .f32) (x2 : Vec Ideal S1x16 .f32) :
    out6_3 (F := Ideal) x0 x1 x2 = k6_pay1 (F := Ideal) x0 x1 x2 := by
  unfold out6_3
  rw [View.canon_unit_zero hz]
  simp only [View.ld_unit_zero (S := S10000x64) hz, View.ld_unit_zero (S := S64x16) hz, View.ld_unit_zero (S := S1x16) hz]

/-- One entry: when the three blocks read the three arrays where the output index says, the stored value is the
    region's function there. -/
theorem point_eq (X : A2 100000 64) (W : A2 64 16) (B : A2 1 16)
    (x0 : Vec Ideal S10000x64 .f32) (x2 : Vec Ideal S64x16 .f32) (x3 : Vec Ideal S1x16 .f32)
    (y : S10000x16.Idx) (i : S100000x16.Idx)
    (h0 : ∀ k : Fin 64, x0 (ix2 (y 0) k) = X (ix2 (i 0) k))
    (h1 : ∀ k : Fin 64, x2 (ix2 k (y 1)) = W (ix2 k (i 1)))
    (h2 : x3 (ix2 (0 : Fin 1) (y 1)) = B (ix2 (0 : Fin 1) (i 1))) :
    k6_pay1 (F := Ideal) x0 x2 x3 y = readoutA X W B i := by
  rw [pay_at, readoutA_at, h2]
  exact congrArg (· + B (ix2 (0 : Fin 1) (i 1))) (Finset.sum_congr rfl fun k _ => by rw [h0 k, h1 k])

/-- The printed index maps over the grid: the features' window moves with the output's, down the rows, one block per
    point; the weights' and the bias's windows stay at block 0. -/
theorem idx_facts : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) ≤ 9 ∧ win6_3.index t (1 : Fin 2) = 0 :=
  (by decide +kernel : ∀ t : Fin grid6.N, _)

/-- Every row block is some point's. -/
theorem idx_onto : ∀ q0 : Fin 10, ∃ t : Fin cfg6.N, win6_3.index t = ![q0.val, 0] :=
  (by decide +kernel : ∀ q0 : Fin 10, ∃ t : Fin grid6.N, win6_3.index t = ![q0.val, 0])

/-- The features' block at point t, read on the output index's row, is the array on the output index's row. -/
theorem read0 (c : Dev nD) (t : Fin cfg6.N) (j : ((cfg6.win 3).xblock (grid6.coords t)).Idx) (k : Fin 64) :
    iblk6 V c 0 t (ix2 ((cfg6.win 3).xinj (grid6.coords t) j 0) k)
      = V c (Pipeline.arrRef spec6 0) (ix2 (((cfg6.win 3).blk t).view.emb j 0) k) := by
  obtain ⟨e0, e1, e2, e3, e4, e5, e6, e7⟩ := idx_facts t
  show V c (Pipeline.arrRef spec6 0) (((cfg6.win 0).blk t).view.emb (ix2 ((cfg6.win 3).xinj (grid6.coords t) j 0) k)) = _
  refine congrArg (V c (Pipeline.arrRef spec6 0)) ?_
  funext a; apply Fin.ext
  match a with
  | ⟨0, _⟩ => show win6_0.index t (0 : Fin 2) * 10000 + 1 * (j 0).val = win6_3.index t (0 : Fin 2) * 10000 + 1 * (j 0).val; omega
  | ⟨1, _⟩ => show win6_0.index t (1 : Fin 2) * 64 + 1 * k.val = k.val; omega

/-- The weights' block, read in the output index's column, is the array in the output index's column. -/
theorem read1 (c : Dev nD) (t : Fin cfg6.N) (j : ((cfg6.win 3).xblock (grid6.coords t)).Idx) (k : Fin 64) :
    iblk6 V c 1 t (ix2 k ((cfg6.win 3).xinj (grid6.coords t) j 1))
      = V c (Pipeline.arrRef spec6 1) (ix2 k (((cfg6.win 3).blk t).view.emb j 1)) := by
  obtain ⟨e0, e1, e2, e3, e4, e5, e6, e7⟩ := idx_facts t
  show V c (Pipeline.arrRef spec6 1) (((cfg6.win 1).blk t).view.emb (ix2 k ((cfg6.win 3).xinj (grid6.coords t) j 1))) = _
  refine congrArg (V c (Pipeline.arrRef spec6 1)) ?_
  funext a; apply Fin.ext
  match a with
  | ⟨0, _⟩ => show win6_1.index t (0 : Fin 2) * 64 + 1 * k.val = k.val; omega
  | ⟨1, _⟩ => show win6_1.index t (1 : Fin 2) * 16 + 1 * (j 1).val = win6_3.index t (1 : Fin 2) * 16 + 1 * (j 1).val; omega

/-- The bias's block, read at the output index's column of its only row, is the array there. -/
theorem read2 (c : Dev nD) (t : Fin cfg6.N) (j : ((cfg6.win 3).xblock (grid6.coords t)).Idx) :
    iblk6 V c 2 t (ix2 0 ((cfg6.win 3).xinj (grid6.coords t) j 1))
      = V c (Pipeline.arrRef spec6 2) (ix2 0 (((cfg6.win 3).blk t).view.emb j 1)) := by
  obtain ⟨e0, e1, e2, e3, e4, e5, e6, e7⟩ := idx_facts t
  show V c (Pipeline.arrRef spec6 2) (((cfg6.win 2).blk t).view.emb (ix2 0 ((cfg6.win 3).xinj (grid6.coords t) j 1))) = _
  refine congrArg (V c (Pipeline.arrRef spec6 2)) ?_
  funext a; apply Fin.ext
  match a with
  | ⟨0, _⟩ => show win6_2.index t (0 : Fin 2) * 1 + 1 * 0 = 0; omega
  | ⟨1, _⟩ => show win6_2.index t (1 : Fin 2) * 16 + 1 * (j 1).val = win6_3.index t (1 : Fin 2) * 16 + 1 * (j 1).val; omega

/-- What point t writes back is block t of the region's function of the three arrays it reads. -/
theorem flushed_eq (c : Dev nD) (t : Fin cfg6.N) :
    (dat6 (F := Ideal) V c).flushed 3 t
      = ((cfg6.win 3).blk t).view.read (Elt Ideal) (readoutA (V c (Pipeline.arrRef spec6 0)) (V c (Pipeline.arrRef spec6 1)) (V c (Pipeline.arrRef spec6 2))) := by
  show (cfg6.win 3).cut (grid6.coords t) ((dat6 V c).after 3 t) = _
  rw [after6_3]
  refine (congrArg ((cfg6.win 3).cut (grid6.coords t)) (out_eq_pay (iblk6 V c 0 t) (iblk6 V c 1 t) (iblk6 V c 2 t))).trans ?_
  funext j
  exact point_eq (V c (Pipeline.arrRef spec6 0)) (V c (Pipeline.arrRef spec6 1)) (V c (Pipeline.arrRef spec6 2))
    (iblk6 V c 0 t) (iblk6 V c 1 t) (iblk6 V c 2 t)
    ((cfg6.win 3).xinj (grid6.coords t) j) (((cfg6.win 3).blk t).view.emb j)
    (fun k => read0 V c t j k) (fun k => read1 V c t j k) (read2 V c t j)

/-- An index of the array is in point t's block iff each coordinate is in the block's range on its axis. -/
theorem mem_blk (t : Fin cfg6.N) (i : S100000x16.Idx) :
    i ∈ ((cfg6.win 3).blk t).view.set ↔ ∀ a : Fin 2, win6_3.index t a * S10000x16.size a ≤ (i a).val
      ∧ (i a).val < win6_3.index t a * S10000x16.size a + S10000x16.size a := by
  show i ∈ ((View.whole main_v104).slice (win6_3.rect t)).set ↔ _
  rw [View.set_slice_whole, Rect.mem_set_unit]
  exact Iff.rfl

/-- Every index of the array is in some point's block: row r is in the block of point r / 10000. -/
theorem cover (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  obtain ⟨t, ht⟩ := idx_onto ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk]
  intro a
  match a with
  | ⟨0, _⟩ =>
    show win6_3.index t (0 : Fin 2) * 10000 ≤ (i 0).val ∧ (i 0).val < win6_3.index t (0 : Fin 2) * 10000 + 10000
    omega
  | ⟨1, _⟩ =>
    show win6_3.index t (1 : Fin 2) * 16 ≤ (i 1).val ∧ (i 1).val < win6_3.index t (1 : Fin 2) * 16 + 16
    omega

/-- The region's output array after its ten points: the readout of the three arrays it reads. -/
theorem out_eq (c : Dev nD) :
    (dat6 (F := Ideal) V c).arrAt 3 cfg6.N = readoutA (V c (Pipeline.arrRef spec6 0)) (V c (Pipeline.arrRef spec6 1)) (V c (Pipeline.arrRef spec6 2)) :=
  (dat6 (F := Ideal) V c).arrAt_eq_of_cover 3 (readoutA (V c (Pipeline.arrRef spec6 0)) (V c (Pipeline.arrRef spec6 1)) (V c (Pipeline.arrRef spec6 2)))
    (fun t _ => flushed_eq V c t) cover

end Cert.Gin.KReadout

end
-- ==== Proof.KValue.lean ====
/-
  The kernel program's run with the value of its result: at the compiled mesh, from any memory with zero counters,
  every weakly fair execution terminates, nothing faulting, and in every final state the result buffer holds the
  network function of the launch contents of the argument arrays, which are themselves as launched.
-/
import proofs.«178507_j28741921144979_1_alg».proof.Proof.KChain
import proofs.«178507_j28741921144979_1_alg».proof.Proof.KRun
import proofs.«178507_j28741921144979_1_alg».proof.Proof.KMlp0
import proofs.«178507_j28741921144979_1_alg».proof.Proof.KMlp2
import proofs.«178507_j28741921144979_1_alg».proof.Proof.KMlp4
import proofs.«178507_j28741921144979_1_alg».proof.Proof.KNorm1
import proofs.«178507_j28741921144979_1_alg».proof.Proof.KNorm3
import proofs.«178507_j28741921144979_1_alg».proof.Proof.KNorm5
import proofs.«178507_j28741921144979_1_alg».proof.Proof.KReadout

set_option maxRecDepth 16384

noncomputable section

namespace Cert.Gin.K

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result buffer at the end of the run holds the network function of the launch contents: the fold read back
    with each region's output windows at what the region computes. -/
theorem W14_result (c : Dev nD) :
    W14 m ρ c (Proc.devRef .tc main_v104)
      = K.netA (K.agg (m ((c : Thread nD τ).loc main_arg1)))
        (m ((c : Thread nD τ).loc main_arg0))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22))
        (m ((c : Thread nD τ).loc main_arg23))
        (m ((c : Thread nD τ).loc main_arg24)) :=
  W14_result_of m ρ KMlp0.hidden_eq KMlp0.sum_eq KMlp0.sumsq_eq KNorm1.out_eq
    KMlp2.hidden_eq KMlp2.sum_eq KMlp2.sumsq_eq KNorm3.out_eq
    KMlp4.hidden_eq KMlp4.sum_eq KMlp4.sumsq_eq KNorm5.out_eq KReadout.out_eq c

/-- The run of the kernel program with its result's value. -/
theorem kernel_run : θ_run (defs (F := Ideal)) (onTc (τ := τ) (main (F := Ideal))) ⟨m, fun _ => 0, ρ⟩ (fun r => ∀ c : Dev nD,
      r.2.mem ((c.tc : Thread nD τ).loc main_v104)
        = K.netA (K.agg (m ((c.tc : Thread nD τ).loc main_arg1)))
        (m ((c.tc : Thread nD τ).loc main_arg0))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15))
        (m ((c.tc : Thread nD τ).loc main_arg16))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg21))
        (m ((c.tc : Thread nD τ).loc main_arg22))
        (m ((c.tc : Thread nD τ).loc main_arg23))
        (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run (defs (F := Ideal)) _ _).mono (fun r h c => ⟨(h c).1.trans (W14_result m ρ c), (h c).2⟩) (run_named m ρ)

end Cert.Gin.K

end
-- ==== Proof.KHost.lean ====
/-
  The kernel program's dataflow read by coordinates.

  A vector recast as a one-row matrix reads, in its one row, the vector; a one-row matrix recast as a vector reads that
  row; a scalar broadcast reads the scalar everywhere; the host's sum, product, difference, quotient and inverse root
  act coordinate by coordinate.  So the host's pre-activation is (1 + eps) · h + neighbour sums entry by entry, the
  host's column mean is the column sum over the row count's word, its variance the moment difference, and one layer of
  the program is the specification's layer with the variance taken as a moment difference; three layers and the readout
  are the specification's network.  Both sides are the same expression: nothing about the data is assumed.
-/
import proofs.«178507_j28741921144979_1_alg».proof.Proof.KDefs
import Idealize.ShloMosaic.Lib.ValueLayout
import Idealize.ShloMosaic.Lib.IdealHost

noncomputable section

namespace Cert.Gin.KHost

open Idealize.ShloMosaic Idealize.ShloMosaic.ValueIdx Cert.KernelIdeal Cert.KernelIdeal.Facts₀ Cert.Gin.K

/-- A vector of 64 recast as a one-row matrix reads the vector in its row. -/
theorem row64_apply (b : A1 64) (u : Fin 1) (q : Fin 64) : row64 b (ix2 u q) = b (ix1 q) :=
  shapeCast_a_1a_apply b shapeCasts_S64_S1x64 u q

/-- The one row of a recast vector of 64 is the vector. -/
theorem rd2_row64 (b : A1 64) : rd2 (row64 b) 0 = rd1 b :=
  funext fun q => row64_apply b 0 q

/-- A vector of 16 recast as a one-row matrix reads the vector in its row. -/
theorem row16_apply (b : A1 16) (u : Fin 1) (q : Fin 16) : row16 b (ix2 u q) = b (ix1 q) :=
  shapeCast_a_1a_apply b shapeCasts_S16_S1x16 u q

/-- The one row of a recast vector of 16 is the vector. -/
theorem rd2_row16 (b : A1 16) : rd2 (row16 b) 0 = rd1 b :=
  funext fun q => row16_apply b 0 q

/-- A one-row matrix recast as a vector reads its row. -/
theorem col64_apply (s : A2 1 64) (q : Fin 64) : col64 s (ix1 q) = s (ix2 0 q) :=
  shapeCast_1a_a_apply s shapeCasts_S1x64_S64 q

/-- The host's pre-activation, entry by entry. -/
theorem rd2_preA (agg h : A2 100000 64) (eps : A0) :
    rd2 (preA agg h eps) = Spec.pre (rd2 h) (rd2 agg) (rd0 eps) := by
  funext p q
  show broadcastInDim S100000x64 ![] bcast_S_S100000x64
        (addf (constant (F := Ideal) S_ .f32 0x3F800000#32) eps) (ix2 p q) * h (ix2 p q) + agg (ix2 p q)
      = (Spec.cOne + eps ix0) * h (ix2 p q) + agg (ix2 p q)
  rw [broadcastInDim_scalar_apply]
  rfl

/-- A one-row matrix of column totals over the row count's word, column by column. -/
theorem overN_apply (s : A2 1 64) (q : Fin 64) : overN s (ix1 q) = Ideal.div (s (ix2 0 q)) Spec.cN := by
  show Ideal.div (col64 s (ix1 q))
        (broadcastInDim S64 ![] bcast_S_S64 (constant (F := Ideal) S_ .f32 0x47C35000#32) (ix1 q))
      = Ideal.div (s (ix2 0 q)) Spec.cN
  rw [broadcastInDim_scalar_apply, col64_apply]
  rfl

/-- The host's inverse deviation, column by column. -/
theorem istdA_apply (s ss : A2 1 64) (q : Fin 64) :
    istdA s ss (ix1 q)
      = Ideal.rsqrt ((Ideal.div (ss (ix2 0 q)) Spec.cN
            - Ideal.div (s (ix2 0 q)) Spec.cN * Ideal.div (s (ix2 0 q)) Spec.cN) + Spec.cEps) := by
  show Ideal.rsqrt ((overN ss (ix1 q) - overN s (ix1 q) * overN s (ix1 q))
        + broadcastInDim S64 ![] bcast_S_S64 (constant (F := Ideal) S_ .f32 0x3727C5AC#32) (ix1 q))
      = _
  rw [broadcastInDim_scalar_apply, overN_apply, overN_apply]
  rfl

/-- The host's column mean of the accumulated column sums is the specification's mean. -/
theorem overN_colsum (H : M 100000 64) :
    rd1 (overN (of2 (fun _ q => Spec.colsum H q))) = Spec.mean H :=
  funext fun q => overN_apply _ q

/-- The host's inverse deviation of the accumulated sums and sums of squares is the inverse root of the
    specification's moment variance plus the offset. -/
theorem istdA_moments (H : M 100000 64) :
    rd1 (istdA (of2 (fun _ q => Spec.colsum H q)) (of2 (fun _ q => Spec.colsumsq H q)))
      = fun q => Ideal.rsqrt (Spec.varMoment H q + Spec.cEps) :=
  funext fun q => istdA_apply _ _ q

end Cert.Gin.KHost

namespace Cert.Gin.K

open Idealize.ShloMosaic Idealize.ShloMosaic.ValueIdx Cert.KernelIdeal Cert.KernelIdeal.Facts₀ Cert.Gin.KHost

/-- One layer of the kernel program is the specification's layer with the variance taken as a moment difference, at
    the pre-activation (1 + eps) · h + neighbour sums. -/
theorem layerA_eq (Ag : A2 100000 64 → A2 100000 64) (h : A2 100000 64) (eps : A0)
    (w1 : A2 64 64) (b1 : A1 64) (w2 : A2 64 64) (b2 g bt : A1 64) :
    layerA Ag h eps w1 b1 w2 b2 g bt
      = of2 (Spec.layerMoment (Spec.pre (rd2 h) (rd2 (Ag h)) (rd0 eps)) (rd2 w1) (rd1 b1) (rd2 w2) (rd1 b2)
          (rd1 g) (rd1 bt)) := by
  unfold layerA normA hiddenA sumA sumsqA
  rw [rd2_preA, rd2_row64 b1, rd2_row64 b2]
  refine congrArg of2 (funext fun p => funext fun q => ?_)
  rw [rd2_row64, rd2_row64, rd2_row64 g, rd2_row64 bt, overN_colsum, istdA_moments]
  rfl

/-- One layer at an array given by its entries. -/
theorem layerA_of2 (Ag : A2 100000 64 → A2 100000 64) (f : M 100000 64) (eps : A0)
    (w1 : A2 64 64) (b1 : A1 64) (w2 : A2 64 64) (b2 g bt : A1 64) :
    layerA Ag (of2 f) eps w1 b1 w2 b2 g bt
      = of2 (Spec.layerMoment (Spec.pre f ((fun f' => rd2 (Ag (of2 f'))) f) (rd0 eps)) (rd2 w1) (rd1 b1) (rd2 w2)
          (rd1 b2) (rd1 g) (rd1 bt)) :=
  layerA_eq Ag (of2 f) eps w1 b1 w2 b2 g bt

/-- The kernel program's network is the specification's network with the variance taken as a moment difference. -/
theorem netA_eq (Ag : A2 100000 64 → A2 100000 64) (x : A2 100000 64)
    (e1 : A0) (w11 : A2 64 64) (b11 : A1 64) (w12 : A2 64 64) (b12 g1 bt1 : A1 64)
    (e2 : A0) (w21 : A2 64 64) (b21 : A1 64) (w22 : A2 64 64) (b22 g2 bt2 : A1 64)
    (e3 : A0) (w31 : A2 64 64) (b31 : A1 64) (w32 : A2 64 64) (b32 g3 bt3 : A1 64)
    (wl : A2 64 16) (bl : A1 16) :
    netA Ag x e1 w11 b11 w12 b12 g1 bt1 e2 w21 b21 w22 b22 g2 bt2 e3 w31 b31 w32 b32 g3 bt3 wl bl
      = of2 (Spec.netMoment (fun f => rd2 (Ag (of2 f))) (rd2 x)
          (rd0 e1) (rd2 w11) (rd1 b11) (rd2 w12) (rd1 b12) (rd1 g1) (rd1 bt1)
          (rd0 e2) (rd2 w21) (rd1 b21) (rd2 w22) (rd1 b22) (rd1 g2) (rd1 bt2)
          (rd0 e3) (rd2 w31) (rd1 b31) (rd2 w32) (rd1 b32) (rd1 g3) (rd1 bt3)
          (rd2 wl) (rd1 bl)) := by
  unfold netA readoutA
  conv_lhs => rw [← of2_rd2 x]
  rw [layerA_of2, layerA_of2, layerA_of2, rd2_row16]
  rfl

end Cert.Gin.K

end
-- ==== Proof.ROps0.lean ====
/-
  The reference program's statements 1 … 60 as a list of host operations, the calls of its
  module-local functions replaced by the callee's operations over the call's own buffers, cut into consecutive
  pieces.  For each piece: the buffers it touches are TensorCore references, no operation of it allocates, the
  buffers it writes are listed, and a buffer outside that list keeps its contents.  The window of the program is
  the pieces run in order.
-/
import proofs.«178507_j28741921144979_1_alg».proof.Proof.Gen.ReferenceIdeal
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

variable {F : FTy → Type} [FloatOps F]

/-- Operations of the program, in order: those writing %v0 … %v13. -/
def s_g1 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers those operations write. -/
def w_g1 : List (Ref sig .tc) := [main_v0, main_v1, main_v2, main_v3, main_c, main_v4, main_v5, main_c_0, main_v6, main_v7, main_v8, main_v9, main_v10, main_cst, main_v11, main_v12, main_v13]

theorem s_g1_sub : ∀ op ∈ (s_g1 : List (HloOp τ sig (Elt F))), op.bufs ⊆ tcRefs τ sig := by
  unfold s_g1
  exact List.forall_iff_forall_mem.mp ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

theorem s_g1_fresh : ∀ op ∈ (s_g1 : List (HloOp τ sig (Elt F))), op.fresh = ∅ := by
  unfold s_g1
  intro _ h; (repeat (cases h with | head => rfl | tail _ h => ?_)); exact nomatch h

theorem s_g1_writes : ∀ op ∈ (s_g1 : List (HloOp τ sig (Elt F))), op.writes ⊆ (w_g1.map (Proc.devRef (τ := τ) .tc)).toFinset := by
  unfold s_g1
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _)))))))))))))))))))⟩

/-- A buffer none of them writes keeps its contents. -/
theorem s_g1_frame (V : Valuation τ sig (Elt F)) {r : Ref sig .tc} (hr : r ∉ w_g1) :
    after s_g1 V (Proc.devRef .tc r) = V (Proc.devRef .tc r) :=
  after_of_writes_sub s_g1 V (List.forall_iff_forall_mem.mpr s_g1_writes) hr

/-- Operations of the program, in order: those writing %cst_1 … %v27. -/
def s_a1 : List (HloOp τ sig (Elt F)) :=
  [ StableHlo.nullary main_cst_1 (constant S_ .f32 0x3F800000#32),
    StableHlo.binary main_cst_1 main_arg2 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S100000x64 ![] bcast_S_S100000x64 : (⟨S_, .f32⟩ : BufTy).Contents (Elt F) → (⟨S100000x64, .f32⟩ : BufTy).Contents (Elt F)),
    StableHlo.binary main_v15 main_arg0 main_v16 (mulf : (⟨S100000x64, .f32⟩ : BufTy).Contents (Elt F) → (⟨S100000x64, .f32⟩ : BufTy).Contents (Elt F) → (⟨S100000x64, .f32⟩ : BufTy).Contents (Elt F)),
    StableHlo.binary main_v16 main_v13 main_v17 (addf : (⟨S100000x64, .f32⟩ : BufTy).Contents (Elt F) → (⟨S100000x64, .f32⟩ : BufTy).Contents (Elt F) → (⟨S100000x64, .f32⟩ : BufTy).Contents (Elt F)),
    StableHlo.binary main_v17 main_arg3 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v20 main_v21 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v21) main_call0.v0 main_call0.v1 maximumf,
    StableHlo.binary main_v22 main_arg5 main_v23 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v26) main_call1.v0 main_call1.v1 maximumf ]

/-- The buffers those operations write. -/
def w_a1 : List (Ref sig .tc) := [main_cst_1, main_v14, main_v15, main_v16, main_v17, main_v18, main_v19, main_v20, main_v21, main_call0_cst, main_call0_v0, main_v22, main_v23, main_v24, main_v25, main_v26, main_call1_cst, main_call1_v0, main_v27]

theorem s_a1_sub : ∀ op ∈ (s_a1 : List (HloOp τ sig (Elt F))), op.bufs ⊆ tcRefs τ sig := by
  unfold s_a1
  exact List.forall_iff_forall_mem.mp ⟨nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem s_a1_fresh : ∀ op ∈ (s_a1 : List (HloOp τ sig (Elt F))), op.fresh = ∅ := by
  unfold s_a1
  intro _ h; (repeat (cases h with | head => rfl | tail _ h => ?_)); exact nomatch h

theorem s_a1_writes : ∀ op ∈ (s_a1 : List (HloOp τ sig (Elt F))), op.writes ⊆ (w_a1.map (Proc.devRef (τ := τ) .tc)).toFinset := by
  unfold s_a1
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_a1_frame (V : Valuation τ sig (Elt F)) {r : Ref sig .tc} (hr : r ∉ w_a1) :
    after s_a1 V (Proc.devRef .tc r) = V (Proc.devRef .tc r) :=
  after_of_writes_sub s_a1 V (List.forall_iff_forall_mem.mpr s_a1_writes) hr

/-- Operations of the program, in order: those writing %cst_2 … %v30. -/
def s_b1 : List (HloOp τ sig (Elt F)) :=
  [ StableHlo.nullary main_cst_2 (constant S_ .f32 0x00000000#32),
    StableHlo.binary main_v27 main_cst_2 main_v28 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)) ]

/-- The buffers those operations write. -/
def w_b1 : List (Ref sig .tc) := [main_cst_2, main_v28, main_cst_3, main_v29, main_v30]

theorem s_b1_sub : ∀ op ∈ (s_b1 : List (HloOp τ sig (Elt F))), op.bufs ⊆ tcRefs τ sig := by
  unfold s_b1
  exact List.forall_iff_forall_mem.mp ⟨nullary_bufs_sub .., binary_bufs_sub .., nullary_bufs_sub .., unary_bufs_sub .., binary_bufs_sub ..⟩

theorem s_b1_fresh : ∀ op ∈ (s_b1 : List (HloOp τ sig (Elt F))), op.fresh = ∅ := by
  unfold s_b1
  intro _ h; (repeat (cases h with | head => rfl | tail _ h => ?_)); exact nomatch h

theorem s_b1_writes : ∀ op ∈ (s_b1 : List (HloOp τ sig (Elt F))), op.writes ⊆ (w_b1.map (Proc.devRef (τ := τ) .tc)).toFinset := by
  unfold s_b1
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _)))))))⟩

/-- A buffer none of them writes keeps its contents. -/
theorem s_b1_frame (V : Valuation τ sig (Elt F)) {r : Ref sig .tc} (hr : r ∉ w_b1) :
    after s_b1 V (Proc.devRef .tc r) = V (Proc.devRef .tc r) :=
  after_of_writes_sub s_b1 V (List.forall_iff_forall_mem.mpr s_b1_writes) hr

/-- Operations of the program, in order: those writing %c_4 … %v31. -/
def s_v1 : List (HloOp τ sig (Elt F)) :=
  [ StableHlo.nullary main_c_4 (constantI S_ 32 0#32),
    StableHlo.TRef.nullary main_call2.cst (constant S_ .f32 0x00000000#32),
    StableHlo.TRef.binary (.of main_v27) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v27) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- The buffers those operations write. -/
def w_v1 : List (Ref sig .tc) := [main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31]

theorem s_v1_sub : ∀ op ∈ (s_v1 : List (HloOp τ sig (Elt F))), op.bufs ⊆ tcRefs τ sig := by
  unfold s_v1
  exact List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem s_v1_fresh : ∀ op ∈ (s_v1 : List (HloOp τ sig (Elt F))), op.fresh = ∅ := by
  unfold s_v1
  intro _ h; (repeat (cases h with | head => rfl | tail _ h => ?_)); exact nomatch h

theorem s_v1_writes : ∀ op ∈ (s_v1 : List (HloOp τ sig (Elt F))), op.writes ⊆ (w_v1.map (Proc.devRef (τ := τ) .tc)).toFinset := by
  unfold s_v1
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))⟩

/-- A buffer none of them writes keeps its contents. -/
theorem s_v1_frame (V : Valuation τ sig (Elt F)) {r : Ref sig .tc} (hr : r ∉ w_v1) :
    after s_v1 V (Proc.devRef .tc r) = V (Proc.devRef .tc r) :=
  after_of_writes_sub s_v1 V (List.forall_iff_forall_mem.mpr s_v1_writes) hr

/-- Operations of the program, in order: those writing %v32 … %v47. -/
def s_c1 : List (HloOp τ sig (Elt F)) :=
  [ StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v33 main_v34 (subf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32),
    StableHlo.unary main_cst_5 main_v35 (broadcastInDim S64 ![] bcast_S_S64 : (⟨S_, .f32⟩ : BufTy).Contents (Elt F) → (⟨S64, .f32⟩ : BufTy).Contents (Elt F)),
    StableHlo.binary main_v31 main_v35 main_v36 (addf : (⟨S64, .f32⟩ : BufTy).Contents (Elt F) → (⟨S64, .f32⟩ : BufTy).Contents (Elt F) → (⟨S64, .f32⟩ : BufTy).Contents (Elt F)),
    StableHlo.unary main_v36 main_v37 (Host.rsqrt : (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v34 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg7 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (mulf : (⟨S100000x64, .f32⟩ : BufTy).Contents (Elt F) → (⟨S100000x64, .f32⟩ : BufTy).Contents (Elt F) → (⟨S100000x64, .f32⟩ : BufTy).Contents (Elt F)),
    StableHlo.unary main_arg8 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v46) main_call3.v0 main_call3.v1 maximumf ]

/-- The buffers those operations write. -/
def w_c1 : List (Ref sig .tc) := [main_v32, main_v33, main_v34, main_cst_5, main_v35, main_v36, main_v37, main_v38, main_v39, main_v40, main_v41, main_v42, main_v43, main_v44, main_v45, main_v46, main_call3_cst, main_call3_v0, main_v47]

theorem s_c1_sub : ∀ op ∈ (s_c1 : List (HloOp τ sig (Elt F))), op.bufs ⊆ tcRefs τ sig := by
  unfold s_c1
  exact List.forall_iff_forall_mem.mp ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s_c1_fresh : ∀ op ∈ (s_c1 : List (HloOp τ sig (Elt F))), op.fresh = ∅ := by
  unfold s_c1
  intro _ h; (repeat (cases h with | head => rfl | tail _ h => ?_)); exact nomatch h

theorem s_c1_writes : ∀ op ∈ (s_c1 : List (HloOp τ sig (Elt F))), op.writes ⊆ (w_c1.map (Proc.devRef (τ := τ) .tc)).toFinset := by
  unfold s_c1
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_c1_frame (V : Valuation τ sig (Elt F)) {r : Ref sig .tc} (hr : r ∉ w_c1) :
    after s_c1 V (Proc.devRef .tc r) = V (Proc.devRef .tc r) :=
  after_of_writes_sub s_c1 V (List.forall_iff_forall_mem.mpr s_c1_writes) hr

/-- Operations of the program, in order: those writing %c_6 … %c_7. -/
def s_g2a : List (HloOp τ sig (Elt F)) :=
  [ StableHlo.nullary main_c_6 (constantI S_ 32 0#32),
    StableHlo.unary main_c_6 main_v48 (broadcastInDim S1600000 ![] bcast_S_S1600000 : (⟨S_, .i32⟩ : BufTy).Contents (Elt F) → (⟨S1600000, .i32⟩ : BufTy).Contents (Elt F)),
    StableHlo.binary main_v1 main_v48 main_v49 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32) ]

/-- The buffers those operations write. -/
def w_g2a : List (Ref sig .tc) := [main_c_6, main_v48, main_v49, main_c_7]

theorem s_g2a_sub : ∀ op ∈ (s_g2a : List (HloOp τ sig (Elt F))), op.bufs ⊆ tcRefs τ sig := by
  unfold s_g2a
  exact List.forall_iff_forall_mem.mp ⟨nullary_bufs_sub .., unary_bufs_sub .., binary_bufs_sub .., nullary_bufs_sub ..⟩

theorem s_g2a_fresh : ∀ op ∈ (s_g2a : List (HloOp τ sig (Elt F))), op.fresh = ∅ := by
  unfold s_g2a
  intro _ h; (repeat (cases h with | head => rfl | tail _ h => ?_)); exact nomatch h

theorem s_g2a_writes : ∀ op ∈ (s_g2a : List (HloOp τ sig (Elt F))), op.writes ⊆ (w_g2a.map (Proc.devRef (τ := τ) .tc)).toFinset := by
  unfold s_g2a
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _))))))⟩

/-- A buffer none of them writes keeps its contents. -/
theorem s_g2a_frame (V : Valuation τ sig (Elt F)) {r : Ref sig .tc} (hr : r ∉ w_g2a) :
    after s_g2a V (Proc.devRef .tc r) = V (Proc.devRef .tc r) :=
  after_of_writes_sub s_g2a V (List.forall_iff_forall_mem.mpr s_g2a_writes) hr

/-- The window's operations: the pieces in order. -/
def win0 : List (HloOp τ sig (Elt F)) := s_g1 ++ (s_a1 ++ (s_b1 ++ (s_v1 ++ (s_c1 ++ (s_g2a)))))

set_option maxRecDepth 8192 in
set_option maxHeartbeats 4000000 in
/-- The window is that straight line: the functions' definitions unfolded at their calls, both sides are one chain
    of steps once sequencing is reassociated. -/
theorem part0_eq (c : Dev nD) : main_part0 (F := F) c = seq win0 := by
  simp only [main_part0, fn_relu.body, fn_var.body, fn_where.body, win0, s_g1, s_a1, s_b1, s_v1, s_c1, s_g2a,
    List.cons_append, List.nil_append, seq, bind_assoc, pure_bind]
  rfl

end Cert.Gin.RRun

end
-- ==== Proof.ROps1.lean ====
/-
  The reference program's statements 61 … 120 as a list of host operations, the calls of its
  module-local functions replaced by the callee's operations over the call's own buffers, cut into consecutive
  pieces.  For each piece: the buffers it touches are TensorCore references, no operation of it allocates, the
  buffers it writes are listed, and a buffer outside that list keeps its contents.  The window of the program is
  the pieces run in order.
-/
import proofs.«178507_j28741921144979_1_alg».proof.Proof.Gen.ReferenceIdeal
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

variable {F : FTy → Type} [FloatOps F]

/-- Operations of the program, in order: those writing %v50 … %v57. -/
def s_g2b : List (HloOp τ sig (Elt F)) :=
  [ StableHlo.unary main_c_7 main_v50 (broadcastInDim S1600000 ![] bcast_S_S1600000 : (⟨S_, .i32⟩ : BufTy).Contents (Elt F) → (⟨S1600000, .i32⟩ : BufTy).Contents (Elt F)),
    StableHlo.binary main_v1 main_v50 main_v51 (addi : (⟨S1600000, .i32⟩ : BufTy).Contents (Elt F) → (⟨S1600000, .i32⟩ : BufTy).Contents (Elt F) → (⟨S1600000, .i32⟩ : BufTy).Contents (Elt F)),
    StableHlo.ternary main_v49 main_v51 main_v1 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v52 main_v53 (broadcastInDim S1600000x1 ![0] bcast_S1600000_S1600000x1_0 : (⟨S1600000, .i32⟩ : BufTy).Contents (Elt F) → (⟨S1600000x1, .i32⟩ : BufTy).Contents (Elt F)),
    StableHlo.binary main_v47 main_v53 main_v54 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_8 (constant S_ .f32 0x00000000#32),
    StableHlo.unary main_cst_8 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers those operations write. -/
def w_g2b : List (Ref sig .tc) := [main_v50, main_v51, main_v52, main_v53, main_v54, main_cst_8, main_v55, main_v56, main_v57]

theorem s_g2b_sub : ∀ op ∈ (s_g2b : List (HloOp τ sig (Elt F))), op.bufs ⊆ tcRefs τ sig := by
  unfold s_g2b
  exact List.forall_iff_forall_mem.mp ⟨unary_bufs_sub .., binary_bufs_sub .., ternary_bufs_sub .., unary_bufs_sub .., binary_bufs_sub .., nullary_bufs_sub .., unary_bufs_sub .., unary_bufs_sub .., ternary_bufs_sub ..⟩

theorem s_g2b_fresh : ∀ op ∈ (s_g2b : List (HloOp τ sig (Elt F))), op.fresh = ∅ := by
  unfold s_g2b
  intro _ h; (repeat (cases h with | head => rfl | tail _ h => ?_)); exact nomatch h

theorem s_g2b_writes : ∀ op ∈ (s_g2b : List (HloOp τ sig (Elt F))), op.writes ⊆ (w_g2b.map (Proc.devRef (τ := τ) .tc)).toFinset := by
  unfold s_g2b
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _)))))))))))⟩

/-- A buffer none of them writes keeps its contents. -/
theorem s_g2b_frame (V : Valuation τ sig (Elt F)) {r : Ref sig .tc} (hr : r ∉ w_g2b) :
    after s_g2b V (Proc.devRef .tc r) = V (Proc.devRef .tc r) :=
  after_of_writes_sub s_g2b V (List.forall_iff_forall_mem.mpr s_g2b_writes) hr

/-- Operations of the program, in order: those writing %cst_9 … %v71. -/
def s_a2 : List (HloOp τ sig (Elt F)) :=
  [ StableHlo.nullary main_cst_9 (constant S_ .f32 0x3F800000#32),
    StableHlo.binary main_cst_9 main_arg9 main_v58 (addf : (⟨S_, .f32⟩ : BufTy).Contents (Elt F) → (⟨S_, .f32⟩ : BufTy).Contents (Elt F) → (⟨S_, .f32⟩ : BufTy).Contents (Elt F)),
    StableHlo.unary main_v58 main_v59 (broadcastInDim S100000x64 ![] bcast_S_S100000x64 : (⟨S_, .f32⟩ : BufTy).Contents (Elt F) → (⟨S100000x64, .f32⟩ : BufTy).Contents (Elt F)),
    StableHlo.binary main_v59 main_v47 main_v60 (mulf : (⟨S100000x64, .f32⟩ : BufTy).Contents (Elt F) → (⟨S100000x64, .f32⟩ : BufTy).Contents (Elt F) → (⟨S100000x64, .f32⟩ : BufTy).Contents (Elt F)),
    StableHlo.binary main_v60 main_v57 main_v61 (addf : (⟨S100000x64, .f32⟩ : BufTy).Contents (Elt F) → (⟨S100000x64, .f32⟩ : BufTy).Contents (Elt F) → (⟨S100000x64, .f32⟩ : BufTy).Contents (Elt F)),
    StableHlo.binary main_v61 main_arg10 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg11 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v64 main_v65 (addf : (⟨S100000x64, .f32⟩ : BufTy).Contents (Elt F) → (⟨S100000x64, .f32⟩ : BufTy).Contents (Elt F) → (⟨S100000x64, .f32⟩ : BufTy).Contents (Elt F)),
    StableHlo.TRef.nullary main_call4.cst (constant S_ .f32 0x00000000#32),
    StableHlo.TRef.unary main_call4.cst main_call4.v0 (broadcastInDim S100000x64 ![] bcast_S_S100000x64),
    StableHlo.TRef.binary (.of main_v65) main_call4.v0 main_call4.v1 maximumf,
    StableHlo.binary main_v66 main_arg12 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg13 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v70) main_call5.v0 main_call5.v1 maximumf ]

/-- The buffers those operations write. -/
def w_a2 : List (Ref sig .tc) := [main_cst_9, main_v58, main_v59, main_v60, main_v61, main_v62, main_v63, main_v64, main_v65, main_call4_cst, main_call4_v0, main_v66, main_v67, main_v68, main_v69, main_v70, main_call5_cst, main_call5_v0, main_v71]

theorem s_a2_sub : ∀ op ∈ (s_a2 : List (HloOp τ sig (Elt F))), op.bufs ⊆ tcRefs τ sig := by
  unfold s_a2
  exact List.forall_iff_forall_mem.mp ⟨nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem s_a2_fresh : ∀ op ∈ (s_a2 : List (HloOp τ sig (Elt F))), op.fresh = ∅ := by
  unfold s_a2
  intro _ h; (repeat (cases h with | head => rfl | tail _ h => ?_)); exact nomatch h

theorem s_a2_writes : ∀ op ∈ (s_a2 : List (HloOp τ sig (Elt F))), op.writes ⊆ (w_a2.map (Proc.devRef (τ := τ) .tc)).toFinset := by
  unfold s_a2
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_a2_frame (V : Valuation τ sig (Elt F)) {r : Ref sig .tc} (hr : r ∉ w_a2) :
    after s_a2 V (Proc.devRef .tc r) = V (Proc.devRef .tc r) :=
  after_of_writes_sub s_a2 V (List.forall_iff_forall_mem.mpr s_a2_writes) hr

/-- Operations of the program, in order: those writing %cst_10 … %v74. -/
def s_b2 : List (HloOp τ sig (Elt F)) :=
  [ StableHlo.nullary main_cst_10 (constant S_ .f32 0x00000000#32),
    StableHlo.binary main_v71 main_cst_10 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)) ]

/-- The buffers those operations write. -/
def w_b2 : List (Ref sig .tc) := [main_cst_10, main_v72, main_cst_11, main_v73, main_v74]

theorem s_b2_sub : ∀ op ∈ (s_b2 : List (HloOp τ sig (Elt F))), op.bufs ⊆ tcRefs τ sig := by
  unfold s_b2
  exact List.forall_iff_forall_mem.mp ⟨nullary_bufs_sub .., binary_bufs_sub .., nullary_bufs_sub .., unary_bufs_sub .., binary_bufs_sub ..⟩

theorem s_b2_fresh : ∀ op ∈ (s_b2 : List (HloOp τ sig (Elt F))), op.fresh = ∅ := by
  unfold s_b2
  intro _ h; (repeat (cases h with | head => rfl | tail _ h => ?_)); exact nomatch h

theorem s_b2_writes : ∀ op ∈ (s_b2 : List (HloOp τ sig (Elt F))), op.writes ⊆ (w_b2.map (Proc.devRef (τ := τ) .tc)).toFinset := by
  unfold s_b2
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _)))))))⟩

/-- A buffer none of them writes keeps its contents. -/
theorem s_b2_frame (V : Valuation τ sig (Elt F)) {r : Ref sig .tc} (hr : r ∉ w_b2) :
    after s_b2 V (Proc.devRef .tc r) = V (Proc.devRef .tc r) :=
  after_of_writes_sub s_b2 V (List.forall_iff_forall_mem.mpr s_b2_writes) hr

/-- Operations of the program, in order: those writing %c_12 … %v75. -/
def s_v2 : List (HloOp τ sig (Elt F)) :=
  [ StableHlo.nullary main_c_12 (constantI S_ 32 0#32),
    StableHlo.TRef.nullary main_call6.cst (constant S_ .f32 0x00000000#32),
    StableHlo.TRef.binary (.of main_v71) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary (.of main_v71) main_call6.v4 main_call6.v5 subf,
    StableHlo.TRef.binary main_call6.v5 main_call6.v5 main_call6.v6 mulf,
    StableHlo.TRef.unary (.of main_c_12) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]

/-- The buffers those operations write. -/
def w_v2 : List (Ref sig .tc) := [main_c_12, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v75]

theorem s_v2_sub : ∀ op ∈ (s_v2 : List (HloOp τ sig (Elt F))), op.bufs ⊆ tcRefs τ sig := by
  unfold s_v2
  exact List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem s_v2_fresh : ∀ op ∈ (s_v2 : List (HloOp τ sig (Elt F))), op.fresh = ∅ := by
  unfold s_v2
  intro _ h; (repeat (cases h with | head => rfl | tail _ h => ?_)); exact nomatch h

theorem s_v2_writes : ∀ op ∈ (s_v2 : List (HloOp τ sig (Elt F))), op.writes ⊆ (w_v2.map (Proc.devRef (τ := τ) .tc)).toFinset := by
  unfold s_v2
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))⟩

/-- A buffer none of them writes keeps its contents. -/
theorem s_v2_frame (V : Valuation τ sig (Elt F)) {r : Ref sig .tc} (hr : r ∉ w_v2) :
    after s_v2 V (Proc.devRef .tc r) = V (Proc.devRef .tc r) :=
  after_of_writes_sub s_v2 V (List.forall_iff_forall_mem.mpr s_v2_writes) hr

/-- Operations of the program, in order: those writing %v76 … %v91. -/
def s_c2 : List (HloOp τ sig (Elt F)) :=
  [ StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v77 main_v78 (subf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3727C5AC#32),
    StableHlo.unary main_cst_13 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v83 main_v84 (mulf : (⟨S100000x64, .f32⟩ : BufTy).Contents (Elt F) → (⟨S100000x64, .f32⟩ : BufTy).Contents (Elt F) → (⟨S100000x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (mulf : (⟨S100000x64, .f32⟩ : BufTy).Contents (Elt F) → (⟨S100000x64, .f32⟩ : BufTy).Contents (Elt F) → (⟨S100000x64, .f32⟩ : BufTy).Contents (Elt F)),
    StableHlo.unary main_arg15 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v90) main_call7.v0 main_call7.v1 maximumf ]

/-- The buffers those operations write. -/
def w_c2 : List (Ref sig .tc) := [main_v76, main_v77, main_v78, main_cst_13, main_v79, main_v80, main_v81, main_v82, main_v83, main_v84, main_v85, main_v86, main_v87, main_v88, main_v89, main_v90, main_call7_cst, main_call7_v0, main_v91]

theorem s_c2_sub : ∀ op ∈ (s_c2 : List (HloOp τ sig (Elt F))), op.bufs ⊆ tcRefs τ sig := by
  unfold s_c2
  exact List.forall_iff_forall_mem.mp ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s_c2_fresh : ∀ op ∈ (s_c2 : List (HloOp τ sig (Elt F))), op.fresh = ∅ := by
  unfold s_c2
  intro _ h; (repeat (cases h with | head => rfl | tail _ h => ?_)); exact nomatch h

theorem s_c2_writes : ∀ op ∈ (s_c2 : List (HloOp τ sig (Elt F))), op.writes ⊆ (w_c2.map (Proc.devRef (τ := τ) .tc)).toFinset := by
  unfold s_c2
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_c2_frame (V : Valuation τ sig (Elt F)) {r : Ref sig .tc} (hr : r ∉ w_c2) :
    after s_c2 V (Proc.devRef .tc r) = V (Proc.devRef .tc r) :=
  after_of_writes_sub s_c2 V (List.forall_iff_forall_mem.mpr s_c2_writes) hr

/-- Operations of the program, in order: those writing %c_14 … %v100. -/
def s_g3a : List (HloOp τ sig (Elt F)) :=
  [ StableHlo.nullary main_c_14 (constantI S_ 32 0#32),
    StableHlo.unary main_c_14 main_v92 (broadcastInDim S1600000 ![] bcast_S_S1600000 : (⟨S_, .i32⟩ : BufTy).Contents (Elt F) → (⟨S1600000, .i32⟩ : BufTy).Contents (Elt F)),
    StableHlo.binary main_v1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v94 (broadcastInDim S1600000 ![] bcast_S_S1600000 : (⟨S_, .i32⟩ : BufTy).Contents (Elt F) → (⟨S1600000, .i32⟩ : BufTy).Contents (Elt F)),
    StableHlo.binary main_v1 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v91 main_v97 main_v98 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v99 (broadcastInDim S100000x64 ![] bcast_S_S100000x64 : (⟨S_, .f32⟩ : BufTy).Contents (Elt F) → (⟨S100000x64, .f32⟩ : BufTy).Contents (Elt F)),
    StableHlo.unary main_v3 main_v100 (broadcastInDim S1600000x1 ![0] bcast_S1600000_S1600000x1_0 : (⟨S1600000, .i32⟩ : BufTy).Contents (Elt F) → (⟨S1600000x1, .i32⟩ : BufTy).Contents (Elt F)) ]

/-- The buffers those operations write. -/
def w_g3a : List (Ref sig .tc) := [main_c_14, main_v92, main_v93, main_c_15, main_v94, main_v95, main_v96, main_v97, main_v98, main_cst_16, main_v99, main_v100]

theorem s_g3a_sub : ∀ op ∈ (s_g3a : List (HloOp τ sig (Elt F))), op.bufs ⊆ tcRefs τ sig := by
  unfold s_g3a
  exact List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

theorem s_g3a_fresh : ∀ op ∈ (s_g3a : List (HloOp τ sig (Elt F))), op.fresh = ∅ := by
  unfold s_g3a
  intro _ h; (repeat (cases h with | head => rfl | tail _ h => ?_)); exact nomatch h

theorem s_g3a_writes : ∀ op ∈ (s_g3a : List (HloOp τ sig (Elt F))), op.writes ⊆ (w_g3a.map (Proc.devRef (τ := τ) .tc)).toFinset := by
  unfold s_g3a
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _))))))))))))))⟩

/-- A buffer none of them writes keeps its contents. -/
theorem s_g3a_frame (V : Valuation τ sig (Elt F)) {r : Ref sig .tc} (hr : r ∉ w_g3a) :
    after s_g3a V (Proc.devRef .tc r) = V (Proc.devRef .tc r) :=
  after_of_writes_sub s_g3a V (List.forall_iff_forall_mem.mpr s_g3a_writes) hr

/-- The window's operations: the pieces in order. -/
def win1 : List (HloOp τ sig (Elt F)) := s_g2b ++ (s_a2 ++ (s_b2 ++ (s_v2 ++ (s_c2 ++ (s_g3a)))))

set_option maxRecDepth 8192 in
set_option maxHeartbeats 4000000 in
/-- The window is that straight line: the functions' definitions unfolded at their calls, both sides are one chain
    of steps once sequencing is reassociated. -/
theorem part1_eq (c : Dev nD) : main_part1 (F := F) c = seq win1 := by
  simp only [main_part1, fn_relu.body, fn_var.body, fn_where.body, win1, s_g2b, s_a2, s_b2, s_v2, s_c2, s_g3a,
    List.cons_append, List.nil_append, seq, bind_assoc, pure_bind]
  rfl

end Cert.Gin.RRun

end
-- ==== Proof.ROps2.lean ====
/-
  The reference program's statements 121 … 165 as a list of host operations, the calls of its
  module-local functions replaced by the callee's operations over the call's own buffers, cut into consecutive
  pieces.  For each piece: the buffers it touches are TensorCore references, no operation of it allocates, the
  buffers it writes are listed, and a buffer outside that list keeps its contents.  The window of the program is
  the pieces run in order.
-/
import proofs.«178507_j28741921144979_1_alg».proof.Proof.Gen.ReferenceIdeal
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

variable {F : FTy → Type} [FloatOps F]

/-- Operations of the program, in order: those writing %v101 … %v101. -/
def s_g3b : List (HloOp τ sig (Elt F)) :=
  [ StableHlo.ternary main_v99 main_v100 main_v98 main_v101 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The buffers those operations write. -/
def w_g3b : List (Ref sig .tc) := [main_v101]

theorem s_g3b_sub : ∀ op ∈ (s_g3b : List (HloOp τ sig (Elt F))), op.bufs ⊆ tcRefs τ sig := by
  unfold s_g3b
  exact List.forall_iff_forall_mem.mp (ternary_bufs_sub ..)

theorem s_g3b_fresh : ∀ op ∈ (s_g3b : List (HloOp τ sig (Elt F))), op.fresh = ∅ := by
  unfold s_g3b
  intro _ h; (repeat (cases h with | head => rfl | tail _ h => ?_)); exact nomatch h

theorem s_g3b_writes : ∀ op ∈ (s_g3b : List (HloOp τ sig (Elt F))), op.writes ⊆ (w_g3b.map (Proc.devRef (τ := τ) .tc)).toFinset := by
  unfold s_g3b
  exact List.forall_iff_forall_mem.mp (Finset.singleton_subset_iff.mpr (List.mem_toFinset.mpr (List.mem_map_of_mem (.head _))))

/-- A buffer none of them writes keeps its contents. -/
theorem s_g3b_frame (V : Valuation τ sig (Elt F)) {r : Ref sig .tc} (hr : r ∉ w_g3b) :
    after s_g3b V (Proc.devRef .tc r) = V (Proc.devRef .tc r) :=
  after_of_writes_sub s_g3b V (List.forall_iff_forall_mem.mpr s_g3b_writes) hr

/-- Operations of the program, in order: those writing %cst_17 … %v115. -/
def s_a3 : List (HloOp τ sig (Elt F)) :=
  [ StableHlo.nullary main_cst_17 (constant S_ .f32 0x3F800000#32),
    StableHlo.binary main_cst_17 main_arg16 main_v102 (addf : (⟨S_, .f32⟩ : BufTy).Contents (Elt F) → (⟨S_, .f32⟩ : BufTy).Contents (Elt F) → (⟨S_, .f32⟩ : BufTy).Contents (Elt F)),
    StableHlo.unary main_v102 main_v103 (broadcastInDim S100000x64 ![] bcast_S_S100000x64 : (⟨S_, .f32⟩ : BufTy).Contents (Elt F) → (⟨S100000x64, .f32⟩ : BufTy).Contents (Elt F)),
    StableHlo.binary main_v103 main_v91 main_v104 (mulf : (⟨S100000x64, .f32⟩ : BufTy).Contents (Elt F) → (⟨S100000x64, .f32⟩ : BufTy).Contents (Elt F) → (⟨S100000x64, .f32⟩ : BufTy).Contents (Elt F)),
    StableHlo.binary main_v104 main_v101 main_v105 (addf : (⟨S100000x64, .f32⟩ : BufTy).Contents (Elt F) → (⟨S100000x64, .f32⟩ : BufTy).Contents (Elt F) → (⟨S100000x64, .f32⟩ : BufTy).Contents (Elt F)),
    StableHlo.binary main_v105 main_arg17 main_v106 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v108 main_v109 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v109) main_call8.v0 main_call8.v1 maximumf,
    StableHlo.binary main_v110 main_arg19 main_v111 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg20 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v113 main_v114 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v114) main_call9.v0 main_call9.v1 maximumf ]

/-- The buffers those operations write. -/
def w_a3 : List (Ref sig .tc) := [main_cst_17, main_v102, main_v103, main_v104, main_v105, main_v106, main_v107, main_v108, main_v109, main_call8_cst, main_call8_v0, main_v110, main_v111, main_v112, main_v113, main_v114, main_call9_cst, main_call9_v0, main_v115]

theorem s_a3_sub : ∀ op ∈ (s_a3 : List (HloOp τ sig (Elt F))), op.bufs ⊆ tcRefs τ sig := by
  unfold s_a3
  exact List.forall_iff_forall_mem.mp ⟨nullary_bufs_sub ..,
    binary_bufs_sub ..,
    unary_bufs_sub ..,
    binary_bufs_sub ..,
    binary_bufs_sub ..,
    binary_bufs_sub ..,
    unary_bufs_sub ..,
    unary_bufs_sub ..,
    binary_bufs_sub ..,
    nullary_bufs_sub ..,
    unary_bufs_sub ..,
    binary_bufs_sub ..,
    binary_bufs_sub ..,
    unary_bufs_sub ..,
    unary_bufs_sub ..,
    binary_bufs_sub ..,
    nullary_bufs_sub ..,
    unary_bufs_sub ..,
    binary_bufs_sub ..⟩

theorem s_a3_fresh : ∀ op ∈ (s_a3 : List (HloOp τ sig (Elt F))), op.fresh = ∅ := by
  unfold s_a3
  intro _ h; (repeat (cases h with | head => rfl | tail _ h => ?_)); exact nomatch h

theorem s_a3_writes : ∀ op ∈ (s_a3 : List (HloOp τ sig (Elt F))), op.writes ⊆ (w_a3.map (Proc.devRef (τ := τ) .tc)).toFinset := by
  unfold s_a3
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_a3_frame (V : Valuation τ sig (Elt F)) {r : Ref sig .tc} (hr : r ∉ w_a3) :
    after s_a3 V (Proc.devRef .tc r) = V (Proc.devRef .tc r) :=
  after_of_writes_sub s_a3 V (List.forall_iff_forall_mem.mpr s_a3_writes) hr

/-- Operations of the program, in order: those writing %cst_18 … %v118. -/
def s_b3 : List (HloOp τ sig (Elt F)) :=
  [ StableHlo.nullary main_cst_18 (constant S_ .f32 0x00000000#32),
    StableHlo.binary main_v115 main_cst_18 main_v116 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v117 (broadcastInDim S64 ![] bcast_S_S64 : (⟨S_, .f32⟩ : BufTy).Contents (Elt F) → (⟨S64, .f32⟩ : BufTy).Contents (Elt F)),
    StableHlo.binary main_v116 main_v117 main_v118 (Host.divf : (⟨S64, .f32⟩ : BufTy).Contents (Elt F) → (⟨S64, .f32⟩ : BufTy).Contents (Elt F) → (⟨S64, .f32⟩ : BufTy).Contents (Elt F)) ]

/-- The buffers those operations write. -/
def w_b3 : List (Ref sig .tc) := [main_cst_18, main_v116, main_cst_19, main_v117, main_v118]

theorem s_b3_sub : ∀ op ∈ (s_b3 : List (HloOp τ sig (Elt F))), op.bufs ⊆ tcRefs τ sig := by
  unfold s_b3
  exact List.forall_iff_forall_mem.mp ⟨nullary_bufs_sub ..,
    binary_bufs_sub ..,
    nullary_bufs_sub ..,
    unary_bufs_sub ..,
    binary_bufs_sub ..⟩

theorem s_b3_fresh : ∀ op ∈ (s_b3 : List (HloOp τ sig (Elt F))), op.fresh = ∅ := by
  unfold s_b3
  intro _ h; (repeat (cases h with | head => rfl | tail _ h => ?_)); exact nomatch h

theorem s_b3_writes : ∀ op ∈ (s_b3 : List (HloOp τ sig (Elt F))), op.writes ⊆ (w_b3.map (Proc.devRef (τ := τ) .tc)).toFinset := by
  unfold s_b3
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _)))))))⟩

/-- A buffer none of them writes keeps its contents. -/
theorem s_b3_frame (V : Valuation τ sig (Elt F)) {r : Ref sig .tc} (hr : r ∉ w_b3) :
    after s_b3 V (Proc.devRef .tc r) = V (Proc.devRef .tc r) :=
  after_of_writes_sub s_b3 V (List.forall_iff_forall_mem.mpr s_b3_writes) hr

/-- Operations of the program, in order: those writing %c_20 … %v119. -/
def s_v3 : List (HloOp τ sig (Elt F)) :=
  [ StableHlo.nullary main_c_20 (constantI S_ 32 0#32),
    StableHlo.TRef.nullary main_call10.cst (constant S_ .f32 0x00000000#32),
    StableHlo.TRef.binary (.of main_v115) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v115) main_call10.v4 main_call10.v5 subf,
    StableHlo.TRef.binary main_call10.v5 main_call10.v5 main_call10.v6 mulf,
    StableHlo.TRef.unary (.of main_c_20) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b) ]

/-- The buffers those operations write. -/
def w_v3 : List (Ref sig .tc) := [main_c_20, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v119]

theorem s_v3_sub : ∀ op ∈ (s_v3 : List (HloOp τ sig (Elt F))), op.bufs ⊆ tcRefs τ sig := by
  unfold s_v3
  exact List.forall_iff_forall_mem.mp ⟨nullary_bufs_sub ..,
    nullary_bufs_sub ..,
    binary_bufs_sub ..,
    unary_bufs_sub ..,
    nullary_bufs_sub ..,
    unary_bufs_sub ..,
    binary_bufs_sub ..,
    unary_bufs_sub ..,
    binary_bufs_sub ..,
    binary_bufs_sub ..,
    unary_bufs_sub ..,
    nullary_bufs_sub ..,
    binary_bufs_sub ..,
    nullary_bufs_sub ..,
    binary_bufs_sub ..,
    unary_bufs_sub ..,
    binary_bufs_sub ..,
    nullary_bufs_sub ..,
    binary_bufs_sub ..,
    nullary_bufs_sub ..,
    unary_bufs_sub ..,
    unary_bufs_sub ..,
    ternary_bufs_sub ..⟩

theorem s_v3_fresh : ∀ op ∈ (s_v3 : List (HloOp τ sig (Elt F))), op.fresh = ∅ := by
  unfold s_v3
  intro _ h; (repeat (cases h with | head => rfl | tail _ h => ?_)); exact nomatch h

theorem s_v3_writes : ∀ op ∈ (s_v3 : List (HloOp τ sig (Elt F))), op.writes ⊆ (w_v3.map (Proc.devRef (τ := τ) .tc)).toFinset := by
  unfold s_v3
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))⟩

/-- A buffer none of them writes keeps its contents. -/
theorem s_v3_frame (V : Valuation τ sig (Elt F)) {r : Ref sig .tc} (hr : r ∉ w_v3) :
    after s_v3 V (Proc.devRef .tc r) = V (Proc.devRef .tc r) :=
  after_of_writes_sub s_v3 V (List.forall_iff_forall_mem.mpr s_v3_writes) hr

/-- Operations of the program, in order: those writing %v120 … %v135. -/
def s_c3 : List (HloOp τ sig (Elt F)) :=
  [ StableHlo.unary main_v118 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v115 main_v121 main_v122 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v123 (broadcastInDim S64 ![] bcast_S_S64 : (⟨S_, .f32⟩ : BufTy).Contents (Elt F) → (⟨S64, .f32⟩ : BufTy).Contents (Elt F)),
    StableHlo.binary main_v119 main_v123 main_v124 (addf : (⟨S64, .f32⟩ : BufTy).Contents (Elt F) → (⟨S64, .f32⟩ : BufTy).Contents (Elt F) → (⟨S64, .f32⟩ : BufTy).Contents (Elt F)),
    StableHlo.unary main_v124 main_v125 (Host.rsqrt : (⟨S64, .f32⟩ : BufTy).Contents (Elt F) → (⟨S64, .f32⟩ : BufTy).Contents (Elt F)),
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v127 main_v128 (mulf : (⟨S100000x64, .f32⟩ : BufTy).Contents (Elt F) → (⟨S100000x64, .f32⟩ : BufTy).Contents (Elt F) → (⟨S100000x64, .f32⟩ : BufTy).Contents (Elt F)),
    StableHlo.unary main_arg21 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v128 main_v130 main_v131 (mulf : (⟨S100000x64, .f32⟩ : BufTy).Contents (Elt F) → (⟨S100000x64, .f32⟩ : BufTy).Contents (Elt F) → (⟨S100000x64, .f32⟩ : BufTy).Contents (Elt F)),
    StableHlo.unary main_arg22 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v131 main_v133 main_v134 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v134) main_call11.v0 main_call11.v1 maximumf ]

/-- The buffers those operations write. -/
def w_c3 : List (Ref sig .tc) := [main_v120, main_v121, main_v122, main_cst_21, main_v123, main_v124, main_v125, main_v126, main_v127, main_v128, main_v129, main_v130, main_v131, main_v132, main_v133, main_v134, main_call11_cst, main_call11_v0, main_v135]

theorem s_c3_sub : ∀ op ∈ (s_c3 : List (HloOp τ sig (Elt F))), op.bufs ⊆ tcRefs τ sig := by
  unfold s_c3
  exact List.forall_iff_forall_mem.mp ⟨unary_bufs_sub ..,
    unary_bufs_sub ..,
    binary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..,
    nullary_bufs_sub ..,
    unary_bufs_sub ..,
    binary_bufs_sub ..⟩

theorem s_c3_fresh : ∀ op ∈ (s_c3 : List (HloOp τ sig (Elt F))), op.fresh = ∅ := by
  unfold s_c3
  intro _ h; (repeat (cases h with | head => rfl | tail _ h => ?_)); exact nomatch h

theorem s_c3_writes : ∀ op ∈ (s_c3 : List (HloOp τ sig (Elt F))), op.writes ⊆ (w_c3.map (Proc.devRef (τ := τ) .tc)).toFinset := by
  unfold s_c3
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _)))))),
    Finset.singleton_subset_iff.mpr (List.mem_toFinset.mpr (List.mem_map_of_mem (.tail _ (.tail _ (.tail _ (.tail _ (.head _))))))),
    Finset.singleton_subset_iff.mpr (List.mem_toFinset.mpr (List.mem_map_of_mem (.tail _ (.tail _ (.tail _ (.tail _ (.tail _ (.head _)))))))),
    Finset.singleton_subset_iff.mpr (List.mem_toFinset.mpr (List.mem_map_of_mem (.tail _ (.tail _ (.tail _ (.tail _ (.tail _ (.tail _ (.head _))))))))),
    Finset.singleton_subset_iff.mpr (List.mem_toFinset.mpr (List.mem_map_of_mem (.tail _ (.tail _ (.tail _ (.tail _ (.tail _ (.tail _ (.tail _ (.head _)))))))))),
    Finset.singleton_subset_iff.mpr (List.mem_toFinset.mpr (List.mem_map_of_mem (.tail _ (.tail _ (.tail _ (.tail _ (.tail _ (.tail _ (.tail _ (.tail _ (.head _))))))))))),
    Finset.singleton_subset_iff.mpr (List.mem_toFinset.mpr (List.mem_map_of_mem (.tail _ (.tail _ (.tail _ (.tail _ (.tail _ (.tail _ (.tail _ (.tail _ (.tail _ (.head _)))))))))))),
    Finset.singleton_subset_iff.mpr (List.mem_toFinset.mpr (List.mem_map_of_mem (.tail _ (.tail _ (.tail _ (.tail _ (.tail _ (.tail _ (.tail _ (.tail _ (.tail _ (.tail _ (.head _))))))))))))),
    Finset.singleton_subset_iff.mpr (List.mem_toFinset.mpr (List.mem_map_of_mem (.tail _ (.tail _ (.tail _ (.tail _ (.tail _ (.tail _ (.tail _ (.tail _ (.tail _ (.tail _ (.tail _ (.head _)))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.head _))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.head _)))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.head _))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.head _)))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.head _))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.head _)))))))))))))))))))),
    Finset.singleton_subset_iff.mpr (List.mem_toFinset.mpr (List.mem_map_of_mem (.tail _ (.tail _ (.tail _ (.tail _ (.tail _ (.tail _ (.tail _ (.tail _ (.tail _ (.tail _ (.tail _ (.tail _ (.tail _ (.tail _ (.tail _ (.tail _ (.tail _ (.tail _ (.head _)))))))))))))))))))))⟩

/-- A buffer none of them writes keeps its contents. -/
theorem s_c3_frame (V : Valuation τ sig (Elt F)) {r : Ref sig .tc} (hr : r ∉ w_c3) :
    after s_c3 V (Proc.devRef .tc r) = V (Proc.devRef .tc r) :=
  after_of_writes_sub s_c3 V (List.forall_iff_forall_mem.mpr s_c3_writes) hr

/-- Operations of the program, in order: those writing %v136 … %v139. -/
def s_ro : List (HloOp τ sig (Elt F)) :=
  [ StableHlo.binary main_v135 main_arg23 main_v136 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.unary main_arg24 main_v137 (broadcastInDim S1x16 ![1] bcast_S16_S1x16_1 : (⟨S16, .f32⟩ : BufTy).Contents (Elt F) → (⟨S1x16, .f32⟩ : BufTy).Contents (Elt F)),
    StableHlo.unary main_v137 main_v138 (broadcastInDim S100000x16 ![0, 1] bcast_S1x16_S100000x16_0_1 : (⟨S1x16, .f32⟩ : BufTy).Contents (Elt F) → (⟨S100000x16, .f32⟩ : BufTy).Contents (Elt F)),
    StableHlo.binary main_v136 main_v138 main_v139 (addf : (⟨S100000x16, .f32⟩ : BufTy).Contents (Elt F) → (⟨S100000x16, .f32⟩ : BufTy).Contents (Elt F) → (⟨S100000x16, .f32⟩ : BufTy).Contents (Elt F)) ]

/-- The buffers those operations write. -/
def w_ro : List (Ref sig .tc) := [main_v136, main_v137, main_v138, main_v139]

theorem s_ro_sub : ∀ op ∈ (s_ro : List (HloOp τ sig (Elt F))), op.bufs ⊆ tcRefs τ sig := by
  unfold s_ro
  exact List.forall_iff_forall_mem.mp ⟨binary_bufs_sub ..,
    unary_bufs_sub ..,
    unary_bufs_sub ..,
    binary_bufs_sub ..⟩

theorem s_ro_fresh : ∀ op ∈ (s_ro : List (HloOp τ sig (Elt F))), op.fresh = ∅ := by
  unfold s_ro
  intro _ h; (repeat (cases h with | head => rfl | tail _ h => ?_)); exact nomatch h

theorem s_ro_writes : ∀ op ∈ (s_ro : List (HloOp τ sig (Elt F))), op.writes ⊆ (w_ro.map (Proc.devRef (τ := τ) .tc)).toFinset := by
  unfold s_ro
  exact List.forall_iff_forall_mem.mp ⟨Finset.singleton_subset_iff.mpr (List.mem_toFinset.mpr (List.mem_map_of_mem (.head _))),
    Finset.singleton_subset_iff.mpr (List.mem_toFinset.mpr (List.mem_map_of_mem (.tail _ (.head _)))),
    Finset.singleton_subset_iff.mpr (List.mem_toFinset.mpr (List.mem_map_of_mem (.tail _ (.tail _ (.head _))))),
    Finset.singleton_subset_iff.mpr (List.mem_toFinset.mpr (List.mem_map_of_mem (.tail _ (.tail _ (.tail _ (.head _))))))⟩

/-- A buffer none of them writes keeps its contents. -/
theorem s_ro_frame (V : Valuation τ sig (Elt F)) {r : Ref sig .tc} (hr : r ∉ w_ro) :
    after s_ro V (Proc.devRef .tc r) = V (Proc.devRef .tc r) :=
  after_of_writes_sub s_ro V (List.forall_iff_forall_mem.mpr s_ro_writes) hr

/-- The window's operations: the pieces in order. -/
def win2 : List (HloOp τ sig (Elt F)) := s_g3b ++ (s_a3 ++ (s_b3 ++ (s_v3 ++ (s_c3 ++ (s_ro)))))

set_option maxRecDepth 8192 in
set_option maxHeartbeats 4000000 in
/-- The window is that straight line: the functions' definitions unfolded at their calls, both sides are one chain
    of steps once sequencing is reassociated. -/
theorem part2_eq (c : Dev nD) : main_part2 (F := F) c = seq win2 := by
  simp only [main_part2, fn_relu.body, fn_var.body, fn_where.body, win2, s_g3b, s_a3, s_b3, s_v3, s_c3, s_ro,
    List.cons_append, List.nil_append, seq, bind_assoc, pure_bind]
  all_goals rfl

end Cert.Gin.RRun

end
-- ==== Proof.RDefs.lean ====
/-
  The reference program's host dataflow as functions on arrays.

  One layer: the node features scaled by 1 + eps plus the neighbour sums; two dense steps, each a contraction with a
  weight matrix plus a bias row (a vector made a one-row matrix, then repeated down the rows) under a rectifier; the
  column means; the variance of each column over the centred data, with the scaffolding its source carries (the
  divisor is the row count minus a converted integer zero, and the quotient is kept only where that divisor is
  positive); the centring, the scaling by the inverse root of variance plus offset, by g, the shift by bt, and the
  outer rectifier.  The network: three layers, then a contraction with the readout matrix plus its bias row.

  Every function below is the composition of the program's operations in the order the program lists them.
-/
import proofs.«178507_j28741921144979_1_alg».proof.Proof.Gen.ReferenceIdeal
import proofs.«178507_j28741921144979_1_alg».proof.Proof.Spec

noncomputable section

namespace Cert.Gin.R

open Idealize.ShloMosaic Cert.ReferenceIdeal Cert.ReferenceIdeal.Facts₀

/-- A vector as a one-row matrix repeated down the 100000 rows. -/
def rows (v : A1 64) : A2 100000 64 :=
  broadcastInDim S100000x64 ![0, 1] bcast_S1x64_S100000x64_0_1 (broadcastInDim S1x64 ![1] bcast_S64_S1x64_1 v)

/-- The rectifier: the maximum with the zero word repeated over the matrix. -/
def relu (x : A2 100000 64) : A2 100000 64 :=
  maximumf (F := Ideal) x
    (broadcastInDim S100000x64 ![] bcast_S_S100000x64 (constant (F := Ideal) S_ .f32 0x00000000#32))

/-- A dense step before its rectifier: the contraction with the weights plus the bias rows. -/
def affine (x : A2 100000 64) (w : A2 64 64) (b : A1 64) : A2 100000 64 :=
  addf (F := Ideal) (Host.dotGeneral (F := Ideal) dot_S100000x64_S64x64_S100000x64_1_0_0_1_n_n none x w) (rows b)

/-- The pre-activation: the unit word plus eps, repeated over the matrix, times the features, plus the neighbour sums. -/
def pre (h aggh : A2 100000 64) (eps : A0) : A2 100000 64 :=
  addf (F := Ideal)
    (mulf (F := Ideal)
      (broadcastInDim S100000x64 ![] bcast_S_S100000x64
        (addf (F := Ideal) (constant (F := Ideal) S_ .f32 0x3F800000#32) eps)) h)
    aggh

/-- Two dense steps, each under the rectifier. -/
def hidden (P : A2 100000 64) (w1 : A2 64 64) (b1 : A1 64) (w2 : A2 64 64) (b2 : A1 64) : A2 100000 64 :=
  relu (affine (relu (affine P w1 b1)) w2 b2)

/-- The column means: the column sums over the row count's word repeated along the vector. -/
def mean (H : A2 100000 64) : A1 64 :=
  Host.divf (F := Ideal)
    (Host.reduceAdd (F := Ideal) H (constant (F := Ideal) S_ .f32 0x00000000#32) reducesTo_S100000x64_S64_d0 h_S_)
    (broadcastInDim S64 ![] bcast_S_S64 (constant (F := Ideal) S_ .f32 0x47C35000#32))

/-- The data centred by its own column means, the means taken as a one-row matrix divided by the row count's word. -/
def centred (H : A2 100000 64) : A2 100000 64 :=
  subf (F := Ideal) H
    (broadcastInDim S100000x64 ![0, 1] bcast_S1x64_S100000x64_0_1
      (Host.divf (F := Ideal)
        (broadcastInDim S1x64 ![1] bcast_S64_S1x64_1
          (Host.reduceAdd (F := Ideal) H (constant (F := Ideal) S_ .f32 0x00000000#32)
            reducesTo_S100000x64_S64_d0 h_S_))
        (broadcastInDim S1x64 ![] bcast_S_S1x64 (constant (F := Ideal) S_ .f32 0x47C35000#32))))

/-- The divisor of the variance: the row count's word minus the integer zero converted to a float. -/
def divisor : A0 :=
  subf (F := Ideal) (constant (F := Ideal) S_ .f32 0x47C35000#32)
    (sitofp (F := Ideal) .f32 (constantI S_ 32 0#32))

/-- The variance over the centred data: the column sums of the squared deviations over the divisor, kept where the
    divisor is positive and replaced by the quiet-NaN word elsewhere. -/
def var (H : A2 100000 64) : A1 64 :=
  select
    (broadcastInDim S64 ![] bcast_S_S64
      (cmpf (F := Ideal) .ogt divisor (constant (F := Ideal) S_ .f32 0x00000000#32)))
    (Host.divf (F := Ideal)
      (Host.reduceAdd (F := Ideal) (mulf (F := Ideal) (centred H) (centred H))
        (constant (F := Ideal) S_ .f32 0x00000000#32) reducesTo_S100000x64_S64_d0 h_S_)
      (broadcastInDim S64 ![] bcast_S_S64 divisor))
    (broadcastInDim S64 ![] bcast_S_S64 (id (constant (F := Ideal) S_ .f32 0x7FC00000#32)))

/-- The normalisation: centring by the means, scaling by the inverse root of variance plus offset, by g, the shift
    by bt, and the rectifier. -/
def norm (H : A2 100000 64) (mu va g bt : A1 64) : A2 100000 64 :=
  relu
    (addf (F := Ideal)
      (mulf (F := Ideal)
        (mulf (F := Ideal)
          (subf (F := Ideal) H (rows mu))
          (rows (Host.rsqrt (F := Ideal)
            (addf (F := Ideal) va
              (broadcastInDim S64 ![] bcast_S_S64 (constant (F := Ideal) S_ .f32 0x3727C5AC#32))))))
        (rows g))
      (rows bt))

/-- One layer of the reference program. -/
def layerA (Ag : A2 100000 64 → A2 100000 64) (h : A2 100000 64) (eps : A0) (w1 : A2 64 64) (b1 : A1 64)
    (w2 : A2 64 64) (b2 g bt : A1 64) : A2 100000 64 :=
  norm (hidden (pre h (Ag h) eps) w1 b1 w2 b2)
    (mean (hidden (pre h (Ag h) eps) w1 b1 w2 b2))
    (var (hidden (pre h (Ag h) eps) w1 b1 w2 b2)) g bt

/-- The readout: the contraction with the readout matrix plus its bias rows. -/
def readout (x : A2 100000 64) (wl : A2 64 16) (bl : A1 16) : A2 100000 16 :=
  addf (F := Ideal) (Host.dotGeneral (F := Ideal) dot_S100000x64_S64x16_S100000x16_1_0_0_1_n_n none x wl)
    (broadcastInDim S100000x16 ![0, 1] bcast_S1x16_S100000x16_0_1
      (broadcastInDim S1x16 ![1] bcast_S16_S1x16_1 bl))

/-- The reference program's network: three layers, then the readout. -/
def netA (Ag : A2 100000 64 → A2 100000 64) (x : A2 100000 64)
    (e1 : A0) (w11 : A2 64 64) (b11 : A1 64) (w12 : A2 64 64) (b12 g1 bt1 : A1 64)
    (e2 : A0) (w21 : A2 64 64) (b21 : A1 64) (w22 : A2 64 64) (b22 g2 bt2 : A1 64)
    (e3 : A0) (w31 : A2 64 64) (b31 : A1 64) (w32 : A2 64 64) (b32 g3 bt3 : A1 64)
    (wl : A2 64 16) (bl : A1 16) : A2 100000 16 :=
  readout
    (layerA Ag
      (layerA Ag
        (layerA Ag x e1 w11 b11 w12 b12 g1 bt1)
        e2 w21 b21 w22 b22 g2 bt2)
      e3 w31 b31 w32 b32 g3 bt3)
    wl bl

end Cert.Gin.R

end
-- ==== Proof.RAgg.lean ====
/-
  The neighbour sum of one layer, as the reference program computes it on the host: the edge list's two rows are
  cut out and flattened, the source row's negative entries are shifted up by the row count (the wrap-around of a
  negative index), every edge takes the feature row of its source (a gather of whole rows), and the taken rows are
  added, edge by edge, onto a matrix of zeros at the row the edge's destination names (a scatter-add of whole rows).
-/
import proofs.«178507_j28741921144979_1_alg».proof.ReferenceIdeal
import proofs.«178507_j28741921144979_1_alg».proof.Proof.Gen.ReferenceIdeal
import proofs.«178507_j28741921144979_1_alg».proof.Proof.Spec

noncomputable section

namespace Cert.Gin.R

open Idealize.ShloMosaic
open Cert.ReferenceIdeal Cert.ReferenceIdeal.Facts₀

/-- The edge list's contents: two rows of integer words. -/
abbrev Edges := (⟨S2x1600000, .i32⟩ : BufTy).Contents (Elt Ideal)

/-- The source row of the edge list, flattened. -/
def src (ei : Edges) : (⟨S1600000, .i32⟩ : BufTy).Contents (Elt Ideal) :=
  shapeCast S1600000
    (extractStridedSlice S1x1600000 ![0, 0] ei slices_S2x1600000_S1x1600000_0_0 : (⟨S1x1600000, .i32⟩ : BufTy).Contents (Elt Ideal))
    shapeCasts_S1x1600000_S1600000

/-- The destination row of the edge list, flattened. -/
def dst (ei : Edges) : (⟨S1600000, .i32⟩ : BufTy).Contents (Elt Ideal) :=
  shapeCast S1600000
    (extractStridedSlice S1x1600000 ![1, 0] ei slices_S2x1600000_S1x1600000_1_0 : (⟨S1x1600000, .i32⟩ : BufTy).Contents (Elt Ideal))
    shapeCasts_S1x1600000_S1600000

/-- The source row with its negative entries shifted up by the row count, as a column of start indices. -/
def srcCol (ei : Edges) : (⟨S1600000x1, .i32⟩ : BufTy).Contents (Elt Ideal) :=
  broadcastInDim S1600000x1 ![0] bcast_S1600000_S1600000x1_0
    (select
      (cmpi .slt (src ei) (broadcastInDim S1600000 ![] bcast_S_S1600000 (constantI S_ 32 0#32)))
      (addi (src ei) (broadcastInDim S1600000 ![] bcast_S_S1600000 (constantI S_ 32 100000#32)))
      (src ei))

/-- The feature rows the edges take: one row of `h` per edge, at its source. -/
def gathered (ei : Edges) (h : A2 100000 64) : (⟨S1600000x64, .f32⟩ : BufTy).Contents (Elt Ideal) :=
  Host.gather gather_S100000x64_S1600000x1_S1600000x64_1_0_n_n_0_1_164 h (srcCol ei)

/-- The neighbour sum: the taken rows added onto zeros at the rows the destinations name. -/
def agg (ei : Edges) (h : A2 100000 64) : A2 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dst ei))
    (gathered ei h)

end Cert.Gin.R

end
-- ==== Proof.LibAfterAppend.lean ====
/-
  Host operations run one list after the other: the buffer contents after `l₁ ++ l₂` are the contents after `l₂` from
  the contents after `l₁` (`after_append`), so a long stretch of host operations can be read in pieces cut at any
  position (`after_take_drop`) — each piece's result stated once over an arbitrary valuation, the pieces composed by
  rewriting. For any topology, signature and value type.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lists of operations run in turn. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list of operations cut at position `n`. -/
theorem after_take_drop (n : Nat) (l : List (HloOp τ sig Val)) (V : Valuation τ sig Val) :
    after l V = after (l.drop n) (after (l.take n) V) := by
  rw [← after_append, List.take_append_drop]

end Cert.LibAfterAppend

end
-- ==== Proof.RRead1.lean ====
/-
  The first layer's operations read back: from any buffer contents, what each piece of the reference program's
  first layer leaves in the buffer it ends on, as the dataflow functions of the arguments' contents; and the layer's
  pieces composed.
-/
import proofs.«178507_j28741921144979_1_alg».proof.Proof.ROps0
import proofs.«178507_j28741921144979_1_alg».proof.Proof.RDefs
import proofs.«178507_j28741921144979_1_alg».proof.Proof.RAgg
import proofs.«178507_j28741921144979_1_alg».proof.Proof.LibAfterAppend
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

attribute [local irreducible] Host.gather Host.scatterAdd Host.reduceAdd

theorem g1_src (V : Valuation τ sig (Elt Ideal)) :
    after (s_g1 (F := Ideal)) V (Proc.devRef .tc main_v1) = R.src (V (Proc.devRef .tc main_arg1)) := by
  unfold s_g1
  after_results_simp
  rfl

theorem g1_dst (V : Valuation τ sig (Elt Ideal)) :
    after (s_g1 (F := Ideal)) V (Proc.devRef .tc main_v3) = R.dst (V (Proc.devRef .tc main_arg1)) := by
  unfold s_g1
  after_results_simp
  rfl

theorem g1_out (V : Valuation τ sig (Elt Ideal)) :
    after (s_g1 (F := Ideal)) V (Proc.devRef .tc main_v13) = R.agg (V (Proc.devRef .tc main_arg1)) (V (Proc.devRef .tc main_arg0)) := by
  unfold s_g1
  after_results_simp
  rfl

theorem a1_out (V : Valuation τ sig (Elt Ideal)) :
    after (s_a1 (F := Ideal)) V (Proc.devRef .tc main_v27) = R.hidden (R.pre (V (Proc.devRef .tc main_arg0)) (V (Proc.devRef .tc main_v13)) (V (Proc.devRef .tc main_arg2))) (V (Proc.devRef .tc main_arg3)) (V (Proc.devRef .tc main_arg4)) (V (Proc.devRef .tc main_arg5)) (V (Proc.devRef .tc main_arg6)) := by
  unfold s_a1
  after_results_simp
  rfl

theorem b1_out (V : Valuation τ sig (Elt Ideal)) :
    after (s_b1 (F := Ideal)) V (Proc.devRef .tc main_v30) = R.mean (V (Proc.devRef .tc main_v27)) := by
  unfold s_b1
  after_results_simp
  rfl

theorem v1_out (V : Valuation τ sig (Elt Ideal)) :
    after (s_v1 (F := Ideal)) V (Proc.devRef .tc main_v31) = R.var (V (Proc.devRef .tc main_v27)) := by
  unfold s_v1
  after_results_simp
  rfl

theorem c1_out (V : Valuation τ sig (Elt Ideal)) :
    after (s_c1 (F := Ideal)) V (Proc.devRef .tc main_v47) = R.norm (V (Proc.devRef .tc main_v27)) (V (Proc.devRef .tc main_v30)) (V (Proc.devRef .tc main_v31)) (V (Proc.devRef .tc main_arg7)) (V (Proc.devRef .tc main_arg8)) := by
  unfold s_c1
  after_results_simp
  rfl

/-- The first layer's operations. -/
def lay1 {F : FTy → Type} [FloatOps F] : List (HloOp τ sig (Elt F)) := s_g1 ++ (s_a1 ++ (s_b1 ++ (s_v1 ++ s_c1)))

/-- The first layer read back: its last buffer holds the layer function of the arguments' contents. -/
theorem lay1_out (V : Valuation τ sig (Elt Ideal)) :
    after (lay1 (F := Ideal)) V (Proc.devRef .tc main_v47)
      = R.layerA (R.agg (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [lay1, Cert.LibAfterAppend.after_append]
  rw [c1_out]
  rw [s_v1_frame _ (by decide : main_v27 ∉ w_v1), s_v1_frame _ (by decide : main_v30 ∉ w_v1), v1_out,
    s_v1_frame _ (by decide : main_arg7 ∉ w_v1), s_v1_frame _ (by decide : main_arg8 ∉ w_v1)]
  rw [s_b1_frame _ (by decide : main_v27 ∉ w_b1), b1_out,
    s_b1_frame _ (by decide : main_arg7 ∉ w_b1), s_b1_frame _ (by decide : main_arg8 ∉ w_b1)]
  rw [a1_out, s_a1_frame _ (by decide : main_arg7 ∉ w_a1), s_a1_frame _ (by decide : main_arg8 ∉ w_a1)]
  rw [g1_out, s_g1_frame _ (by decide : main_arg0 ∉ w_g1), s_g1_frame _ (by decide : main_arg2 ∉ w_g1), s_g1_frame _ (by decide : main_arg3 ∉ w_g1), s_g1_frame _ (by decide : main_arg4 ∉ w_g1), s_g1_frame _ (by decide : main_arg5 ∉ w_g1), s_g1_frame _ (by decide : main_arg6 ∉ w_g1), s_g1_frame _ (by decide : main_arg7 ∉ w_g1), s_g1_frame _ (by decide : main_arg8 ∉ w_g1)]
  rfl

theorem lay1_src (V : Valuation τ sig (Elt Ideal)) :
    after (lay1 (F := Ideal)) V (Proc.devRef .tc main_v1) = R.src (V (Proc.devRef .tc main_arg1)) := by
  simp only [lay1, Cert.LibAfterAppend.after_append]
  rw [s_c1_frame _ (by decide : main_v1 ∉ w_c1), s_v1_frame _ (by decide : main_v1 ∉ w_v1),
    s_b1_frame _ (by decide : main_v1 ∉ w_b1), s_a1_frame _ (by decide : main_v1 ∉ w_a1), g1_src]

theorem lay1_dst (V : Valuation τ sig (Elt Ideal)) :
    after (lay1 (F := Ideal)) V (Proc.devRef .tc main_v3) = R.dst (V (Proc.devRef .tc main_arg1)) := by
  simp only [lay1, Cert.LibAfterAppend.after_append]
  rw [s_c1_frame _ (by decide : main_v3 ∉ w_c1), s_v1_frame _ (by decide : main_v3 ∉ w_v1),
    s_b1_frame _ (by decide : main_v3 ∉ w_b1), s_a1_frame _ (by decide : main_v3 ∉ w_a1), g1_dst]

end Cert.Gin.RRun

end
-- ==== Proof.RRead2.lean ====
/-
  The second layer's operations read back: from any buffer contents in which the flattened edge rows are in place,
  what each piece of the reference program's second layer leaves in the buffer it ends on, as the dataflow functions
  of the contents it reads; and the layer's pieces composed.
-/
import proofs.«178507_j28741921144979_1_alg».proof.Proof.ROps0
import proofs.«178507_j28741921144979_1_alg».proof.Proof.ROps1
import proofs.«178507_j28741921144979_1_alg».proof.Proof.RDefs
import proofs.«178507_j28741921144979_1_alg».proof.Proof.RAgg
import proofs.«178507_j28741921144979_1_alg».proof.Proof.LibAfterAppend
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

attribute [local irreducible] Host.gather Host.scatterAdd Host.reduceAdd

/-- The neighbour sum of the layer: the operations that wrap the sources, take the rows and add them at the
    destinations, from contents holding the flattened source and destination rows. -/
theorem g2_out (V : Valuation τ sig (Elt Ideal)) (ei : R.Edges)
    (hs : (V (Proc.devRef .tc main_v1)) = R.src ei) (hd : (V (Proc.devRef .tc main_v3)) = R.dst ei) :
    after (s_g2b (F := Ideal)) (after (s_g2a (F := Ideal)) V) (Proc.devRef .tc main_v57) = R.agg ei (V (Proc.devRef .tc main_v47)) := by
  rw [← Cert.LibAfterAppend.after_append]
  simp only [s_g2a, s_g2b, List.cons_append, List.nil_append]
  after_results_simp
  rw [hs, hd]
  rfl

theorem a2_out (V : Valuation τ sig (Elt Ideal)) :
    after (s_a2 (F := Ideal)) V (Proc.devRef .tc main_v71) = R.hidden (R.pre (V (Proc.devRef .tc main_v47)) (V (Proc.devRef .tc main_v57)) (V (Proc.devRef .tc main_arg9))) (V (Proc.devRef .tc main_arg10)) (V (Proc.devRef .tc main_arg11)) (V (Proc.devRef .tc main_arg12)) (V (Proc.devRef .tc main_arg13)) := by
  unfold s_a2
  after_results_simp
  rfl

theorem b2_out (V : Valuation τ sig (Elt Ideal)) :
    after (s_b2 (F := Ideal)) V (Proc.devRef .tc main_v74) = R.mean (V (Proc.devRef .tc main_v71)) := by
  unfold s_b2
  after_results_simp
  rfl

theorem v2_out (V : Valuation τ sig (Elt Ideal)) :
    after (s_v2 (F := Ideal)) V (Proc.devRef .tc main_v75) = R.var (V (Proc.devRef .tc main_v71)) := by
  unfold s_v2
  after_results_simp
  rfl

theorem c2_out (V : Valuation τ sig (Elt Ideal)) :
    after (s_c2 (F := Ideal)) V (Proc.devRef .tc main_v91) = R.norm (V (Proc.devRef .tc main_v71)) (V (Proc.devRef .tc main_v74)) (V (Proc.devRef .tc main_v75)) (V (Proc.devRef .tc main_arg14)) (V (Proc.devRef .tc main_arg15)) := by
  unfold s_c2
  after_results_simp
  rfl

/-- The second layer's operations. -/
def lay2 {F : FTy → Type} [FloatOps F] : List (HloOp τ sig (Elt F)) :=
  s_g2a ++ (s_g2b ++ (s_a2 ++ (s_b2 ++ (s_v2 ++ s_c2))))

/-- The second layer read back: its last buffer holds the layer function of the previous layer's result and the
    layer's arguments. -/
theorem lay2_out (V : Valuation τ sig (Elt Ideal)) (ei : R.Edges)
    (hs : (V (Proc.devRef .tc main_v1)) = R.src ei) (hd : (V (Proc.devRef .tc main_v3)) = R.dst ei) :
    after (lay2 (F := Ideal)) V (Proc.devRef .tc main_v91)
      = R.layerA (R.agg ei) (V (Proc.devRef .tc main_v47)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [lay2, Cert.LibAfterAppend.after_append]
  rw [c2_out]
  rw [s_v2_frame _ (by decide : main_v71 ∉ w_v2), s_v2_frame _ (by decide : main_v74 ∉ w_v2), v2_out, s_v2_frame _ (by decide : main_arg14 ∉ w_v2), s_v2_frame _ (by decide : main_arg15 ∉ w_v2)]
  rw [s_b2_frame _ (by decide : main_v71 ∉ w_b2), b2_out, s_b2_frame _ (by decide : main_arg14 ∉ w_b2), s_b2_frame _ (by decide : main_arg15 ∉ w_b2)]
  rw [a2_out, s_a2_frame _ (by decide : main_arg14 ∉ w_a2), s_a2_frame _ (by decide : main_arg15 ∉ w_a2)]
  rw [g2_out V ei hs hd]
  rw [s_g2b_frame _ (by decide : main_v47 ∉ w_g2b), s_g2b_frame _ (by decide : main_arg9 ∉ w_g2b), s_g2b_frame _ (by decide : main_arg10 ∉ w_g2b), s_g2b_frame _ (by decide : main_arg11 ∉ w_g2b), s_g2b_frame _ (by decide : main_arg12 ∉ w_g2b), s_g2b_frame _ (by decide : main_arg13 ∉ w_g2b), s_g2b_frame _ (by decide : main_arg14 ∉ w_g2b), s_g2b_frame _ (by decide : main_arg15 ∉ w_g2b)]
  rw [s_g2a_frame _ (by decide : main_v47 ∉ w_g2a), s_g2a_frame _ (by decide : main_arg9 ∉ w_g2a), s_g2a_frame _ (by decide : main_arg10 ∉ w_g2a), s_g2a_frame _ (by decide : main_arg11 ∉ w_g2a), s_g2a_frame _ (by decide : main_arg12 ∉ w_g2a), s_g2a_frame _ (by decide : main_arg13 ∉ w_g2a), s_g2a_frame _ (by decide : main_arg14 ∉ w_g2a), s_g2a_frame _ (by decide : main_arg15 ∉ w_g2a)]
  rfl

end Cert.Gin.RRun

end
-- ==== Proof.RRead3.lean ====
/-
  The third layer's operations read back: from any buffer contents in which the flattened edge rows are in place,
  what each piece of the reference program's third layer leaves in the buffer it ends on, as the dataflow functions
  of the contents it reads; and the layer's pieces composed.
-/
import proofs.«178507_j28741921144979_1_alg».proof.Proof.ROps1
import proofs.«178507_j28741921144979_1_alg».proof.Proof.ROps2
import proofs.«178507_j28741921144979_1_alg».proof.Proof.RDefs
import proofs.«178507_j28741921144979_1_alg».proof.Proof.RAgg
import proofs.«178507_j28741921144979_1_alg».proof.Proof.LibAfterAppend
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

attribute [local irreducible] Host.gather Host.scatterAdd Host.reduceAdd

/-- The neighbour sum of the layer: the operations that wrap the sources, take the rows and add them at the
    destinations, from contents holding the flattened source and destination rows. -/
theorem g3_out (V : Valuation τ sig (Elt Ideal)) (ei : R.Edges)
    (hs : (V (Proc.devRef .tc main_v1)) = R.src ei) (hd : (V (Proc.devRef .tc main_v3)) = R.dst ei) :
    after (s_g3b (F := Ideal)) (after (s_g3a (F := Ideal)) V) (Proc.devRef .tc main_v101) = R.agg ei (V (Proc.devRef .tc main_v91)) := by
  rw [← Cert.LibAfterAppend.after_append]
  simp only [s_g3a, s_g3b, List.cons_append, List.nil_append]
  after_results_simp
  rw [hs, hd]
  rfl

theorem a3_out (V : Valuation τ sig (Elt Ideal)) :
    after (s_a3 (F := Ideal)) V (Proc.devRef .tc main_v115) = R.hidden (R.pre (V (Proc.devRef .tc main_v91)) (V (Proc.devRef .tc main_v101)) (V (Proc.devRef .tc main_arg16))) (V (Proc.devRef .tc main_arg17)) (V (Proc.devRef .tc main_arg18)) (V (Proc.devRef .tc main_arg19)) (V (Proc.devRef .tc main_arg20)) := by
  unfold s_a3
  after_results_simp
  rfl

theorem b3_out (V : Valuation τ sig (Elt Ideal)) :
    after (s_b3 (F := Ideal)) V (Proc.devRef .tc main_v118) = R.mean (V (Proc.devRef .tc main_v115)) := by
  unfold s_b3
  after_results_simp
  rfl

theorem v3_out (V : Valuation τ sig (Elt Ideal)) :
    after (s_v3 (F := Ideal)) V (Proc.devRef .tc main_v119) = R.var (V (Proc.devRef .tc main_v115)) := by
  unfold s_v3
  after_results_simp
  rfl

theorem c3_out (V : Valuation τ sig (Elt Ideal)) :
    after (s_c3 (F := Ideal)) V (Proc.devRef .tc main_v135) = R.norm (V (Proc.devRef .tc main_v115)) (V (Proc.devRef .tc main_v118)) (V (Proc.devRef .tc main_v119)) (V (Proc.devRef .tc main_arg21)) (V (Proc.devRef .tc main_arg22)) := by
  unfold s_c3
  after_results_simp
  rfl

/-- The third layer's operations. -/
def lay3 {F : FTy → Type} [FloatOps F] : List (HloOp τ sig (Elt F)) :=
  s_g3a ++ (s_g3b ++ (s_a3 ++ (s_b3 ++ (s_v3 ++ s_c3))))

/-- The third layer read back: its last buffer holds the layer function of the previous layer's result and the
    layer's arguments. -/
theorem lay3_out (V : Valuation τ sig (Elt Ideal)) (ei : R.Edges)
    (hs : (V (Proc.devRef .tc main_v1)) = R.src ei) (hd : (V (Proc.devRef .tc main_v3)) = R.dst ei) :
    after (lay3 (F := Ideal)) V (Proc.devRef .tc main_v135)
      = R.layerA (R.agg ei) (V (Proc.devRef .tc main_v91)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  simp only [lay3, Cert.LibAfterAppend.after_append]
  rw [c3_out]
  rw [s_v3_frame _ (by decide : main_v115 ∉ w_v3), s_v3_frame _ (by decide : main_v118 ∉ w_v3), v3_out, s_v3_frame _ (by decide : main_arg21 ∉ w_v3), s_v3_frame _ (by decide : main_arg22 ∉ w_v3)]
  rw [s_b3_frame _ (by decide : main_v115 ∉ w_b3), b3_out, s_b3_frame _ (by decide : main_arg21 ∉ w_b3), s_b3_frame _ (by decide : main_arg22 ∉ w_b3)]
  rw [a3_out, s_a3_frame _ (by decide : main_arg21 ∉ w_a3), s_a3_frame _ (by decide : main_arg22 ∉ w_a3)]
  rw [g3_out V ei hs hd]
  rw [s_g3b_frame _ (by decide : main_v91 ∉ w_g3b), s_g3b_frame _ (by decide : main_arg16 ∉ w_g3b), s_g3b_frame _ (by decide : main_arg17 ∉ w_g3b), s_g3b_frame _ (by decide : main_arg18 ∉ w_g3b), s_g3b_frame _ (by decide : main_arg19 ∉ w_g3b), s_g3b_frame _ (by decide : main_arg20 ∉ w_g3b), s_g3b_frame _ (by decide : main_arg21 ∉ w_g3b), s_g3b_frame _ (by decide : main_arg22 ∉ w_g3b)]
  rw [s_g3a_frame _ (by decide : main_v91 ∉ w_g3a), s_g3a_frame _ (by decide : main_arg16 ∉ w_g3a), s_g3a_frame _ (by decide : main_arg17 ∉ w_g3a), s_g3a_frame _ (by decide : main_arg18 ∉ w_g3a), s_g3a_frame _ (by decide : main_arg19 ∉ w_g3a), s_g3a_frame _ (by decide : main_arg20 ∉ w_g3a), s_g3a_frame _ (by decide : main_arg21 ∉ w_g3a), s_g3a_frame _ (by decide : main_arg22 ∉ w_g3a)]
  rfl

end Cert.Gin.RRun

end
-- ==== Proof.RRun.lean ====
/-
  The reference program's run.  Its three windows in order are one straight line of host operations; every weakly
  fair execution of that line terminates with each buffer at the operations' fold over the launch contents.  Read
  through the three layers and the readout, the fold at the result buffer is the network function of the arguments'
  contents; no operation writes an argument buffer, so the arguments end as they began.
-/
import proofs.«178507_j28741921144979_1_alg».proof.Proof.ROps0
import proofs.«178507_j28741921144979_1_alg».proof.Proof.ROps1
import proofs.«178507_j28741921144979_1_alg».proof.Proof.ROps2
import proofs.«178507_j28741921144979_1_alg».proof.Proof.RRead1
import proofs.«178507_j28741921144979_1_alg».proof.Proof.RRead2
import proofs.«178507_j28741921144979_1_alg».proof.Proof.RRead3
import proofs.«178507_j28741921144979_1_alg».proof.Proof.RDefs
import proofs.«178507_j28741921144979_1_alg».proof.Proof.RAgg
import proofs.«178507_j28741921144979_1_alg».proof.Proof.LibAfterAppend
import Idealize.ShloMosaic.Lib.StableHlo.Run

noncomputable section

namespace Cert.Gin.RRun

open Cert.ReferenceIdeal Cert.ReferenceIdeal.Facts₀ Idealize.ShloMosaic Idealize.ShloMosaic.TcCoe Idealize.SL.Sem Idealize.ShloMosaic.StableHlo

attribute [local irreducible] Host.gather Host.scatterAdd Host.reduceAdd

variable {F : FTy → Type} [FloatOps F]

/-! ## Lists of operations that keep the buffers outside a list of references -/

/-- The operations `l` leave every buffer outside `W` as it was. -/
def Keeps (l : List (HloOp τ sig (Elt F))) (W : List (Ref sig .tc)) : Prop :=
  ∀ (V : Valuation τ sig (Elt F)) (r : Ref sig .tc), r ∉ W → after l V (Proc.devRef .tc r) = V (Proc.devRef .tc r)

theorem Keeps.app {l₁ l₂ : List (HloOp τ sig (Elt F))} {W₁ W₂ : List (Ref sig .tc)}
    (h₁ : Keeps l₁ W₁) (h₂ : Keeps l₂ W₂) : Keeps (l₁ ++ l₂) (W₁ ++ W₂) := by
  intro V r hr
  rw [Cert.LibAfterAppend.after_append, h₂ _ r (fun hm => hr (List.mem_append_right _ hm)),
    h₁ _ r (fun hm => hr (List.mem_append_left _ hm))]

theorem s_g1_keeps : Keeps (s_g1 (F := F)) w_g1 := fun V _ hr => s_g1_frame V hr
theorem s_a1_keeps : Keeps (s_a1 (F := F)) w_a1 := fun V _ hr => s_a1_frame V hr
theorem s_b1_keeps : Keeps (s_b1 (F := F)) w_b1 := fun V _ hr => s_b1_frame V hr
theorem s_v1_keeps : Keeps (s_v1 (F := F)) w_v1 := fun V _ hr => s_v1_frame V hr
theorem s_c1_keeps : Keeps (s_c1 (F := F)) w_c1 := fun V _ hr => s_c1_frame V hr
theorem s_g2a_keeps : Keeps (s_g2a (F := F)) w_g2a := fun V _ hr => s_g2a_frame V hr
theorem s_g2b_keeps : Keeps (s_g2b (F := F)) w_g2b := fun V _ hr => s_g2b_frame V hr
theorem s_a2_keeps : Keeps (s_a2 (F := F)) w_a2 := fun V _ hr => s_a2_frame V hr
theorem s_b2_keeps : Keeps (s_b2 (F := F)) w_b2 := fun V _ hr => s_b2_frame V hr
theorem s_v2_keeps : Keeps (s_v2 (F := F)) w_v2 := fun V _ hr => s_v2_frame V hr
theorem s_c2_keeps : Keeps (s_c2 (F := F)) w_c2 := fun V _ hr => s_c2_frame V hr
theorem s_g3a_keeps : Keeps (s_g3a (F := F)) w_g3a := fun V _ hr => s_g3a_frame V hr
theorem s_g3b_keeps : Keeps (s_g3b (F := F)) w_g3b := fun V _ hr => s_g3b_frame V hr
theorem s_a3_keeps : Keeps (s_a3 (F := F)) w_a3 := fun V _ hr => s_a3_frame V hr
theorem s_b3_keeps : Keeps (s_b3 (F := F)) w_b3 := fun V _ hr => s_b3_frame V hr
theorem s_v3_keeps : Keeps (s_v3 (F := F)) w_v3 := fun V _ hr => s_v3_frame V hr
theorem s_c3_keeps : Keeps (s_c3 (F := F)) w_c3 := fun V _ hr => s_c3_frame V hr
theorem s_ro_keeps : Keeps (s_ro (F := F)) w_ro := fun V _ hr => s_ro_frame V hr

/-- The buffers each layer writes. -/
def w_lay1 : List (Ref sig .tc) := w_g1 ++ (w_a1 ++ (w_b1 ++ (w_v1 ++ (w_c1))))
def w_lay2 : List (Ref sig .tc) := w_g2a ++ (w_g2b ++ (w_a2 ++ (w_b2 ++ (w_v2 ++ (w_c2)))))
def w_lay3 : List (Ref sig .tc) := w_g3a ++ (w_g3b ++ (w_a3 ++ (w_b3 ++ (w_v3 ++ (w_c3)))))

theorem lay1_keeps : Keeps (lay1 (F := F)) w_lay1 := s_g1_keeps.app (s_a1_keeps.app (s_b1_keeps.app (s_v1_keeps.app (s_c1_keeps))))
theorem lay2_keeps : Keeps (lay2 (F := F)) w_lay2 := s_g2a_keeps.app (s_g2b_keeps.app (s_a2_keeps.app (s_b2_keeps.app (s_v2_keeps.app (s_c2_keeps)))))
theorem lay3_keeps : Keeps (lay3 (F := F)) w_lay3 := s_g3a_keeps.app (s_g3b_keeps.app (s_a3_keeps.app (s_b3_keeps.app (s_v3_keeps.app (s_c3_keeps)))))

/-! ## The program as one line -/

/-- @main's operations, in order: the three windows. -/
def ops : List (HloOp τ sig (Elt F)) := win0 ++ (win1 ++ win2)

/-- The same operations grouped by layer. -/
theorem ops_layers : (ops : List (HloOp τ sig (Elt F))) = lay1 ++ (lay2 ++ (lay3 ++ s_ro)) := by
  simp only [ops, win0, win1, win2, lay1, lay2, lay3, List.append_assoc]

theorem ops_keeps : Keeps (ops (F := F)) (w_lay1 ++ (w_lay2 ++ (w_lay3 ++ w_ro))) := by
  rw [ops_layers]
  exact lay1_keeps.app (lay2_keeps.app (lay3_keeps.app s_ro_keeps))

/-- @main is that line: its windows are, and sequencing two lines is sequencing their concatenation. -/
theorem main_eq (c : Dev nD) : main (F := F) c = seq ops := by
  unfold ops
  rw [seq_append, seq_append, ← part0_eq c, ← part1_eq c, ← part2_eq c]
  rfl

theorem ops_sub : (ops : List (HloOp τ sig (Elt F))).Forall fun op => op.bufs ⊆ tcRefs τ sig := by
  refine List.forall_iff_forall_mem.mpr ?_
  simp only [ops, win0, win1, win2, List.forall_mem_append]
  exact ⟨⟨s_g1_sub, s_a1_sub, s_b1_sub, s_v1_sub, s_c1_sub, s_g2a_sub⟩, ⟨s_g2b_sub, s_a2_sub, s_b2_sub, s_v2_sub, s_c2_sub, s_g3a_sub⟩, s_g3b_sub, s_a3_sub, s_b3_sub, s_v3_sub, s_c3_sub, s_ro_sub⟩

theorem ops_fresh : ∀ op ∈ (ops : List (HloOp τ sig (Elt F))), op.fresh = ∅ := by
  simp only [ops, win0, win1, win2, List.forall_mem_append]
  exact ⟨⟨s_g1_fresh, s_a1_fresh, s_b1_fresh, s_v1_fresh, s_c1_fresh, s_g2a_fresh⟩, ⟨s_g2b_fresh, s_a2_fresh, s_b2_fresh, s_v2_fresh, s_c2_fresh, s_g3a_fresh⟩, s_g3b_fresh, s_a3_fresh, s_b3_fresh, s_v3_fresh, s_c3_fresh, s_ro_fresh⟩

theorem scopedRefs_eq : (Finset.univ.filter fun b : Ref sig .tc => b.isScoped) = ∅ := by decide
theorem scopedSems_eq : (Finset.univ.filter fun sm : SemLoc sig => sm.isScoped .tc) = ∅ := by decide

/-! ## The fold read back -/

theorem ro_out (V : Valuation τ sig (Elt Ideal)) :
    after (s_ro (F := Ideal)) V (Proc.devRef .tc main_v139) = R.readout (V (Proc.devRef .tc main_v135)) (V (Proc.devRef .tc main_arg23)) (V (Proc.devRef .tc main_arg24)) := by
  unfold s_ro
  after_results_simp
  rfl

/-- From any buffer contents, the line leaves the result buffer at the network function of the arguments' contents. -/
theorem ops_out (V : Valuation τ sig (Elt Ideal)) :
    after (ops (F := Ideal)) V (Proc.devRef .tc main_v139)
      = R.netA (R.agg (V (Proc.devRef .tc main_arg1))) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  have hs1 : after (lay1 (F := Ideal)) V (Proc.devRef .tc main_v1) = R.src (V (Proc.devRef .tc main_arg1)) := lay1_src V
  have hd1 : after (lay1 (F := Ideal)) V (Proc.devRef .tc main_v3) = R.dst (V (Proc.devRef .tc main_arg1)) := lay1_dst V
  have hs2 : after (lay2 (F := Ideal)) (after (lay1 (F := Ideal)) V) (Proc.devRef .tc main_v1) = R.src (V (Proc.devRef .tc main_arg1)) :=
    (lay2_keeps _ main_v1 (by decide)).trans hs1
  have hd2 : after (lay2 (F := Ideal)) (after (lay1 (F := Ideal)) V) (Proc.devRef .tc main_v3) = R.dst (V (Proc.devRef .tc main_arg1)) :=
    (lay2_keeps _ main_v3 (by decide)).trans hd1
  rw [ops_layers]
  simp only [Cert.LibAfterAppend.after_append]
  rw [ro_out]
  rw [lay3_out _ (V (Proc.devRef .tc main_arg1)) hs2 hd2, lay3_keeps _ main_arg23 (by decide), lay3_keeps _ main_arg24 (by decide)]
  rw [lay2_out _ (V (Proc.devRef .tc main_arg1)) hs1 hd1, lay2_keeps _ main_arg16 (by decide), lay2_keeps _ main_arg17 (by decide), lay2_keeps _ main_arg18 (by decide), lay2_keeps _ main_arg19 (by decide), lay2_keeps _ main_arg20 (by decide), lay2_keeps _ main_arg21 (by decide), lay2_keeps _ main_arg22 (by decide), lay2_keeps _ main_arg23 (by decide), lay2_keeps _ main_arg24 (by decide)]
  rw [lay1_out, lay1_keeps _ main_arg9 (by decide), lay1_keeps _ main_arg10 (by decide), lay1_keeps _ main_arg11 (by decide), lay1_keeps _ main_arg12 (by decide), lay1_keeps _ main_arg13 (by decide), lay1_keeps _ main_arg14 (by decide), lay1_keeps _ main_arg15 (by decide), lay1_keeps _ main_arg16 (by decide), lay1_keeps _ main_arg17 (by decide), lay1_keeps _ main_arg18 (by decide), lay1_keeps _ main_arg19 (by decide), lay1_keeps _ main_arg20 (by decide), lay1_keeps _ main_arg21 (by decide), lay1_keeps _ main_arg22 (by decide), lay1_keeps _ main_arg23 (by decide), lay1_keeps _ main_arg24 (by decide)]
  rfl

end Cert.Gin.RRun

namespace Cert.Gin.R

open Cert.ReferenceIdeal Idealize.ShloMosaic Idealize.ShloMosaic.TcCoe Idealize.SL.Sem Idealize.ShloMosaic.StableHlo Cert.Gin.RRun

/-- On every device, from any memory with zero counters: every weakly fair execution of the reference program
    terminates with the result buffer at the network function of the arguments' launch contents and the arguments
    unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v139)
            = R.netA (R.agg (m ((c.tc : Thread Cert.ReferenceIdeal.nD Cert.ReferenceIdeal.τ).loc Cert.ReferenceIdeal.main_arg1))) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7))
                (m ((c.tc : Thread Cert.ReferenceIdeal.nD Cert.ReferenceIdeal.τ).loc Cert.ReferenceIdeal.main_arg8))
                (m ((c.tc : Thread Cert.ReferenceIdeal.nD Cert.ReferenceIdeal.τ).loc Cert.ReferenceIdeal.main_arg9))
                (m ((c.tc : Thread Cert.ReferenceIdeal.nD Cert.ReferenceIdeal.τ).loc Cert.ReferenceIdeal.main_arg10))
                (m ((c.tc : Thread Cert.ReferenceIdeal.nD Cert.ReferenceIdeal.τ).loc Cert.ReferenceIdeal.main_arg11))
                (m ((c.tc : Thread Cert.ReferenceIdeal.nD Cert.ReferenceIdeal.τ).loc Cert.ReferenceIdeal.main_arg12))
                (m ((c.tc : Thread Cert.ReferenceIdeal.nD Cert.ReferenceIdeal.τ).loc Cert.ReferenceIdeal.main_arg13))
                (m ((c.tc : Thread Cert.ReferenceIdeal.nD Cert.ReferenceIdeal.τ).loc Cert.ReferenceIdeal.main_arg14))
                (m ((c.tc : Thread Cert.ReferenceIdeal.nD Cert.ReferenceIdeal.τ).loc Cert.ReferenceIdeal.main_arg15))
                (m ((c.tc : Thread Cert.ReferenceIdeal.nD Cert.ReferenceIdeal.τ).loc Cert.ReferenceIdeal.main_arg16))
                (m ((c.tc : Thread Cert.ReferenceIdeal.nD Cert.ReferenceIdeal.τ).loc Cert.ReferenceIdeal.main_arg17))
                (m ((c.tc : Thread Cert.ReferenceIdeal.nD Cert.ReferenceIdeal.τ).loc Cert.ReferenceIdeal.main_arg18))
                (m ((c.tc : Thread Cert.ReferenceIdeal.nD Cert.ReferenceIdeal.τ).loc Cert.ReferenceIdeal.main_arg19))
                (m ((c.tc : Thread Cert.ReferenceIdeal.nD Cert.ReferenceIdeal.τ).loc Cert.ReferenceIdeal.main_arg20))
                (m ((c.tc : Thread Cert.ReferenceIdeal.nD Cert.ReferenceIdeal.τ).loc Cert.ReferenceIdeal.main_arg21))
                (m ((c.tc : Thread Cert.ReferenceIdeal.nD Cert.ReferenceIdeal.τ).loc Cert.ReferenceIdeal.main_arg22))
                (m ((c.tc : Thread Cert.ReferenceIdeal.nD Cert.ReferenceIdeal.τ).loc Cert.ReferenceIdeal.main_arg23))
                (m ((c.tc : Thread Cert.ReferenceIdeal.nD Cert.ReferenceIdeal.τ).loc Cert.ReferenceIdeal.main_arg24))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)) :=
  (θ_run _ _ _).mono (fun _ h c => ⟨(h c main_v139).trans (ops_out (launchContents m c)),
      (h c main_arg0).trans (ops_keeps _ main_arg0 (by decide)),
      (h c main_arg1).trans (ops_keeps _ main_arg1 (by decide)),
      (h c main_arg2).trans (ops_keeps _ main_arg2 (by decide)),
      (h c main_arg3).trans (ops_keeps _ main_arg3 (by decide)),
      (h c main_arg4).trans (ops_keeps _ main_arg4 (by decide)),
      (h c main_arg5).trans (ops_keeps _ main_arg5 (by decide)),
      (h c main_arg6).trans (ops_keeps _ main_arg6 (by decide)),
      (h c main_arg7).trans (ops_keeps _ main_arg7 (by decide)),
      (h c main_arg8).trans (ops_keeps _ main_arg8 (by decide)),
      (h c main_arg9).trans (ops_keeps _ main_arg9 (by decide)),
      (h c main_arg10).trans (ops_keeps _ main_arg10 (by decide)),
      (h c main_arg11).trans (ops_keeps _ main_arg11 (by decide)),
      (h c main_arg12).trans (ops_keeps _ main_arg12 (by decide)),
      (h c main_arg13).trans (ops_keeps _ main_arg13 (by decide)),
      (h c main_arg14).trans (ops_keeps _ main_arg14 (by decide)),
      (h c main_arg15).trans (ops_keeps _ main_arg15 (by decide)),
      (h c main_arg16).trans (ops_keeps _ main_arg16 (by decide)),
      (h c main_arg17).trans (ops_keeps _ main_arg17 (by decide)),
      (h c main_arg18).trans (ops_keeps _ main_arg18 (by decide)),
      (h c main_arg19).trans (ops_keeps _ main_arg19 (by decide)),
      (h c main_arg20).trans (ops_keeps _ main_arg20 (by decide)),
      (h c main_arg21).trans (ops_keeps _ main_arg21 (by decide)),
      (h c main_arg22).trans (ops_keeps _ main_arg22 (by decide)),
      (h c main_arg23).trans (ops_keeps _ main_arg23 (by decide)),
      (h c main_arg24).trans (ops_keeps _ main_arg24 (by decide))⟩)
    (run_seq scopedRefs_eq scopedSems_eq defs main (fun _ => ops) main_eq (fun _ => ops_sub) m ρ (fun _ => ops_fresh))

end Cert.Gin.R

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.LibHostSum.lean ====
/-
  General lemmas: the host's sums over one axis read at an index written by coordinates, at the ideal values, for
  any extents: the sum over the rows of each column of a matrix, and the sum over axis 2 of a rank-4 array, each
  the starting value plus the sum of the entries along that axis; and both from the zero word, where the
  starting value drops out.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibHostSum

open Idealize.ShloMosaic Idealize.ShloMosaic.ValueIdx

/-- Column q of a matrix with row k put back is (k, q). -/
theorem lift_axis0 {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Index (p, q, s) of a rank-4 array's sum over axis 2 with coordinate k put back is (p, q, k, s). -/
theorem lift_axis2 {n0 n1 n2 n3 : Nat}
    (h : (⟨4, ![n0, n1, n2, n3]⟩ : Shape).Reduces [2] (⟨3, ![n0, n1, n3]⟩ : Shape)) (p : Fin n0) (q : Fin n1) (s : Fin n3)
    (k : Fin ((⟨4, ![n0, n1, n2, n3]⟩ : Shape).size 2)) :
    h.lift (ix3 p q s) k = ix4 p q (⟨k.val, k.isLt⟩ : Fin n2) s := by
  funext c; apply Fin.ext
  fin_cases c <;> rfl

/-- The host's sum over the rows of each column of a matrix, at column q: the starting value plus the sum of
    the entries (·, q). -/
theorem hostColSum_apply {a b : Nat} (x : FVec Ideal ⟨2, ![a, b]⟩ .f32) (init : FVec Ideal ⟨0, ![]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (q : Fin b) :
    Host.reduceAdd x init h' hu (ix1 q) = init ix0 + ∑ k : Fin a, x (ix2 k q) := by
  unfold Host.reduceAdd
  rw [Ideal.hostReduceAdd_def, Ideal.hostReduceAdd_single h' h]
  have hi : init (Shape.Idx.first hu) = init ix0 := congrArg init (eq_ix0 _)
  have hf : (fun k => x (h.lift (ix1 q) k)) = fun k : Fin a => x (ix2 k q) :=
    funext fun k => congrArg x (lift_axis0 h q k)
  rw [hi]
  exact congrArg (fun f => init ix0 + ∑ k : Fin a, f k) hf

/-- The host's sum over axis 2 of a rank-4 array, at (p, q, s): the starting value plus the sum of the entries
    (p, q, ·, s). -/
theorem hostSumAxis2_apply {n0 n1 n2 n3 : Nat} (x : FVec Ideal ⟨4, ![n0, n1, n2, n3]⟩ .f32)
    (init : FVec Ideal ⟨0, ![]⟩ .f32)
    (h' : (⟨4, ![n0, n1, n2, n3]⟩ : Shape).ReducesTo [2] (⟨3, ![n0, n1, n3]⟩ : Shape))
    (h : (⟨4, ![n0, n1, n2, n3]⟩ : Shape).Reduces [2] (⟨3, ![n0, n1, n3]⟩ : Shape))
    (hu : 0 < (⟨0, ![]⟩ : Shape).numel) (p : Fin n0) (q : Fin n1) (s : Fin n3) :
    Host.reduceAdd x init h' hu (ix3 p q s) = init ix0 + ∑ k : Fin n2, x (ix4 p q k s) := by
  unfold Host.reduceAdd
  rw [Ideal.hostReduceAdd_def, Ideal.hostReduceAdd_single h' h]
  have hi : init (Shape.Idx.first hu) = init ix0 := congrArg init (eq_ix0 _)
  have hf : (fun k => x (h.lift (ix3 p q s) k)) = fun k : Fin n2 => x (ix4 p q k s) :=
    funext fun k => congrArg x (lift_axis2 h p q s k)
  rw [hi]
  exact congrArg (fun f => init ix0 + ∑ k : Fin n2, f k) hf

/-- From the zero word the starting value drops out: the column sums of a matrix. -/
theorem hostColSum_zero_apply {a b : Nat} (x : FVec Ideal ⟨2, ![a, b]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (q : Fin b) :
    Host.reduceAdd x (constant (F := Ideal) ⟨0, ![]⟩ .f32 0x00000000#32) h' hu (ix1 q) = ∑ k : Fin a, x (ix2 k q) := by
  rw [hostColSum_apply x _ h' h hu q]
  show Ideal.ofBits .f32 0x00000000#32 + _ = _
  rw [Ideal.ofBits_zero_f32, zero_add]

/-- From the zero word the starting value drops out: the sums over axis 2 of a rank-4 array. -/
theorem hostSumAxis2_zero_apply {n0 n1 n2 n3 : Nat} (x : FVec Ideal ⟨4, ![n0, n1, n2, n3]⟩ .f32)
    (h' : (⟨4, ![n0, n1, n2, n3]⟩ : Shape).ReducesTo [2] (⟨3, ![n0, n1, n3]⟩ : Shape))
    (h : (⟨4, ![n0, n1, n2, n3]⟩ : Shape).Reduces [2] (⟨3, ![n0, n1, n3]⟩ : Shape))
    (hu : 0 < (⟨0, ![]⟩ : Shape).numel) (p : Fin n0) (q : Fin n1) (s : Fin n3) :
    Host.reduceAdd x (constant (F := Ideal) ⟨0, ![]⟩ .f32 0x00000000#32) h' hu (ix3 p q s) = ∑ k : Fin n2, x (ix4 p q k s) := by
  rw [hostSumAxis2_apply x _ h' h hu p q s]
  show Ideal.ofBits .f32 0x00000000#32 + _ = _
  rw [Ideal.ofBits_zero_f32, zero_add]

end Cert.LibHostSum

end
-- ==== Proof.RReadOps.lean ====
/-
  The pieces of the reference program's layer, each read at an index written by coordinates.

  A vector repeated down the rows holds, at (p, q), its entry q; a scalar repeated over any shape holds the scalar
  everywhere; the rectifier is the maximum with 0; a dense step before its rectifier is, at (p, q), the sum over k of
  x(p, k) · w(k, q) plus the bias entry q; the pre-activation is the unit word plus eps, times the features, plus the
  neighbour sums; the sum over the rows from the zero word is, at column q, the sum of that column's entries; the
  column mean is that sum over the row count's word.  Packaged on arrays, the pre-activation, a dense step under its
  rectifier, two such steps and the column means are the index-level functions of the same names.
-/
import proofs.«178507_j28741921144979_1_alg».proof.Proof.RDefs
import proofs.«178507_j28741921144979_1_alg».proof.Proof.Consts
import proofs.«178507_j28741921144979_1_alg».proof.Proof.LibMatmul
import proofs.«178507_j28741921144979_1_alg».proof.Proof.LibBcastInDim
import proofs.«178507_j28741921144979_1_alg».proof.Proof.LibHostSum

noncomputable section

open scoped BigOperators

namespace Cert.Gin.RReadOps

open Idealize.ShloMosaic Idealize.ShloMosaic.ValueIdx Cert.ReferenceIdeal Cert.ReferenceIdeal.Facts₀

/-- Two matrices that agree at every pair of coordinates are equal. -/
theorem ext2 {a b : ℕ} {x y : A2 a b} (h : ∀ p q, x (ix2 p q) = y (ix2 p q)) : x = y := by
  funext i
  rw [eq_ix2 i]
  exact h _ _

/-- Two vectors that agree at every coordinate are equal. -/
theorem ext1 {b : ℕ} {x y : A1 b} (h : ∀ q, x (ix1 q) = y (ix1 q)) : x = y := by
  funext i
  rw [eq_ix1 i]
  exact h _

/-- A scalar repeated over any shape holds the scalar everywhere. -/
theorem splat_apply {α : Type} {t : Shape} (x : (⟨0, ![]⟩ : Shape).Idx → α)
    (h : (⟨0, ![]⟩ : Shape).BroadcastsInDim t (![] : Fin 0 → Fin t.rank)) (i : t.Idx) :
    broadcastInDim t ![] h x i = x ix0 :=
  congrFun (Cert.LibBcastInDim.bid_scalar x h) i

/-- A vector repeated down the rows holds, at (p, q), the vector's entry q. -/
theorem rows_apply (v : A1 64) (p : Fin 100000) (q : Fin 64) : R.rows v (ix2 p q) = v (ix1 q) :=
  congrFun (Cert.LibBcastInDim.bid_row v bcast_S64_S1x64_1 bcast_S1x64_S100000x64_0_1) (ix2 p q)

/-- The rectifier at (p, q): the maximum of the entry with 0. -/
theorem relu_apply (x : A2 100000 64) (p : Fin 100000) (q : Fin 64) :
    R.relu x (ix2 p q) = max (x (ix2 p q)) 0 := by
  show max (x (ix2 p q)) (broadcastInDim S100000x64 ![] bcast_S_S100000x64
    (constant (F := Ideal) S_ .f32 0x00000000#32) (ix2 p q)) = _
  rw [splat_apply]
  show max (x (ix2 p q)) (Ideal.ofBits .f32 0x00000000#32) = _
  rw [Consts.ofBits_zero]

/-- A dense step before its rectifier, at (p, q): the sum over k of x(p, k) · w(k, q), plus the bias entry q. -/
theorem affine_apply (x : A2 100000 64) (w : A2 64 64) (b : A1 64) (p : Fin 100000) (q : Fin 64) :
    R.affine x w b (ix2 p q) = (∑ k : Fin 64, x (ix2 p k) * w (ix2 k q)) + b (ix1 q) := by
  show FloatOps.dotGeneral dot_S100000x64_S64x64_S100000x64_1_0_0_1_n_n none .single x w (ix2 p q)
    + R.rows b (ix2 p q) = _
  rw [Cert.LibMatmul.dotGeneral_eq dot_S100000x64_S64x64_S100000x64_1_0_0_1_n_n rfl rfl rfl rfl rfl rfl, rows_apply]
  rfl

/-- The pre-activation at (p, q): the unit word plus eps, times the feature, plus the neighbour sum. -/
theorem pre_apply (h aggh : A2 100000 64) (eps : A0) (p : Fin 100000) (q : Fin 64) :
    R.pre h aggh eps (ix2 p q) = (Spec.cOne + eps ix0) * h (ix2 p q) + aggh (ix2 p q) := by
  show (broadcastInDim S100000x64 ![] bcast_S_S100000x64
      (addf (F := Ideal) (constant (F := Ideal) S_ .f32 0x3F800000#32) eps)) (ix2 p q) * h (ix2 p q)
    + aggh (ix2 p q) = _
  rw [splat_apply]
  rfl

/-- The pre-activation on arrays is the index-level one. -/
theorem pre_eq (h aggh : A2 100000 64) (eps : A0) :
    R.pre h aggh eps = of2 (Spec.pre (rd2 h) (rd2 aggh) (rd0 eps)) :=
  ext2 fun p q => (pre_apply h aggh eps p q).trans rfl

/-- A dense step under its rectifier on arrays is the index-level one. -/
theorem dense_eq (x : A2 100000 64) (w : A2 64 64) (b : A1 64) :
    R.relu (R.affine x w b) = of2 (Spec.dense (rd2 x) (rd2 w) (rd1 b)) :=
  ext2 fun p q => by
    rw [relu_apply, affine_apply]
    rfl

/-- Two dense steps on arrays are the index-level ones. -/
theorem hidden_eq (P : A2 100000 64) (w1 : A2 64 64) (b1 : A1 64) (w2 : A2 64 64) (b2 : A1 64) :
    R.hidden P w1 b1 w2 b2 = of2 (Spec.hidden (rd2 P) (rd2 w1) (rd1 b1) (rd2 w2) (rd1 b2)) := by
  unfold R.hidden
  rw [dense_eq P w1 b1, dense_eq]
  rfl

/-- The rows of a 100000 × 64 matrix summed away. -/
theorem reduces_rows : (⟨2, ![100000, 64]⟩ : Shape).Reduces [0] (⟨1, ![64]⟩ : Shape) := by decide

/-- The sum over the rows from the zero word, at column q: the sum of that column's entries. -/
theorem colsum_apply (H : A2 100000 64) (q : Fin 64) :
    Host.reduceAdd (F := Ideal) H (constant (F := Ideal) S_ .f32 0x00000000#32)
      reducesTo_S100000x64_S64_d0 h_S_ (ix1 q) = ∑ p : Fin 100000, H (ix2 p q) :=
  Cert.LibHostSum.hostColSum_zero_apply H reducesTo_S100000x64_S64_d0 reduces_rows h_S_ q

/-- The column mean at q: the column's sum over the row count's word. -/
theorem mean_apply (H : A2 100000 64) (q : Fin 64) :
    R.mean H (ix1 q) = Ideal.div (∑ p : Fin 100000, H (ix2 p q)) Spec.cN := by
  show Ideal.div (Host.reduceAdd (F := Ideal) H (constant (F := Ideal) S_ .f32 0x00000000#32)
      reducesTo_S100000x64_S64_d0 h_S_ (ix1 q))
    (broadcastInDim S64 ![] bcast_S_S64 (constant (F := Ideal) S_ .f32 0x47C35000#32) (ix1 q)) = _
  rw [colsum_apply, splat_apply]
  rfl

/-- The column means on arrays are the index-level ones. -/
theorem mean_eq (H : A2 100000 64) : R.mean H = of1 (Spec.mean (rd2 H)) :=
  ext1 fun q => (mean_apply H q).trans rfl

end Cert.Gin.RReadOps

end
-- ==== Proof.LibHostLayout.lean ====
/-
  The host's layout steps as one function of the index, for any extents and element type: a vector broadcast to
  every row of a matrix in two steps ([b] to [1, b] along axis 1, then [1, b] to [a, b]); a one-column matrix
  broadcast across the columns; a vector kept as a one-column matrix; a scalar splat; and, at the ideal values, the
  host's sum over the last axis of a matrix as the initial value plus the sum of the row's entries.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibHostLayout

open Idealize.ShloMosaic Idealize.ShloMosaic.ValueIdx

variable {α : Type}

/-- A vector recast as a one-row matrix by a broadcast along axis 1. -/
theorem vecRow_eq {b : Nat} (x : (⟨1, ![b]⟩ : Shape).Idx → α)
    (h : (⟨1, ![b]⟩ : Shape).BroadcastsInDim ⟨2, ![1, b]⟩ (![1] : Fin 1 → Fin 2)) :
    broadcastInDim ⟨2, ![1, b]⟩ (![1] : Fin 1 → Fin 2) h x = fun i => x (ix1 (i 1)) := by
  funext i
  refine broadcastInDim_apply _ h x i (ix1 (i 1)) fun a => ?_
  match a with
  | ⟨0, _⟩ =>
    show (i 1).val = if b = 1 then 0 else (i 1).val
    split
    · next hb => have := (i 1).isLt; have : (i 1).val < b := this; omega
    · rfl

/-- A one-row matrix broadcast to every row. -/
theorem rowAll_eq {a b : Nat} (x : (⟨2, ![1, b]⟩ : Shape).Idx → α)
    (h : (⟨2, ![1, b]⟩ : Shape).BroadcastsInDim ⟨2, ![a, b]⟩ (![0, 1] : Fin 2 → Fin 2)) :
    broadcastInDim ⟨2, ![a, b]⟩ (![0, 1] : Fin 2 → Fin 2) h x = fun i => x (ix2 (0 : Fin 1) (i 1)) := by
  funext i
  refine broadcastInDim_apply _ h x i (ix2 (0 : Fin 1) (i 1)) fun c => ?_
  match c with
  | ⟨0, _⟩ => show (0 : Nat) = if (1 : Nat) = 1 then 0 else (i 0).val; rfl
  | ⟨1, _⟩ =>
    show (i 1).val = if b = 1 then 0 else (i 1).val
    split
    · next hb => have : (i 1).val < b := (i 1).isLt; omega
    · rfl

/-- A one-column matrix broadcast across the columns. -/
theorem colAll_eq {a b : Nat} (x : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ (![0, 1] : Fin 2 → Fin 2) h x = fun i => x (ix2 (i 0) (0 : Fin 1)) := by
  funext i
  refine broadcastInDim_apply _ h x i (ix2 (i 0) (0 : Fin 1)) fun c => ?_
  match c with
  | ⟨0, _⟩ =>
    show (i 0).val = if a = 1 then 0 else (i 0).val
    split
    · next ha => have : (i 0).val < a := (i 0).isLt; omega
    · rfl
  | ⟨1, _⟩ => show (0 : Nat) = if (1 : Nat) = 1 then 0 else (i 1).val; rfl

/-- A vector kept as a one-column matrix by a broadcast along axis 0. -/
theorem vecCol_eq {a : Nat} (x : (⟨1, ![a]⟩ : Shape).Idx → α)
    (h : (⟨1, ![a]⟩ : Shape).BroadcastsInDim ⟨2, ![a, 1]⟩ (![0] : Fin 1 → Fin 2)) :
    broadcastInDim ⟨2, ![a, 1]⟩ (![0] : Fin 1 → Fin 2) h x = fun i => x (ix1 (i 0)) := by
  funext i
  refine broadcastInDim_apply _ h x i (ix1 (i 0)) fun c => ?_
  match c with
  | ⟨0, _⟩ =>
    show (i 0).val = if a = 1 then 0 else (i 0).val
    split
    · next ha => have : (i 0).val < a := (i 0).isLt; omega
    · rfl

/-- A scalar splat to any shape. -/
theorem splat_eq {t : Shape} (x : (⟨0, ![]⟩ : Shape).Idx → α)
    (h : (⟨0, ![]⟩ : Shape).BroadcastsInDim t (![] : Fin 0 → Fin t.rank)) :
    broadcastInDim t (![] : Fin 0 → Fin t.rank) h x = fun _ => x ix0 := by
  funext i
  exact broadcastInDim_apply _ h x i ix0 fun a => a.elim0

end Cert.LibHostLayout

end
-- ==== Proof.RReadVar.lean ====
/-
  The variance of the reference program's layer, read at an index.

  The program centres the data by column means it keeps as a one-row matrix (the column sums made a one-row matrix,
  divided by the row count's word repeated along that row, then repeated down the rows): at (p, q) the centred entry is
  the entry less its column's mean.  The divisor of the variance is the row count's word minus an integer zero
  converted to a float: the converted zero is 0, so the divisor is the row count's word, the real number 100000; it is
  greater than 0, so the comparison that guards the quotient holds and the select keeps the quotient: the word put in
  its other branch is never read.  The variance at column q is therefore the sum of the squared centred entries of
  that column over the row count's word.
-/
import proofs.«178507_j28741921144979_1_alg».proof.Proof.RReadOps
import proofs.«178507_j28741921144979_1_alg».proof.Proof.LibHostLayout

noncomputable section

open scoped BigOperators

namespace Cert.Gin.RReadVar

open Idealize.ShloMosaic Idealize.ShloMosaic.ValueIdx Cert.ReferenceIdeal Cert.ReferenceIdeal.Facts₀ Cert.Gin.RReadOps

/-- A vector made a one-row matrix holds, at (0, q), its entry q. -/
theorem vecRow_apply (v : A1 64) (p : Fin 1) (q : Fin 64) :
    broadcastInDim S1x64 ![1] bcast_S64_S1x64_1 v (ix2 p q) = v (ix1 q) :=
  congrFun (Cert.LibHostLayout.vecRow_eq v bcast_S64_S1x64_1) (ix2 p q)

/-- A one-row matrix repeated down the rows holds, at (p, q), its entry (0, q). -/
theorem rowAll_apply (x : A2 1 64) (p : Fin 100000) (q : Fin 64) :
    broadcastInDim S100000x64 ![0, 1] bcast_S1x64_S100000x64_0_1 x (ix2 p q) = x (ix2 (0 : Fin 1) q) :=
  congrFun (Cert.LibHostLayout.rowAll_eq x bcast_S1x64_S100000x64_0_1) (ix2 p q)

/-- The centred entry at (p, q): the entry less its column's mean. -/
theorem centred_apply (H : A2 100000 64) (p : Fin 100000) (q : Fin 64) :
    R.centred H (ix2 p q) = H (ix2 p q) - Spec.mean (rd2 H) q := by
  show H (ix2 p q) - broadcastInDim S100000x64 ![0, 1] bcast_S1x64_S100000x64_0_1
      (Host.divf (F := Ideal)
        (broadcastInDim S1x64 ![1] bcast_S64_S1x64_1
          (Host.reduceAdd (F := Ideal) H (constant (F := Ideal) S_ .f32 0x00000000#32)
            reducesTo_S100000x64_S64_d0 h_S_))
        (broadcastInDim S1x64 ![] bcast_S_S1x64 (constant (F := Ideal) S_ .f32 0x47C35000#32))) (ix2 p q) = _
  rw [rowAll_apply]
  show H (ix2 p q) - Ideal.div
      (broadcastInDim S1x64 ![1] bcast_S64_S1x64_1
        (Host.reduceAdd (F := Ideal) H (constant (F := Ideal) S_ .f32 0x00000000#32)
          reducesTo_S100000x64_S64_d0 h_S_) (ix2 (0 : Fin 1) q))
      (broadcastInDim S1x64 ![] bcast_S_S1x64 (constant (F := Ideal) S_ .f32 0x47C35000#32) (ix2 (0 : Fin 1) q)) = _
  rw [vecRow_apply, splat_apply, colsum_apply]
  rfl

/-- The integer zero converted to a float is 0, so the divisor is the row count's word. -/
theorem divisor_apply : R.divisor ix0 = Spec.cN := by
  show Ideal.ofBits .f32 0x47C35000#32 - (((0#32 : BitVec 32).toInt : ℝ) : EReal) = Ideal.ofBits .f32 0x47C35000#32
  have h0 : (0#32 : BitVec 32).toInt = 0 := by decide
  rw [h0, Int.cast_zero, EReal.coe_zero, sub_zero]

/-- The row count's word is greater than the zero word's value. -/
theorem divisor_pos : Ideal.cmp .ogt (R.divisor ix0) (Ideal.ofBits .f32 0x00000000#32) = 1#1 := by
  rw [divisor_apply, Consts.ofBits_zero]
  show BitVec.ofBool (decide ((0 : EReal) < Spec.cN)) = 1#1
  have h : (0 : EReal) < Spec.cN := by
    show (0 : EReal) < Ideal.ofBits .f32 0x47C35000#32
    rw [Consts.ofBits_1e5]
    exact_mod_cast (by norm_num : (0 : ℝ) < 100000)
  rw [decide_eq_true h]
  rfl

/-- The variance at column q: the sum of the squared centred entries of the column over the row count's word. -/
theorem var_apply (H : A2 100000 64) (q : Fin 64) :
    R.var H (ix1 q) = Ideal.div (∑ p : Fin 100000, R.centred H (ix2 p q) * R.centred H (ix2 p q)) Spec.cN := by
  show Scalar.select
      (broadcastInDim S64 ![] bcast_S_S64
        (cmpf (F := Ideal) .ogt R.divisor (constant (F := Ideal) S_ .f32 0x00000000#32)) (ix1 q))
      (Ideal.div
        (Host.reduceAdd (F := Ideal) (mulf (F := Ideal) (R.centred H) (R.centred H))
          (constant (F := Ideal) S_ .f32 0x00000000#32) reducesTo_S100000x64_S64_d0 h_S_ (ix1 q))
        (broadcastInDim S64 ![] bcast_S_S64 R.divisor (ix1 q)))
      (broadcastInDim S64 ![] bcast_S_S64 (id (constant (F := Ideal) S_ .f32 0x7FC00000#32)) (ix1 q)) = _
  rw [splat_apply, splat_apply, colsum_apply, divisor_apply]
  show Scalar.select (Ideal.cmp .ogt (R.divisor ix0) (Ideal.ofBits .f32 0x00000000#32)) _ _ = _
  rw [divisor_pos]
  rfl

/-- The variance on arrays is the index-level variance over centred data. -/
theorem var_eq (H : A2 100000 64) : R.var H = of1 (Spec.varCentred (rd2 H)) :=
  ext1 fun q => by
    rw [var_apply]
    show _ = Ideal.div (∑ p : Fin 100000, (rd2 H p q - Spec.mean (rd2 H) q) * (rd2 H p q - Spec.mean (rd2 H) q)) Spec.cN
    refine congrArg (fun s => Ideal.div s Spec.cN) (Finset.sum_congr rfl fun p _ => ?_)
    rw [centred_apply]
    rfl

end Cert.Gin.RReadVar

end
-- ==== Proof.RRead.lean ====
/-
  The reference program's layer and network, read at an index, are the index-level layer and network with the
  variance taken over centred data.

  The normalisation at (p, q) is the maximum with 0 of the entry less the mean entry q, times the inverse root of the
  variance entry q plus the offset's word, times g's entry q, plus bt's entry q.  One layer is that normalisation of
  the two dense steps of the pre-activation, with their column means and their variance over centred data; the
  network is three layers, each fed the previous features and their neighbour sums, and the readout: at (p, q) the sum
  over k of x(p, k) · w(k, q) plus the bias entry q.
-/
import proofs.«178507_j28741921144979_1_alg».proof.Proof.RReadVar

noncomputable section

open scoped BigOperators

namespace Cert.Gin.RReadNorm

open Idealize.ShloMosaic Idealize.ShloMosaic.ValueIdx Cert.ReferenceIdeal Cert.ReferenceIdeal.Facts₀ Cert.Gin.RReadOps

/-- The normalisation at (p, q). -/
theorem norm_apply (H : A2 100000 64) (mu va g bt : A1 64) (p : Fin 100000) (q : Fin 64) :
    R.norm H mu va g bt (ix2 p q)
      = max ((H (ix2 p q) - mu (ix1 q)) * Ideal.rsqrt (va (ix1 q) + Spec.cEps) * g (ix1 q) + bt (ix1 q)) 0 := by
  unfold R.norm
  rw [relu_apply]
  show max ((H (ix2 p q) - R.rows mu (ix2 p q))
      * R.rows (Host.rsqrt (F := Ideal)
          (addf (F := Ideal) va
            (broadcastInDim S64 ![] bcast_S_S64 (constant (F := Ideal) S_ .f32 0x3727C5AC#32)))) (ix2 p q)
      * R.rows g (ix2 p q) + R.rows bt (ix2 p q)) 0 = _
  rw [rows_apply, rows_apply, rows_apply, rows_apply]
  show max ((H (ix2 p q) - mu (ix1 q))
      * Ideal.rsqrt (va (ix1 q)
          + broadcastInDim S64 ![] bcast_S_S64 (constant (F := Ideal) S_ .f32 0x3727C5AC#32) (ix1 q))
      * g (ix1 q) + bt (ix1 q)) 0 = _
  rw [splat_apply]
  rfl

/-- The normalisation on arrays is the index-level one. -/
theorem norm_eq (H : A2 100000 64) (mu va g bt : A1 64) :
    R.norm H mu va g bt = of2 (Spec.norm (rd2 H) (rd1 mu) (rd1 va) (rd1 g) (rd1 bt)) :=
  ext2 fun p q => (norm_apply H mu va g bt p q).trans rfl

/-- The readout at (p, q): the sum over k of x(p, k) · w(k, q), plus the bias entry q. -/
theorem readout_apply (x : A2 100000 64) (wl : A2 64 16) (bl : A1 16) (p : Fin 100000) (q : Fin 16) :
    R.readout x wl bl (ix2 p q) = (∑ k : Fin 64, x (ix2 p k) * wl (ix2 k q)) + bl (ix1 q) := by
  show FloatOps.dotGeneral dot_S100000x64_S64x16_S100000x16_1_0_0_1_n_n none .single x wl (ix2 p q)
    + broadcastInDim S100000x16 ![0, 1] bcast_S1x16_S100000x16_0_1
        (broadcastInDim S1x16 ![1] bcast_S16_S1x16_1 bl) (ix2 p q) = _
  rw [Cert.LibMatmul.dotGeneral_eq dot_S100000x64_S64x16_S100000x16_1_0_0_1_n_n rfl rfl rfl rfl rfl rfl,
    Cert.LibBcastInDim.bid_row bl bcast_S16_S1x16_1 bcast_S1x16_S100000x16_0_1]
  rfl

/-- The readout on arrays is the index-level one. -/
theorem readout_eq (x : A2 100000 64) (wl : A2 64 16) (bl : A1 16) :
    R.readout x wl bl = of2 (Spec.readout (rd2 x) (rd2 wl) (rd1 bl)) :=
  ext2 fun p q => (readout_apply x wl bl p q).trans rfl

end Cert.Gin.RReadNorm

namespace Cert.Gin.R

open Idealize.ShloMosaic Cert.Gin.RReadOps Cert.Gin.RReadVar Cert.Gin.RReadNorm

/-- One layer of the reference program is the index-level layer with the variance over centred data. -/
theorem layerA_eq (Ag : A2 100000 64 → A2 100000 64) (h : A2 100000 64) (eps : A0) (w1 : A2 64 64) (b1 : A1 64)
    (w2 : A2 64 64) (b2 g bt : A1 64) :
    layerA Ag h eps w1 b1 w2 b2 g bt
      = of2 (Spec.layerCentred (Spec.pre (rd2 h) (rd2 (Ag h)) (rd0 eps)) (rd2 w1) (rd1 b1) (rd2 w2) (rd1 b2)
          (rd1 g) (rd1 bt)) := by
  unfold layerA Spec.layerCentred
  rw [pre_eq, hidden_eq, mean_eq, var_eq, norm_eq]
  simp only [rd2_of2, rd1_of1]

/-- The reference program's network is the index-level network with the variance over centred data. -/
theorem netA_eq (Ag : A2 100000 64 → A2 100000 64) (x : A2 100000 64)
    (e1 : A0) (w11 : A2 64 64) (b11 : A1 64) (w12 : A2 64 64) (b12 g1 bt1 : A1 64)
    (e2 : A0) (w21 : A2 64 64) (b21 : A1 64) (w22 : A2 64 64) (b22 g2 bt2 : A1 64)
    (e3 : A0) (w31 : A2 64 64) (b31 : A1 64) (w32 : A2 64 64) (b32 g3 bt3 : A1 64)
    (wl : A2 64 16) (bl : A1 16) :
    netA Ag x e1 w11 b11 w12 b12 g1 bt1 e2 w21 b21 w22 b22 g2 bt2 e3 w31 b31 w32 b32 g3 bt3 wl bl
      = of2 (Spec.netCentred (fun f => rd2 (Ag (of2 f))) (rd2 x)
          (rd0 e1) (rd2 w11) (rd1 b11) (rd2 w12) (rd1 b12) (rd1 g1) (rd1 bt1)
          (rd0 e2) (rd2 w21) (rd1 b21) (rd2 w22) (rd1 b22) (rd1 g2) (rd1 bt2)
          (rd0 e3) (rd2 w31) (rd1 b31) (rd2 w32) (rd1 b32) (rd1 g3) (rd1 bt3)
          (rd2 wl) (rd1 bl)) := by
  unfold netA Spec.netCentred
  rw [layerA_eq Ag x, layerA_eq Ag (of2 _), layerA_eq Ag (of2 _), readout_eq]
  simp only [rd2_of2, of2_rd2]

end Cert.Gin.R

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.AggFacts.lean ====
/-
  Two facts about the neighbour sum. The two programs spell it with the same host operations over the same shapes and
  the same dimension numbers, so the two definitions are one function. And it keeps real data real: an entry of a taken
  row is an entry of the feature matrix (at a start index clamped into the rows), and an entry of the result is the zero
  word plus a finite sum of such entries.

  Both steps hold for any number of rows, columns and edges and are stated so; the programs' dimension numbers are
  those of taking whole rows and of adding whole rows.
-/
import proofs.«178507_j28741921144979_1_alg».proof.Proof.KAgg
import proofs.«178507_j28741921144979_1_alg».proof.Proof.RAgg
import proofs.«178507_j28741921144979_1_alg».proof.Proof.Consts
import proofs.«178507_j28741921144979_1_alg».proof.Proof.LibTake
import proofs.«178507_j28741921144979_1_alg».proof.Proof.LibRowScatter

noncomputable section

open scoped BigOperators

namespace Cert.Gin

open Idealize.ShloMosaic Idealize.ShloMosaic.ValueIdx

namespace AggFacts

/-- A sum of two reals is real. -/
theorem isR_add {x y : EReal} (hx : Spec.IsR x) (hy : Spec.IsR y) : Spec.IsR (x + y) := by
  obtain ⟨a, rfl⟩ := hx
  obtain ⟨b, rfl⟩ := hy
  exact ⟨a + b, (EReal.coe_add a b).symm⟩

/-- A finite sum of reals is real. -/
theorem isR_sum {ι : Type} (s : Finset ι) (f : ι → EReal) (h : ∀ i ∈ s, Spec.IsR (f i)) : Spec.IsR (∑ i ∈ s, f i) := by
  classical
  induction s using Finset.induction_on with
  | empty => exact ⟨0, by simp⟩
  | insert a s ha ih =>
    rw [Finset.sum_insert ha]
    exact isR_add (h a (Finset.mem_insert_self a s)) (ih (fun i hi => h i (Finset.mem_insert_of_mem hi)))

/-- Whole rows taken from a real matrix are real, whatever the start indices. -/
theorem take_real {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : ∀ i, Spec.IsR (x i))
    (y : (⟨2, ![E, C]⟩ : Shape).Idx) : Spec.IsR (Host.gather (LibTake.rowTake N C E wf) x idx y) := by
  rw [LibTake.rowTake_apply hN wf x idx y]
  exact hx _

/-- Real update rows added onto a real matrix give a real matrix, whatever the index words. -/
theorem scatter_real {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (hx : ∀ i, Spec.IsR (x i)) (hu : ∀ i, Spec.IsR (upd i)) (j : Fin N) (q : Fin C) :
    Spec.IsR (Ideal.hostScatterAdd (LibRowScatter.rowScatter N C E wf) x idx upd (ix2 j q)) := by
  rw [LibRowScatter.rowScatter_apply wf x idx upd j q]
  exact isR_add (hx _) (isR_sum _ _ (fun k _ => hu _))

/-- The kernel program's gather record is the whole-row take. -/
theorem gather_rec : Cert.KernelIdeal.gather_S100000x64_S1600000x1_S1600000x64_1_0_n_n_0_1_164
    = LibTake.rowTake 100000 64 1600000 Cert.KernelIdeal.Facts₀.gather_S100000x64_S1600000x1_S1600000x64_1_0_n_n_0_1_164_wf := rfl

/-- The kernel program's scatter record is the whole-row scatter. -/
theorem scatter_rec : Cert.KernelIdeal.scatter_S100000x64_S1600000x1_S1600000x64_1_0_0_1
    = LibRowScatter.rowScatter 100000 64 1600000 Cert.KernelIdeal.Facts₀.scatter_S100000x64_S1600000x1_S1600000x64_1_0_0_1_wf := rfl

/-- The matrix of zero words is real. -/
theorem zeros_real (i : Cert.KernelIdeal.S100000x64.Idx) :
    Spec.IsR (broadcastInDim Cert.KernelIdeal.S100000x64 ![] Cert.KernelIdeal.Facts₀.bcast_S_S100000x64
      (constant (F := Ideal) Cert.KernelIdeal.S_ .f32 0x00000000#32) i) := by
  unfold broadcastInDim constant
  show Spec.IsR (Ideal.ofBits .f32 0x00000000#32)
  rw [Consts.ofBits_zero]
  exact ⟨0, EReal.coe_zero.symm⟩

/-- The taken rows are real when the features are. -/
theorem gathered_real (ei : K.Edges) (h : A2 100000 64) (hh : Spec.AllR2 (rd2 h))
    (y : Cert.KernelIdeal.S1600000x64.Idx) : Spec.IsR (K.gathered ei h y) := by
  unfold K.gathered
  rw [gather_rec]
  refine take_real (by omega) _ h (K.srcCol ei) (fun i => ?_) y
  rw [eq_ix2 i]
  exact hh (i 0) (i 1)

/-- An array read by coordinates is the array at the pair. -/
theorem rd2_apply {a b : ℕ} (x : A2 a b) (p : Fin a) (q : Fin b) : rd2 x p q = x (ix2 p q) := rfl

/-- The neighbour sum as the exact scatter sum over the whole-row record. -/
theorem agg_unfold (ei : K.Edges) (h : A2 100000 64) :
    K.agg ei h = Ideal.hostScatterAdd
      (LibRowScatter.rowScatter 100000 64 1600000 Cert.KernelIdeal.Facts₀.scatter_S100000x64_S1600000x1_S1600000x64_1_0_0_1_wf)
      (broadcastInDim Cert.KernelIdeal.S100000x64 ![] Cert.KernelIdeal.Facts₀.bcast_S_S100000x64
        (constant (F := Ideal) Cert.KernelIdeal.S_ .f32 0x00000000#32))
      (broadcastInDim Cert.KernelIdeal.S1600000x1 ![0] Cert.KernelIdeal.Facts₀.bcast_S1600000_S1600000x1_0 (K.dst ei))
      (K.gathered ei h) := by
  unfold K.agg Host.scatterAdd
  rw [Ideal.hostScatterAdd_def, scatter_rec]

end AggFacts

/-- The two programs' neighbour sums are one function. -/
theorem agg_eq (ei : K.Edges) (h : A2 100000 64) : R.agg ei h = K.agg ei h := rfl

/-- The neighbour sum of real features is real. -/
theorem agg_real (ei : K.Edges) (h : A2 100000 64) (hh : Spec.AllR2 (rd2 h)) : Spec.AllR2 (rd2 (K.agg ei h)) := by
  intro p q
  rw [AggFacts.rd2_apply, AggFacts.agg_unfold]
  exact AggFacts.scatter_real _ _ _ _ AggFacts.zeros_real (AggFacts.gathered_real ei h hh) p q

/-- The same for features given by coordinates. -/
theorem agg_real_of2 (ei : K.Edges) (f : M 100000 64) (hf : Spec.AllR2 f) : Spec.AllR2 (rd2 (K.agg ei (of2 f))) :=
  agg_real ei (of2 f) hf

end Cert.Gin

end
-- ==== Proof.PreReal.lean ====
/-
  From the precondition to real data.  The precondition is a conjunction, one conjunct per float argument, each
  saying that every entry's absolute value is below the infinity word.  The infinity word denotes +∞, and an extended
  real whose absolute value is below +∞ is a real number; so every entry of every float argument is a real number.
-/
import proofs.«178507_j28741921144979_1_alg».proof.Defs
import proofs.«178507_j28741921144979_1_alg».proof.Proof.Gen.Pre_finite_inputs
import proofs.«178507_j28741921144979_1_alg».proof.Proof.Spec
import Idealize.ShloMosaic.Lib.ReduceAll
import Idealize.ShloMosaic.Lib.ValueIdx

noncomputable section

namespace Cert.Gin

open Idealize.ShloMosaic Idealize.ShloMosaic.TcCoe Idealize.SL.Sem Idealize.ShloMosaic.ValueIdx
open Cert.KernelIdeal

namespace PreReal

/-- The scalar shape has one index. -/
instance : Subsingleton (⟨0, ![]⟩ : Shape).Idx := ⟨fun a b => funext fun d => d.elim0⟩

/-- The infinity word denotes +∞. -/
theorem ofBits_inf : Ideal.ofBits .f32 0x7F800000#32 = (⊤ : EReal) := by
  simp [Ideal.ofBits, Ideal.ieee]

/-- An extended real whose absolute value compares below the infinity word is a real number. -/
theorem isR_of_lt (x : EReal) (h : Ideal.cmp .olt (max x (-x)) (Ideal.ofBits .f32 0x7F800000#32) = 1#1) : Spec.IsR x := by
  rw [ofBits_inf] at h
  have hb : ∀ b : Bool, BitVec.ofBool b = 1#1 → b = true := fun b => by cases b <;> decide
  have h' : max x (-x) < ⊤ := of_decide_eq_true (hb _ h)
  induction x using EReal.rec with
  | bot => exact absurd h' (by simp)
  | coe r => exact ⟨r, rfl⟩
  | top => exact absurd h' (by simp)

/-- A conjunction of two one-bit scalars that is 1 has both 1. -/
theorem andi_ix0 (a b : IVec (⟨0, ![]⟩ : Shape) 1) (h : andi a b ix0 = 1#1) : a ix0 = 1#1 ∧ b ix0 = 1#1 :=
  IntOp.andi_eq_one.1 h

/-- "All entries have absolute value below the infinity word", for an array: every entry is real. -/
theorem all_of_reduce {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x)
          (broadcastInDim s ![] hb (constant (F := Ideal) (⟨0, ![]⟩ : Shape) .f32 0x7F800000#32)))
        (constantI (⟨0, ![]⟩ : Shape) 1 1#1) hr hu ix0 = 1#1)
    (i : s.Idx) : Spec.IsR (x i) :=
  isR_of_lt (x i) (Host.reduce_andi_all _ _ hr hu ix0 e i)

/-- The same for a scalar. -/
theorem scalar_of_reduce (x : FVec Ideal (⟨0, ![]⟩ : Shape) .f32)
    (hr : (⟨0, ![]⟩ : Shape).ReducesTo [] (⟨0, ![]⟩ : Shape)) (hu : 0 < (⟨0, ![]⟩ : Shape).numel)
    (e : Host.reduce IntOp.andi (cmpf .olt (Host.absf x) (constant (F := Ideal) (⟨0, ![]⟩ : Shape) .f32 0x7F800000#32))
        (constantI (⟨0, ![]⟩ : Shape) 1 1#1) hr hu ix0 = 1#1) : Spec.IsR (x ix0) :=
  isR_of_lt (x ix0) (Host.reduce_andi_all _ _ hr hu ix0 e ix0)

end PreReal

open PreReal

variable (m : (ℓ : Loc nD τ sig) → Buf (Elt Ideal) ℓ)

/-- Under the precondition every entry of every float argument is a real number. -/
theorem pre_real (h : Cert.Pre_KernelIdeal m) (c : Dev nD) :
    Spec.AllR2 (rd2 (m ((c.tc : Thread nD τ).loc main_arg0)))
      ∧ Spec.IsR (rd0 (m ((c.tc : Thread nD τ).loc main_arg2)))
      ∧ Spec.AllR2 (rd2 (m ((c.tc : Thread nD τ).loc main_arg3)))
      ∧ Spec.AllR1 (rd1 (m ((c.tc : Thread nD τ).loc main_arg4)))
      ∧ Spec.AllR2 (rd2 (m ((c.tc : Thread nD τ).loc main_arg5)))
      ∧ Spec.AllR1 (rd1 (m ((c.tc : Thread nD τ).loc main_arg6)))
      ∧ Spec.AllR1 (rd1 (m ((c.tc : Thread nD τ).loc main_arg7)))
      ∧ Spec.AllR1 (rd1 (m ((c.tc : Thread nD τ).loc main_arg8)))
      ∧ Spec.IsR (rd0 (m ((c.tc : Thread nD τ).loc main_arg9)))
      ∧ Spec.AllR2 (rd2 (m ((c.tc : Thread nD τ).loc main_arg10)))
      ∧ Spec.AllR1 (rd1 (m ((c.tc : Thread nD τ).loc main_arg11)))
      ∧ Spec.AllR2 (rd2 (m ((c.tc : Thread nD τ).loc main_arg12)))
      ∧ Spec.AllR1 (rd1 (m ((c.tc : Thread nD τ).loc main_arg13)))
      ∧ Spec.AllR1 (rd1 (m ((c.tc : Thread nD τ).loc main_arg14)))
      ∧ Spec.AllR1 (rd1 (m ((c.tc : Thread nD τ).loc main_arg15)))
      ∧ Spec.IsR (rd0 (m ((c.tc : Thread nD τ).loc main_arg16)))
      ∧ Spec.AllR2 (rd2 (m ((c.tc : Thread nD τ).loc main_arg17)))
      ∧ Spec.AllR1 (rd1 (m ((c.tc : Thread nD τ).loc main_arg18)))
      ∧ Spec.AllR2 (rd2 (m ((c.tc : Thread nD τ).loc main_arg19)))
      ∧ Spec.AllR1 (rd1 (m ((c.tc : Thread nD τ).loc main_arg20)))
      ∧ Spec.AllR1 (rd1 (m ((c.tc : Thread nD τ).loc main_arg21)))
      ∧ Spec.AllR1 (rd1 (m ((c.tc : Thread nD τ).loc main_arg22)))
      ∧ Spec.AllR2 (rd2 (m ((c.tc : Thread nD τ).loc main_arg23)))
      ∧ Spec.AllR1 (rd1 (m ((c.tc : Thread nD τ).loc main_arg24))) := by
  have hh := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at hh
  obtain ⟨hh, h24⟩ := andi_ix0 _ _ hh
  obtain ⟨hh, h23⟩ := andi_ix0 _ _ hh
  obtain ⟨hh, h22⟩ := andi_ix0 _ _ hh
  obtain ⟨hh, h21⟩ := andi_ix0 _ _ hh
  obtain ⟨hh, h20⟩ := andi_ix0 _ _ hh
  obtain ⟨hh, h19⟩ := andi_ix0 _ _ hh
  obtain ⟨hh, h18⟩ := andi_ix0 _ _ hh
  obtain ⟨hh, h17⟩ := andi_ix0 _ _ hh
  obtain ⟨hh, h16⟩ := andi_ix0 _ _ hh
  obtain ⟨hh, h15⟩ := andi_ix0 _ _ hh
  obtain ⟨hh, h14⟩ := andi_ix0 _ _ hh
  obtain ⟨hh, h13⟩ := andi_ix0 _ _ hh
  obtain ⟨hh, h12⟩ := andi_ix0 _ _ hh
  obtain ⟨hh, h11⟩ := andi_ix0 _ _ hh
  obtain ⟨hh, h10⟩ := andi_ix0 _ _ hh
  obtain ⟨hh, h9⟩ := andi_ix0 _ _ hh
  obtain ⟨hh, h8⟩ := andi_ix0 _ _ hh
  obtain ⟨hh, h7⟩ := andi_ix0 _ _ hh
  obtain ⟨hh, h6⟩ := andi_ix0 _ _ hh
  obtain ⟨hh, h5⟩ := andi_ix0 _ _ hh
  obtain ⟨hh, h4⟩ := andi_ix0 _ _ hh
  obtain ⟨hh, h3⟩ := andi_ix0 _ _ hh
  obtain ⟨hh, h2⟩ := andi_ix0 _ _ hh
  have h0 := hh
  exact ⟨fun p q => all_of_reduce _ _ _ _ h0 (ix2 p q),
    scalar_of_reduce _ _ _ h2,
    fun p q => all_of_reduce _ _ _ _ h3 (ix2 p q),
    fun q => all_of_reduce _ _ _ _ h4 (ix1 q),
    fun p q => all_of_reduce _ _ _ _ h5 (ix2 p q),
    fun q => all_of_reduce _ _ _ _ h6 (ix1 q),
    fun q => all_of_reduce _ _ _ _ h7 (ix1 q),
    fun q => all_of_reduce _ _ _ _ h8 (ix1 q),
    scalar_of_reduce _ _ _ h9,
    fun p q => all_of_reduce _ _ _ _ h10 (ix2 p q),
    fun q => all_of_reduce _ _ _ _ h11 (ix1 q),
    fun p q => all_of_reduce _ _ _ _ h12 (ix2 p q),
    fun q => all_of_reduce _ _ _ _ h13 (ix1 q),
    fun q => all_of_reduce _ _ _ _ h14 (ix1 q),
    fun q => all_of_reduce _ _ _ _ h15 (ix1 q),
    scalar_of_reduce _ _ _ h16,
    fun p q => all_of_reduce _ _ _ _ h17 (ix2 p q),
    fun q => all_of_reduce _ _ _ _ h18 (ix1 q),
    fun p q => all_of_reduce _ _ _ _ h19 (ix2 p q),
    fun q => all_of_reduce _ _ _ _ h20 (ix1 q),
    fun q => all_of_reduce _ _ _ _ h21 (ix1 q),
    fun q => all_of_reduce _ _ _ _ h22 (ix1 q),
    fun p q => all_of_reduce _ _ _ _ h23 (ix2 p q),
    fun q => all_of_reduce _ _ _ _ h24 (ix1 q)⟩

end Cert.Gin

end
-- ==== Proof.LibVariance.lean ====
/-
  The two ways of computing a variance agree on finite data, over the extended reals.

  Batch normalisation needs, per column, the mean `m = (∑ a) / n` and the variance of `n` numbers.  One program takes the
  mean of the squared deviations, `(∑ (a - m)²) / n`; another keeps two running sums and takes `(∑ a²) / n - m²`.  Over the
  reals these are one number when `n` is the number of terms (expand the square and use `∑ a = n · m`).  Over the extended
  reals the identity is FALSE at infinities (`⊤ - ⊤ = ⊥`), so it is stated for data that are real numbers, with the
  division being the extended reals' `Ideal.div` by a nonzero real.  The variance so computed is a nonnegative real, so
  adding a positive `ε` gives a positive real: the reciprocal square root after it is finite.
-/
import Idealize.ShloMosaic.PureOps.Ideal

namespace Cert.LibVariance

open Idealize.ShloMosaic Finset

variable {ι : Type*} [Fintype ι]

/-- A finite sum of real numbers, read in the extended reals, is the sum of the numbers read there. -/
theorem coe_sum (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- Dividing a real by a nonzero real in the extended reals is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- Over the reals: the mean of the squared deviations from the mean is the mean of the squares minus the squared mean,
    when `n` is the number of terms. -/
theorem real_var (a : ι → ℝ) {n : ℝ} (hn : n ≠ 0) (hcard : (Fintype.card ι : ℝ) = n) :
    (∑ i, (a i - (∑ k, a k) / n) * (a i - (∑ k, a k) / n)) / n
      = (∑ i, a i * a i) / n - ((∑ k, a k) / n) * ((∑ k, a k) / n) := by
  set S := ∑ k, a k with hS
  have hexp : ∑ i, (a i - S / n) * (a i - S / n)
      = (∑ i, a i * a i) - 2 * (S / n) * S + n * ((S / n) * (S / n)) := by
    have : ∀ i, (a i - S / n) * (a i - S / n) = a i * a i - 2 * (S / n) * a i + (S / n) * (S / n) := fun i => by ring
    rw [Finset.sum_congr rfl fun i _ => this i, Finset.sum_add_distrib, Finset.sum_sub_distrib, ← Finset.mul_sum,
      Finset.sum_const, Finset.card_univ, nsmul_eq_mul, hcard]
  rw [hexp]
  field_simp
  ring

/-- Over the reals the mean of squared deviations is nonnegative when `n` is positive. -/
theorem real_var_nonneg (a : ι → ℝ) (m : ℝ) {n : ℝ} (hn : 0 < n) : 0 ≤ (∑ i, (a i - m) * (a i - m)) / n :=
  div_nonneg (Finset.sum_nonneg fun i _ => mul_self_nonneg _) hn.le

/-- The mean of real data, computed in the extended reals, is the real mean. -/
theorem mean_coe (a : ι → ℝ) {n : ℝ} (hn : n ≠ 0) :
    Ideal.div (∑ i, (a i : EReal)) (n : EReal) = (((∑ i, a i) / n : ℝ) : EReal) := by
  rw [← coe_sum, div_coe_coe _ hn]

/-- The mean of squared deviations of real data from a real centre, computed in the extended reals, is the real one. -/
theorem centred_coe (a : ι → ℝ) (m : ℝ) {n : ℝ} (hn : n ≠ 0) :
    Ideal.div (∑ i, ((a i : EReal) - (m : EReal)) * ((a i : EReal) - (m : EReal))) (n : EReal)
      = (((∑ i, (a i - m) * (a i - m)) / n : ℝ) : EReal) := by
  have : ∀ i, ((a i : EReal) - (m : EReal)) * ((a i : EReal) - (m : EReal)) = (((a i - m) * (a i - m) : ℝ) : EReal) :=
    fun i => by rw [← EReal.coe_sub, ← EReal.coe_mul]
  rw [Finset.sum_congr rfl fun i _ => this i, ← coe_sum, div_coe_coe _ hn]

/-- The mean of the squares of real data, computed in the extended reals, is the real one. -/
theorem squares_coe (a : ι → ℝ) {n : ℝ} (hn : n ≠ 0) :
    Ideal.div (∑ i, (a i : EReal) * (a i : EReal)) (n : EReal) = (((∑ i, a i * a i) / n : ℝ) : EReal) := by
  have : ∀ i, (a i : EReal) * (a i : EReal) = ((a i * a i : ℝ) : EReal) := fun i => by rw [← EReal.coe_mul]
  rw [Finset.sum_congr rfl fun i _ => this i, ← coe_sum, div_coe_coe _ hn]

/-- THE IDENTITY over the extended reals, for real data: with `m` the mean, the mean of the squared deviations from `m` is the
    mean of the squares minus `m · m`. -/
theorem var_two_forms (a : ι → ℝ) {n : ℝ} (hn : n ≠ 0) (hcard : (Fintype.card ι : ℝ) = n) :
    Ideal.div (∑ i, ((a i : EReal) - Ideal.div (∑ k, (a k : EReal)) (n : EReal))
                  * ((a i : EReal) - Ideal.div (∑ k, (a k : EReal)) (n : EReal))) (n : EReal)
      = Ideal.div (∑ i, (a i : EReal) * (a i : EReal)) (n : EReal)
          - Ideal.div (∑ k, (a k : EReal)) (n : EReal) * Ideal.div (∑ k, (a k : EReal)) (n : EReal) := by
  rw [mean_coe a hn, centred_coe a _ hn, squares_coe a hn, ← EReal.coe_mul, ← EReal.coe_sub, real_var a hn hcard]

/-- The variance of real data is a nonnegative real, so a positive `ε` added to it gives a positive real. -/
theorem var_add_eps_pos (a : ι → ℝ) {n ε : ℝ} (hn : 0 < n) (hε : 0 < ε) :
    ∃ r : ℝ, 0 < r ∧
      Ideal.div (∑ i, ((a i : EReal) - Ideal.div (∑ k, (a k : EReal)) (n : EReal))
                  * ((a i : EReal) - Ideal.div (∑ k, (a k : EReal)) (n : EReal))) (n : EReal) + (ε : EReal) = (r : EReal) := by
  refine ⟨(∑ i, (a i - (∑ k, a k) / n) * (a i - (∑ k, a k) / n)) / n + ε, ?_, ?_⟩
  · have := real_var_nonneg a ((∑ k, a k) / n) hn
    linarith
  · rw [mean_coe a hn.ne', centred_coe a _ hn.ne', ← EReal.coe_add]

end Cert.LibVariance
-- ==== Proof.MathLayer.lean ====
/-
  Real data stay real through one layer, and on real data the two variance formulas agree.

  An extended real is "real" when it is the image of a real number.  Sums, products, differences, maxima and finite
  sums of reals are real; so is a quotient by a nonzero real, and the inverse square root of a positive real.  Hence
  the dense steps, the column sums and the column means of real data are real.  For real data with 100000 rows the
  mean of squares minus the squared mean equals the mean of squared deviations (expand the square and use that the
  sum is the row count times the mean), and the latter is a nonnegative real, so adding the positive offset gives a
  positive real whose inverse square root is again real: the normalised output is real.
-/
import proofs.«178507_j28741921144979_1_alg».proof.Proof.Spec
import proofs.«178507_j28741921144979_1_alg».proof.Proof.Consts
import proofs.«178507_j28741921144979_1_alg».proof.Proof.LibVariance

noncomputable section

namespace Cert.Gin.Math

open Idealize.ShloMosaic Cert.Gin.Spec

/-- The row count's word is the real 100000. -/
theorem cN_eq : cN = ((100000 : ℝ) : EReal) := by
  unfold cN; exact Consts.ofBits_1e5

/-- The unit word is the real 1. -/
theorem cOne_eq : cOne = ((1 : ℝ) : EReal) := by
  unfold cOne; exact Consts.ofBits_one

/-- The variance offset's word is a positive real. -/
theorem cEps_pos : ∃ e : ℝ, 0 < e ∧ cEps = (e : EReal) := by
  unfold cEps; exact Consts.ofBits_eps

theorem isR_coe (r : ℝ) : IsR (r : EReal) := ⟨r, rfl⟩
theorem isR_zero : IsR (0 : EReal) := ⟨0, rfl⟩

theorem isR_add {x y : EReal} (hx : IsR x) (hy : IsR y) : IsR (x + y) := by
  obtain ⟨a, rfl⟩ := hx; obtain ⟨b, rfl⟩ := hy; exact ⟨a + b, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_max {x y : EReal} (hx : IsR x) (hy : IsR y) : IsR (max x y) := by
  rcases max_choice x y with h | h <;> rw [h] <;> assumption

theorem isR_sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact isR_add (h i (Finset.mem_insert_self i s)) (ih fun j hj => h j (Finset.mem_insert_of_mem hj))

/-- A quotient by a nonzero real. -/
theorem isR_div {x : EReal} (hx : IsR x) {n : ℝ} (hn : n ≠ 0) : IsR (Ideal.div x (n : EReal)) := by
  obtain ⟨a, rfl⟩ := hx
  rw [Ideal.div_coe hn]
  exact isR_mul (isR_coe a) (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A dense step of real data with real weights and bias is real. -/
theorem dense_real {n a b : ℕ} {x : M n a} {w : M a b} {bias : Vc b}
    (hx : AllR2 x) (hw : AllR2 w) (hb : AllR1 bias) : AllR2 (dense x w bias) := by
  intro p q
  unfold dense
  exact isR_max (isR_add (isR_sum _ _ fun k _ => isR_mul (hx p k) (hw k q)) (hb q)) isR_zero

/-- Two dense steps of real data are real. -/
theorem hidden_real {n : ℕ} {P : M n 64} {w1 : M 64 64} {b1 : Vc 64} {w2 : M 64 64} {b2 : Vc 64}
    (hP : AllR2 P) (hw1 : AllR2 w1) (hb1 : AllR1 b1) (hw2 : AllR2 w2) (hb2 : AllR1 b2) :
    AllR2 (hidden P w1 b1 w2 b2) :=
  dense_real (dense_real hP hw1 hb1) hw2 hb2

/-- Column sums of real data are real. -/
theorem colsum_real {n b : ℕ} {H : M n b} (hH : AllR2 H) : AllR1 (colsum H) :=
  fun q => isR_sum _ _ fun p _ => hH p q

/-- Column means of real data are real. -/
theorem mean_real {n b : ℕ} {H : M n b} (hH : AllR2 H) : AllR1 (mean H) := by
  intro q
  unfold mean
  rw [cN_eq]
  exact isR_div (colsum_real hH q) (by norm_num)

/-- A real matrix is the image of a matrix of real numbers. -/
theorem exists_real {n b : ℕ} {H : M n b} (hH : AllR2 H) :
    ∃ a : Fin n → Fin b → ℝ, H = fun p q => ((a p q : ℝ) : EReal) := by
  choose a ha using hH
  exact ⟨a, by funext p q; exact ha p q⟩

/-- On real data with 100000 rows the two variance formulas agree. -/
theorem var_eq {n b : ℕ} (hn : (n : ℝ) = 100000) {H : M n b} (hH : AllR2 H) : varMoment H = varCentred H := by
  obtain ⟨a, rfl⟩ := exists_real hH
  funext q
  unfold varMoment varCentred mean colsum colsumsq
  rw [cN_eq]
  have hcard : (Fintype.card (Fin n) : ℝ) = 100000 := by rw [Fintype.card_fin]; exact hn
  exact (Cert.LibVariance.var_two_forms (fun p => a p q) (by norm_num) hcard).symm

/-- On real data the centred variance plus the offset is a positive real. -/
theorem varCentred_add_eps {n b : ℕ} {H : M n b} (hH : AllR2 H) (q : Fin b) :
    ∃ r : ℝ, 0 < r ∧ varCentred H q + cEps = (r : EReal) := by
  obtain ⟨a, rfl⟩ := exists_real hH
  obtain ⟨e, he, hce⟩ := cEps_pos
  unfold varCentred mean colsum
  rw [cN_eq, hce]
  exact Cert.LibVariance.var_add_eps_pos (fun p => a p q) (by norm_num) he

/-- The normalisation of real data with a real mean, a variance whose sum with the offset is a positive real, and
    real scale and shift, is real. -/
theorem norm_real {n b : ℕ} {H : M n b} {mu var g bt : Vc b} (hH : AllR2 H) (hmu : AllR1 mu)
    (hv : ∀ q, ∃ r : ℝ, 0 < r ∧ var q + cEps = (r : EReal)) (hg : AllR1 g) (hbt : AllR1 bt) :
    AllR2 (Spec.norm H mu var g bt) := by
  intro p q
  obtain ⟨r, hr, e⟩ := hv q
  unfold Spec.norm
  rw [e]
  exact isR_max (isR_add (isR_mul (isR_mul (isR_sub (hH p q) (hmu q)) (isR_rsqrt hr)) (hg q)) (hbt q)) isR_zero

/-- One layer on real data with 100000 rows: the two variance formulas give the same output. -/
theorem layer_eq_gen {n : ℕ} (hn : (n : ℝ) = 100000) {P : M n 64} {w1 : M 64 64} {b1 : Vc 64} {w2 : M 64 64}
    {b2 g bt : Vc 64} (hP : AllR2 P) (hw1 : AllR2 w1) (hb1 : AllR1 b1) (hw2 : AllR2 w2) (hb2 : AllR1 b2) :
    layerMoment P w1 b1 w2 b2 g bt = layerCentred P w1 b1 w2 b2 g bt := by
  unfold layerMoment layerCentred
  rw [var_eq hn (hidden_real hP hw1 hb1 hw2 hb2)]

/-- One layer on real data is real (the form with the centred variance). -/
theorem layerCentred_real {n : ℕ} {P : M n 64} {w1 : M 64 64} {b1 : Vc 64} {w2 : M 64 64}
    {b2 g bt : Vc 64} (hP : AllR2 P) (hw1 : AllR2 w1) (hb1 : AllR1 b1) (hw2 : AllR2 w2) (hb2 : AllR1 b2)
    (hg : AllR1 g) (hbt : AllR1 bt) : AllR2 (layerCentred P w1 b1 w2 b2 g bt) := by
  unfold layerCentred
  have hH := hidden_real hP hw1 hb1 hw2 hb2
  exact norm_real hH (mean_real hH) (varCentred_add_eps hH) hg hbt

end Cert.Gin.Math

namespace Cert.Gin.Spec

open Cert.Gin.Math

/-- One layer on real data with 100000 rows: the moment form and the centred form of the variance give the same
    output. -/
theorem layer_eq {P : M 100000 64} {w1 : M 64 64} {b1 : Vc 64} {w2 : M 64 64} {b2 g bt : Vc 64}
    (hP : AllR2 P) (hw1 : AllR2 w1) (hb1 : AllR1 b1) (hw2 : AllR2 w2) (hb2 : AllR1 b2)
    (_hg : AllR1 g) (_hbt : AllR1 bt) :
    layerMoment P w1 b1 w2 b2 g bt = layerCentred P w1 b1 w2 b2 g bt :=
  layer_eq_gen (by norm_num) hP hw1 hb1 hw2 hb2

/-- One layer on real data with 100000 rows is real. -/
theorem layer_real {P : M 100000 64} {w1 : M 64 64} {b1 : Vc 64} {w2 : M 64 64} {b2 g bt : Vc 64}
    (hP : AllR2 P) (hw1 : AllR2 w1) (hb1 : AllR1 b1) (hw2 : AllR2 w2) (hb2 : AllR1 b2)
    (hg : AllR1 g) (hbt : AllR1 bt) : AllR2 (layerMoment P w1 b1 w2 b2 g bt) := by
  rw [layer_eq hP hw1 hb1 hw2 hb2 hg hbt]
  exact layerCentred_real hP hw1 hb1 hw2 hb2 hg hbt

/-- The pre-activation of real features, real neighbour sums and a real eps is real. -/
theorem pre_real {n b : ℕ} {h a : M n b} {e : EReal} (hh : AllR2 h) (ha : AllR2 a) (he : IsR e) :
    AllR2 (pre h a e) := by
  intro p q
  unfold pre
  rw [cOne_eq]
  exact isR_add (isR_mul (isR_add (isR_coe 1) he) (hh p q)) (ha p q)

end Cert.Gin.Spec

end
-- ==== Proof.Math.lean ====
/-
  The whole network on real data: the moment form and the centred form of the variance give the same function.

  Layer by layer from the inside: the first pre-activation is real because the features, their neighbour sums and eps
  are real; on a real pre-activation the two forms of the layer agree and the output is real; the neighbour sums of a
  real matrix are real by hypothesis, so the next pre-activation is real; and so on through the three layers.  The
  readout is the same function of the third layer's output in both forms.
-/
import proofs.«178507_j28741921144979_1_alg».proof.Proof.MathLayer

noncomputable section

namespace Cert.Gin.Spec

/-- On real data with 100000 rows, and neighbour sums that keep real matrices real, the network with the variance
    taken as a moment difference equals the network with the variance taken over centred data. -/
theorem net_eq (Ag : M 100000 64 → M 100000 64) (hAg : ∀ f, AllR2 f → AllR2 (Ag f))
    {x : M 100000 64}
    {e1 : EReal} {w11 : M 64 64} {b11 : Vc 64} {w12 : M 64 64} {b12 g1 bt1 : Vc 64}
    {e2 : EReal} {w21 : M 64 64} {b21 : Vc 64} {w22 : M 64 64} {b22 g2 bt2 : Vc 64}
    {e3 : EReal} {w31 : M 64 64} {b31 : Vc 64} {w32 : M 64 64} {b32 g3 bt3 : Vc 64}
    {wl : M 64 16} {bl : Vc 16}
    (hx : AllR2 x)
    (he1 : IsR e1) (hw11 : AllR2 w11) (hb11 : AllR1 b11) (hw12 : AllR2 w12) (hb12 : AllR1 b12)
    (hg1 : AllR1 g1) (hbt1 : AllR1 bt1)
    (he2 : IsR e2) (hw21 : AllR2 w21) (hb21 : AllR1 b21) (hw22 : AllR2 w22) (hb22 : AllR1 b22)
    (hg2 : AllR1 g2) (hbt2 : AllR1 bt2)
    (he3 : IsR e3) (hw31 : AllR2 w31) (hb31 : AllR1 b31) (hw32 : AllR2 w32) (hb32 : AllR1 b32)
    (hg3 : AllR1 g3) (hbt3 : AllR1 bt3)
    (_hwl : AllR2 wl) (_hbl : AllR1 bl) :
    netMoment Ag x e1 w11 b11 w12 b12 g1 bt1 e2 w21 b21 w22 b22 g2 bt2 e3 w31 b31 w32 b32 g3 bt3 wl bl
      = netCentred Ag x e1 w11 b11 w12 b12 g1 bt1 e2 w21 b21 w22 b22 g2 bt2 e3 w31 b31 w32 b32 g3 bt3 wl bl := by
  have hP1 := pre_real hx (hAg x hx) he1
  have h1 := layer_eq hP1 hw11 hb11 hw12 hb12 hg1 hbt1
  have r1 := layer_real hP1 hw11 hb11 hw12 hb12 hg1 hbt1
  have hP2 := pre_real r1 (hAg _ r1) he2
  have h2 := layer_eq hP2 hw21 hb21 hw22 hb22 hg2 hbt2
  have r2 := layer_real hP2 hw21 hb21 hw22 hb22 hg2 hbt2
  have hP3 := pre_real r2 (hAg _ r2) he3
  have h3 := layer_eq hP3 hw31 hb31 hw32 hb32 hg3 hbt3
  unfold netMoment netCentred
  rw [h3, h2, h1]

end Cert.Gin.Spec

end
-- ==== Proof.Assemble.lean ====
/-
  The two programs' results are one function of the arguments.  The kernel program ends with the network function
  whose variance is the moment difference, the reference with the one whose variance is taken over centred data; the
  neighbour sums are the same host operations in both; under the precondition every float argument is real, the
  neighbour sums keep real data real, and on real data the two network functions agree.
-/
import proofs.«178507_j28741921144979_1_alg».proof.Defs
import proofs.«178507_j28741921144979_1_alg».proof.Proof.Gen.KernelIdeal
import proofs.«178507_j28741921144979_1_alg».proof.Proof.Gen.ReferenceIdeal
import proofs.«178507_j28741921144979_1_alg».proof.Proof.Gen.Pre_finite_inputs
import proofs.«178507_j28741921144979_1_alg».proof.Proof.KValue
import proofs.«178507_j28741921144979_1_alg».proof.Proof.KHost
import proofs.«178507_j28741921144979_1_alg».proof.Proof.RRun
import proofs.«178507_j28741921144979_1_alg».proof.Proof.RRead
import proofs.«178507_j28741921144979_1_alg».proof.Proof.AggFacts
import proofs.«178507_j28741921144979_1_alg».proof.Proof.PreReal
import proofs.«178507_j28741921144979_1_alg».proof.Proof.Math

noncomputable section

namespace Cert.Gin

open Idealize.ShloMosaic Idealize.SL.Sem

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (R.ref_run m ρ)

/-- From memories agreeing on the arguments both programs end with the same result: the agreement carries the
    reference's arguments over to the kernel program's, the neighbour sums are one function, and the two network
    functions agree because every argument is real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, K.kernel_run m ρ, ?_⟩
  refine (θ_run Cert.ReferenceIdeal.defs _ _).mono (fun r h c => ⟨(h c).1.trans ?_, (h c).2⟩) (R.ref_run m' ρ')
  obtain ⟨a0, a1, a2, a3, a4, a5, a6, a7, a8, a9, a10, a11, a12, a13, a14, a15, a16, a17, a18, a19, a20, a21, a22, a23, a24⟩ := hagree c
  rw [a0, a1, a2, a3, a4, a5, a6, a7, a8, a9, a10, a11, a12, a13, a14, a15, a16, a17, a18, a19, a20, a21, a22, a23, a24]
  rw [R.netA_eq, K.netA_eq]
  have hag : (fun f : M 100000 64 => rd2 (R.agg (m ((c.tc : Thread Cert.KernelIdeal.nD Cert.KernelIdeal.τ).loc Cert.KernelIdeal.main_arg1)) (of2 f))) = (fun f => rd2 (K.agg (m ((c.tc : Thread Cert.KernelIdeal.nD Cert.KernelIdeal.τ).loc Cert.KernelIdeal.main_arg1)) (of2 f))) :=
    funext fun f => by rw [agg_eq]
  rw [hag]
  obtain ⟨r0, r2, r3, r4, r5, r6, r7, r8, r9, r10, r11, r12, r13, r14, r15, r16, r17, r18, r19, r20, r21, r22, r23, r24⟩ := pre_real m hpre c
  exact congrArg of2 (Spec.net_eq (fun f : M 100000 64 => rd2 (K.agg (m ((c.tc : Thread Cert.KernelIdeal.nD Cert.KernelIdeal.τ).loc Cert.KernelIdeal.main_arg1)) (of2 f))) (agg_real_of2 (m ((c.tc : Thread Cert.KernelIdeal.nD Cert.KernelIdeal.τ).loc Cert.KernelIdeal.main_arg1))) r0 r2 r3 r4 r5 r6 r7 r8 r9 r10 r11 r12 r13 r14 r15 r16 r17 r18 r19 r20 r21 r22 r23 r24).symm

end Cert.Gin

end
-- ==== Proof.lean ====
/-
  The certificate of a three-layer graph network with a linear readout: seven tiled kernel regions among host
  stretches against a host-only reference.  Per layer both programs form P = (1 + eps)·h + neighbour sums, the hidden
  features H = max(max(P·w1 + b1, 0)·w2 + b2, 0), column statistics of H over the 100000 rows, and the normalised,
  rectified output; the readout is h·wl + bl.  The kernel accumulates column sums and sums of squares over ten row
  tiles and takes the variance as mean of squares minus squared mean; the reference takes the mean of squared
  deviations.  On real data these agree, every layer keeps the data real (variance plus a positive offset is positive,
  so its inverse root is real), and the two results are one function of the arguments.  The bf16 casts in front of the
  matrix products are the identity at the ideal values; the ideal pass rewrote nothing.
-/
import proofs.«178507_j28741921144979_1_alg».proof.Defs
import proofs.«178507_j28741921144979_1_alg».proof.Proof.Gen.Kernel
import proofs.«178507_j28741921144979_1_alg».proof.Proof.Gen.Kernel.Frame
import proofs.«178507_j28741921144979_1_alg».proof.Proof.Gen.KernelIdeal
import proofs.«178507_j28741921144979_1_alg».proof.Proof.Gen.KernelIdeal.Frame
import proofs.«178507_j28741921144979_1_alg».proof.Proof.Gen.ReferenceIdeal
import proofs.«178507_j28741921144979_1_alg».proof.Proof.Gen.Pre_finite_inputs
import proofs.«178507_j28741921144979_1_alg».proof.Proof.Assemble

noncomputable section

namespace Cert.Proof

open Idealize.ShloMosaic Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- The kernel program at the ideal values runs and keeps its arguments. -/
theorem frame_ki : @Cert.frame_KernelIdeal Cert.KernelIdeal.Gen.facts Cert.Pre_finite_inputs.Gen.facts :=
  fun m ρ _ => Cert.KernelIdeal.Gen.frame m ρ

theorem claim : Cert.Claim := ⟨Cert.Kernel.Gen.facts, Cert.KernelIdeal.Gen.facts, Cert.ReferenceIdeal.Gen.facts, Cert.Pre_finite_inputs.Gen.facts,
  frame_k, frame_ki, Cert.Gin.frame_ri, trivial, Cert.Gin.algebraic⟩

end Cert.Proof

end
